-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x8 : Shape := ⟨2, ![2097152, 8]⟩
abbrev S16x8 : Shape := ⟨2, ![16, 8]⟩
abbrev S16 : Shape := ⟨1, ![16]⟩
abbrev S16x16 : Shape := ⟨2, ![16, 16]⟩
abbrev S12x16 : Shape := ⟨2, ![12, 16]⟩
abbrev S12 : Shape := ⟨1, ![12]⟩
abbrev S12x12 : Shape := ⟨2, ![12, 12]⟩
abbrev S8x12 : Shape := ⟨2, ![8, 12]⟩
abbrev S8 : Shape := ⟨1, ![8]⟩
abbrev S1x8 : Shape := ⟨2, ![1, 8]⟩
abbrev S1 : Shape := ⟨1, ![1]⟩
abbrev S_ : Shape := ⟨0, ![]⟩

class Facts : Prop where
  bcast_S_S2097152x8 : S_.BroadcastsInDim S2097152x8 (![] : Fin 0 → Fin S2097152x8.rank)
  reducesTo_S2097152x8_S_d0_1 : S2097152x8.ReducesTo [0, 1] S_
  h_S_ : 0 < S_.numel
  bcast_S_S16x8 : S_.BroadcastsInDim S16x8 (![] : Fin 0 → Fin S16x8.rank)
  reducesTo_S16x8_S_d0_1 : S16x8.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S12x16 : S_.BroadcastsInDim S12x16 (![] : Fin 0 → Fin S12x16.rank)
  reducesTo_S12x16_S_d0_1 : S12x16.ReducesTo [0, 1] S_
  bcast_S_S12 : S_.BroadcastsInDim S12 (![] : Fin 0 → Fin S12.rank)
  reducesTo_S12_S_d0 : S12.ReducesTo [0] S_
  bcast_S_S12x12 : S_.BroadcastsInDim S12x12 (![] : Fin 0 → Fin S12x12.rank)
  reducesTo_S12x12_S_d0_1 : S12x12.ReducesTo [0, 1] S_
  bcast_S_S8x12 : S_.BroadcastsInDim S8x12 (![] : Fin 0 → Fin S8x12.rank)
  reducesTo_S8x12_S_d0_1 : S8x12.ReducesTo [0, 1] S_
  bcast_S_S8 : S_.BroadcastsInDim S8 (![] : Fin 0 → Fin S8.rank)
  reducesTo_S8_S_d0 : S8.ReducesTo [0] S_
  bcast_S_S1x8 : S_.BroadcastsInDim S1x8 (![] : Fin 0 → Fin S1x8.rank)
  reducesTo_S1x8_S_d0_1 : S1x8.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg21 : FVec F S1x8 .f32) (main_arg22 : FVec F S1 .f32) (main_v98 : IVec S_ 1) (main_v101 : IVec S8 1) (main_c_39 : IVec S_ 1) : IVec S_ 1 :=
  let main_v102 : IVec S_ 1 := (fun x v => Host.reduce IntOp.andi x v reducesTo_S8_S_d0 h_S_) main_v101 main_c_39
  let main_v103 : IVec S_ 1 := andi main_v98 main_v102
  let main_v104 : FVec F S1x8 .f32 := Host.absf main_arg21
  let main_cst_40 : FVec F S_ .f32 := constant S_ .f32 0x7F800000#32
  let main_v105 : FVec F S1x8 .f32 := broadcastInDim S1x8 ![] bcast_S_S1x8 main_cst_40
  let main_v106 : IVec S1x8 1 := cmpf .olt main_v104 main_v105
  let main_c_41 : IVec S_ 1 := constantI S_ 1 1#1
  let main_v107 : IVec S_ 1 := (fun x v => Host.reduce IntOp.andi x v reducesTo_S1x8_S_d0_1 h_S_) main_v106 main_c_41
  let main_v108 : IVec S_ 1 := andi main_v103 main_v107
  let main_v109 : FVec F S1 .f32 := Host.absf main_arg22
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  main_v113

def fn_part5 {F : FTy → Type} [FloatOps F] (main_arg18 : FVec F S8 .f32) (main_arg19 : FVec F S8 .f32) (main_arg20 : FVec F S8 .f32) (main_arg21 : FVec F S1x8 .f32) (main_arg22 : FVec F S1 .f32) (main_v83 : IVec S_ 1) (main_v84 : FVec F S8x12 .f32) (main_cst_32 : FVec F S_ .f32) : IVec S_ 1 :=
  let main_v85 : FVec F S8x12 .f32 := broadcastInDim S8x12 ![] bcast_S_S8x12 main_cst_32
  let main_v86 : IVec S8x12 1 := cmpf .olt main_v84 main_v85
  let main_c_33 : IVec S_ 1 := constantI S_ 1 1#1
  let main_v87 : IVec S_ 1 := (fun x v => Host.reduce IntOp.andi x v reducesTo_S8x12_S_d0_1 h_S_) main_v86 main_c_33
  let main_v88 : IVec S_ 1 := andi main_v83 main_v87
  let main_v89 : FVec F S8 .f32 := Host.absf main_arg18
  let main_cst_34 : FVec F S_ .f32 := constant S_ .f32 0x7F800000#32
  let main_v90 : FVec F S8 .f32 := broadcastInDim S8 ![] bcast_S_S8 main_cst_34
  let main_v91 : IVec S8 1 := cmpf .olt main_v89 main_v90
  let main_c_35 : IVec S_ 1 := constantI S_ 1 1#1
  let main_v92 : IVec S_ 1 := (fun x v => Host.reduce IntOp.andi x v reducesTo_S8_S_d0 h_S_) main_v91 main_c_35
  let main_v93 : IVec S_ 1 := andi main_v88 main_v92
  let main_v94 : FVec F S8 .f32 := Host.absf main_arg19
  let main_cst_36 : FVec F S_ .f32 := constant S_ .f32 0x7F800000#32
  let main_v95 : FVec F S8 .f32 := broadcastInDim S8 ![] bcast_S_S8 main_cst_36
  let main_v96 : IVec S8 1 := cmpf .olt main_v94 main_v95
  let main_c_37 : IVec S_ 1 := constantI S_ 1 1#1
  let main_v97 : IVec S_ 1 := (fun x v => Host.reduce IntOp.andi x v reducesTo_S8_S_d0 h_S_) main_v96 main_c_37
  let main_v98 : IVec S_ 1 := andi main_v93 main_v97
  let main_v99 : FVec F S8 .f32 := Host.absf main_arg20
  let main_cst_38 : FVec F S_ .f32 := constant S_ .f32 0x7F800000#32
  let main_v100 : FVec F S8 .f32 := broadcastInDim S8 ![] bcast_S_S8 main_cst_38
  let main_v101 : IVec S8 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S12 .f32) (main_arg15 : FVec F S12 .f32) (main_arg16 : FVec F S12 .f32) (main_arg17 : FVec F S8x12 .f32) (main_arg18 : FVec F S8 .f32) (main_arg19 : FVec F S8 .f32) (main_arg20 : FVec F S8 .f32) (main_arg21 : FVec F S1x8 .f32) (main_arg22 : FVec F S1 .f32) (main_v63 : IVec S_ 1) (main_v67 : IVec S_ 1) : IVec S_ 1 :=
  let main_v68 : IVec S_ 1 := andi main_v63 main_v67
  let main_v69 : FVec F S12 .f32 := Host.absf main_arg14
  let main_cst_26 : FVec F S_ .f32 := constant S_ .f32 0x7F800000#32
  let main_v70 : FVec F S12 .f32 := broadcastInDim S12 ![] bcast_S_S12 main_cst_26
  let main_v71 : IVec S12 1 := cmpf .olt main_v69 main_v70
  let main_c_27 : IVec S_ 1 := constantI S_ 1 1#1
  let main_v72 : IVec S_ 1 := (fun x v => Host.reduce IntOp.andi x v reducesTo_S12_S_d0 h_S_) main_v71 main_c_27
  let main_v73 : IVec S_ 1 := andi main_v68 main_v72
  let main_v74 : FVec F S12 .f32 := Host.absf main_arg15
  let main_cst_28 : FVec F S_ .f32 := constant S_ .f32 0x7F800000#32
  let main_v75 : FVec F S12 .f32 := broadcastInDim S12 ![] bcast_S_S12 main_cst_28
  let main_v76 : IVec S12 1 := cmpf .olt main_v74 main_v75
  let main_c_29 : IVec S_ 1 := constantI S_ 1 1#1
  let main_v77 : IVec S_ 1 := (fun x v => Host.reduce IntOp.andi x v reducesTo_S12_S_d0 h_S_) main_v76 main_c_29
  let main_v78 : IVec S_ 1 := andi main_v73 main_v77
  let main_v79 : FVec F S12 .f32 := Host.absf main_arg16
  let main_cst_30 : FVec F S_ .f32 := constant S_ .f32 0x7F800000#32
  let main_v80 : FVec F S12 .f32 := broadcastInDim S12 ![] bcast_S_S12 main_cst_30
  let main_v81 : IVec S12 1 := cmpf .olt main_v79 main_v80
  let main_c_31 : IVec S_ 1 := constantI S_ 1 1#1
  let main_v82 : IVec S_ 1 := (fun x v => Host.reduce IntOp.andi x v reducesTo_S12_S_d0 h_S_) main_v81 main_c_31
  let main_v83 : IVec S_ 1 := andi main_v78 main_v82
  let main_v84 : FVec F S8x12 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S12 .f32) (main_arg12 : FVec F S12 .f32) (main_arg13 : FVec F S12x12 .f32) (main_arg14 : FVec F S12 .f32) (main_arg15 : FVec F S12 .f32) (main_arg16 : FVec F S12 .f32) (main_arg17 : FVec F S8x12 .f32) (main_arg18 : FVec F S8 .f32) (main_arg19 : FVec F S8 .f32) (main_arg20 : FVec F S8 .f32) (main_arg21 : FVec F S1x8 .f32) (main_arg22 : FVec F S1 .f32) (main_v48 : IVec S_ 1) (main_v49 : FVec F S12 .f32) (main_v50 : FVec F S12 .f32) : IVec S_ 1 :=
  let main_v51 : IVec S12 1 := cmpf .olt main_v49 main_v50
  let main_c_19 : IVec S_ 1 := constantI S_ 1 1#1
  let main_v52 : IVec S_ 1 := (fun x v => Host.reduce IntOp.andi x v reducesTo_S12_S_d0 h_S_) main_v51 main_c_19
  let main_v53 : IVec S_ 1 := andi main_v48 main_v52
  let main_v54 : FVec F S12 .f32 := Host.absf main_arg11
  let main_cst_20 : FVec F S_ .f32 := constant S_ .f32 0x7F800000#32
  let main_v55 : FVec F S12 .f32 := broadcastInDim S12 ![] bcast_S_S12 main_cst_20
  let main_v56 : IVec S12 1 := cmpf .olt main_v54 main_v55
  let main_c_21 : IVec S_ 1 := constantI S_ 1 1#1
  let main_v57 : IVec S_ 1 := (fun x v => Host.reduce IntOp.andi x v reducesTo_S12_S_d0 h_S_) main_v56 main_c_21
  let main_v58 : IVec S_ 1 := andi main_v53 main_v57
  let main_v59 : FVec F S12 .f32 := Host.absf main_arg12
  let main_cst_22 : FVec F S_ .f32 := constant S_ .f32 0x7F800000#32
  let main_v60 : FVec F S12 .f32 := broadcastInDim S12 ![] bcast_S_S12 main_cst_22
  let main_v61 : IVec S12 1 := cmpf .olt main_v59 main_v60
  let main_c_23 : IVec S_ 1 := constantI S_ 1 1#1
  let main_v62 : IVec S_ 1 := (fun x v => Host.reduce IntOp.andi x v reducesTo_S12_S_d0 h_S_) main_v61 main_c_23
  let main_v63 : IVec S_ 1 := andi main_v58 main_v62
  let main_v64 : FVec F S12x12 .f32 := Host.absf main_arg13
  let main_cst_24 : FVec F S_ .f32 := constant S_ .f32 0x7F800000#32
  let main_v65 : FVec F S12x12 .f32 := broadcastInDim S12x12 ![] bcast_S_S12x12 main_cst_24
  let main_v66 : IVec S12x12 1 := cmpf .olt main_v64 main_v65
  let main_c_25 : IVec S_ 1 := constantI S_ 1 1#1
  let main_v67 : IVec S_ 1 := (fun x v => Host.reduce IntOp.andi x v reducesTo_S12x12_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S16 .f32) (main_arg8 : FVec F S16 .f32) (main_arg9 : FVec F S12x16 .f32) (main_arg10 : FVec F S12 .f32) (main_arg11 : FVec F S12 .f32) (main_arg12 : FVec F S12 .f32) (main_arg13 : FVec F S12x12 .f32) (main_arg14 : FVec F S12 .f32) (main_arg15 : FVec F S12 .f32) (main_arg16 : FVec F S12 .f32) (main_arg17 : FVec F S8x12 .f32) (main_arg18 : FVec F S8 .f32) (main_arg19 : FVec F S8 .f32) (main_arg20 : FVec F S8 .f32) (main_arg21 : FVec F S1x8 .f32) (main_arg22 : FVec F S1 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S12x16 .f32 := Host.absf main_arg9
  let main_cst_16 : FVec F S_ .f32 := constant S_ .f32 0x7F800000#32
  let main_v45 : FVec F S12x16 .f32 := broadcastInDim S12x16 ![] bcast_S_S12x16 main_cst_16
  let main_v46 : IVec S12x16 1 := cmpf .olt main_v44 main_v45
  let main_c_17 : IVec S_ 1 := constantI S_ 1 1#1
  let main_v47 : IVec S_ 1 := (fun x v => Host.reduce IntOp.andi x v reducesTo_S12x16_S_d0_1 h_S_) main_v46 main_c_17
  let main_v48 : IVec S_ 1 := andi main_v43 main_v47
  let main_v49 : FVec F S12 .f32 := Host.absf main_arg10
  let main_cst_18 : FVec F S_ .f32 := constant S_ .f32 0x7F800000#32
  let main_v50 : FVec F S12 .f32 := broadcastInDim S12 ![] bcast_S_S12 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S16 .f32) (main_arg5 : FVec F S16x16 .f32) (main_arg6 : FVec F S16 .f32) (main_arg7 : FVec F S16 .f32) (main_arg8 : FVec F S16 .f32) (main_arg9 : FVec F S12x16 .f32) (main_arg10 : FVec F S12 .f32) (main_arg11 : FVec F S12 .f32) (main_arg12 : FVec F S12 .f32) (main_arg13 : FVec F S12x12 .f32) (main_arg14 : FVec F S12 .f32) (main_arg15 : FVec F S12 .f32) (main_arg16 : FVec F S12 .f32) (main_arg17 : FVec F S8x12 .f32) (main_arg18 : FVec F S8 .f32) (main_arg19 : FVec F S8 .f32) (main_arg20 : FVec F S8 .f32) (main_arg21 : FVec F S1x8 .f32) (main_arg22 : FVec F S1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg5
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S2097152x8 .f32) (main_arg1 : FVec F S16x8 .f32) (main_arg2 : FVec F S16 .f32) (main_arg3 : FVec F S16 .f32) (main_arg4 : FVec F S16 .f32) (main_arg5 : FVec F S16x16 .f32) (main_arg6 : FVec F S16 .f32) (main_arg7 : FVec F S16 .f32) (main_arg8 : FVec F S16 .f32) (main_arg9 : FVec F S12x16 .f32) (main_arg10 : FVec F S12 .f32) (main_arg11 : FVec F S12 .f32) (main_arg12 : FVec F S12 .f32) (main_arg13 : FVec F S12x12 .f32) (main_arg14 : FVec F S12 .f32) (main_arg15 : FVec F S12 .f32) (main_arg16 : FVec F S12 .f32) (main_arg17 : FVec F S8x12 .f32) (main_arg18 : FVec F S8 .f32) (main_arg19 : FVec F S8 .f32) (main_arg20 : FVec F S8 .f32) (main_arg21 : FVec F S1x8 .f32) (main_arg22 : FVec F S1 .f32) : IVec S_ 1 :=
  let main_v0 : FVec F S2097152x8 .f32 := Host.absf main_arg0
  let main_cst : FVec F S_ .f32 := constant S_ .f32 0x7F800000#32
  let main_v1 : FVec F S2097152x8 .f32 := broadcastInDim S2097152x8 ![] bcast_S_S2097152x8 main_cst
  let main_v2 : IVec S2097152x8 1 := cmpf .olt main_v0 main_v1
  let main_c : IVec S_ 1 := constantI S_ 1 1#1
  let main_v3 : IVec S_ 1 := (fun x v => Host.reduce IntOp.andi x v reducesTo_S2097152x8_S_d0_1 h_S_) main_v2 main_c
  let main_v4 : FVec F S16x8 .f32 := Host.absf main_arg1
  let main_cst_0 : FVec F S_ .f32 := constant S_ .f32 0x7F800000#32
  let main_v5 : FVec F S16x8 .f32 := broadcastInDim S16x8 ![] bcast_S_S16x8 main_cst_0
  let main_v6 : IVec S16x8 1 := cmpf .olt main_v4 main_v5
  let main_c_1 : IVec S_ 1 := constantI S_ 1 1#1
  let main_v7 : IVec S_ 1 := (fun x v => Host.reduce IntOp.andi x v reducesTo_S16x8_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S2097152x8 : Shape := ⟨2, ![2097152, 8]⟩
abbrev S16x8 : Shape := ⟨2, ![16, 8]⟩
abbrev S16 : Shape := ⟨1, ![16]⟩
abbrev S16x16 : Shape := ⟨2, ![16, 16]⟩
abbrev S12x16 : Shape := ⟨2, ![12, 16]⟩
abbrev S12 : Shape := ⟨1, ![12]⟩
abbrev S12x12 : Shape := ⟨2, ![12, 12]⟩
abbrev S8x12 : Shape := ⟨2, ![8, 12]⟩
abbrev S8 : Shape := ⟨1, ![8]⟩
abbrev S1x8 : Shape := ⟨2, ![1, 8]⟩
abbrev S1 : Shape := ⟨1, ![1]⟩
abbrev S8x2097152 : Shape := ⟨2, ![8, 2097152]⟩
abbrev S16x1 : Shape := ⟨2, ![16, 1]⟩
abbrev S2x16x2 : Shape := ⟨3, ![2, 16, 2]⟩
abbrev S8x65536 : Shape := ⟨2, ![8, 65536]⟩
abbrev S1x16x2 : Shape := ⟨3, ![1, 16, 2]⟩
abbrev S16x2 : Shape := ⟨2, ![16, 2]⟩
abbrev S16x65536 : Shape := ⟨2, ![16, 65536]⟩
abbrev S_ : Shape := ⟨0, ![]⟩
abbrev S16x2097152 : Shape := ⟨2, ![16, 2097152]⟩
abbrev S12x1 : Shape := ⟨2, ![12, 1]⟩
abbrev S2x12x2 : Shape := ⟨3, ![2, 12, 2]⟩
abbrev S1x12x2 : Shape := ⟨3, ![1, 12, 2]⟩
abbrev S12x2 : Shape := ⟨2, ![12, 2]⟩
abbrev S12x65536 : Shape := ⟨2, ![12, 65536]⟩
abbrev S12x2097152 : Shape := ⟨2, ![12, 2097152]⟩
abbrev S8x1 : Shape := ⟨2, ![8, 1]⟩
abbrev S2x8x2 : Shape := ⟨3, ![2, 8, 2]⟩
abbrev S1x8x2 : Shape := ⟨3, ![1, 8, 2]⟩
abbrev S8x2 : Shape := ⟨2, ![8, 2]⟩
abbrev S1x1 : Shape := ⟨2, ![1, 1]⟩
abbrev S1x2097152 : Shape := ⟨2, ![1, 2097152]⟩
abbrev S1x65536 : Shape := ⟨2, ![1, 65536]⟩
abbrev S2097152x1 : Shape := ⟨2, ![2097152, 1]⟩

abbrev nBuf : Space → Nat
  | .hbm => 131
  | .vmem => 74
  | .smem => 0
  | _ => 0

abbrev hbmTy0_0 (i : Nat) : BufTy := match i % 128 with
  | 0 => ⟨S2097152x8, .f32⟩
  | 1 => ⟨S16x8, .f32⟩
  | 2 => ⟨S16, .f32⟩
  | 3 => ⟨S16, .f32⟩
  | 4 => ⟨S16, .f32⟩
  | 5 => ⟨S16x16, .f32⟩
  | 6 => ⟨S16, .f32⟩
  | 7 => ⟨S16, .f32⟩
  | 8 => ⟨S16, .f32⟩
  | 9 => ⟨S12x16, .f32⟩
  | 10 => ⟨S12, .f32⟩
  | 11 => ⟨S12, .f32⟩
  | 12 => ⟨S12, .f32⟩
  | 13 => ⟨S12x12, .f32⟩
  | 14 => ⟨S12, .f32⟩
  | 15 => ⟨S12, .f32⟩
  | 16 => ⟨S12, .f32⟩
  | 17 => ⟨S8x12, .f32⟩
  | 18 => ⟨S8, .f32⟩
  | 19 => ⟨S8, .f32⟩
  | 20 => ⟨S8, .f32⟩
  | 21 => ⟨S1x8, .f32⟩
  | 22 => ⟨S1, .f32⟩
  | 23 => ⟨S8x2097152, .f32⟩
  | 24 => ⟨S16x1, .f32⟩
  | 25 => ⟨S2x16x2, .f32⟩
  | 26 => ⟨S_, .f32⟩
  | 27 => ⟨S16x2, .f32⟩
  | 28 => ⟨S16x1, .f32⟩
  | 29 => ⟨S_, .f32⟩
  | 30 => ⟨S16x1, .f32⟩
  | 31 => ⟨S16x1, .f32⟩
  | 32 => ⟨S16x1, .f32⟩
  | 33 => ⟨S_, .f32⟩
  | 34 => ⟨S16x1, .f32⟩
  | 35 => ⟨S16x1, .f32⟩
  | 36 => ⟨S16x1, .f32⟩
  | 37 => ⟨S16x1, .f32⟩
  | 38 => ⟨S_, .f32⟩
  | 39 => ⟨S16x1, .f32⟩
  | 40 => ⟨S16x1, .f32⟩
  | 41 => ⟨S16x1, .f32⟩
  | 42 => ⟨S16x1, .f32⟩
  | 43 => ⟨S16x1, .f32⟩
  | 44 => ⟨S16x1, .f32⟩
  | 45 => ⟨S16x2097152, .f32⟩
  | 46 => ⟨S2x16x2, .f32⟩
  | 47 => ⟨S_, .f32⟩
  | 48 => ⟨S16x2, .f32⟩
  | 49 => ⟨S16x1, .f32⟩
  | 50 => ⟨S_, .f32⟩
  | 51 => ⟨S16x1, .f32⟩
  | 52 => ⟨S16x1, .f32⟩
  | 53 => ⟨S16x1, .f32⟩
  | 54 => ⟨S_, .f32⟩
  | 55 => ⟨S16x1, .f32⟩
  | 56 => ⟨S16x1, .f32⟩
  | 57 => ⟨S16x1, .f32⟩
  | 58 => ⟨S16x1, .f32⟩
  | 59 => ⟨S_, .f32⟩
  | 60 => ⟨S16x1, .f32⟩
  | 61 => ⟨S16x1, .f32⟩
  | 62 => ⟨S16x1, .f32⟩
  | 63 => ⟨S16x1, .f32⟩
  | 64 => ⟨S16x1, .f32⟩
  | 65 => ⟨S12x1, .f32⟩
  | 66 => ⟨S16x2097152, .f32⟩
  | 67 => ⟨S2x12x2, .f32⟩
  | 68 => ⟨S_, .f32⟩
  | 69 => ⟨S12x2, .f32⟩
  | 70 => ⟨S12x1, .f32⟩
  | 71 => ⟨S_, .f32⟩
  | 72 => ⟨S12x1, .f32⟩
  | 73 => ⟨S12x1, .f32⟩
  | 74 => ⟨S12x1, .f32⟩
  | 75 => ⟨S_, .f32⟩
  | 76 => ⟨S12x1, .f32⟩
  | 77 => ⟨S12x1, .f32⟩
  | 78 => ⟨S12x1, .f32⟩
  | 79 => ⟨S12x1, .f32⟩
  | 80 => ⟨S_, .f32⟩
  | 81 => ⟨S12x1, .f32⟩
  | 82 => ⟨S12x1, .f32⟩
  | 83 => ⟨S12x1, .f32⟩
  | 84 => ⟨S12x1, .f32⟩
  | 85 => ⟨S12x1, .f32⟩
  | 86 => ⟨S12x1, .f32⟩
  | 87 => ⟨S12x2097152, .f32⟩
  | 88 => ⟨S2x12x2, .f32⟩
  | 89 => ⟨S_, .f32⟩
  | 90 => ⟨S12x2, .f32⟩
  | 91 => ⟨S12x1, .f32⟩
  | 92 => ⟨S_, .f32⟩
  | 93 => ⟨S12x1, .f32⟩
  | 94 => ⟨S12x1, .f32⟩
  | 95 => ⟨S12x1, .f32⟩
  | 96 => ⟨S_, .f32⟩
  | 97 => ⟨S12x1, .f32⟩
  | 98 => ⟨S12x1, .f32⟩
  | 99 => ⟨S12x1, .f32⟩
  | 100 => ⟨S12x1, .f32⟩
  | 101 => ⟨S_, .f32⟩
  | 102 => ⟨S12x1, .f32⟩
  | 103 => ⟨S12x1, .f32⟩
  | 104 => ⟨S12x1, .f32⟩
  | 105 => ⟨S12x1, .f32⟩
  | 106 => ⟨S12x1, .f32⟩
  | 107 => ⟨S8x1, .f32⟩
  | 108 => ⟨S12x2097152, .f32⟩
  | 109 => ⟨S2x8x2, .f32⟩
  | 110 => ⟨S_, .f32⟩
  | 111 => ⟨S8x2, .f32⟩
  | 112 => ⟨S8x1, .f32⟩
  | 113 => ⟨S_, .f32⟩
  | 114 => ⟨S8x1, .f32⟩
  | 115 => ⟨S8x1, .f32⟩
  | 116 => ⟨S8x1, .f32⟩
  | 117 => ⟨S_, .f32⟩
  | 118 => ⟨S8x1, .f32⟩
  | 119 => ⟨S8x1, .f32⟩
  | 120 => ⟨S8x1, .f32⟩
  | 121 => ⟨S8x1, .f32⟩
  | 122 => ⟨S_, .f32⟩
  | 123 => ⟨S8x1, .f32⟩
  | 124 => ⟨S8x1, .f32⟩
  | 125 => ⟨S8x1, .f32⟩
  | 126 => ⟨S8x1, .f32⟩
  | 127 => ⟨S8x1, .f32⟩
  | _ => ⟨S2097152x8, .f32⟩

abbrev hbmTy0_1 (i : Nat) : BufTy := match i % 128 with
  | 0 => ⟨S1x1, .f32⟩
  | 1 => ⟨S1x2097152, .f32⟩
  | 2 => ⟨S2097152x1, .f32⟩
  | _ => ⟨S2097152x8, .f32⟩

abbrev hbmTy (i : Nat) : BufTy := match i / 128 with
  | 0 => hbmTy0_0 i
  | 1 => hbmTy0_1 i
  | _ => ⟨S2097152x8, .f32⟩

abbrev bufTy : (tb : Table) → Fin (tcTables nBuf tb) → BufTy
  | .hbm, ⟨i, _⟩ => hbmTy i
  | .local _ .vmem, ⟨0, _⟩ => ⟨S8x65536, .f32⟩
  | .local _ .vmem, ⟨1, _⟩ => ⟨S8x65536, .f32⟩
  | .local _ .vmem, ⟨2, _⟩ => ⟨S16x8, .f32⟩
  | .local _ .vmem, ⟨3, _⟩ => ⟨S16x1, .f32⟩
  | .local _ .vmem, ⟨4, _⟩ => ⟨S1x16x2, .f32⟩
  | .local _ .vmem, ⟨5, _⟩ => ⟨S1x16x2, .f32⟩
  | .local _ .vmem, ⟨6, _⟩ => ⟨S8x65536, .f32⟩
  | .local _ .vmem, ⟨7, _⟩ => ⟨S8x65536, .f32⟩
  | .local _ .vmem, ⟨8, _⟩ => ⟨S16x8, .f32⟩
  | .local _ .vmem, ⟨9, _⟩ => ⟨S16x1, .f32⟩
  | .local _ .vmem, ⟨10, _⟩ => ⟨S16x1, .f32⟩
  | .local _ .vmem, ⟨11, _⟩ => ⟨S16x1, .f32⟩
  | .local _ .vmem, ⟨12, _⟩ => ⟨S16x1, .f32⟩
  | .local _ .vmem, ⟨13, _⟩ => ⟨S16x1, .f32⟩
  | .local _ .vmem, ⟨14, _⟩ => ⟨S16x16, .f32⟩
  | .local _ .vmem, ⟨15, _⟩ => ⟨S16x1, .f32⟩
  | .local _ .vmem, ⟨16, _⟩ => ⟨S16x65536, .f32⟩
  | .local _ .vmem, ⟨17, _⟩ => ⟨S16x65536, .f32⟩
  | .local _ .vmem, ⟨18, _⟩ => ⟨S1x16x2, .f32⟩
  | .local _ .vmem, ⟨19, _⟩ => ⟨S1x16x2, .f32⟩
  | .local _ .vmem, ⟨20, _⟩ => ⟨S16x65536, .f32⟩
  | .local _ .vmem, ⟨21, _⟩ => ⟨S16x65536, .f32⟩
  | .local _ .vmem, ⟨22, _⟩ => ⟨S16x16, .f32⟩
  | .local _ .vmem, ⟨23, _⟩ => ⟨S16x1, .f32⟩
  | .local _ .vmem, ⟨24, _⟩ => ⟨S16x1, .f32⟩
  | .local _ .vmem, ⟨25, _⟩ => ⟨S16x1, .f32⟩
  | .local _ .vmem, ⟨26, _⟩ => ⟨S16x1, .f32⟩
  | .local _ .vmem, ⟨27, _⟩ => ⟨S16x1, .f32⟩
  | .local _ .vmem, ⟨28, _⟩ => ⟨S12x16, .f32⟩
  | .local _ .vmem, ⟨29, _⟩ => ⟨S12x1, .f32⟩
  | .local _ .vmem, ⟨30, _⟩ => ⟨S16x65536, .f32⟩
  | .local _ .vmem, ⟨31, _⟩ => ⟨S16x65536, .f32⟩
  | .local _ .vmem, ⟨32, _⟩ => ⟨S1x12x2, .f32⟩
  | .local _ .vmem, ⟨33, _⟩ => ⟨S1x12x2, .f32⟩
  | .local _ .vmem, ⟨34, _⟩ => ⟨S16x65536, .f32⟩
  | .local _ .vmem, ⟨35, _⟩ => ⟨S16x65536, .f32⟩
  | .local _ .vmem, ⟨36, _⟩ => ⟨S12x16, .f32⟩
  | .local _ .vmem, ⟨37, _⟩ => ⟨S12x1, .f32⟩
  | .local _ .vmem, ⟨38, _⟩ => ⟨S12x1, .f32⟩
  | .local _ .vmem, ⟨39, _⟩ => ⟨S12x1, .f32⟩
  | .local _ .vmem, ⟨40, _⟩ => ⟨S12x1, .f32⟩
  | .local _ .vmem, ⟨41, _⟩ => ⟨S12x1, .f32⟩
  | .local _ .vmem, ⟨42, _⟩ => ⟨S12x12, .f32⟩
  | .local _ .vmem, ⟨43, _⟩ => ⟨S12x1, .f32⟩
  | .local _ .vmem, ⟨44, _⟩ => ⟨S12x65536, .f32⟩
  | .local _ .vmem, ⟨45, _⟩ => ⟨S12x65536, .f32⟩
  | .local _ .vmem, ⟨46, _⟩ => ⟨S1x12x2, .f32⟩
  | .local _ .vmem, ⟨47, _⟩ => ⟨S1x12x2, .f32⟩
  | .local _ .vmem, ⟨48, _⟩ => ⟨S12x65536, .f32⟩
  | .local _ .vmem, ⟨49, _⟩ => ⟨S12x65536, .f32⟩
  | .local _ .vmem, ⟨50, _⟩ => ⟨S12x12, .f32⟩
  | .local _ .vmem, ⟨51, _⟩ => ⟨S12x1, .f32⟩
  | .local _ .vmem, ⟨52, _⟩ => ⟨S12x1, .f32⟩
  | .local _ .vmem, ⟨53, _⟩ => ⟨S12x1, .f32⟩
  | .local _ .vmem, ⟨54, _⟩ => ⟨S12x1, .f32⟩
  | .local _ .vmem, ⟨55, _⟩ => ⟨S12x1, .f32⟩
  | .local _ .vmem, ⟨56, _⟩ => ⟨S8x12, .f32⟩
  | .local _ .vmem, ⟨57, _⟩ => ⟨S8x1, .f32⟩
  | .local _ .vmem, ⟨58, _⟩ => ⟨S12x65536, .f32⟩
  | .local _ .vmem, ⟨59, _⟩ => ⟨S12x65536, .f32⟩
  | .local _ .vmem, ⟨60, _⟩ => ⟨S1x8x2, .f32⟩
  | .local _ .vmem, ⟨61, _⟩ => ⟨S1x8x2, .f32⟩
  | .local _ .vmem, ⟨62, _⟩ => ⟨S12x65536, .f32⟩
  | .local _ .vmem, ⟨63, _⟩ => ⟨S12x65536, .f32⟩
  | .local _ .vmem, ⟨64, _⟩ => ⟨S8x12, .f32⟩
  | .local _ .vmem, ⟨65, _⟩ => ⟨S8x1, .f32⟩
  | .local _ .vmem, ⟨66, _⟩ => ⟨S8x1, .f32⟩
  | .local _ .vmem, ⟨67, _⟩ => ⟨S8x1, .f32⟩
  | .local _ .vmem, ⟨68, _⟩ => ⟨S8x1, .f32⟩
  | .local _ .vmem, ⟨69, _⟩ => ⟨S8x1, .f32⟩
  | .local _ .vmem, ⟨70, _⟩ => ⟨S1x8, .f32⟩
  | .local _ .vmem, ⟨71, _⟩ => ⟨S1x1, .f32⟩
  | .local _ .vmem, ⟨72, _⟩ => ⟨S1x65536, .f32⟩
  | .local _ .vmem, ⟨73, _⟩ => ⟨S1x65536, .f32⟩
  | _, _ => ⟨S2097152x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_cst : Ref sig .tc := ⟨.hbm, 26, rfl⟩
abbrev main_v3 : Ref sig .tc := ⟨.hbm, 27, rfl⟩
abbrev main_v4 : Ref sig .tc := ⟨.hbm, 28, rfl⟩
abbrev main_cst_0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst_1 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst_2 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18_0 : Ref sig .tc := ⟨.hbm, 45, rfl⟩
abbrev main_v18_1 : Ref sig .tc := ⟨.hbm, 46, rfl⟩
abbrev main_cst_3 : Ref sig .tc := ⟨.hbm, 47, rfl⟩
abbrev main_v19 : Ref sig .tc := ⟨.hbm, 48, rfl⟩
abbrev main_v20 : Ref sig .tc := ⟨.hbm, 49, rfl⟩
abbrev main_cst_4 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst_5 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_cst_6 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34_0 : Ref sig .tc := ⟨.hbm, 66, rfl⟩
abbrev main_v34_1 : Ref sig .tc := ⟨.hbm, 67, rfl⟩
abbrev main_cst_7 : Ref sig .tc := ⟨.hbm, 68, rfl⟩
abbrev main_v35 : Ref sig .tc := ⟨.hbm, 69, rfl⟩
abbrev main_v36 : Ref sig .tc := ⟨.hbm, 70, rfl⟩
abbrev main_cst_8 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_9 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_10 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50_0 : Ref sig .tc := ⟨.hbm, 87, rfl⟩
abbrev main_v50_1 : Ref sig .tc := ⟨.hbm, 88, rfl⟩
abbrev main_cst_11 : Ref sig .tc := ⟨.hbm, 89, rfl⟩
abbrev main_v51 : Ref sig .tc := ⟨.hbm, 90, rfl⟩
abbrev main_v52 : Ref sig .tc := ⟨.hbm, 91, rfl⟩
abbrev main_cst_12 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_13 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_cst_14 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66_0 : Ref sig .tc := ⟨.hbm, 108, rfl⟩
abbrev main_v66_1 : Ref sig .tc := ⟨.hbm, 109, rfl⟩
abbrev main_cst_15 : Ref sig .tc := ⟨.hbm, 110, rfl⟩
abbrev main_v67 : Ref sig .tc := ⟨.hbm, 111, rfl⟩
abbrev main_v68 : Ref sig .tc := ⟨.hbm, 112, rfl⟩
abbrev main_cst_16 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_cst_17 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_cst_18 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg9_1 : Ref sig .tc := ⟨.vmem, 17, rfl⟩
abbrev cc1_stg10_0 : Ref sig .tc := ⟨.vmem, 18, rfl⟩
abbrev cc1_stg10_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg9_0 : Ref sig .tc := ⟨.vmem, 30, rfl⟩
abbrev cc2_stg9_1 : Ref sig .tc := ⟨.vmem, 31, rfl⟩
abbrev cc2_stg10_0 : Ref sig .tc := ⟨.vmem, 32, rfl⟩
abbrev cc2_stg10_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg8_0 : Ref sig .tc := ⟨.vmem, 43, rfl⟩
abbrev cc3_stg9_0 : Ref sig .tc := ⟨.vmem, 44, rfl⟩
abbrev cc3_stg9_1 : Ref sig .tc := ⟨.vmem, 45, rfl⟩
abbrev cc3_stg10_0 : Ref sig .tc := ⟨.vmem, 46, rfl⟩
abbrev cc3_stg10_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg2_0 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg6_0 : Ref sig .tc := ⟨.vmem, 55, rfl⟩
abbrev cc4_stg7_0 : Ref sig .tc := ⟨.vmem, 56, rfl⟩
abbrev cc4_stg8_0 : Ref sig .tc := ⟨.vmem, 57, rfl⟩
abbrev cc4_stg9_0 : Ref sig .tc := ⟨.vmem, 58, rfl⟩
abbrev cc4_stg9_1 : Ref sig .tc := ⟨.vmem, 59, rfl⟩
abbrev cc4_stg10_0 : Ref sig .tc := ⟨.vmem, 60, rfl⟩
abbrev cc4_stg10_1 : Ref sig .tc := ⟨.vmem, 61, rfl⟩
abbrev cc5_stg0_0 : Ref sig .tc := ⟨.vmem, 62, rfl⟩
abbrev cc5_stg0_1 : Ref sig .tc := ⟨.vmem, 63, rfl⟩
abbrev cc5_stg1_0 : Ref sig .tc := ⟨.vmem, 64, rfl⟩
abbrev cc5_stg2_0 : Ref sig .tc := ⟨.vmem, 65, rfl⟩
abbrev cc5_stg3_0 : Ref sig .tc := ⟨.vmem, 66, rfl⟩
abbrev cc5_stg4_0 : Ref sig .tc := ⟨.vmem, 67, rfl⟩
abbrev cc5_stg5_0 : Ref sig .tc := ⟨.vmem, 68, rfl⟩
abbrev cc5_stg6_0 : Ref sig .tc := ⟨.vmem, 69, rfl⟩
abbrev cc5_stg7_0 : Ref sig .tc := ⟨.vmem, 70, rfl⟩
abbrev cc5_stg8_0 : Ref sig .tc := ⟨.vmem, 71, rfl⟩
abbrev cc5_stg9_0 : Ref sig .tc := ⟨.vmem, 72, rfl⟩
abbrev cc5_stg9_1 : Ref sig .tc := ⟨.vmem, 73, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem9_1 : DmaSem sig := 17
abbrev cc1_sem10_0 : DmaSem sig := 18
abbrev cc1_sem10_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem9_0 : DmaSem sig := 30
abbrev cc2_sem9_1 : DmaSem sig := 31
abbrev cc2_sem10_0 : DmaSem sig := 32
abbrev cc2_sem10_1 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem6_0 : DmaSem sig := 41
abbrev cc3_sem7_0 : DmaSem sig := 42
abbrev cc3_sem8_0 : DmaSem sig := 43
abbrev cc3_sem9_0 : DmaSem sig := 44
abbrev cc3_sem9_1 : DmaSem sig := 45
abbrev cc3_sem10_0 : DmaSem sig := 46
abbrev cc3_sem10_1 : DmaSem sig := 47
abbrev cc4_sem0_0 : DmaSem sig := 48
abbrev cc4_sem0_1 : DmaSem sig := 49
abbrev cc4_sem1_0 : DmaSem sig := 50
abbrev cc4_sem2_0 : DmaSem sig := 51
abbrev cc4_sem3_0 : DmaSem sig := 52
abbrev cc4_sem4_0 : DmaSem sig := 53
abbrev cc4_sem5_0 : DmaSem sig := 54
abbrev cc4_sem6_0 : DmaSem sig := 55
abbrev cc4_sem7_0 : DmaSem sig := 56
abbrev cc4_sem8_0 : DmaSem sig := 57
abbrev cc4_sem9_0 : DmaSem sig := 58
abbrev cc4_sem9_1 : DmaSem sig := 59
abbrev cc4_sem10_0 : DmaSem sig := 60
abbrev cc4_sem10_1 : DmaSem sig := 61
abbrev cc5_sem0_0 : DmaSem sig := 62
abbrev cc5_sem0_1 : DmaSem sig := 63
abbrev cc5_sem1_0 : DmaSem sig := 64
abbrev cc5_sem2_0 : DmaSem sig := 65
abbrev cc5_sem3_0 : DmaSem sig := 66
abbrev cc5_sem4_0 : DmaSem sig := 67
abbrev cc5_sem5_0 : DmaSem sig := 68
abbrev cc5_sem6_0 : DmaSem sig := 69
abbrev cc5_sem7_0 : DmaSem sig := 70
abbrev cc5_sem8_0 : DmaSem sig := 71
abbrev cc5_sem9_0 : DmaSem sig := 72
abbrev cc5_sem9_1 : DmaSem sig := 73

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x65536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S16x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S16x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S16x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S16x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S16x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S16x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S16x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S16x65536 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x16x2 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev grid2 : Pipeline.Grid := ⟨2, ![2, 16], ![false, false]⟩

def cc2_transform_0 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc2_transform_10 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S16x65536 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S16x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S16x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S16x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S16x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S16x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S16x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S12x16 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S12x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 2 → Memref sig .tc .vmem S16x65536 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev stage2_10 : Fin 2 → Memref sig .tc .vmem S1x12x2 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, false]

abbrev grid3 : Pipeline.Grid := ⟨2, ![2, 16], ![false, false]⟩

def cc3_transform_0 (i : grid3.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc3_transform_10 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S16x65536 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S12x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S12x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S12x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S12x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S12x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S12x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S12x12 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 1 → Memref sig .tc .vmem S12x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 2 → Memref sig .tc .vmem S12x65536 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev stage3_10 : Fin 2 → Memref sig .tc .vmem S1x12x2 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, false]

abbrev grid4 : Pipeline.Grid := ⟨2, ![2, 16], ![false, false]⟩

def cc4_transform_0 (i : grid4.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc4_transform_10 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S12x65536 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S12x12 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 1 → Memref sig .tc .vmem S12x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S12x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S12x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S12x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 1 → Memref sig .tc .vmem S12x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false, false]

abbrev stage4_7 : Fin 1 → Memref sig .tc .vmem S8x12 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false, false]

abbrev stage4_8 : Fin 1 → Memref sig .tc .vmem S8x1 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false, false]

abbrev stage4_9 : Fin 2 → Memref sig .tc .vmem S12x65536 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true, true]

abbrev stage4_10 : Fin 2 → Memref sig .tc .vmem S1x8x2 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true, false]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 2 → Memref sig .tc .vmem S12x65536 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S8x12 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S8x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S8x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S8x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S8x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S8x1 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x8 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x1 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S1x65536 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

class Facts₀ : Prop where
  transposes_S2097152x8_S8x2097152_1_0 : S2097152x8.Transposes [1, 0] S8x2097152
  shapeCasts_S16_S16x1 : S16.ShapeCasts S16x1
  inb_S1x16x2_S1x16x2_0_0_0 : ∀ a, (![0, 0, 0] : Fin 3 → Nat) a + S1x16x2.size a ≤ S1x16x2.size a
  h_S1x16x2 : 0 < S1x16x2.numel
  shapeCasts_S1x16x2_S16x2 : S1x16x2.ShapeCasts S16x2
  shapeCasts_S16x2_S1x16x2 : S16x2.ShapeCasts S1x16x2
  inb_S16x8_S16x8_0_0 : ∀ a, (![0, 0] : Fin 2 → Nat) a + S16x8.size a ≤ S16x8.size a
  h_S16x8 : 0 < S16x8.numel
  inb_S8x65536_S8x65536_0_0 : ∀ a, (![0, 0] : Fin 2 → Nat) a + S8x65536.size a ≤ S8x65536.size a
  h_S8x65536 : 0 < S8x65536.numel
  shapeCasts_S8x65536_S8x65536 : S8x65536.ShapeCasts S8x65536
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x65536 : S16x1.Broadcasts S16x65536
  reduces_S16x65536_S16 : S16x65536.Reduces [1] S16
  concatenates_S16x1_S16x1_S16x2_d1 : Shape.Concatenates [S16x1, S16x1] S16x2 1
  reducesTo_S2x16x2_S16x2_d0 : S2x16x2.ReducesTo [0] S16x2
  h_S_ : 0 < S_.numel
  slices_S16x2_S16x1_0_0 : S16x2.Slices ![0, 0] S16x1
  bcast_S_S16x1 : S_.BroadcastsInDim S16x1 (![] : Fin 0 → Fin S16x1.rank)
  slices_S16x2_S16x1_0_1 : S16x2.Slices ![0, 1] S16x1
  inb_S16x65536_S16x65536_0_0 : ∀ a, (![0, 0] : Fin 2 → Nat) a + S16x65536.size a ≤ S16x65536.size a
  h_S16x65536 : 0 < S16x65536.numel
  inb_S16x16_S16x16_0_0 : ∀ a, (![0, 0] : Fin 2 → Nat) a + S16x16.size a ≤ S16x16.size a
  h_S16x16 : 0 < S16x16.numel
  shapeCasts_S12_S12x1 : S12.ShapeCasts S12x1
  inb_S1x12x2_S1x12x2_0_0_0 : ∀ a, (![0, 0, 0] : Fin 3 → Nat) a + S1x12x2.size a ≤ S1x12x2.size a
  h_S1x12x2 : 0 < S1x12x2.numel
  shapeCasts_S1x12x2_S12x2 : S1x12x2.ShapeCasts S12x2
  shapeCasts_S12x2_S1x12x2 : S12x2.ShapeCasts S1x12x2
  shapeCasts_S16x65536_S16x65536 : S16x65536.ShapeCasts S16x65536
  inb_S12x16_S12x16_0_0 : ∀ a, (![0, 0] : Fin 2 → Nat) a + S12x16.size a ≤ S12x16.size a
  h_S12x16 : 0 < S12x16.numel
  inb_S12x1_S12x1_0_0 : ∀ a, (![0, 0] : Fin 2 → Nat) a + S12x1.size a ≤ S12x1.size a
  h_S12x1 : 0 < S12x1.numel
  shapeCasts_S12x1_S12x1 : S12x1.ShapeCasts S12x1
  broadcasts_S12x1_S12x65536 : S12x1.Broadcasts S12x65536
  reduces_S12x65536_S12 : S12x65536.Reduces [1] S12
  concatenates_S12x1_S12x1_S12x2_d1 : Shape.Concatenates [S12x1, S12x1] S12x2 1
  reducesTo_S2x12x2_S12x2_d0 : S2x12x2.ReducesTo [0] S12x2
  slices_S12x2_S12x1_0_0 : S12x2.Slices ![0, 0] S12x1
  bcast_S_S12x1 : S_.BroadcastsInDim S12x1 (![] : Fin 0 → Fin S12x1.rank)
  slices_S12x2_S12x1_0_1 : S12x2.Slices ![0, 1] S12x1
  inb_S12x65536_S12x65536_0_0 : ∀ a, (![0, 0] : Fin 2 → Nat) a + S12x65536.size a ≤ S12x65536.size a
  h_S12x65536 : 0 < S12x65536.numel
  inb_S12x12_S12x12_0_0 : ∀ a, (![0, 0] : Fin 2 → Nat) a + S12x12.size a ≤ S12x12.size a
  h_S12x12 : 0 < S12x12.numel
  shapeCasts_S8_S8x1 : S8.ShapeCasts S8x1
  inb_S1x8x2_S1x8x2_0_0_0 : ∀ a, (![0, 0, 0] : Fin 3 → Nat) a + S1x8x2.size a ≤ S1x8x2.size a
  h_S1x8x2 : 0 < S1x8x2.numel
  shapeCasts_S1x8x2_S8x2 : S1x8x2.ShapeCasts S8x2
  shapeCasts_S8x2_S1x8x2 : S8x2.ShapeCasts S1x8x2
  shapeCasts_S12x65536_S12x65536 : S12x65536.ShapeCasts S12x65536
  inb_S8x12_S8x12_0_0 : ∀ a, (![0, 0] : Fin 2 → Nat) a + S8x12.size a ≤ S8x12.size a
  h_S8x12 : 0 < S8x12.numel
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x65536 : S8x1.Broadcasts S8x65536
  reduces_S8x65536_S8 : S8x65536.Reduces [1] S8
  concatenates_S8x1_S8x1_S8x2_d1 : Shape.Concatenates [S8x1, S8x1] S8x2 1
  reducesTo_S2x8x2_S8x2_d0 : S2x8x2.ReducesTo [0] S8x2
  slices_S8x2_S8x1_0_0 : S8x2.Slices ![0, 0] S8x1
  bcast_S_S8x1 : S_.BroadcastsInDim S8x1 (![] : Fin 0 → Fin S8x1.rank)
  slices_S8x2_S8x1_0_1 : S8x2.Slices ![0, 1] S8x1
  shapeCasts_S1_S1x1 : S1.ShapeCasts S1x1
  inb_S1x8_S1x8_0_0 : ∀ a, (![0, 0] : Fin 2 → Nat) a + S1x8.size a ≤ S1x8.size a
  h_S1x8 : 0 < S1x8.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x65536 : S1x1.Broadcasts S1x65536
  inb_S1x65536_S1x65536_0_0 : ∀ a, (![0, 0] : Fin 2 → Nat) a + S1x65536.size a ≤ S1x65536.size a
  h_S1x65536 : 0 < S1x65536.numel
  shapeCasts_S1x2097152_S2097152x1 : S1x2097152.ShapeCasts S2097152x1
  dot_S16x8_S8x65536_S16x65536_1_0_0_1_n_n_wf : DotDims.WF S16x8 S8x65536 S16x65536 [1] [0] [0] [1] [] []
  dot_S16x16_S16x65536_S16x65536_1_0_0_1_n_n_wf : DotDims.WF S16x16 S16x65536 S16x65536 [1] [0] [0] [1] [] []
  dot_S12x16_S16x65536_S12x65536_1_0_0_1_n_n_wf : DotDims.WF S12x16 S16x65536 S12x65536 [1] [0] [0] [1] [] []
  dot_S12x12_S12x65536_S12x65536_1_0_0_1_n_n_wf : DotDims.WF S12x12 S12x65536 S12x65536 [1] [0] [0] [1] [] []
  dot_S8x12_S12x65536_S8x65536_1_0_0_1_n_n_wf : DotDims.WF S8x12 S12x65536 S8x65536 [1] [0] [0] [1] [] []
  dot_S1x8_S8x65536_S1x65536_1_0_0_1_n_n_wf : DotDims.WF S1x8 S8x65536 S1x65536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x65536.size a ≤ S8x2097152.size a
  hwx0_0 : ∀ i : grid0.Coords, EltTy.bits .f32 = 32 ∨ (Rect.block (s := S8x2097152) S8x65536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x8.size a ≤ S16x8.size a
  hwx0_1 : ∀ i : grid0.Coords, EltTy.bits .f32 = 32 ∨ (Rect.block (s := S16x8) S16x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x2.size a ≤ S2x16x2.size a
  hwx0_3 : ∀ i : grid0.Coords, EltTy.bits .f32 = 32 ∨ (Rect.block (s := S2x16x2) S1x16x2.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x65536.size a ≤ S8x2097152.size a
  hwx1_0 : ∀ i : grid1.Coords, EltTy.bits .f32 = 32 ∨ (Rect.block (s := S8x2097152) S8x65536.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x8.size a ≤ S16x8.size a
  hwx1_1 : ∀ i : grid1.Coords, EltTy.bits .f32 = 32 ∨ (Rect.block (s := S16x8) S16x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x1.size a ≤ S16x1.size a
  hwx1_2 : ∀ i : grid1.Coords, EltTy.bits .f32 = 32 ∨ (Rect.block (s := S16x1) S16x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x1.size a ≤ S16x1.size a
  hwx1_3 : ∀ i : grid1.Coords, EltTy.bits .f32 = 32 ∨ (Rect.block (s := S16x1) S16x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x1.size a ≤ S16x1.size a
  hwx1_4 : ∀ i : grid1.Coords, EltTy.bits .f32 = 32 ∨ (Rect.block (s := S16x1) S16x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x1.size a ≤ S16x1.size a
  hwx1_5 : ∀ i : grid1.Coords, EltTy.bits .f32 = 32 ∨ (Rect.block (s := S16x1) S16x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16x1.size a ≤ S16x1.size a
  hwx1_6 : ∀ i : grid1.Coords, EltTy.bits .f32 = 32 ∨ (Rect.block (s := S16x1) S16x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S16x16.size a ≤ S16x16.size a
  hwx1_7 : ∀ i : grid1.Coords, EltTy.bits .f32 = 32 ∨ (Rect.block (s := S16x16) S16x16.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S16x1.size a ≤ S16x1.size a
  hwx1_8 : ∀ i : grid1.Coords, EltTy.bits .f32 = 32 ∨ (Rect.block (s := S16x1) S16x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S16x65536.size a ≤ S16x2097152.size a
  hwx1_9 : ∀ i : grid1.Coords, EltTy.bits .f32 = 32 ∨ (Rect.block (s := S16x2097152) S16x65536.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x16x2.size a ≤ S2x16x2.size a
  hwx1_10 : ∀ i : grid1.Coords, EltTy.bits .f32 = 32 ∨ (Rect.block (s := S2x16x2) S1x16x2.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16x65536.size a ≤ S16x2097152.size a
  hwx2_0 : ∀ i : grid2.Coords, EltTy.bits .f32 = 32 ∨ (Rect.block (s := S16x2097152) S16x65536.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x16.size a ≤ S16x16.size a
  hwx2_1 : ∀ i : grid2.Coords, EltTy.bits .f32 = 32 ∨ (Rect.block (s := S16x16) S16x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x1.size a ≤ S16x1.size a
  hwx2_2 : ∀ i : grid2.Coords, EltTy.bits .f32 = 32 ∨ (Rect.block (s := S16x1) S16x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x1.size a ≤ S16x1.size a
  hwx2_3 : ∀ i : grid2.Coords, EltTy.bits .f32 = 32 ∨ (Rect.block (s := S16x1) S16x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16x1.size a ≤ S16x1.size a
  hwx2_4 : ∀ i : grid2.Coords, EltTy.bits .f32 = 32 ∨ (Rect.block (s := S16x1) S16x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x1.size a ≤ S16x1.size a
  hwx2_5 : ∀ i : grid2.Coords, EltTy.bits .f32 = 32 ∨ (Rect.block (s := S16x1) S16x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S16x1.size a ≤ S16x1.size a
  hwx2_6 : ∀ i : grid2.Coords, EltTy.bits .f32 = 32 ∨ (Rect.block (s := S16x1) S16x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S12x16.size a ≤ S12x16.size a
  hwx2_7 : ∀ i : grid2.Coords, EltTy.bits .f32 = 32 ∨ (Rect.block (s := S12x16) S12x16.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S12x1.size a ≤ S12x1.size a
  hwx2_8 : ∀ i : grid2.Coords, EltTy.bits .f32 = 32 ∨ (Rect.block (s := S12x1) S12x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S16x65536.size a ≤ S16x2097152.size a
  hwx2_9 : ∀ i : grid2.Coords, EltTy.bits .f32 = 32 ∨ (Rect.block (s := S16x2097152) S16x65536.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S1x12x2.size a ≤ S2x12x2.size a
  hwx2_10 : ∀ i : grid2.Coords, EltTy.bits .f32 = 32 ∨ (Rect.block (s := S2x12x2) S1x12x2.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S16x65536.size a ≤ S16x2097152.size a
  hwx3_0 : ∀ i : grid3.Coords, EltTy.bits .f32 = 32 ∨ (Rect.block (s := S16x2097152) S16x65536.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S12x16.size a ≤ S12x16.size a
  hwx3_1 : ∀ i : grid3.Coords, EltTy.bits .f32 = 32 ∨ (Rect.block (s := S12x16) S12x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S12x1.size a ≤ S12x1.size a
  hwx3_2 : ∀ i : grid3.Coords, EltTy.bits .f32 = 32 ∨ (Rect.block (s := S12x1) S12x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S12x1.size a ≤ S12x1.size a
  hwx3_3 : ∀ i : grid3.Coords, EltTy.bits .f32 = 32 ∨ (Rect.block (s := S12x1) S12x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S12x1.size a ≤ S12x1.size a
  hwx3_4 : ∀ i : grid3.Coords, EltTy.bits .f32 = 32 ∨ (Rect.block (s := S12x1) S12x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S12x1.size a ≤ S12x1.size a
  hwx3_5 : ∀ i : grid3.Coords, EltTy.bits .f32 = 32 ∨ (Rect.block (s := S12x1) S12x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S12x1.size a ≤ S12x1.size a
  hwx3_6 : ∀ i : grid3.Coords, EltTy.bits .f32 = 32 ∨ (Rect.block (s := S12x1) S12x1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S12x12.size a ≤ S12x12.size a
  hwx3_7 : ∀ i : grid3.Coords, EltTy.bits .f32 = 32 ∨ (Rect.block (s := S12x12) S12x12.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S12x1.size a ≤ S12x1.size a
  hwx3_8 : ∀ i : grid3.Coords, EltTy.bits .f32 = 32 ∨ (Rect.block (s := S12x1) S12x1.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S12x65536.size a ≤ S12x2097152.size a
  hwx3_9 : ∀ i : grid3.Coords, EltTy.bits .f32 = 32 ∨ (Rect.block (s := S12x2097152) S12x65536.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S1x12x2.size a ≤ S2x12x2.size a
  hwx3_10 : ∀ i : grid3.Coords, EltTy.bits .f32 = 32 ∨ (Rect.block (s := S2x12x2) S1x12x2.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S12x65536.size a ≤ S12x2097152.size a
  hwx4_0 : ∀ i : grid4.Coords, EltTy.bits .f32 = 32 ∨ (Rect.block (s := S12x2097152) S12x65536.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S12x12.size a ≤ S12x12.size a
  hwx4_1 : ∀ i : grid4.Coords, EltTy.bits .f32 = 32 ∨ (Rect.block (s := S12x12) S12x12.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S12x1.size a ≤ S12x1.size a
  hwx4_2 : ∀ i : grid4.Coords, EltTy.bits .f32 = 32 ∨ (Rect.block (s := S12x1) S12x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S12x1.size a ≤ S12x1.size a
  hwx4_3 : ∀ i : grid4.Coords, EltTy.bits .f32 = 32 ∨ (Rect.block (s := S12x1) S12x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S12x1.size a ≤ S12x1.size a
  hwx4_4 : ∀ i : grid4.Coords, EltTy.bits .f32 = 32 ∨ (Rect.block (s := S12x1) S12x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S12x1.size a ≤ S12x1.size a
  hwx4_5 : ∀ i : grid4.Coords, EltTy.bits .f32 = 32 ∨ (Rect.block (s := S12x1) S12x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S12x1.size a ≤ S12x1.size a
  hwx4_6 : ∀ i : grid4.Coords, EltTy.bits .f32 = 32 ∨ (Rect.block (s := S12x1) S12x1.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S8x12.size a ≤ S8x12.size a
  hwx4_7 : ∀ i : grid4.Coords, EltTy.bits .f32 = 32 ∨ (Rect.block (s := S8x12) S8x12.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S8x1.size a ≤ S8x1.size a
  hwx4_8 : ∀ i : grid4.Coords, EltTy.bits .f32 = 32 ∨ (Rect.block (s := S8x1) S8x1.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S12x65536.size a ≤ S12x2097152.size a
  hwx4_9 : ∀ i : grid4.Coords, EltTy.bits .f32 = 32 ∨ (Rect.block (s := S12x2097152) S12x65536.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S1x8x2.size a ≤ S2x8x2.size a
  hwx4_10 : ∀ i : grid4.Coords, EltTy.bits .f32 = 32 ∨ (Rect.block (s := S2x8x2) S1x8x2.size (cc4_transform_10 i) (hinb4_10 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S12x65536.size a ≤ S12x2097152.size a
  hwx5_0 : ∀ i : grid5.Coords, EltTy.bits .f32 = 32 ∨ (Rect.block (s := S12x2097152) S12x65536.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S8x12.size a ≤ S8x12.size a
  hwx5_1 : ∀ i : grid5.Coords, EltTy.bits .f32 = 32 ∨ (Rect.block (s := S8x12) S8x12.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S8x1.size a ≤ S8x1.size a
  hwx5_2 : ∀ i : grid5.Coords, EltTy.bits .f32 = 32 ∨ (Rect.block (s := S8x1) S8x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S8x1.size a ≤ S8x1.size a
  hwx5_3 : ∀ i : grid5.Coords, EltTy.bits .f32 = 32 ∨ (Rect.block (s := S8x1) S8x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S8x1.size a ≤ S8x1.size a
  hwx5_4 : ∀ i : grid5.Coords, EltTy.bits .f32 = 32 ∨ (Rect.block (s := S8x1) S8x1.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S8x1.size a ≤ S8x1.size a
  hwx5_5 : ∀ i : grid5.Coords, EltTy.bits .f32 = 32 ∨ (Rect.block (s := S8x1) S8x1.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S8x1.size a ≤ S8x1.size a
  hwx5_6 : ∀ i : grid5.Coords, EltTy.bits .f32 = 32 ∨ (Rect.block (s := S8x1) S8x1.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x8.size a ≤ S1x8.size a
  hwx5_7 : ∀ i : grid5.Coords, EltTy.bits .f32 = 32 ∨ (Rect.block (s := S1x8) S1x8.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x1.size a ≤ S1x1.size a
  hwx5_8 : ∀ i : grid5.Coords, EltTy.bits .f32 = 32 ∨ (Rect.block (s := S1x1) S1x1.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S1x65536.size a ≤ S1x2097152.size a
  hwx5_9 : ∀ i : grid5.Coords, EltTy.bits .f32 = 32 ∨ (Rect.block (s := S1x2097152) S1x65536.size (cc5_transform_9 i) (hinb5_9 i)).WholeWords (EltTy.packing .f32)

variable [Facts₀]

def dot_S16x8_S8x65536_S16x65536_1_0_0_1_n_n : DotDims S16x8 S8x65536 S16x65536 where
  lhsContracting := [1]
  rhsContracting := [0]
  lhsNonContracting := [0]
  rhsNonContracting := [1]
  lhsBatch := []
  rhsBatch := []
  wf := dot_S16x8_S8x65536_S16x65536_1_0_0_1_n_n_wf
def dot_S16x16_S16x65536_S16x65536_1_0_0_1_n_n : DotDims S16x16 S16x65536 S16x65536 where
  lhsContracting := [1]
  rhsContracting := [0]
  lhsNonContracting := [0]
  rhsNonContracting := [1]
  lhsBatch := []
  rhsBatch := []
  wf := dot_S16x16_S16x65536_S16x65536_1_0_0_1_n_n_wf
def dot_S12x16_S16x65536_S12x65536_1_0_0_1_n_n : DotDims S12x16 S16x65536 S12x65536 where
  lhsContracting := [1]
  rhsContracting := [0]
  lhsNonContracting := [0]
  rhsNonContracting := [1]
  lhsBatch := []
  rhsBatch := []
  wf := dot_S12x16_S16x65536_S12x65536_1_0_0_1_n_n_wf
def dot_S12x12_S12x65536_S12x65536_1_0_0_1_n_n : DotDims S12x12 S12x65536 S12x65536 where
  lhsContracting := [1]
  rhsContracting := [0]
  lhsNonContracting := [0]
  rhsNonContracting := [1]
  lhsBatch := []
  rhsBatch := []
  wf := dot_S12x12_S12x65536_S12x65536_1_0_0_1_n_n_wf
def dot_S8x12_S12x65536_S8x65536_1_0_0_1_n_n : DotDims S8x12 S12x65536 S8x65536 where
  lhsContracting := [1]
  rhsContracting := [0]
  lhsNonContracting := [0]
  rhsNonContracting := [1]
  lhsBatch := []
  rhsBatch := []
  wf := dot_S8x12_S12x65536_S8x65536_1_0_0_1_n_n_wf
def dot_S1x8_S8x65536_S1x65536_1_0_0_1_n_n : DotDims S1x8 S8x65536 S1x65536 where
  lhsContracting := [1]
  rhsContracting := [0]
  lhsNonContracting := [0]
  rhsNonContracting := [1]
  lhsBatch := []
  rhsBatch := []
  wf := dot_S1x8_S8x65536_S1x65536_1_0_0_1_n_n_wf

abbrev win0_0 : Pipeline.Window sig grid0 :=
  Pipeline.Window.ofSpec (Memref.whole main_v0) S8x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x16x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S8x65536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S16x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S16x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S16x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S16x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S16x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S16x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg5) S16x16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v17) S16x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v18_0) S16x65536.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v18_1) S1x16x2.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v18_0) S16x65536.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S16x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S16x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S16x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v32) S16x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v22) S16x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v29) S16x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg9) S12x16.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v33) S12x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v34_0) S16x65536.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v34_1) S1x12x2.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v34_0) S16x65536.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S12x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S12x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v47) S12x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v48) S12x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v38) S12x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v45) S12x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg13) S12x12.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v49) S12x1.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v50_0) S12x65536.size cc3_transform_9 reads3_9 true false 2 stage3_9 sem3_9
    hrank3 hreads3_9 hinb3_9 nbuf3_9 (Memref.isWhole_whole _) hwx3_9 hstage3_9

abbrev win3_10 : Pipeline.Window sig grid3 :=
  Pipeline.Window.ofSpec (Memref.whole main_v50_1) S1x12x2.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_v50_0) S12x65536.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg13) S12x12.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S12x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S12x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v64) S12x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v54) S12x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v61) S12x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg17) S8x12.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v65) S8x1.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v66_0) S12x65536.size cc4_transform_9 reads4_9 true false 2 stage4_9 sem4_9
    hrank4 hreads4_9 hinb4_9 nbuf4_9 (Memref.isWhole_whole _) hwx4_9 hstage4_9

abbrev win4_10 : Pipeline.Window sig grid4 :=
  Pipeline.Window.ofSpec (Memref.whole main_v66_1) S1x8x2.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

abbrev win5_0 : Pipeline.Window sig grid5 :=
  Pipeline.Window.ofSpec (Memref.whole main_v66_0) S12x65536.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg17) S8x12.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S8x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v79) S8x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v80) S8x1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v70) S8x1.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v77) S8x1.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg21) S1x8.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v81) S1x1.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v82) S1x65536.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

class Facts : Prop extends Facts₀ where

variable [Facts]
-- ==== ReferenceIdeal.lean ====
abbrev S2097152x8 : Shape := ⟨2, ![2097152, 8]⟩
abbrev S16x8 : Shape := ⟨2, ![16, 8]⟩
abbrev S16 : Shape := ⟨1, ![16]⟩
abbrev S16x16 : Shape := ⟨2, ![16, 16]⟩
abbrev S12x16 : Shape := ⟨2, ![12, 16]⟩
abbrev S12 : Shape := ⟨1, ![12]⟩
abbrev S12x12 : Shape := ⟨2, ![12, 12]⟩
abbrev S8x12 : Shape := ⟨2, ![8, 12]⟩
abbrev S8 : Shape := ⟨1, ![8]⟩
abbrev S1x8 : Shape := ⟨2, ![1, 8]⟩
abbrev S1 : Shape := ⟨1, ![1]⟩
abbrev S8x16 : Shape := ⟨2, ![8, 16]⟩
abbrev S2097152x16 : Shape := ⟨2, ![2097152, 16]⟩
abbrev S1x16 : Shape := ⟨2, ![1, 16]⟩
abbrev S_ : Shape := ⟨0, ![]⟩
abbrev S16x12 : Shape := ⟨2, ![16, 12]⟩
abbrev S2097152x12 : Shape := ⟨2, ![2097152, 12]⟩
abbrev S1x12 : Shape := ⟨2, ![1, 12]⟩
abbrev S12x8 : Shape := ⟨2, ![12, 8]⟩
abbrev S8x1 : Shape := ⟨2, ![8, 1]⟩
abbrev S2097152x1 : Shape := ⟨2, ![2097152, 1]⟩
abbrev S1x1 : Shape := ⟨2, ![1, 1]⟩

abbrev nBuf : Space → Nat
  | .hbm => 234
  | .vmem => 0
  | .smem => 0
  | _ => 0

abbrev hbmTy0_0 (i : Nat) : BufTy := match i % 128 with
  | 0 => ⟨S2097152x8, .f32⟩
  | 1 => ⟨S16x8, .f32⟩
  | 2 => ⟨S16, .f32⟩
  | 3 => ⟨S16, .f32⟩
  | 4 => ⟨S16, .f32⟩
  | 5 => ⟨S16x16, .f32⟩
  | 6 => ⟨S16, .f32⟩
  | 7 => ⟨S16, .f32⟩
  | 8 => ⟨S16, .f32⟩
  | 9 => ⟨S12x16, .f32⟩
  | 10 => ⟨S12, .f32⟩
  | 11 => ⟨S12, .f32⟩
  | 12 => ⟨S12, .f32⟩
  | 13 => ⟨S12x12, .f32⟩
  | 14 => ⟨S12, .f32⟩
  | 15 => ⟨S12, .f32⟩
  | 16 => ⟨S12, .f32⟩
  | 17 => ⟨S8x12, .f32⟩
  | 18 => ⟨S8, .f32⟩
  | 19 => ⟨S8, .f32⟩
  | 20 => ⟨S8, .f32⟩
  | 21 => ⟨S1x8, .f32⟩
  | 22 => ⟨S1, .f32⟩
  | 23 => ⟨S8x16, .f32⟩
  | 24 => ⟨S2097152x16, .f32⟩
  | 25 => ⟨S1x16, .f32⟩
  | 26 => ⟨S2097152x16, .f32⟩
  | 27 => ⟨S2097152x16, .f32⟩
  | 28 => ⟨S_, .f32⟩
  | 29 => ⟨S16, .f32⟩
  | 30 => ⟨S_, .f32⟩
  | 31 => ⟨S16, .f32⟩
  | 32 => ⟨S16, .f32⟩
  | 33 => ⟨S1x16, .f32⟩
  | 34 => ⟨S2097152x16, .f32⟩
  | 35 => ⟨S2097152x16, .f32⟩
  | 36 => ⟨S2097152x16, .f32⟩
  | 37 => ⟨S_, .f32⟩
  | 38 => ⟨S16, .f32⟩
  | 39 => ⟨S_, .f32⟩
  | 40 => ⟨S16, .f32⟩
  | 41 => ⟨S16, .f32⟩
  | 42 => ⟨S1x16, .f32⟩
  | 43 => ⟨S2097152x16, .f32⟩
  | 44 => ⟨S2097152x16, .f32⟩
  | 45 => ⟨S1x16, .f32⟩
  | 46 => ⟨S2097152x16, .f32⟩
  | 47 => ⟨S2097152x16, .f32⟩
  | 48 => ⟨S_, .f32⟩
  | 49 => ⟨S16, .f32⟩
  | 50 => ⟨S16, .f32⟩
  | 51 => ⟨S16, .f32⟩
  | 52 => ⟨S1x16, .f32⟩
  | 53 => ⟨S2097152x16, .f32⟩
  | 54 => ⟨S2097152x16, .f32⟩
  | 55 => ⟨S1x16, .f32⟩
  | 56 => ⟨S2097152x16, .f32⟩
  | 57 => ⟨S2097152x16, .f32⟩
  | 58 => ⟨S_, .f32⟩
  | 59 => ⟨S2097152x16, .f32⟩
  | 60 => ⟨S2097152x16, .f32⟩
  | 61 => ⟨S16x16, .f32⟩
  | 62 => ⟨S2097152x16, .f32⟩
  | 63 => ⟨S1x16, .f32⟩
  | 64 => ⟨S2097152x16, .f32⟩
  | 65 => ⟨S2097152x16, .f32⟩
  | 66 => ⟨S_, .f32⟩
  | 67 => ⟨S16, .f32⟩
  | 68 => ⟨S_, .f32⟩
  | 69 => ⟨S16, .f32⟩
  | 70 => ⟨S16, .f32⟩
  | 71 => ⟨S1x16, .f32⟩
  | 72 => ⟨S2097152x16, .f32⟩
  | 73 => ⟨S2097152x16, .f32⟩
  | 74 => ⟨S2097152x16, .f32⟩
  | 75 => ⟨S_, .f32⟩
  | 76 => ⟨S16, .f32⟩
  | 77 => ⟨S_, .f32⟩
  | 78 => ⟨S16, .f32⟩
  | 79 => ⟨S16, .f32⟩
  | 80 => ⟨S1x16, .f32⟩
  | 81 => ⟨S2097152x16, .f32⟩
  | 82 => ⟨S2097152x16, .f32⟩
  | 83 => ⟨S1x16, .f32⟩
  | 84 => ⟨S2097152x16, .f32⟩
  | 85 => ⟨S2097152x16, .f32⟩
  | 86 => ⟨S_, .f32⟩
  | 87 => ⟨S16, .f32⟩
  | 88 => ⟨S16, .f32⟩
  | 89 => ⟨S16, .f32⟩
  | 90 => ⟨S1x16, .f32⟩
  | 91 => ⟨S2097152x16, .f32⟩
  | 92 => ⟨S2097152x16, .f32⟩
  | 93 => ⟨S1x16, .f32⟩
  | 94 => ⟨S2097152x16, .f32⟩
  | 95 => ⟨S2097152x16, .f32⟩
  | 96 => ⟨S_, .f32⟩
  | 97 => ⟨S2097152x16, .f32⟩
  | 98 => ⟨S2097152x16, .f32⟩
  | 99 => ⟨S2097152x16, .f32⟩
  | 100 => ⟨S_, .f32⟩
  | 101 => ⟨S2097152x16, .f32⟩
  | 102 => ⟨S2097152x16, .f32⟩
  | 103 => ⟨S16x12, .f32⟩
  | 104 => ⟨S2097152x12, .f32⟩
  | 105 => ⟨S1x12, .f32⟩
  | 106 => ⟨S2097152x12, .f32⟩
  | 107 => ⟨S2097152x12, .f32⟩
  | 108 => ⟨S_, .f32⟩
  | 109 => ⟨S12, .f32⟩
  | 110 => ⟨S_, .f32⟩
  | 111 => ⟨S12, .f32⟩
  | 112 => ⟨S12, .f32⟩
  | 113 => ⟨S1x12, .f32⟩
  | 114 => ⟨S2097152x12, .f32⟩
  | 115 => ⟨S2097152x12, .f32⟩
  | 116 => ⟨S2097152x12, .f32⟩
  | 117 => ⟨S_, .f32⟩
  | 118 => ⟨S12, .f32⟩
  | 119 => ⟨S_, .f32⟩
  | 120 => ⟨S12, .f32⟩
  | 121 => ⟨S12, .f32⟩
  | 122 => ⟨S1x12, .f32⟩
  | 123 => ⟨S2097152x12, .f32⟩
  | 124 => ⟨S2097152x12, .f32⟩
  | 125 => ⟨S1x12, .f32⟩
  | 126 => ⟨S2097152x12, .f32⟩
  | 127 => ⟨S2097152x12, .f32⟩
  | _ => ⟨S2097152x8, .f32⟩

abbrev hbmTy0_1 (i : Nat) : BufTy := match i % 128 with
  | 0 => ⟨S_, .f32⟩
  | 1 => ⟨S12, .f32⟩
  | 2 => ⟨S12, .f32⟩
  | 3 => ⟨S12, .f32⟩
  | 4 => ⟨S1x12, .f32⟩
  | 5 => ⟨S2097152x12, .f32⟩
  | 6 => ⟨S2097152x12, .f32⟩
  | 7 => ⟨S1x12, .f32⟩
  | 8 => ⟨S2097152x12, .f32⟩
  | 9 => ⟨S2097152x12, .f32⟩
  | 10 => ⟨S_, .f32⟩
  | 11 => ⟨S2097152x12, .f32⟩
  | 12 => ⟨S2097152x12, .f32⟩
  | 13 => ⟨S12x12, .f32⟩
  | 14 => ⟨S2097152x12, .f32⟩
  | 15 => ⟨S1x12, .f32⟩
  | 16 => ⟨S2097152x12, .f32⟩
  | 17 => ⟨S2097152x12, .f32⟩
  | 18 => ⟨S_, .f32⟩
  | 19 => ⟨S12, .f32⟩
  | 20 => ⟨S_, .f32⟩
  | 21 => ⟨S12, .f32⟩
  | 22 => ⟨S12, .f32⟩
  | 23 => ⟨S1x12, .f32⟩
  | 24 => ⟨S2097152x12, .f32⟩
  | 25 => ⟨S2097152x12, .f32⟩
  | 26 => ⟨S2097152x12, .f32⟩
  | 27 => ⟨S_, .f32⟩
  | 28 => ⟨S12, .f32⟩
  | 29 => ⟨S_, .f32⟩
  | 30 => ⟨S12, .f32⟩
  | 31 => ⟨S12, .f32⟩
  | 32 => ⟨S1x12, .f32⟩
  | 33 => ⟨S2097152x12, .f32⟩
  | 34 => ⟨S2097152x12, .f32⟩
  | 35 => ⟨S1x12, .f32⟩
  | 36 => ⟨S2097152x12, .f32⟩
  | 37 => ⟨S2097152x12, .f32⟩
  | 38 => ⟨S_, .f32⟩
  | 39 => ⟨S12, .f32⟩
  | 40 => ⟨S12, .f32⟩
  | 41 => ⟨S12, .f32⟩
  | 42 => ⟨S1x12, .f32⟩
  | 43 => ⟨S2097152x12, .f32⟩
  | 44 => ⟨S2097152x12, .f32⟩
  | 45 => ⟨S1x12, .f32⟩
  | 46 => ⟨S2097152x12, .f32⟩
  | 47 => ⟨S2097152x12, .f32⟩
  | 48 => ⟨S_, .f32⟩
  | 49 => ⟨S2097152x12, .f32⟩
  | 50 => ⟨S2097152x12, .f32⟩
  | 51 => ⟨S2097152x12, .f32⟩
  | 52 => ⟨S_, .f32⟩
  | 53 => ⟨S2097152x12, .f32⟩
  | 54 => ⟨S2097152x12, .f32⟩
  | 55 => ⟨S12x8, .f32⟩
  | 56 => ⟨S2097152x8, .f32⟩
  | 57 => ⟨S1x8, .f32⟩
  | 58 => ⟨S2097152x8, .f32⟩
  | 59 => ⟨S2097152x8, .f32⟩
  | 60 => ⟨S_, .f32⟩
  | 61 => ⟨S8, .f32⟩
  | 62 => ⟨S_, .f32⟩
  | 63 => ⟨S8, .f32⟩
  | 64 => ⟨S8, .f32⟩
  | 65 => ⟨S1x8, .f32⟩
  | 66 => ⟨S2097152x8, .f32⟩
  | 67 => ⟨S2097152x8, .f32⟩
  | 68 => ⟨S2097152x8, .f32⟩
  | 69 => ⟨S_, .f32⟩
  | 70 => ⟨S8, .f32⟩
  | 71 => ⟨S_, .f32⟩
  | 72 => ⟨S8, .f32⟩
  | 73 => ⟨S8, .f32⟩
  | 74 => ⟨S1x8, .f32⟩
  | 75 => ⟨S2097152x8, .f32⟩
  | 76 => ⟨S2097152x8, .f32⟩
  | 77 => ⟨S1x8, .f32⟩
  | 78 => ⟨S2097152x8, .f32⟩
  | 79 => ⟨S2097152x8, .f32⟩
  | 80 => ⟨S_, .f32⟩
  | 81 => ⟨S8, .f32⟩
  | 82 => ⟨S8, .f32⟩
  | 83 => ⟨S8, .f32⟩
  | 84 => ⟨S1x8, .f32⟩
  | 85 => ⟨S2097152x8, .f32⟩
  | 86 => ⟨S2097152x8, .f32⟩
  | 87 => ⟨S1x8, .f32⟩
  | 88 => ⟨S2097152x8, .f32⟩
  | 89 => ⟨S2097152x8, .f32⟩
  | 90 => ⟨S_, .f32⟩
  | 91 => ⟨S2097152x8, .f32⟩
  | 92 => ⟨S2097152x8, .f32⟩
  | 93 => ⟨S8x1, .f32⟩
  | 94 => ⟨S2097152x1, .f32⟩
  | 95 => ⟨S1x1, .f32⟩
  | 96 => ⟨S2097152x1, .f32⟩
  | 97 => ⟨S2097152x1, .f32⟩
  | 98 => ⟨S2097152x1, .f32⟩
  | 99 => ⟨S2097152x1, .f32⟩
  | 100 => ⟨S_, .f32⟩
  | 101 => ⟨S2097152x1, .f32⟩
  | 102 => ⟨S2097152x1, .f32⟩
  | 103 => ⟨S_, .f32⟩
  | 104 => ⟨S2097152x1, .f32⟩
  | 105 => ⟨S2097152x1, .f32⟩
  | _ => ⟨S2097152x8, .f32⟩

abbrev hbmTy (i : Nat) : BufTy := match i / 128 with
  | 0 => hbmTy0_0 i
  | 1 => hbmTy0_1 i
  | _ => ⟨S2097152x8, .f32⟩

abbrev bufTy : (tb : Table) → Fin (tcTables nBuf tb) → BufTy
  | .hbm, ⟨i, _⟩ => hbmTy i
  | _, _ => ⟨S2097152x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_cst : Ref sig .tc := ⟨.hbm, 28, rfl⟩
abbrev main_v5 : Ref sig .tc := ⟨.hbm, 29, rfl⟩
abbrev main_cst_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_1 : Ref sig .tc := ⟨.hbm, 37, rfl⟩
abbrev main_v12 : Ref sig .tc := ⟨.hbm, 38, rfl⟩
abbrev main_cst_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_3 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_call0_cst : Ref sig .tc := ⟨.hbm, 58, rfl⟩
abbrev main_call0_v0 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_4 : Ref sig .tc := ⟨.hbm, 66, rfl⟩
abbrev main_v36 : Ref sig .tc := ⟨.hbm, 67, rfl⟩
abbrev main_cst_5 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_6 : Ref sig .tc := ⟨.hbm, 75, rfl⟩
abbrev main_v43 : Ref sig .tc := ⟨.hbm, 76, rfl⟩
abbrev main_cst_7 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_8 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_call1_cst : Ref sig .tc := ⟨.hbm, 96, rfl⟩
abbrev main_call1_v0 : Ref sig .tc := ⟨.hbm, 97, rfl⟩
abbrev main_v61 : Ref sig .tc := ⟨.hbm, 98, rfl⟩
abbrev main_v62 : Ref sig .tc := ⟨.hbm, 99, rfl⟩
abbrev main_call2_cst : Ref sig .tc := ⟨.hbm, 100, rfl⟩
abbrev main_call2_v0 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_9 : Ref sig .tc := ⟨.hbm, 108, rfl⟩
abbrev main_v69 : Ref sig .tc := ⟨.hbm, 109, rfl⟩
abbrev main_cst_10 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_11 : Ref sig .tc := ⟨.hbm, 117, rfl⟩
abbrev main_v76 : Ref sig .tc := ⟨.hbm, 118, rfl⟩
abbrev main_cst_12 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_cst_13 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_call3_cst : Ref sig .tc := ⟨.hbm, 138, rfl⟩
abbrev main_call3_v0 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_14 : Ref sig .tc := ⟨.hbm, 146, rfl⟩
abbrev main_v100 : Ref sig .tc := ⟨.hbm, 147, rfl⟩
abbrev main_cst_15 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_cst_16 : Ref sig .tc := ⟨.hbm, 155, rfl⟩
abbrev main_v107 : Ref sig .tc := ⟨.hbm, 156, rfl⟩
abbrev main_cst_17 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_cst_18 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_call4_cst : Ref sig .tc := ⟨.hbm, 176, rfl⟩
abbrev main_call4_v0 : Ref sig .tc := ⟨.hbm, 177, rfl⟩
abbrev main_v125 : Ref sig .tc := ⟨.hbm, 178, rfl⟩
abbrev main_v126 : Ref sig .tc := ⟨.hbm, 179, rfl⟩
abbrev main_call5_cst : Ref sig .tc := ⟨.hbm, 180, rfl⟩
abbrev main_call5_v0 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_cst_19 : Ref sig .tc := ⟨.hbm, 188, rfl⟩
abbrev main_v133 : Ref sig .tc := ⟨.hbm, 189, rfl⟩
abbrev main_cst_20 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_cst_21 : Ref sig .tc := ⟨.hbm, 197, rfl⟩
abbrev main_v140 : Ref sig .tc := ⟨.hbm, 198, rfl⟩
abbrev main_cst_22 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_cst_23 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_call6_cst : Ref sig .tc := ⟨.hbm, 218, rfl⟩
abbrev main_call6_v0 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_cst_24 : Ref sig .tc := ⟨.hbm, 228, rfl⟩
abbrev main_v166 : Ref sig .tc := ⟨.hbm, 229, rfl⟩
abbrev main_v167 : Ref sig .tc := ⟨.hbm, 230, rfl⟩
abbrev main_cst_25 : Ref sig .tc := ⟨.hbm, 231, rfl⟩
abbrev main_v168 : Ref sig .tc := ⟨.hbm, 232, rfl⟩
abbrev main_v169 : Ref sig .tc := ⟨.hbm, 233, rfl⟩

abbrev nD : Nat := 1
abbrev τ : Topo := Topo.v7x

variable {F : FTy → Type} [FloatOps F]

class Facts₀ : Prop where
  transposes_S16x8_S8x16_1_0 : S16x8.Transposes [1, 0] S8x16
  bcast_S16_S1x16_1 : S16.BroadcastsInDim S1x16 (![1] : Fin 1 → Fin S1x16.rank)
  bcast_S1x16_S2097152x16_0_1 : S1x16.BroadcastsInDim S2097152x16 (![0, 1] : Fin 2 → Fin S2097152x16.rank)
  reducesTo_S2097152x16_S16_d0 : S2097152x16.ReducesTo [0] S16
  h_S_ : 0 < S_.numel
  bcast_S_S16 : S_.BroadcastsInDim S16 (![] : Fin 0 → Fin S16.rank)
  bcast_S_S2097152x16 : S_.BroadcastsInDim S2097152x16 (![] : Fin 0 → Fin S2097152x16.rank)
  transposes_S16x16_S16x16_1_0 : S16x16.Transposes [1, 0] S16x16
  transposes_S12x16_S16x12_1_0 : S12x16.Transposes [1, 0] S16x12
  bcast_S12_S1x12_1 : S12.BroadcastsInDim S1x12 (![1] : Fin 1 → Fin S1x12.rank)
  bcast_S1x12_S2097152x12_0_1 : S1x12.BroadcastsInDim S2097152x12 (![0, 1] : Fin 2 → Fin S2097152x12.rank)
  reducesTo_S2097152x12_S12_d0 : S2097152x12.ReducesTo [0] S12
  bcast_S_S12 : S_.BroadcastsInDim S12 (![] : Fin 0 → Fin S12.rank)
  bcast_S_S2097152x12 : S_.BroadcastsInDim S2097152x12 (![] : Fin 0 → Fin S2097152x12.rank)
  transposes_S12x12_S12x12_1_0 : S12x12.Transposes [1, 0] S12x12
  transposes_S8x12_S12x8_1_0 : S8x12.Transposes [1, 0] S12x8
  bcast_S8_S1x8_1 : S8.BroadcastsInDim S1x8 (![1] : Fin 1 → Fin S1x8.rank)
  bcast_S1x8_S2097152x8_0_1 : S1x8.BroadcastsInDim S2097152x8 (![0, 1] : Fin 2 → Fin S2097152x8.rank)
  reducesTo_S2097152x8_S8_d0 : S2097152x8.ReducesTo [0] S8
  bcast_S_S8 : S_.BroadcastsInDim S8 (![] : Fin 0 → Fin S8.rank)
  bcast_S_S2097152x8 : S_.BroadcastsInDim S2097152x8 (![] : Fin 0 → Fin S2097152x8.rank)
  transposes_S1x8_S8x1_1_0 : S1x8.Transposes [1, 0] S8x1
  bcast_S1_S1x1_1 : S1.BroadcastsInDim S1x1 (![1] : Fin 1 → Fin S1x1.rank)
  bcast_S1x1_S2097152x1_0_1 : S1x1.BroadcastsInDim S2097152x1 (![0, 1] : Fin 2 → Fin S2097152x1.rank)
  bcast_S_S2097152x1 : S_.BroadcastsInDim S2097152x1 (![] : Fin 0 → Fin S2097152x1.rank)
  dot_S2097152x8_S8x16_S2097152x16_1_0_0_1_n_n_wf : DotDims.WF S2097152x8 S8x16 S2097152x16 [1] [0] [0] [1] [] []
  dot_S2097152x16_S16x16_S2097152x16_1_0_0_1_n_n_wf : DotDims.WF S2097152x16 S16x16 S2097152x16 [1] [0] [0] [1] [] []
  dot_S2097152x16_S16x12_S2097152x12_1_0_0_1_n_n_wf : DotDims.WF S2097152x16 S16x12 S2097152x12 [1] [0] [0] [1] [] []
  dot_S2097152x12_S12x12_S2097152x12_1_0_0_1_n_n_wf : DotDims.WF S2097152x12 S12x12 S2097152x12 [1] [0] [0] [1] [] []
  dot_S2097152x12_S12x8_S2097152x8_1_0_0_1_n_n_wf : DotDims.WF S2097152x12 S12x8 S2097152x8 [1] [0] [0] [1] [] []
  dot_S2097152x8_S8x1_S2097152x1_1_0_0_1_n_n_wf : DotDims.WF S2097152x8 S8x1 S2097152x1 [1] [0] [0] [1] [] []

variable [Facts₀]

def dot_S2097152x8_S8x16_S2097152x16_1_0_0_1_n_n : DotDims S2097152x8 S8x16 S2097152x16 where
  lhsContracting := [1]
  rhsContracting := [0]
  lhsNonContracting := [0]
  rhsNonContracting := [1]
  lhsBatch := []
  rhsBatch := []
  wf := dot_S2097152x8_S8x16_S2097152x16_1_0_0_1_n_n_wf
def dot_S2097152x16_S16x16_S2097152x16_1_0_0_1_n_n : DotDims S2097152x16 S16x16 S2097152x16 where
  lhsContracting := [1]
  rhsContracting := [0]
  lhsNonContracting := [0]
  rhsNonContracting := [1]
  lhsBatch := []
  rhsBatch := []
  wf := dot_S2097152x16_S16x16_S2097152x16_1_0_0_1_n_n_wf
def dot_S2097152x16_S16x12_S2097152x12_1_0_0_1_n_n : DotDims S2097152x16 S16x12 S2097152x12 where
  lhsContracting := [1]
  rhsContracting := [0]
  lhsNonContracting := [0]
  rhsNonContracting := [1]
  lhsBatch := []
  rhsBatch := []
  wf := dot_S2097152x16_S16x12_S2097152x12_1_0_0_1_n_n_wf
def dot_S2097152x12_S12x12_S2097152x12_1_0_0_1_n_n : DotDims S2097152x12 S12x12 S2097152x12 where
  lhsContracting := [1]
  rhsContracting := [0]
  lhsNonContracting := [0]
  rhsNonContracting := [1]
  lhsBatch := []
  rhsBatch := []
  wf := dot_S2097152x12_S12x12_S2097152x12_1_0_0_1_n_n_wf
def dot_S2097152x12_S12x8_S2097152x8_1_0_0_1_n_n : DotDims S2097152x12 S12x8 S2097152x8 where
  lhsContracting := [1]
  rhsContracting := [0]
  lhsNonContracting := [0]
  rhsNonContracting := [1]
  lhsBatch := []
  rhsBatch := []
  wf := dot_S2097152x12_S12x8_S2097152x8_1_0_0_1_n_n_wf
def dot_S2097152x8_S8x1_S2097152x1_1_0_0_1_n_n : DotDims S2097152x8 S8x1 S2097152x1 where
  lhsContracting := [1]
  rhsContracting := [0]
  lhsNonContracting := [0]
  rhsNonContracting := [1]
  lhsBatch := []
  rhsBatch := []
  wf := dot_S2097152x8_S8x1_S2097152x1_1_0_0_1_n_n_wf

class Facts : Prop extends Facts₀ where

variable [Facts]
-- ==== Proof.Pieces4.lean ====
/-
  Region 4 (one block of the network with its skip connection applied to a tile of columns, and the next layer's lane
  sums): what each of the two control cases leaves in the two output buffers, as the body's arithmetic of the blocks
  it loaded.  At the first point of a half the statistics block is first set to zero; at every other point it is read
  as the point before left it.
-/
import proofs.«114887_j65481071405707_2_alg».proof.Proof.Gen.KernelIdeal.Frame
import Idealize.ShloMosaic.Lib.Pipeline.Value
import Idealize.ShloMosaic.Lib.Tactic

set_option maxRecDepth 16384

noncomputable section

namespace Cert.KernelIdeal.Net.R4

open Cert.KernelIdeal Cert.KernelIdeal.Gen
open Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The activation block, first point of a half. -/
theorem out_A_9 (c : Dev nD) (i : grid4.Coords) (arg2 : Memref sig .tc .vmem S12x65536 .f32) (harg2 : arg2.IsWhole) (arg3 : Memref sig .tc .vmem S12x12 .f32) (harg3 : arg3.IsWhole) (arg4 : Memref sig .tc .vmem S12x1 .f32) (harg4 : arg4.IsWhole) (arg5 : Memref sig .tc .vmem S12x1 .f32) (harg5 : arg5.IsWhole) (arg6 : Memref sig .tc .vmem S12x1 .f32) (harg6 : arg6.IsWhole) (arg7 : Memref sig .tc .vmem S12x1 .f32) (harg7 : arg7.IsWhole) (arg8 : Memref sig .tc .vmem S12x1 .f32) (harg8 : arg8.IsWhole) (arg9 : Memref sig .tc .vmem S8x12 .f32) (harg9 : arg9.IsWhole) (arg10 : Memref sig .tc .vmem S8x1 .f32) (harg10 : arg10.IsWhole) (arg11 : Memref sig .tc .vmem S12x65536 .f32) (harg11 : arg11.IsWhole) (arg12 : Memref sig .tc .vmem S1x8x2 .f32) (harg12 : arg12.IsWhole) (hc0 : cond4_0 i) (x0 : Vec F S12x65536 .f32) (x1 : Vec F S12x12 .f32) (x2 : Vec F S12x1 .f32) (x3 : Vec F S12x1 .f32) (x4 : Vec F S12x1 .f32) (x5 : Vec F S12x1 .f32) (x6 : Vec F S12x1 .f32) (x7 : Vec F S8x12 .f32) (x8 : Vec F S8x1 .f32) :
    out4_A_9 c i arg2 harg2 arg3 harg3 arg4 harg4 arg5 harg5 arg6 harg6 arg7 harg7 arg8 harg8 arg9 harg9 arg10 harg10 arg11 harg11 arg12 harg12 hc0 x0 x1 x2 x3 x4 x5 x6 x7 x8 = k4_pay1 (k4_pay4 x1 x0 x2 x6 x3 x5 x4 x0) (FloatOps.ofBits .f32 0x00000000#32 : F .f32) := by
  unfold out4_A_9
  rw [View.read_writes_eq_canon _ _ _ (cover4_A_9 c i arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun4_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread, View.ld_unit_zero (S := S12x65536) hz2, View.ld_unit_zero (S := S12x12) hz2, View.ld_unit_zero (S := S12x1) hz2, View.ld_unit_zero (S := S8x12) hz2, View.ld_unit_zero (S := S8x1) hz2, View.ld_unit_zero (S := S1x8x2) hz3]

/-- The activation block, any other point. -/
theorem out_B_9 (c : Dev nD) (i : grid4.Coords) (arg2 : Memref sig .tc .vmem S12x65536 .f32) (harg2 : arg2.IsWhole) (arg3 : Memref sig .tc .vmem S12x12 .f32) (harg3 : arg3.IsWhole) (arg4 : Memref sig .tc .vmem S12x1 .f32) (harg4 : arg4.IsWhole) (arg5 : Memref sig .tc .vmem S12x1 .f32) (harg5 : arg5.IsWhole) (arg6 : Memref sig .tc .vmem S12x1 .f32) (harg6 : arg6.IsWhole) (arg7 : Memref sig .tc .vmem S12x1 .f32) (harg7 : arg7.IsWhole) (arg8 : Memref sig .tc .vmem S12x1 .f32) (harg8 : arg8.IsWhole) (arg9 : Memref sig .tc .vmem S8x12 .f32) (harg9 : arg9.IsWhole) (arg10 : Memref sig .tc .vmem S8x1 .f32) (harg10 : arg10.IsWhole) (arg11 : Memref sig .tc .vmem S12x65536 .f32) (harg11 : arg11.IsWhole) (arg12 : Memref sig .tc .vmem S1x8x2 .f32) (harg12 : arg12.IsWhole) (hc0 : ¬cond4_0 i) (x0 : Vec F S12x65536 .f32) (x1 : Vec F S12x12 .f32) (x2 : Vec F S12x1 .f32) (x3 : Vec F S12x1 .f32) (x4 : Vec F S12x1 .f32) (x5 : Vec F S12x1 .f32) (x6 : Vec F S12x1 .f32) (x7 : Vec F S8x12 .f32) (x8 : Vec F S8x1 .f32) (xo10 : Vec F S1x8x2 .f32) :
    out4_B_9 c i arg2 harg2 arg3 harg3 arg4 harg4 arg5 harg5 arg6 harg6 arg7 harg7 arg8 harg8 arg9 harg9 arg10 harg10 arg11 harg11 arg12 harg12 hc0 x0 x1 x2 x3 x4 x5 x6 x7 x8 xo10 = k4_pay1 (k4_pay4 x1 x0 x2 x6 x3 x5 x4 x0) (FloatOps.ofBits .f32 0x00000000#32 : F .f32) := by
  unfold out4_B_9
  rw [View.read_writes_eq_canon _ _ _ (cover4_B_9 c i arg2 harg2 arg3 harg3 arg4 harg4 arg5 harg5 arg6 harg6 arg7 harg7 arg8 harg8 arg9 harg9 arg10 harg10 arg11 harg11 arg12 harg12 hc0 x0 x1 x2 x3 x4 x5 x6 x7 x8 xo10)]
  unfold kernelRun4_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread, View.ld_unit_zero (S := S12x65536) hz2, View.ld_unit_zero (S := S12x12) hz2, View.ld_unit_zero (S := S12x1) hz2, View.ld_unit_zero (S := S8x12) hz2, View.ld_unit_zero (S := S8x1) hz2, View.ld_unit_zero (S := S1x8x2) hz3]

/-- The statistics block, any point but the first of a half: the block as found, updated. -/
theorem out_B_10 (c : Dev nD) (i : grid4.Coords) (arg2 : Memref sig .tc .vmem S12x65536 .f32) (harg2 : arg2.IsWhole) (arg3 : Memref sig .tc .vmem S12x12 .f32) (harg3 : arg3.IsWhole) (arg4 : Memref sig .tc .vmem S12x1 .f32) (harg4 : arg4.IsWhole) (arg5 : Memref sig .tc .vmem S12x1 .f32) (harg5 : arg5.IsWhole) (arg6 : Memref sig .tc .vmem S12x1 .f32) (harg6 : arg6.IsWhole) (arg7 : Memref sig .tc .vmem S12x1 .f32) (harg7 : arg7.IsWhole) (arg8 : Memref sig .tc .vmem S12x1 .f32) (harg8 : arg8.IsWhole) (arg9 : Memref sig .tc .vmem S8x12 .f32) (harg9 : arg9.IsWhole) (arg10 : Memref sig .tc .vmem S8x1 .f32) (harg10 : arg10.IsWhole) (arg11 : Memref sig .tc .vmem S12x65536 .f32) (harg11 : arg11.IsWhole) (arg12 : Memref sig .tc .vmem S1x8x2 .f32) (harg12 : arg12.IsWhole) (hc0 : ¬cond4_0 i) (x0 : Vec F S12x65536 .f32) (x1 : Vec F S12x12 .f32) (x2 : Vec F S12x1 .f32) (x3 : Vec F S12x1 .f32) (x4 : Vec F S12x1 .f32) (x5 : Vec F S12x1 .f32) (x6 : Vec F S12x1 .f32) (x7 : Vec F S8x12 .f32) (x8 : Vec F S8x1 .f32) (xo10 : Vec F S1x8x2 .f32) :
    out4_B_10 c i arg2 harg2 arg3 harg3 arg4 harg4 arg5 harg5 arg6 harg6 arg7 harg7 arg8 harg8 arg9 harg9 arg10 harg10 arg11 harg11 arg12 harg12 hc0 x0 x1 x2 x3 x4 x5 x6 x7 x8 xo10 = k4_pay2 (k4_pay4 x1 x0 x2 x6 x3 x5 x4 x0) (FloatOps.ofBits .f32 0x00000000#32 : F .f32) x7 x8 xo10 := by
  unfold out4_B_10
  rw [View.read_writes_eq_canon _ _ _ (cover4_B_10 c i arg2 harg2 arg3 harg3 arg4 harg4 arg5 harg5 arg6 harg6 arg7 harg7 arg8 harg8 arg9 harg9 arg10 harg10 arg11 harg11 arg12 harg12 hc0 x0 x1 x2 x3 x4 x5 x6 x7 x8 xo10)]
  unfold kernelRun4_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg12.read_unread, View.ld_unit_zero (S := S12x65536) hz2, View.ld_unit_zero (S := S12x12) hz2, View.ld_unit_zero (S := S12x1) hz2, View.ld_unit_zero (S := S8x12) hz2, View.ld_unit_zero (S := S8x1) hz2, View.ld_unit_zero (S := S1x8x2) hz3]

/-- The statistics block, first point of a half: the zero block, updated. -/
theorem out_A_10 (c : Dev nD) (i : grid4.Coords) (arg2 : Memref sig .tc .vmem S12x65536 .f32) (harg2 : arg2.IsWhole) (arg3 : Memref sig .tc .vmem S12x12 .f32) (harg3 : arg3.IsWhole) (arg4 : Memref sig .tc .vmem S12x1 .f32) (harg4 : arg4.IsWhole) (arg5 : Memref sig .tc .vmem S12x1 .f32) (harg5 : arg5.IsWhole) (arg6 : Memref sig .tc .vmem S12x1 .f32) (harg6 : arg6.IsWhole) (arg7 : Memref sig .tc .vmem S12x1 .f32) (harg7 : arg7.IsWhole) (arg8 : Memref sig .tc .vmem S12x1 .f32) (harg8 : arg8.IsWhole) (arg9 : Memref sig .tc .vmem S8x12 .f32) (harg9 : arg9.IsWhole) (arg10 : Memref sig .tc .vmem S8x1 .f32) (harg10 : arg10.IsWhole) (arg11 : Memref sig .tc .vmem S12x65536 .f32) (harg11 : arg11.IsWhole) (arg12 : Memref sig .tc .vmem S1x8x2 .f32) (harg12 : arg12.IsWhole) (hc0 : cond4_0 i) (x0 : Vec F S12x65536 .f32) (x1 : Vec F S12x12 .f32) (x2 : Vec F S12x1 .f32) (x3 : Vec F S12x1 .f32) (x4 : Vec F S12x1 .f32) (x5 : Vec F S12x1 .f32) (x6 : Vec F S12x1 .f32) (x7 : Vec F S8x12 .f32) (x8 : Vec F S8x1 .f32) :
    out4_A_10 c i arg2 harg2 arg3 harg3 arg4 harg4 arg5 harg5 arg6 harg6 arg7 harg7 arg8 harg8 arg9 harg9 arg10 harg10 arg11 harg11 arg12 harg12 hc0 x0 x1 x2 x3 x4 x5 x6 x7 x8 = k4_pay2 (k4_pay4 x1 x0 x2 x6 x3 x5 x4 x0) (FloatOps.ofBits .f32 0x00000000#32 : F .f32) x7 x8 k4_pay3 := by
  unfold out4_A_10
  rw [View.read_writes_eq_canon _ _ _ (cover4_A_10 c i arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun4_A
  dsimp only
  sl_unfold_words
  rw [View.canon_cons_unit_zero (S := S1x8x2) hz3, View.readCov_unit_zero (S := S1x8x2) _ hz3]
  simp only [View.readAt_eq_ld, harg2.read_unread, harg3.read_unread, harg4.read_unread, harg5.read_unread, harg6.read_unread, harg7.read_unread, harg8.read_unread, harg9.read_unread, harg10.read_unread, harg12.read_unread, View.ld_unit_zero (S := S12x65536) hz2, View.ld_unit_zero (S := S12x12) hz2, View.ld_unit_zero (S := S12x1) hz2, View.ld_unit_zero (S := S8x12) hz2, View.ld_unit_zero (S := S8x1) hz2, View.ld_unit_zero (S := S1x8x2) hz3]

end Cert.KernelIdeal.Net.R4

end
-- ==== Proof.LibDenseLayers.lean ====
/-
  Dense layers read as functions of whole matrices over the extended reals, for any extents.

  `prod x w` at `(r, e)` is the finite sum over the contracted coordinate `j` of `x (r, j) · w (j, e)`; `addRow h b` adds
  entry `e` of the one-row matrix `b` to column `e` of every row; `relu h` is the entrywise maximum with the zero word.
  Three compositions are named, each with its value at an entry: `relu (x · w + b)`, `relu (a + b) · w` and
  `relu (a + b) · w + c`. Sums and products of extended reals are commutative and associative, so a product computed
  tile by tile, in any order, is this same sum, and nothing here needs the entries to be finite. Two layout facts used
  when a kernel body is read at an entry close the file: a one-row matrix cast to its own shape and spread over `a`
  rows reads the row's entry, and the offset vector of a block stored whole is zero.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibDenseLayers

open Idealize.ShloMosaic Idealize.ShloMosaic.ValueIdx

/-- An `a × b` matrix of extended reals. -/
abbrev Mat (a b : ℕ) := FVec Ideal ⟨2, ![a, b]⟩ .f32

/-- The row coordinate of a matrix index, typed by the extent itself. -/
abbrev rowOf {a b : ℕ} (i : (⟨2, ![a, b]⟩ : Shape).Idx) : Fin a := ⟨(i 0).val, (i 0).isLt⟩
/-- The column coordinate of a matrix index, typed by the extent itself. -/
abbrev colOf {a b : ℕ} (i : (⟨2, ![a, b]⟩ : Shape).Idx) : Fin b := ⟨(i 1).val, (i 1).isLt⟩

/-- The matrix product: entry `(r, e)` is `∑ⱼ x (r, j) · w (j, e)`. -/
def prod {n k m : ℕ} (x : Mat n k) (w : Mat k m) : Mat n m :=
  fun i => ∑ j : Fin k, x (ix2 (rowOf i) j) * w (ix2 j (colOf i))

/-- A one-row matrix added to every row. -/
def addRow {n m : ℕ} (h : Mat n m) (b : Mat 1 m) : Mat n m :=
  fun i => h i + b (ix2 (0 : Fin 1) (colOf i))

/-- Rectification: the entrywise maximum with the zero word. -/
def relu {n m : ℕ} (h : Mat n m) : Mat n m :=
  fun i => max (h i) (Ideal.ofBits .f32 0x00000000#32)

theorem prod_apply {n k m : ℕ} (x : Mat n k) (w : Mat k m) (r : Fin n) (e : Fin m) :
    prod x w (ix2 r e) = ∑ j : Fin k, x (ix2 r j) * w (ix2 j e) := rfl

theorem addRow_apply {n m : ℕ} (h : Mat n m) (b : Mat 1 m) (r : Fin n) (e : Fin m) :
    addRow h b (ix2 r e) = h (ix2 r e) + b (ix2 (0 : Fin 1) e) := rfl

theorem relu_apply {n m : ℕ} (h : Mat n m) (r : Fin n) (e : Fin m) :
    relu h (ix2 r e) = max (h (ix2 r e)) (Ideal.ofBits .f32 0x00000000#32) := rfl

/-- The input layer: `relu (x · w + b)`. -/
def layerIn {n k m : ℕ} (x : Mat n k) (w : Mat k m) (b : Mat 1 m) : Mat n m := relu (addRow (prod x w) b)

/-- A hidden layer after an aggregation: `relu (a + b) · w`. -/
def layerHidden {n k m : ℕ} (a : Mat n k) (b : Mat 1 k) (w : Mat k m) : Mat n m := prod (relu (addRow a b)) w

/-- The output layer after the last aggregation: `relu (a + b) · w + c`. -/
def layerOut {n k m : ℕ} (a : Mat n k) (b : Mat 1 k) (w : Mat k m) (c : Mat 1 m) : Mat n m :=
  addRow (prod (relu (addRow a b)) w) c

theorem layerIn_apply {n k m : ℕ} (x : Mat n k) (w : Mat k m) (b : Mat 1 m) (r : Fin n) (e : Fin m) :
    layerIn x w b (ix2 r e)
      = max ((∑ j : Fin k, x (ix2 r j) * w (ix2 j e)) + b (ix2 (0 : Fin 1) e)) (Ideal.ofBits .f32 0x00000000#32) := rfl

theorem layerHidden_apply {n k m : ℕ} (a : Mat n k) (b : Mat 1 k) (w : Mat k m) (r : Fin n) (e : Fin m) :
    layerHidden a b w (ix2 r e)
      = ∑ j : Fin k, max (a (ix2 r j) + b (ix2 (0 : Fin 1) j)) (Ideal.ofBits .f32 0x00000000#32) * w (ix2 j e) := rfl

theorem layerOut_apply {n k m : ℕ} (a : Mat n k) (b : Mat 1 k) (w : Mat k m) (c : Mat 1 m) (r : Fin n) (e : Fin m) :
    layerOut a b w c (ix2 r e)
      = (∑ j : Fin k, max (a (ix2 r j) + b (ix2 (0 : Fin 1) j)) (Ideal.ofBits .f32 0x00000000#32) * w (ix2 j e))
        + c (ix2 (0 : Fin 1) e) := rfl

/-- A one-row matrix spread over `a` rows, after a cast to its own shape, reads the row's entry. -/
theorem spreadRow_apply {a b : ℕ} {φ : FTy} (v : FVec Ideal ⟨2, ![1, b]⟩ φ)
    (hc : (⟨2, ![1, b]⟩ : Shape).ShapeCasts ⟨2, ![1, b]⟩) (hb : (⟨2, ![1, b]⟩ : Shape).Broadcasts ⟨2, ![a, b]⟩)
    (p : Fin a) (e : Fin b) :
    broadcastTo ⟨2, ![a, b]⟩ (shapeCast ⟨2, ![1, b]⟩ v hc) hb (ix2 p e) = v (ix2 (0 : Fin 1) e) := by
  rw [broadcastTo_1b_ab_apply, shapeCast_self]

/-- The offset vector of a block stored whole. -/
theorem zero_offsets : (![0, 0] : Fin 2 → Nat) = fun _ => 0 := funext fun a => by fin_cases a <;> rfl

end Cert.LibDenseLayers

end
-- ==== Proof.LibKernelLayers.lean ====
/-
  A kernel body's dense-layer operations read as whole-matrix functions over the extended reals, for any extents.

  A product of two blocks accumulated into a zero block is the matrix product (a change of float format of an operand is
  the identity on the extended reals, so the operands may carry any format); a one-row block, cast to its own shape, spread
  down the rows and added, is the row added to every row; the entrywise maximum with a scalar zero spread over the block is
  the rectification.
-/
import proofs.«114887_j65481071405707_2_alg».proof.Proof.LibDenseLayers

noncomputable section

namespace Cert.LibKernelLayers

open Idealize.ShloMosaic Idealize.ShloMosaic.ValueIdx Cert.LibDenseLayers

/-- A block product `[M, K] · [K, N]` into a zero block, at `(p, e)`: `∑ₖ lhs (p, k) · rhs (k, e)`. The hypotheses say that
    the record contracts one axis of extent K, reads the left operand at (output row, contracted coordinate) and the right
    operand at (contracted coordinate, output column). -/
theorem matmul_zero_apply {M K N : ℕ} {φ₁ φ₂ : FTy}
    (D : DotDims ⟨2, ![M, K]⟩ ⟨2, ![K, N]⟩ ⟨2, ![M, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![M, K]⟩ φ₁) (rhs : FVec Ideal ⟨2, ![K, N]⟩ φ₂) (p : Fin M) (e : Fin N) :
    matmul D none lhs rhs (constant ⟨2, ![M, N]⟩ .f32 0x00000000#32) (ix2 p e) = ∑ k : Fin K, lhs (ix2 p k) * rhs (ix2 k e) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p e) ((contrEquiv1 D K hr hs).symm k) = ix2 p k := funext fun a => Fin.ext (by
    match a with
    | ⟨0, _⟩ => exact hl0 _ _
    | ⟨1, _⟩ => exact (hl1 _ _).trans hk)
  have er : D.rhsIdx (ix2 p e) ((contrEquiv1 D K hr hs).symm k) = ix2 k e := funext fun a => Fin.ext (by
    match a with
    | ⟨0, _⟩ => exact (hr0 _ _).trans hk
    | ⟨1, _⟩ => exact hr1 _ _)
  rw [el, er]

/-- So that product is the matrix product of the operands, whatever formats they carry. -/
theorem matmul_zero_eq_prod {M K N : ℕ} {φ₁ φ₂ : FTy}
    (D : DotDims ⟨2, ![M, K]⟩ ⟨2, ![K, N]⟩ ⟨2, ![M, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![M, K]⟩ φ₁) (rhs : FVec Ideal ⟨2, ![K, N]⟩ φ₂) :
    matmul D none lhs rhs (constant ⟨2, ![M, N]⟩ .f32 0x00000000#32) = prod (fun i => lhs i) (fun i => rhs i) := funext fun i => by
  obtain ⟨p, e, rfl⟩ : ∃ (p : Fin M) (e : Fin N), i = ix2 p e := ⟨i 0, i 1, eq_ix2 i⟩
  rw [matmul_zero_apply D hr hs hl0 hl1 hr0 hr1, prod_apply]

/-- A one-row block, cast to its own shape, spread down the rows and added, is the row added to every row. -/
theorem addf_spreadRow {a n : ℕ} (A : Mat a n) (v : Mat 1 n)
    (hc : (⟨2, ![1, n]⟩ : Shape).ShapeCasts ⟨2, ![1, n]⟩) (hb : (⟨2, ![1, n]⟩ : Shape).Broadcasts ⟨2, ![a, n]⟩) :
    addf A (broadcastTo ⟨2, ![a, n]⟩ (shapeCast ⟨2, ![1, n]⟩ v hc) hb) = addRow A v := funext fun i => by
  obtain ⟨p, e, rfl⟩ : ∃ (p : Fin a) (e : Fin n), i = ix2 p e := ⟨i 0, i 1, eq_ix2 i⟩
  rw [addf_apply, spreadRow_apply, addRow_apply]

/-- The entrywise maximum with a scalar zero spread over the block is the rectification. -/
theorem maximumf_zero_splat {a n : ℕ} (A : Mat a n) :
    maximumf A (broadcast ⟨2, ![a, n]⟩ (Scalar.ofBits (F := Ideal) .f32 0x00000000#32)) = relu A := rfl

end Cert.LibKernelLayers

end
-- ==== Proof.LibLayoutRead.lean ====
/-
  Layout operations of a block with a repeated middle axis, read at an index, over any extents.

  A kernel that evaluates a network at b points for each of a rows builds an `[a, b, c]` block from pieces that vary along
  one or two of the axes only, and flattens it to `[a · b, c]`: row r of the flat block is (r / b, r % b). The pieces enter
  by the layout operations read here, each at an index built from its coordinates:

  * a column `[a, 1]` spread over `[a, b]` reads (p, 0); a `[1, 1]` cell spread over `[a, 1]` reads (0, 0);
  * `[a, b]` viewed `[a, b, 1]`, and `[a, c]` viewed `[a, 1, c]`, read the same position;
  * `[a, b, 1]`, `[1, 1, c]`, `[a, 1, c]` spread over `[a, b, c]` read (p, s, 0), (0, 0, j), (p, 0, j);
    `[1, b, 1]` spread over `[a, b, 1]` reads (0, s, 0);
  * `[a, b, c]` viewed `[a · b, c]` reads (r / b, r % b, j) at (r, j), and `[a · b, 1]` viewed `[a, b, 1]` reads
    (p · b + s, 0) at (p, s, 0); a vector `[n]` viewed `[n, 1]` reads r at (r, 0);
  * a sum over the lanes of `[n, c]` is, at r, the sum over k of the entries (r, k); a sum over the middle axis of
    `[a, b, 1]` is, at (p, 0), the sum over s of the entries (p, s, 0).
-/
import Idealize.ShloMosaic.Lib.Pipeline.Value
import Idealize.ShloMosaic.Lib.ValueIdx
import Idealize.ShloMosaic.PureOps.Ideal.Laws

noncomputable section

namespace Cert.LibLayoutRead

open Idealize.ShloMosaic Idealize.ShloMosaic.ValueIdx

variable {α : Type}

/-- A column `[a, 1]` spread over `[a, b]` reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` cell spread over `[a, 1]` reads the cell. -/
theorem broadcastTo_11_a1_apply {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-- `[a, b]` viewed `[a, b, 1]` reads, at (p, s, 0), the entry (p, s). -/
theorem shapeCast_ab_ab1_apply {a b : ℕ} (x : (⟨2, ![a, b]⟩ : Shape).Idx → α)
    (h : (⟨2, ![a, b]⟩ : Shape).ShapeCasts ⟨3, ![a, b, 1]⟩) (p : Fin a) (s : Fin b) (u : Fin 1) :
    shapeCast ⟨3, ![a, b, 1]⟩ x h (ix3 p s u) = x (ix2 p s) :=
  shapeCast_apply x h _ _ (by
    have hu : u.val = 0 := by omega
    rw [Shape.rowMajor_val_two, Shape.rowMajor_val_three]
    show p.val * b + s.val = (p.val * b + s.val) * 1 + u.val
    omega)

/-- `[a, c]` viewed `[a, 1, c]` reads, at (p, 0, j), the entry (p, j). -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (j : Fin c) :
    shapeCast ⟨3, ![a, 1, c]⟩ x h (ix3 p u j) = x (ix2 p j) :=
  shapeCast_apply x h _ _ (by
    have hu : u.val = 0 := by omega
    rw [Shape.rowMajor_val_two, Shape.rowMajor_val_three]
    show p.val * c + j.val = (p.val * 1 + u.val) * c + j.val
    rw [hu, Nat.mul_one, Nat.add_zero])

/-- `[1, c]` viewed `[1, 1, c]` reads, at (0, 0, j), the entry (0, j). -/
theorem shapeCast_1c_11c_apply {c : ℕ} (x : (⟨2, ![1, c]⟩ : Shape).Idx → α)
    (h : (⟨2, ![1, c]⟩ : Shape).ShapeCasts ⟨3, ![1, 1, c]⟩) (u v : Fin 1) (j : Fin c) :
    shapeCast ⟨3, ![1, 1, c]⟩ x h (ix3 u v j) = x (ix2 (0 : Fin 1) j) :=
  shapeCast_apply x h _ _ (by
    have hu : u.val = 0 := by omega
    have hv : v.val = 0 := by omega
    rw [Shape.rowMajor_val_two, Shape.rowMajor_val_three]
    show (0 : ℕ) * c + j.val = (u.val * 1 + v.val) * c + j.val
    rw [hu, hv])

/-- `[b, 1]` viewed `[1, b, 1]` reads, at (0, s, 0), the entry (s, 0). -/
theorem shapeCast_b1_1b1_apply {b : ℕ} (x : (⟨2, ![b, 1]⟩ : Shape).Idx → α)
    (h : (⟨2, ![b, 1]⟩ : Shape).ShapeCasts ⟨3, ![1, b, 1]⟩) (u : Fin 1) (s : Fin b) (v : Fin 1) :
    shapeCast ⟨3, ![1, b, 1]⟩ x h (ix3 u s v) = x (ix2 s (0 : Fin 1)) :=
  shapeCast_apply x h _ _ (by
    have hu : u.val = 0 := by omega
    have hv : v.val = 0 := by omega
    rw [Shape.rowMajor_val_two, Shape.rowMajor_val_three]
    show s.val * 1 + (0 : ℕ) = (u.val * b + s.val) * 1 + v.val
    rw [hu, hv]; omega)

/-- `[a, b, 1]` spread over `[a, b, c]` reads, at (p, s, j), the entry (p, s, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (j : Fin c) :
    broadcastTo ⟨3, ![a, b, c]⟩ v h (ix3 p s j) = v (ix3 p s (0 : Fin 1)) := by
  refine broadcastTo_apply v h (ix3 p s j) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

/-- `[1, 1, c]` spread over `[a, b, c]` reads, at (p, s, j), the entry (0, 0, j). -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (j : Fin c) :
    broadcastTo ⟨3, ![a, b, c]⟩ v h (ix3 p s j) = v (ix3 (0 : Fin 1) (0 : Fin 1) j) := by
  refine broadcastTo_apply v h (ix3 p s j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

/-- `[a, 1, c]` spread over `[a, b, c]` reads, at (p, s, j), the entry (p, 0, j). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (s : Fin b) (j : Fin c) :
    broadcastTo ⟨3, ![a, b, c]⟩ v h (ix3 p s j) = v (ix3 p (0 : Fin 1) j) := by
  refine broadcastTo_apply v h (ix3 p s j) (ix3 p (0 : Fin 1) j) fun ax => ?_
  match ax with
  | ⟨0, _⟩ =>
    show p.val = if a = 1 then 0 else p.val
    split
    · have := p.isLt; omega
    · rfl
  | ⟨1, _⟩ => rfl
  | ⟨2, _⟩ =>
    show j.val = if c = 1 then 0 else j.val
    split
    · have := j.isLt; omega
    · rfl

/-- `[1, b, 1]` spread over `[a, b, 1]` reads, at (p, s, 0), the entry (0, s, 0). -/
theorem broadcastTo_1b1_ab1_apply {a b : ℕ} (v : (⟨3, ![1, b, 1]⟩ : Shape).Idx → α)
    (h : (⟨3, ![1, b, 1]⟩ : Shape).Broadcasts ⟨3, ![a, b, 1]⟩) (p : Fin a) (s : Fin b) (u : Fin 1) :
    broadcastTo ⟨3, ![a, b, 1]⟩ v h (ix3 p s u) = v (ix3 (0 : Fin 1) s (0 : Fin 1)) := by
  refine broadcastTo_apply v h (ix3 p s u) (ix3 (0 : Fin 1) s (0 : Fin 1)) fun ax => ?_
  match ax with
  | ⟨0, _⟩ => rfl
  | ⟨1, _⟩ =>
    show s.val = if b = 1 then 0 else s.val
    split
    · have := s.isLt; omega
    · rfl
  | ⟨2, _⟩ => rfl

/-- `[a, b, c]` viewed `[n, c]` with n = a · b reads, at (r, j), the entry (r / b, r % b, j). -/
theorem shapeCast_abc_nc_apply {a b c n : ℕ} (x : (⟨3, ![a, b, c]⟩ : Shape).Idx → α)
    (h : (⟨3, ![a, b, c]⟩ : Shape).ShapeCasts ⟨2, ![n, c]⟩) (p : Fin a) (s : Fin b) (r : Fin n) (j : Fin c)
    (hr : r.val = p.val * b + s.val) :
    shapeCast ⟨2, ![n, c]⟩ x h (ix2 r j) = x (ix3 p s j) :=
  shapeCast_apply x h _ _ (by
    rw [Shape.rowMajor_val_two, Shape.rowMajor_val_three]
    show (p.val * b + s.val) * c + j.val = r.val * c + j.val
    rw [hr])

/-- `[n, 1]` with n = a · b viewed `[a, b, 1]` reads, at (p, s, 0), the entry (p · b + s, 0). -/
theorem shapeCast_n1_ab1_apply {a b n : ℕ} (x : (⟨2, ![n, 1]⟩ : Shape).Idx → α)
    (h : (⟨2, ![n, 1]⟩ : Shape).ShapeCasts ⟨3, ![a, b, 1]⟩) (p : Fin a) (s : Fin b) (u : Fin 1) (r : Fin n)
    (hr : r.val = p.val * b + s.val) :
    shapeCast ⟨3, ![a, b, 1]⟩ x h (ix3 p s u) = x (ix2 r (0 : Fin 1)) :=
  shapeCast_apply x h _ _ (by
    have hu : u.val = 0 := by omega
    rw [Shape.rowMajor_val_two, Shape.rowMajor_val_three]
    show r.val * 1 + (0 : ℕ) = (p.val * b + s.val) * 1 + u.val
    rw [hr, hu])

/-- A vector `[n]` viewed `[n, 1]` reads, at (r, 0), the entry r. -/
theorem shapeCast_n_n1_apply {n : ℕ} (x : (⟨1, ![n]⟩ : Shape).Idx → α)
    (h : (⟨1, ![n]⟩ : Shape).ShapeCasts ⟨2, ![n, 1]⟩) (r : Fin n) (u : Fin 1) :
    shapeCast ⟨2, ![n, 1]⟩ x h (ix2 r u) = x (ix1 r) :=
  shapeCast_apply x h _ _ (by
    have hu : u.val = 0 := by omega
    rw [Shape.rowMajor_val_one, Shape.rowMajor_val_two]
    show r.val = r.val * 1 + u.val
    omega)

/-- A sum over the lanes of `[n, c]`, at r: the sum over k of the entries (r, k). -/
theorem multiReduction_lanes_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ k : Fin c, src (ix2 r k) :=
  (Ideal.multiReduction_add_single src 0x00000000#32 h hφ hacc (ix1 r)).trans
    (Finset.sum_congr rfl fun k _ => congrArg src (funext fun ax => Fin.ext (by
      match ax with
      | ⟨0, _⟩ => rfl
      | ⟨1, _⟩ => rfl)))

/-- A sum over the middle axis of `[a, b, 1]`, at (p, 0): the sum over s of the entries (p, s, 0). -/
theorem multiReduction_middle_apply {a b : ℕ} (src : FVec Ideal ⟨3, ![a, b, 1]⟩ .f32)
    (h : (⟨3, ![a, b, 1]⟩ : Shape).Reduces [1] ⟨2, ![a, 1]⟩) (hφ : FKind.Formats .f32)
    (hacc : (0x00000000#32 : BitVec 32) = FKind.add.neutral .f32 hφ) (p : Fin a) (u : Fin 1) :
    multiReduction .add [1] ⟨2, ![a, 1]⟩ src 0x00000000#32 h hφ hacc (ix2 p u) = ∑ s : Fin b, src (ix3 p s (0 : Fin 1)) :=
  (Ideal.multiReduction_add_single src 0x00000000#32 h hφ hacc (ix2 p u)).trans
    (Finset.sum_congr rfl fun k _ => congrArg src (funext fun ax => Fin.ext (by
      have hu : u.val = 0 := by omega
      match ax with
      | ⟨0, _⟩ => rfl
      | ⟨1, _⟩ => rfl
      | ⟨2, _⟩ => exact hu)))

/-- The lane sum as a kernel body spells it: the accumulator word is the zero word, by computation. -/
theorem multiReduction_lanes_zero_apply {n c : ℕ} (src : FVec Ideal ⟨2, ![n, c]⟩ .f32)
    (h : (⟨2, ![n, c]⟩ : Shape).Reduces [1] ⟨1, ![n]⟩) (r : Fin n) :
    multiReduction .add [1] ⟨1, ![n]⟩ src 0x00000000#32 h (.inl rfl) rfl (ix1 r) = ∑ k : Fin c, src (ix2 r k) :=
  multiReduction_lanes_apply src h (.inl rfl) rfl r

/-- The middle-axis sum as a kernel body spells it. -/
theorem multiReduction_middle_zero_apply {a b : ℕ} (src : FVec Ideal ⟨3, ![a, b, 1]⟩ .f32)
    (h : (⟨3, ![a, b, 1]⟩ : Shape).Reduces [1] ⟨2, ![a, 1]⟩) (p : Fin a) (u : Fin 1) :
    multiReduction .add [1] ⟨2, ![a, 1]⟩ src 0x00000000#32 h (.inl rfl) rfl (ix2 p u) = ∑ s : Fin b, src (ix3 p s (0 : Fin 1)) :=
  multiReduction_middle_apply src h (.inl rfl) rfl p u

end Cert.LibLayoutRead

end
-- ==== Proof.Spec.lean ====
/-
  The network both programs compute, as plain functions on the extended reals.

  A batch of B = 2,097,152 rows of 8 features goes through five blocks
      y = x·Wᵀ + b,   z = max(γ·(y − mean y)·rsqrt(var y + ε) + β, 0)
  (the second and the fourth followed by a skip connection and another max with 0), then a last affine map to one
  feature and the logistic function.  The mean of a feature is its sum over the batch divided by B.  The two programs
  differ only in how they take the variance of a feature over the batch:
    * `varDev`: the mean of the squared deviations from the mean;
    * `varSq` : the mean of the squares minus the squared mean, clamped below at 0.
  On real data the two agree (the mean of squared deviations IS the mean of squares minus the squared mean, and it is
  nonnegative); on the extended reals they need not, which is where finiteness of the inputs is used.
-/
import Idealize.ShloMosaic.PureOps.Ideal
import Idealize.ShloMosaic.PureOps.Ideal.Laws
import Idealize.ShloMosaic.Lib.ValueIdx

noncomputable section

namespace Cert.BatchNet

open Idealize.ShloMosaic Idealize.ShloMosaic.ValueIdx

/-- The batch size. -/
abbrev B : ℕ := 2097152

/-- The batch size as the f32 literal both programs divide by (2²¹, exactly). -/
def cB : EReal := Ideal.ofBits .f32 0x4A000000#32

/-- The f32 literal nearest 1e-5 that both programs add to the variance. -/
def cEps : EReal := Ideal.ofBits .f32 0x3727C5AC#32

/-- An affine layer on rows: `y r o = ∑ j, x r j · w o j + b o`. -/
def lin {n k d : ℕ} (x : Fin n → Fin k → EReal) (w : Fin d → Fin k → EReal) (b : Fin d → EReal) (r : Fin n) (o : Fin d) : EReal :=
  (∑ j, x r j * w o j) + b o

/-- The mean of feature `o` over the batch. -/
def mean {n d : ℕ} (y : Fin n → Fin d → EReal) (o : Fin d) : EReal := Ideal.div (∑ r, y r o) cB

/-- The variance as the mean of squared deviations. -/
def varDev {n d : ℕ} (y : Fin n → Fin d → EReal) (o : Fin d) : EReal :=
  Ideal.div (∑ r, (y r o - mean y o) * (y r o - mean y o)) cB

/-- The variance as the mean of squares minus the squared mean, clamped below at zero. -/
def varSq {n d : ℕ} (y : Fin n → Fin d → EReal) (o : Fin d) : EReal :=
  max (Ideal.div (∑ r, y r o * y r o) cB - mean y o * mean y o) 0

/-- A way of taking the variance of every feature of a batch. -/
abbrev VarFn := ∀ {n d : ℕ}, (Fin n → Fin d → EReal) → Fin d → EReal

/-- Normalisation with gain `g` and shift `be`, then max with zero, for a variance `v` of each feature. -/
def normRelu {n d : ℕ} (v : Fin d → EReal) (g be : Fin d → EReal) (y : Fin n → Fin d → EReal) (r : Fin n) (o : Fin d) : EReal :=
  max (g o * (y r o - mean y o) * Ideal.rsqrt (v o + cEps) + be o) 0

/-- One block: affine layer, batch normalisation with the variance taken by `vf`, max with zero. -/
def block (vf : VarFn) {n k d : ℕ} (x : Fin n → Fin k → EReal) (w : Fin d → Fin k → EReal) (b g be : Fin d → EReal) :
    Fin n → Fin d → EReal :=
  normRelu (vf (lin x w b)) g be (lin x w b)

/-- A block with a skip connection: `max(block x + x, 0)`. -/
def skipBlock (vf : VarFn) {n d : ℕ} (x : Fin n → Fin d → EReal) (w : Fin d → Fin d → EReal) (b g be : Fin d → EReal)
    (r : Fin n) (o : Fin d) : EReal :=
  max (block vf x w b g be r o + x r o) 0

/-- The network's weights. -/
structure Params where
  w_fm : Fin 16 → Fin 8 → EReal
  b_fm : Fin 16 → EReal
  g_fm : Fin 16 → EReal
  be_fm : Fin 16 → EReal
  w_c1 : Fin 16 → Fin 16 → EReal
  b_c1 : Fin 16 → EReal
  g_c1 : Fin 16 → EReal
  be_c1 : Fin 16 → EReal
  w_p1 : Fin 12 → Fin 16 → EReal
  b_p1 : Fin 12 → EReal
  g_p1 : Fin 12 → EReal
  be_p1 : Fin 12 → EReal
  w_c2 : Fin 12 → Fin 12 → EReal
  b_c2 : Fin 12 → EReal
  g_c2 : Fin 12 → EReal
  be_c2 : Fin 12 → EReal
  w_p2 : Fin 8 → Fin 12 → EReal
  b_p2 : Fin 8 → EReal
  g_p2 : Fin 8 → EReal
  be_p2 : Fin 8 → EReal
  w_fc : Fin 1 → Fin 8 → EReal
  b_fc : Fin 1 → EReal

/-- The activations after each block, for a variance `vf`. -/
def act1 (vf : VarFn) {n : ℕ} (x : Fin n → Fin 8 → EReal) (p : Params) : Fin n → Fin 16 → EReal :=
  block vf x p.w_fm p.b_fm p.g_fm p.be_fm
def act2 (vf : VarFn) {n : ℕ} (x : Fin n → Fin 8 → EReal) (p : Params) : Fin n → Fin 16 → EReal :=
  skipBlock vf (act1 vf x p) p.w_c1 p.b_c1 p.g_c1 p.be_c1
def act3 (vf : VarFn) {n : ℕ} (x : Fin n → Fin 8 → EReal) (p : Params) : Fin n → Fin 12 → EReal :=
  block vf (act2 vf x p) p.w_p1 p.b_p1 p.g_p1 p.be_p1
def act4 (vf : VarFn) {n : ℕ} (x : Fin n → Fin 8 → EReal) (p : Params) : Fin n → Fin 12 → EReal :=
  skipBlock vf (act3 vf x p) p.w_c2 p.b_c2 p.g_c2 p.be_c2
def act5 (vf : VarFn) {n : ℕ} (x : Fin n → Fin 8 → EReal) (p : Params) : Fin n → Fin 8 → EReal :=
  block vf (act4 vf x p) p.w_p2 p.b_p2 p.g_p2 p.be_p2

/-- The network's output for row `r`: the logistic function of the last affine layer's one feature. -/
def net (vf : VarFn) {n : ℕ} (x : Fin n → Fin 8 → EReal) (p : Params) (r : Fin n) : EReal :=
  Ideal.logistic (lin (act5 vf x p) p.w_fc p.b_fc r 0)

/-! ## Arrays as functions of coordinates -/

/-- A two-axis array as a function of (row, column). -/
def rows {n d : ℕ} (a : FVec Ideal ⟨2, ![n, d]⟩ .f32) : Fin n → Fin d → EReal := fun r k => a (ix2 r k)

/-- A one-axis array as a function of its coordinate. -/
def vec {d : ℕ} (a : FVec Ideal ⟨1, ![d]⟩ .f32) : Fin d → EReal := fun o => a (ix1 o)

/-- The weights, from the 22 weight arrays in argument order. -/
def params (a1 : FVec Ideal ⟨2, ![16, 8]⟩ .f32) (a2 a3 a4 : FVec Ideal ⟨1, ![16]⟩ .f32)
    (a5 : FVec Ideal ⟨2, ![16, 16]⟩ .f32) (a6 a7 a8 : FVec Ideal ⟨1, ![16]⟩ .f32)
    (a9 : FVec Ideal ⟨2, ![12, 16]⟩ .f32) (a10 a11 a12 : FVec Ideal ⟨1, ![12]⟩ .f32)
    (a13 : FVec Ideal ⟨2, ![12, 12]⟩ .f32) (a14 a15 a16 : FVec Ideal ⟨1, ![12]⟩ .f32)
    (a17 : FVec Ideal ⟨2, ![8, 12]⟩ .f32) (a18 a19 a20 : FVec Ideal ⟨1, ![8]⟩ .f32)
    (a21 : FVec Ideal ⟨2, ![1, 8]⟩ .f32) (a22 : FVec Ideal ⟨1, ![1]⟩ .f32) : Params where
  w_fm := rows a1
  b_fm := vec a2
  g_fm := vec a3
  be_fm := vec a4
  w_c1 := rows a5
  b_c1 := vec a6
  g_c1 := vec a7
  be_c1 := vec a8
  w_p1 := rows a9
  b_p1 := vec a10
  g_p1 := vec a11
  be_p1 := vec a12
  w_c2 := rows a13
  b_c2 := vec a14
  g_c2 := vec a15
  be_c2 := vec a16
  w_p2 := rows a17
  b_p2 := vec a18
  g_p2 := vec a19
  be_p2 := vec a20
  w_fc := rows a21
  b_fc := vec a22

/-- The network's output as a [B, 1] array. -/
def result (vf : VarFn) (a0 : FVec Ideal ⟨2, ![B, 8]⟩ .f32) (p : Params) : FVec Ideal ⟨2, ![B, 1]⟩ .f32 :=
  fun i => net vf (rows a0) p (i 0)

end Cert.BatchNet

end
-- ==== Proof.TileLayers.lean ====
/-
  What one kernel body does to a tile of columns, for any extents.

  The activations are kept feature-major: an array [d, n] holds feature `o` of row `r` at (o, r).  On a tile X of
  columns a body computes
      aff W X b   = W·X + b                         (b a column, added to every column of the product)
      bn Y …      = max(γ·(Y − μ)·rsqrt(σ² + ε) + β, 0)   (γ, β, μ, σ² columns: one entry per feature)
      skip A X    = max(A + X, 0)
  and the two lane sums of the next layer's affine map, ∑ₗ Y(o, l) and ∑ₗ Y(o, l)², added into a [1, d, 2] block.
  Every one of these acts column by column, so a tile of the result is the result of the tile.
-/
import Idealize.ShloMosaic.Lib.ValueIdx
import Idealize.ShloMosaic.Lib.ValueLayout
import Idealize.ShloMosaic.Lib.Pipeline.Value
import Idealize.ShloMosaic.PureOps.Ideal.Laws
import proofs.«114887_j65481071405707_2_alg».proof.Proof.LibDenseLayers
import proofs.«114887_j65481071405707_2_alg».proof.Proof.LibKernelLayers
import proofs.«114887_j65481071405707_2_alg».proof.Proof.LibLayoutRead
import proofs.«114887_j65481071405707_2_alg».proof.Proof.Spec

noncomputable section

namespace Cert.BatchNet.Tile

open Idealize.ShloMosaic Idealize.ShloMosaic.ValueIdx Cert.LibDenseLayers Cert.LibKernelLayers Cert.LibLayoutRead Cert.BatchNet

/-- `W·X + b` on a tile of columns. -/
def aff {o k n : ℕ} (W : Mat o k) (X : Mat k n) (b : Mat o 1) : Mat o n :=
  fun i => (∑ j : Fin k, W (ix2 (rowOf i) j) * X (ix2 j (colOf i))) + b (ix2 (rowOf i) (0 : Fin 1))

/-- Normalisation of every feature by its mean and variance, gain and shift, then max with zero. -/
def bn {o n : ℕ} (Y : Mat o n) (g be mu var : Mat o 1) : Mat o n := fun i =>
  max (g (ix2 (rowOf i) (0 : Fin 1)) * (Y i - mu (ix2 (rowOf i) (0 : Fin 1)))
      * Ideal.rsqrt (var (ix2 (rowOf i) (0 : Fin 1)) + cEps) + be (ix2 (rowOf i) (0 : Fin 1))) 0

/-- The skip connection: `max(A + X, 0)`. -/
def skip {o n : ℕ} (A X : Mat o n) : Mat o n := fun i => max (A i + X i) 0

theorem aff_apply {o k n : ℕ} (W : Mat o k) (X : Mat k n) (b : Mat o 1) (p : Fin o) (e : Fin n) :
    aff W X b (ix2 p e) = (∑ j : Fin k, W (ix2 p j) * X (ix2 j e)) + b (ix2 p (0 : Fin 1)) := rfl

theorem bn_apply {o n : ℕ} (Y : Mat o n) (g be mu var : Mat o 1) (p : Fin o) (e : Fin n) :
    bn Y g be mu var (ix2 p e) = max (g (ix2 p (0 : Fin 1)) * (Y (ix2 p e) - mu (ix2 p (0 : Fin 1)))
      * Ideal.rsqrt (var (ix2 p (0 : Fin 1)) + cEps) + be (ix2 p (0 : Fin 1))) 0 := rfl

theorem skip_apply {o n : ℕ} (A X : Mat o n) (p : Fin o) (e : Fin n) :
    skip A X (ix2 p e) = max (A (ix2 p e) + X (ix2 p e)) 0 := rfl

section Bodies

variable {o k n : ℕ}
  (D : DotDims ⟨2, ![o, k]⟩ ⟨2, ![k, n]⟩ ⟨2, ![o, n]⟩) (hr : D.contr.rank = 1)
  (hs : D.contr.size ⟨0, by omega⟩ = k)
  (hl0 : ∀ i q, (D.lhsIdx i q 0).val = (i 0).val)
  (hl1 : ∀ i q, (D.lhsIdx i q 1).val = (q ⟨0, by omega⟩).val)
  (hr0 : ∀ i q, (D.rhsIdx i q 0).val = (q ⟨0, by omega⟩).val)
  (hr1 : ∀ i q, (D.rhsIdx i q 1).val = (i 1).val)
  (cX : (⟨2, ![k, n]⟩ : Shape).ShapeCasts ⟨2, ![k, n]⟩)
  (c1 : (⟨2, ![o, 1]⟩ : Shape).ShapeCasts ⟨2, ![o, 1]⟩)
  (bc : (⟨2, ![o, 1]⟩ : Shape).Broadcasts ⟨2, ![o, n]⟩)

include hr hs hl0 hl1 hr0 hr1

/-- A body's affine map — the product into a zero block plus the spread bias column — is `aff`. -/
theorem affine_eq (W : Mat o k) (X : Mat k n) (b : Mat o 1) :
    addf (matmul D none W (shapeCast ⟨2, ![k, n]⟩ X cX) (constant ⟨2, ![o, n]⟩ .f32 0x00000000#32))
      (broadcastTo ⟨2, ![o, n]⟩ (shapeCast ⟨2, ![o, 1]⟩ b c1) bc) = aff W X b := funext fun i => by
  obtain ⟨p, e, rfl⟩ : ∃ (p : Fin o) (e : Fin n), i = ix2 p e := ⟨i 0, i 1, eq_ix2 i⟩
  rw [addf_apply, matmul_zero_apply D hr hs hl0 hl1 hr0 hr1, broadcastTo_a1_ab_apply, shapeCast_self, shapeCast_self,
    aff_apply]

/-- The same with the right operand not cast (a value the body computed). -/
theorem affine_eq' (W : Mat o k) (X : Mat k n) (b : Mat o 1) :
    addf (matmul D none W X (constant ⟨2, ![o, n]⟩ .f32 0x00000000#32))
      (broadcastTo ⟨2, ![o, n]⟩ (shapeCast ⟨2, ![o, 1]⟩ b c1) bc) = aff W X b := funext fun i => by
  obtain ⟨p, e, rfl⟩ : ∃ (p : Fin o) (e : Fin n), i = ix2 p e := ⟨i 0, i 1, eq_ix2 i⟩
  rw [addf_apply, matmul_zero_apply D hr hs hl0 hl1 hr0 hr1, broadcastTo_a1_ab_apply, shapeCast_self, aff_apply]

omit hr hs hl0 hl1 hr0 hr1

/-- A body's normalisation of a block `Y` by the columns it loaded is `bn`. -/
theorem norm_eq (Y : Mat o n) (g be mu var : Mat o 1) :
    maximumf
      (addf
        (mulf
          (mulf (broadcastTo ⟨2, ![o, n]⟩ (shapeCast ⟨2, ![o, 1]⟩ g c1) bc)
            (subf Y (broadcastTo ⟨2, ![o, n]⟩ (shapeCast ⟨2, ![o, 1]⟩ mu c1) bc)))
          (broadcastTo ⟨2, ![o, n]⟩
            (rsqrt (addf (shapeCast ⟨2, ![o, 1]⟩ var c1)
              (broadcast ⟨2, ![o, 1]⟩ (Scalar.ofBits (F := Ideal) .f32 0x3727C5AC#32)))) bc))
        (broadcastTo ⟨2, ![o, n]⟩ (shapeCast ⟨2, ![o, 1]⟩ be c1) bc))
      (broadcast ⟨2, ![o, n]⟩ (Scalar.ofBits (F := Ideal) .f32 0x00000000#32))
    = bn Y g be mu var := funext fun i => by
  obtain ⟨p, e, rfl⟩ : ∃ (p : Fin o) (e : Fin n), i = ix2 p e := ⟨i 0, i 1, eq_ix2 i⟩
  rw [maximumf_apply, addf_apply, mulf_apply, mulf_apply, subf_apply, broadcastTo_a1_ab_apply, broadcastTo_a1_ab_apply,
    broadcastTo_a1_ab_apply, broadcastTo_a1_ab_apply, shapeCast_self, shapeCast_self, shapeCast_self, bn_apply,
    broadcast_apply]
  rw [shapeCast_self]
  show max _ (Ideal.ofBits .f32 0x00000000#32) = _
  rw [Ideal.ofBits_zero_f32]
  rfl

end Bodies

/-! ## The two lane sums, added into a [1, d, 2] block -/

/-- The block of the two lane sums of `Y`: entry (0, o, 0) is ∑ₗ Y(o, l), entry (0, o, 1) is ∑ₗ Y(o, l)². -/
def laneSums {d n : ℕ} (Y : Mat d n) : FVec Ideal ⟨3, ![1, d, 2]⟩ .f32 := fun i =>
  if (i 2).val = 0 then ∑ l : Fin n, Y (ix2 ⟨(i 1).val, (i 1).isLt⟩ l)
  else ∑ l : Fin n, Y (ix2 ⟨(i 1).val, (i 1).isLt⟩ l) * Y (ix2 ⟨(i 1).val, (i 1).isLt⟩ l)

theorem laneSums_apply0 {d n : ℕ} (Y : Mat d n) (o : Fin d) :
    laneSums Y (ix3 (0 : Fin 1) o (0 : Fin 2)) = ∑ l : Fin n, Y (ix2 o l) := rfl

theorem laneSums_apply1 {d n : ℕ} (Y : Mat d n) (o : Fin d) :
    laneSums Y (ix3 (0 : Fin 1) o (1 : Fin 2)) = ∑ l : Fin n, Y (ix2 o l) * Y (ix2 o l) := rfl

/-- The two lane sums side by side, read at (p, u): column 0 the sum of `Y`'s row, column 1 the sum of its squares. -/
theorem sums_pair_apply {d n : ℕ} (Y : Mat d n)
    (hred : (⟨2, ![d, n]⟩ : Shape).Reduces [1] ⟨1, ![d]⟩)
    (cCol : (⟨1, ![d]⟩ : Shape).ShapeCasts ⟨2, ![d, 1]⟩)
    (hcat : Shape.Concatenates [⟨2, ![d, 1]⟩, ⟨2, ![d, 1]⟩] ⟨2, ![d, 2]⟩ 1) (p : Fin d) (u : Fin 2) :
    concatenate ⟨2, ![d, 2]⟩ 1
      [⟨⟨2, ![d, 1]⟩, shapeCast ⟨2, ![d, 1]⟩ (multiReduction .add [1] ⟨1, ![d]⟩ Y 0x00000000#32 hred (.inl rfl) rfl) cCol⟩,
       ⟨⟨2, ![d, 1]⟩, shapeCast ⟨2, ![d, 1]⟩ (multiReduction .add [1] ⟨1, ![d]⟩ (mulf Y Y) 0x00000000#32 hred (.inl rfl) rfl) cCol⟩]
      hcat (ix2 p u)
    = if u.val = 0 then ∑ l : Fin n, Y (ix2 p l) else ∑ l : Fin n, Y (ix2 p l) * Y (ix2 p l) := by
  by_cases h2 : u.val = 0
  · rw [if_pos h2]
    refine (concatenate_pair_apply_left (t := ⟨2, ![d, 2]⟩) (1 : Fin 2) _ _ hcat (ix2 p u) rfl
      (ix2 p (0 : Fin 1)) (fun b => by
        match b with
        | ⟨0, _⟩ => rfl
        | ⟨1, _⟩ => exact h2.symm)).trans ?_
    exact (shapeCast_n_n1_apply _ cCol _ _).trans (multiReduction_lanes_zero_apply Y hred _)
  · rw [if_neg h2]
    have h21 : u.val = 1 := by have := u.isLt; omega
    refine (concatenate_pair_apply_right (t := ⟨2, ![d, 2]⟩) (1 : Fin 2) _ _ hcat (ix2 p u) rfl rfl
      (ix2 p (0 : Fin 1)) (fun b hb => by
        match b with
        | ⟨0, _⟩ => rfl
        | ⟨1, _⟩ => exact absurd rfl hb) (by show 0 + 1 = u.val; omega)).trans ?_
    exact (shapeCast_n_n1_apply _ cCol _ _).trans (multiReduction_lanes_zero_apply (mulf Y Y) hred _)

/-- A body's update of the statistics block: the old block plus the two lane sums of `Y`, side by side. -/
theorem stats_eq {d n : ℕ} (Y : Mat d n) (old : FVec Ideal ⟨3, ![1, d, 2]⟩ .f32)
    (hred : (⟨2, ![d, n]⟩ : Shape).Reduces [1] ⟨1, ![d]⟩)
    (cCol : (⟨1, ![d]⟩ : Shape).ShapeCasts ⟨2, ![d, 1]⟩)
    (cDrop : (⟨3, ![1, d, 2]⟩ : Shape).ShapeCasts ⟨2, ![d, 2]⟩)
    (cAdd : (⟨2, ![d, 2]⟩ : Shape).ShapeCasts ⟨3, ![1, d, 2]⟩)
    (hcat : Shape.Concatenates [⟨2, ![d, 1]⟩, ⟨2, ![d, 1]⟩] ⟨2, ![d, 2]⟩ 1) :
    shapeCast ⟨3, ![1, d, 2]⟩
      (addf (shapeCast ⟨2, ![d, 2]⟩ old cDrop)
        (concatenate ⟨2, ![d, 2]⟩ 1
          [⟨⟨2, ![d, 1]⟩, shapeCast ⟨2, ![d, 1]⟩ (multiReduction .add [1] ⟨1, ![d]⟩ Y 0x00000000#32 hred (.inl rfl) rfl) cCol⟩,
           ⟨⟨2, ![d, 1]⟩, shapeCast ⟨2, ![d, 1]⟩ (multiReduction .add [1] ⟨1, ![d]⟩ (mulf Y Y) 0x00000000#32 hred (.inl rfl) rfl) cCol⟩]
          hcat)) cAdd
    = addf old (laneSums Y) := funext fun j => by
  have hj0 : (j 0).val = 0 := by have := (j 0).isLt; simp at this; omega
  have hq : (fun a => j a.succ : (⟨2, ![d, 2]⟩ : Shape).Idx)
      = ix2 (⟨(j 1).val, (j 1).isLt⟩ : Fin d) (⟨(j 2).val, (j 2).isLt⟩ : Fin 2) := funext fun a => by
    match a with
    | ⟨0, _⟩ => rfl
    | ⟨1, _⟩ => rfl
  refine (shapeCast_addUnit_apply ![d, 2] _ cAdd j).trans ?_
  show (_ : EReal) + _ = _ + _
  congr 1
  · refine (shapeCast_dropUnit_apply ![d, 2] old cDrop _).trans (congrArg old ?_)
    funext a
    refine Fin.cases ?_ (fun b => ?_) a
    · exact Fin.ext hj0.symm
    · rfl
  · refine (congrArg _ hq).trans ((sums_pair_apply Y hred cCol hcat _ _).trans ?_)
    rfl

/-! ## Whole bodies -/

section Whole

variable {o k n : ℕ}
  (D : DotDims ⟨2, ![o, k]⟩ ⟨2, ![k, n]⟩ ⟨2, ![o, n]⟩) (hr : D.contr.rank = 1)
  (hs : D.contr.size ⟨0, by omega⟩ = k)
  (hl0 : ∀ i q, (D.lhsIdx i q 0).val = (i 0).val)
  (hl1 : ∀ i q, (D.lhsIdx i q 1).val = (q ⟨0, by omega⟩).val)
  (hr0 : ∀ i q, (D.rhsIdx i q 0).val = (q ⟨0, by omega⟩).val)
  (hr1 : ∀ i q, (D.rhsIdx i q 1).val = (i 1).val)
  (cX : (⟨2, ![k, n]⟩ : Shape).ShapeCasts ⟨2, ![k, n]⟩)
  (c1 : (⟨2, ![o, 1]⟩ : Shape).ShapeCasts ⟨2, ![o, 1]⟩)
  (bc : (⟨2, ![o, 1]⟩ : Shape).Broadcasts ⟨2, ![o, n]⟩)

include hr hs hl0 hl1 hr0 hr1

/-- A body's activation block: the affine map of the loaded tile, normalised. -/
theorem act_eq (W : Mat o k) (X : Mat k n) (b g be mu var : Mat o 1) :
    maximumf
      (addf
        (mulf
          (mulf (broadcastTo ⟨2, ![o, n]⟩ (shapeCast ⟨2, ![o, 1]⟩ g c1) bc)
            (subf
              (addf (matmul D none W (shapeCast ⟨2, ![k, n]⟩ X cX) (constant ⟨2, ![o, n]⟩ .f32 0x00000000#32))
                (broadcastTo ⟨2, ![o, n]⟩ (shapeCast ⟨2, ![o, 1]⟩ b c1) bc))
              (broadcastTo ⟨2, ![o, n]⟩ (shapeCast ⟨2, ![o, 1]⟩ mu c1) bc)))
          (broadcastTo ⟨2, ![o, n]⟩
            (rsqrt (addf (shapeCast ⟨2, ![o, 1]⟩ var c1)
              (broadcast ⟨2, ![o, 1]⟩ (Scalar.ofBits (F := Ideal) .f32 0x3727C5AC#32)))) bc))
        (broadcastTo ⟨2, ![o, n]⟩ (shapeCast ⟨2, ![o, 1]⟩ be c1) bc))
      (broadcast ⟨2, ![o, n]⟩ (Scalar.ofBits (F := Ideal) .f32 0x00000000#32))
    = bn (aff W X b) g be mu var := by
  rw [affine_eq D hr hs hl0 hl1 hr0 hr1 cX c1 bc]
  exact norm_eq c1 bc _ _ _ _ _

/-- A body's update of the statistics block by the next layer's affine map of a block `A` it computed. -/
theorem stats_aff_eq (W : Mat o k) (A : Mat k n) (b : Mat o 1) (old : FVec Ideal ⟨3, ![1, o, 2]⟩ .f32)
    (hred : (⟨2, ![o, n]⟩ : Shape).Reduces [1] ⟨1, ![o]⟩)
    (cCol : (⟨1, ![o]⟩ : Shape).ShapeCasts ⟨2, ![o, 1]⟩)
    (cDrop : (⟨3, ![1, o, 2]⟩ : Shape).ShapeCasts ⟨2, ![o, 2]⟩)
    (cAdd : (⟨2, ![o, 2]⟩ : Shape).ShapeCasts ⟨3, ![1, o, 2]⟩)
    (hcat : Shape.Concatenates [⟨2, ![o, 1]⟩, ⟨2, ![o, 1]⟩] ⟨2, ![o, 2]⟩ 1) :
    shapeCast ⟨3, ![1, o, 2]⟩
      (addf (shapeCast ⟨2, ![o, 2]⟩ old cDrop)
        (concatenate ⟨2, ![o, 2]⟩ 1
          [⟨⟨2, ![o, 1]⟩, shapeCast ⟨2, ![o, 1]⟩ (multiReduction .add [1] ⟨1, ![o]⟩
              (addf (matmul D none W A (constant ⟨2, ![o, n]⟩ .f32 0x00000000#32))
                (broadcastTo ⟨2, ![o, n]⟩ (shapeCast ⟨2, ![o, 1]⟩ b c1) bc)) 0x00000000#32 hred (.inl rfl) rfl) cCol⟩,
           ⟨⟨2, ![o, 1]⟩, shapeCast ⟨2, ![o, 1]⟩ (multiReduction .add [1] ⟨1, ![o]⟩
              (mulf
                (addf (matmul D none W A (constant ⟨2, ![o, n]⟩ .f32 0x00000000#32))
                  (broadcastTo ⟨2, ![o, n]⟩ (shapeCast ⟨2, ![o, 1]⟩ b c1) bc))
                (addf (matmul D none W A (constant ⟨2, ![o, n]⟩ .f32 0x00000000#32))
                  (broadcastTo ⟨2, ![o, n]⟩ (shapeCast ⟨2, ![o, 1]⟩ b c1) bc))) 0x00000000#32 hred (.inl rfl) rfl) cCol⟩]
          hcat)) cAdd
    = addf old (laneSums (aff W A b)) := by
  rw [affine_eq' D hr hs hl0 hl1 hr0 hr1 c1 bc]
  exact stats_eq _ _ hred cCol cDrop cAdd hcat

end Whole

/-- A body's skip connection: the block plus the loaded tile, max with zero. -/
theorem skip_eq {o n : ℕ} (A X : Mat o n) (cO : (⟨2, ![o, n]⟩ : Shape).ShapeCasts ⟨2, ![o, n]⟩) :
    maximumf (addf A (shapeCast ⟨2, ![o, n]⟩ X cO))
      (broadcast ⟨2, ![o, n]⟩ (Scalar.ofBits (F := Ideal) .f32 0x00000000#32)) = skip A X := funext fun i => by
  rw [maximumf_apply, addf_apply, shapeCast_self, broadcast_apply]
  show max _ (Ideal.ofBits .f32 0x00000000#32) = _
  rw [Ideal.ofBits_zero_f32]
  rfl

/-- The zero block a body stores at the first point of a half. -/
theorem zeroBlock_eq {d : ℕ} (cAdd : (⟨2, ![d, 2]⟩ : Shape).ShapeCasts ⟨3, ![1, d, 2]⟩) :
    shapeCast ⟨3, ![1, d, 2]⟩ (broadcast ⟨2, ![d, 2]⟩ (Scalar.ofBits (F := Ideal) .f32 0x00000000#32)) cAdd
      = (0 : FVec Ideal ⟨3, ![1, d, 2]⟩ .f32) := funext fun j => by
  refine (shapeCast_addUnit_apply ![d, 2] _ cAdd j).trans ?_
  exact Ideal.ofBits_zero_f32

end Cert.BatchNet.Tile

end
-- ==== Proof.LibVarLaw.lean ====
/-
  The law that joins the two spellings of a batch variance, on the extended reals, for finite data.

  For a finite family `h r` of REAL numbers, a real `N` equal to the number of terms and not zero, and the mean
  `μ = (∑ r, h r) / N`:   (∑ r, (h r - μ) * (h r - μ)) / N  =  (∑ r, h r * h r) / N - μ * μ ,
  every operation read on the extended reals (`Ideal.div` the quotient). On the extended reals the identity needs
  the data to be finite: it uses distributivity and cancellation, which fail at the infinities. The proof pushes the
  coercion of the reals outward through the sums, the products, the differences and the quotients by the nonzero
  real `N`, and closes the resulting identity between real numbers by expanding the square.
-/
import Idealize.ShloMosaic.PureOps.Ideal

noncomputable section

namespace Cert.VarLaw

open Idealize.ShloMosaic
open scoped BigOperators

/-- The coercion of the reals into the extended reals commutes with finite sums. -/
theorem coe_sum {ι : Type*} (s : Finset ι) (f : ι → ℝ) :
    ((∑ r ∈ s, f r : ℝ) : EReal) = ∑ r ∈ s, (f r : EReal) := by
  classical
  induction s using Finset.induction_on with
  | empty => simp
  | insert a s ha ih => rw [Finset.sum_insert ha, Finset.sum_insert ha, EReal.coe_add, ih]

/-- A finite sum of extended reals each of which is a real number is a real number. -/
theorem sum_isReal {ι : Type*} (s : Finset ι) (v : ι → EReal) (hv : ∀ r ∈ s, ∃ q : ℝ, v r = (q : EReal)) :
    ∃ q : ℝ, ∑ r ∈ s, v r = (q : EReal) := by
  classical
  induction s using Finset.induction_on with
  | empty => exact ⟨0, by simp⟩
  | insert a s ha ih =>
    obtain ⟨qa, hqa⟩ := hv a (Finset.mem_insert_self a s)
    obtain ⟨qs, hqs⟩ := ih (fun r hr => hv r (Finset.mem_insert_of_mem hr))
    exact ⟨qa + qs, by rw [Finset.sum_insert ha, hqa, hqs, EReal.coe_add]⟩

/-- The identity between real numbers: the mean of the squared deviations from the mean is the mean of the
    squares minus the square of the mean. -/
theorem real_var_law {ι : Type*} [Fintype ι] (h : ι → ℝ) (N : ℝ) (hN : (Fintype.card ι : ℝ) = N) (hN0 : N ≠ 0) :
    (∑ r, (h r - (∑ r, h r) * (1 / N)) * (h r - (∑ r, h r) * (1 / N))) * (1 / N)
      = (∑ r, h r * h r) * (1 / N) - ((∑ r, h r) * (1 / N)) * ((∑ r, h r) * (1 / N)) := by
  generalize hS : (∑ r, h r) = S
  generalize hQ : (∑ r, h r * h r) = Q
  have expand : ∑ r, (h r - S * (1 / N)) * (h r - S * (1 / N))
      = Q - 2 * (S * (1 / N)) * S + N * ((S * (1 / N)) * (S * (1 / N))) := by
    have e : ∀ r, (h r - S * (1 / N)) * (h r - S * (1 / N))
        = h r * h r - 2 * (S * (1 / N)) * h r + (S * (1 / N)) * (S * (1 / N)) := fun r => by ring
    simp only [e]
    rw [Finset.sum_add_distrib, Finset.sum_sub_distrib, ← Finset.mul_sum, Finset.sum_const, Finset.card_univ,
      nsmul_eq_mul, hN, hS, hQ]
  rw [expand]
  field_simp
  ring

/-- THE LAW, for real data written as coerced reals: with `μ = Ideal.div (∑ r, h r) N`,
    `Ideal.div (∑ r, (h r - μ) * (h r - μ)) N = Ideal.div (∑ r, h r * h r) N - μ * μ` on the extended reals. -/
theorem var_law {ι : Type*} [Fintype ι] (h : ι → ℝ) (N : ℝ) (hN : (Fintype.card ι : ℝ) = N) (hN0 : N ≠ 0) :
    Ideal.div (∑ r, ((h r : EReal) - Ideal.div (∑ r, (h r : EReal)) (N : EReal))
        * ((h r : EReal) - Ideal.div (∑ r, (h r : EReal)) (N : EReal))) (N : EReal)
      = Ideal.div (∑ r, (h r : EReal) * (h r : EReal)) (N : EReal)
        - Ideal.div (∑ r, (h r : EReal)) (N : EReal) * Ideal.div (∑ r, (h r : EReal)) (N : EReal) := by
  have hμ : Ideal.div (∑ r, (h r : EReal)) (N : EReal) = (((∑ r, h r) * (1 / N) : ℝ) : EReal) := by
    rw [Ideal.div_coe hN0, ← coe_sum, ← EReal.coe_mul]
  rw [hμ]
  have h1 : ∀ r, ((h r : EReal) - (((∑ r, h r) * (1 / N) : ℝ) : EReal)) * ((h r : EReal) - (((∑ r, h r) * (1 / N) : ℝ) : EReal))
      = (((h r - (∑ r, h r) * (1 / N)) * (h r - (∑ r, h r) * (1 / N)) : ℝ) : EReal) := by
    intro r; rw [← EReal.coe_sub, ← EReal.coe_mul]
  have h2 : ∀ r, (h r : EReal) * (h r : EReal) = ((h r * h r : ℝ) : EReal) := fun r => (EReal.coe_mul _ _).symm
  simp only [h1, h2]
  rw [← coe_sum, ← coe_sum, Ideal.div_coe hN0, Ideal.div_coe hN0, ← EReal.coe_mul, ← EReal.coe_mul, ← EReal.coe_mul,
    ← EReal.coe_sub, real_var_law h N hN hN0]

/-! ## The three quantities are real numbers -/

/-- The mean of real data over a nonzero real count is the real mean. -/
theorem mean_eq_coe {ι : Type*} [Fintype ι] (h : ι → ℝ) (N : ℝ) (hN0 : N ≠ 0) :
    Ideal.div (∑ r, (h r : EReal)) (N : EReal) = (((∑ r, h r) * (1 / N) : ℝ) : EReal) := by
  rw [Ideal.div_coe hN0, ← coe_sum, ← EReal.coe_mul]

/-- The mean of the squares of real data is the real mean of squares. -/
theorem meansq_eq_coe {ι : Type*} [Fintype ι] (h : ι → ℝ) (N : ℝ) (hN0 : N ≠ 0) :
    Ideal.div (∑ r, (h r : EReal) * (h r : EReal)) (N : EReal) = (((∑ r, h r * h r) * (1 / N) : ℝ) : EReal) := by
  have h2 : ∀ r, (h r : EReal) * (h r : EReal) = ((h r * h r : ℝ) : EReal) := fun r => (EReal.coe_mul _ _).symm
  simp only [h2]
  rw [Ideal.div_coe hN0, ← coe_sum, ← EReal.coe_mul]

/-- The variance in the form "mean of squares minus square of the mean" is a real number. -/
theorem var_sumsq_eq_coe {ι : Type*} [Fintype ι] (h : ι → ℝ) (N : ℝ) (hN0 : N ≠ 0) :
    Ideal.div (∑ r, (h r : EReal) * (h r : EReal)) (N : EReal)
        - Ideal.div (∑ r, (h r : EReal)) (N : EReal) * Ideal.div (∑ r, (h r : EReal)) (N : EReal)
      = (((∑ r, h r * h r) * (1 / N) - ((∑ r, h r) * (1 / N)) * ((∑ r, h r) * (1 / N)) : ℝ) : EReal) := by
  rw [mean_eq_coe h N hN0, meansq_eq_coe h N hN0, ← EReal.coe_mul, ← EReal.coe_sub]

/-- The variance in the form "mean of the squared deviations" is the same real number. -/
theorem var_dev_eq_coe {ι : Type*} [Fintype ι] (h : ι → ℝ) (N : ℝ) (hN : (Fintype.card ι : ℝ) = N) (hN0 : N ≠ 0) :
    Ideal.div (∑ r, ((h r : EReal) - Ideal.div (∑ r, (h r : EReal)) (N : EReal))
        * ((h r : EReal) - Ideal.div (∑ r, (h r : EReal)) (N : EReal))) (N : EReal)
      = (((∑ r, h r * h r) * (1 / N) - ((∑ r, h r) * (1 / N)) * ((∑ r, h r) * (1 / N)) : ℝ) : EReal) := by
  rw [var_law h N hN hN0, var_sumsq_eq_coe h N hN0]

/-! ## The same for extended-real data known to be finite -/

/-- Extended-real data every entry of which is a real number is the coercion of a real family. -/
theorem exists_real_family {ι : Type*} (v : ι → EReal) (hv : ∀ r, ∃ q : ℝ, v r = (q : EReal)) :
    ∃ h : ι → ℝ, v = fun r => (h r : EReal) := by
  choose h hh using hv
  exact ⟨h, funext hh⟩

/-- THE LAW for extended-real data every entry of which is a real number. -/
theorem var_law_of_isReal {ι : Type*} [Fintype ι] (v : ι → EReal) (hv : ∀ r, ∃ q : ℝ, v r = (q : EReal)) (N : ℝ)
    (hN : (Fintype.card ι : ℝ) = N) (hN0 : N ≠ 0) :
    Ideal.div (∑ r, (v r - Ideal.div (∑ r, v r) (N : EReal)) * (v r - Ideal.div (∑ r, v r) (N : EReal))) (N : EReal)
      = Ideal.div (∑ r, v r * v r) (N : EReal) - Ideal.div (∑ r, v r) (N : EReal) * Ideal.div (∑ r, v r) (N : EReal) := by
  obtain ⟨h, rfl⟩ := exists_real_family v hv
  exact var_law h N hN hN0

/-- The mean of finite data is a real number. -/
theorem mean_isReal {ι : Type*} [Fintype ι] (v : ι → EReal) (hv : ∀ r, ∃ q : ℝ, v r = (q : EReal)) (N : ℝ) (hN0 : N ≠ 0) :
    ∃ q : ℝ, Ideal.div (∑ r, v r) (N : EReal) = (q : EReal) := by
  obtain ⟨h, rfl⟩ := exists_real_family v hv
  exact ⟨_, mean_eq_coe h N hN0⟩

/-- The variance of finite data, as mean of squares minus square of the mean, is a real number. -/
theorem var_sumsq_isReal {ι : Type*} [Fintype ι] (v : ι → EReal) (hv : ∀ r, ∃ q : ℝ, v r = (q : EReal)) (N : ℝ) (hN0 : N ≠ 0) :
    ∃ q : ℝ, Ideal.div (∑ r, v r * v r) (N : EReal) - Ideal.div (∑ r, v r) (N : EReal) * Ideal.div (∑ r, v r) (N : EReal)
      = (q : EReal) := by
  obtain ⟨h, rfl⟩ := exists_real_family v hv
  exact ⟨_, var_sumsq_eq_coe h N hN0⟩

/-- The variance of finite data, as mean of the squared deviations, is a real number. -/
theorem var_dev_isReal {ι : Type*} [Fintype ι] (v : ι → EReal) (hv : ∀ r, ∃ q : ℝ, v r = (q : EReal)) (N : ℝ)
    (hN : (Fintype.card ι : ℝ) = N) (hN0 : N ≠ 0) :
    ∃ q : ℝ, Ideal.div (∑ r, (v r - Ideal.div (∑ r, v r) (N : EReal)) * (v r - Ideal.div (∑ r, v r) (N : EReal))) (N : EReal)
      = (q : EReal) := by
  obtain ⟨h, rfl⟩ := exists_real_family v hv
  exact ⟨_, var_dev_eq_coe h N hN hN0⟩

/-! ## The instance: 50000 rows -/

/-- THE LAW over 50000 rows with the divisor the real number 50000. -/
theorem var_law_50000 (v : Fin 50000 → EReal) (hv : ∀ r, ∃ q : ℝ, v r = (q : EReal)) :
    Ideal.div (∑ r, (v r - Ideal.div (∑ r, v r) ((50000 : ℝ) : EReal)) * (v r - Ideal.div (∑ r, v r) ((50000 : ℝ) : EReal)))
        ((50000 : ℝ) : EReal)
      = Ideal.div (∑ r, v r * v r) ((50000 : ℝ) : EReal)
        - Ideal.div (∑ r, v r) ((50000 : ℝ) : EReal) * Ideal.div (∑ r, v r) ((50000 : ℝ) : EReal) :=
  var_law_of_isReal v hv 50000 (by simp) (by norm_num)

/-- Over 50000 rows the mean of finite data is a real number. -/
theorem mean_isReal_50000 (v : Fin 50000 → EReal) (hv : ∀ r, ∃ q : ℝ, v r = (q : EReal)) :
    ∃ q : ℝ, Ideal.div (∑ r, v r) ((50000 : ℝ) : EReal) = (q : EReal) :=
  mean_isReal v hv 50000 (by norm_num)

/-- Over 50000 rows the variance of finite data (mean of squares minus square of the mean) is a real number. -/
theorem var_sumsq_isReal_50000 (v : Fin 50000 → EReal) (hv : ∀ r, ∃ q : ℝ, v r = (q : EReal)) :
    ∃ q : ℝ, Ideal.div (∑ r, v r * v r) ((50000 : ℝ) : EReal)
        - Ideal.div (∑ r, v r) ((50000 : ℝ) : EReal) * Ideal.div (∑ r, v r) ((50000 : ℝ) : EReal) = (q : EReal) :=
  var_sumsq_isReal v hv 50000 (by norm_num)

/-- Over 50000 rows the variance of finite data (mean of the squared deviations) is a real number. -/
theorem var_dev_isReal_50000 (v : Fin 50000 → EReal) (hv : ∀ r, ∃ q : ℝ, v r = (q : EReal)) :
    ∃ q : ℝ, Ideal.div (∑ r, (v r - Ideal.div (∑ r, v r) ((50000 : ℝ) : EReal)) * (v r - Ideal.div (∑ r, v r) ((50000 : ℝ) : EReal)))
        ((50000 : ℝ) : EReal) = (q : EReal) :=
  var_dev_isReal v hv 50000 (by simp) (by norm_num)

/-! ## A sum over all rows, tile by tile

A sum over `m · n` rows is the sum over `m` tiles of the sums over each tile's `n` rows, row `r` of tile `t` being row
`t · n + r`: the re-indexing between a total accumulated tile by tile and the one sum over every row. -/

/-- Row `r` of tile `t` is a row. -/
theorem tile_lt {m n : ℕ} (t : Fin m) (r : Fin n) : t.val * n + r.val < m * n := by
  have h1 : t.val * n + r.val < t.val * n + n := Nat.add_lt_add_left r.isLt _
  have h2 : t.val * n + n = (t.val + 1) * n := by rw [Nat.add_mul, Nat.one_mul]
  have h3 : (t.val + 1) * n ≤ m * n := Nat.mul_le_mul_right n t.isLt
  omega

/-- The sum over `m` tiles of the sums over `n` rows each is the sum over all `m · n` rows. -/
theorem sum_blocks {M : Type*} [AddCommMonoid M] (m n : ℕ) (f : Fin (m * n) → M) :
    ∑ t : Fin m, ∑ r : Fin n, f ⟨t.val * n + r.val, tile_lt t r⟩ = ∑ i, f i := by
  rw [← Fintype.sum_prod_type', ← Equiv.sum_comp finProdFinEquiv f]
  refine Finset.sum_congr rfl fun x _ => congrArg f (Fin.ext ?_)
  show x.1.val * n + x.2.val = x.2.val + n * x.1.val
  rw [Nat.mul_comm, Nat.add_comm]

/-- The same with the number of rows given as a literal `N = m · n`. -/
theorem sum_tiles {M : Type*} [AddCommMonoid M] (m n N : ℕ) (hN : m * n = N) (f : Fin N → M) :
    ∑ t : Fin m, ∑ r : Fin n, f ⟨t.val * n + r.val, hN ▸ tile_lt t r⟩ = ∑ i, f i := by
  subst hN
  exact sum_blocks m n f

/-- Ten tiles of 5000 rows are the 50000 rows. -/
theorem sum_tiles_50000 {M : Type*} [AddCommMonoid M] (f : Fin 50000 → M) :
    ∑ t : Fin 10, ∑ r : Fin 5000, f ⟨t.val * 5000 + r.val, by have := t.isLt; have := r.isLt; omega⟩ = ∑ i, f i :=
  sum_tiles 10 5000 50000 (by norm_num) f

/-- The same, read from the one sum to the tiles. -/
theorem sum_eq_sum_tiles_50000 {M : Type*} [AddCommMonoid M] (f : Fin 50000 → M) :
    ∑ i, f i = ∑ t : Fin 10, ∑ r : Fin 5000, f ⟨t.val * 5000 + r.val, by have := t.isLt; have := r.isLt; omega⟩ :=
  (sum_tiles_50000 f).symm

/-! ## An accumulator filled tile by tile

An accumulator that starts at zero and adds one term per step holds, after `n` steps, the sum of the first `n` terms:
`(((0 + T 0) + T 1) + … + T (n − 1))`. Addition on the extended reals is commutative and associative and zero is
neutral with no finiteness condition, so this needs none. -/

/-- For terms indexed by the naturals. -/
theorem acc_eq_sum_range {M : Type*} [AddCommMonoid M] (T a : ℕ → M) (h0 : a 0 = 0) (hs : ∀ t, a (t + 1) = a t + T t) (n : ℕ) :
    a n = ∑ t ∈ Finset.range n, T t := by
  induction n with
  | zero => rw [h0, Finset.sum_range_zero]
  | succ n ih => rw [hs, ih, Finset.sum_range_succ]

/-- For `n` terms indexed by `Fin n` (the recurrence asked only at the `n` steps). -/
theorem acc_eq_sum_fin {M : Type*} [AddCommMonoid M] (n : ℕ) (T : Fin n → M) (a : ℕ → M) (h0 : a 0 = 0)
    (hs : ∀ t : Fin n, a (t.val + 1) = a t.val + T t) : a n = ∑ t : Fin n, T t := by
  have key : ∀ k (hk : k ≤ n), a k = ∑ t : Fin k, T (Fin.castLE hk t) := by
    intro k
    induction k with
    | zero => intro _; rw [h0]; simp
    | succ k ih =>
      intro hk
      rw [Fin.sum_univ_castSucc, hs ⟨k, hk⟩, ih (Nat.le_of_succ_le hk)]
      rfl
  have := key n le_rfl
  simpa using this

/-- Ten terms added one by one onto zero, written out. -/
theorem nest10 {M : Type*} [AddCommMonoid M] (T : Fin 10 → M) :
    ((((((((((0 + T 0) + T 1) + T 2) + T 3) + T 4) + T 5) + T 6) + T 7) + T 8) + T 9) = ∑ t, T t := by
  simp only [Fin.sum_univ_castSucc, Fin.sum_univ_zero]
  rfl

end Cert.VarLaw

end
-- ==== Proof.LibFinite.lean ====
/-
  Finiteness is preserved by every operation between the inputs and the first linear layer's output, on the extended reals.

  An extended real IS REAL when it is the coercion of a real number (it is neither infinity); an array IS REAL when every
  entry is. Sums, differences and products of real numbers are real, so a finite sum of real entries is real; hence so are
  the entries of an elementwise sum, difference or product of real arrays, of a matrix product of real arrays (a finite
  sum of products, plus the accumulator's entry), of a sum over some axes, and of a scatter with addition (the operand's
  entry plus a finite sum of update entries). A gather, a broadcast, a transposition, a reshape and a slice only re-index:
  each entry of the result is an entry of the operand — whatever the start indices hold, since an out-of-range start index is
  clamped into the operand — so the result of a real operand is real. A quotient by a nonzero real number is real, and
  a change of float format is the identity.
-/
import Idealize.ShloMosaic.PureOps.Ideal.Laws
import Idealize.ShloMosaic.Lib.ValueIdx

noncomputable section

namespace Cert.Finite

open Idealize.ShloMosaic
open scoped BigOperators

/-! ## Real values -/

/-- An extended real that is (the coercion of) a real number. -/
def IsRealVal (x : EReal) : Prop := ∃ q : ℝ, x = (q : EReal)

/-- An array of extended reals every entry of which is a real number. -/
def IsReal {ι : Type*} (v : ι → EReal) : Prop := ∀ i, ∃ q : ℝ, v i = (q : EReal)

theorem IsReal.apply {ι : Type*} {v : ι → EReal} (h : IsReal v) (i : ι) : IsRealVal (v i) := h i

theorem isReal_iff {ι : Type*} (v : ι → EReal) : IsReal v ↔ ∀ i, IsRealVal (v i) := Iff.rfl

theorem IsRealVal.coe (q : ℝ) : IsRealVal (q : EReal) := ⟨q, rfl⟩

theorem IsRealVal.zero : IsRealVal 0 := ⟨0, EReal.coe_zero.symm⟩

theorem IsRealVal.one : IsRealVal 1 := ⟨1, EReal.coe_one.symm⟩

theorem IsRealVal.add {x y : EReal} (hx : IsRealVal x) (hy : IsRealVal y) : IsRealVal (x + y) := by
  obtain ⟨a, rfl⟩ := hx; obtain ⟨b, rfl⟩ := hy
  exact ⟨a + b, (EReal.coe_add a b).symm⟩

theorem IsRealVal.sub {x y : EReal} (hx : IsRealVal x) (hy : IsRealVal y) : IsRealVal (x - y) := by
  obtain ⟨a, rfl⟩ := hx; obtain ⟨b, rfl⟩ := hy
  exact ⟨a - b, (EReal.coe_sub a b).symm⟩

theorem IsRealVal.mul {x y : EReal} (hx : IsRealVal x) (hy : IsRealVal y) : IsRealVal (x * y) := by
  obtain ⟨a, rfl⟩ := hx; obtain ⟨b, rfl⟩ := hy
  exact ⟨a * b, (EReal.coe_mul a b).symm⟩

theorem IsRealVal.neg {x : EReal} (hx : IsRealVal x) : IsRealVal (-x) := by
  obtain ⟨a, rfl⟩ := hx
  exact ⟨-a, (EReal.coe_neg a).symm⟩

theorem IsRealVal.ne_top {x : EReal} (hx : IsRealVal x) : x ≠ ⊤ := by
  obtain ⟨a, rfl⟩ := hx; exact EReal.coe_ne_top a

theorem IsRealVal.ne_bot {x : EReal} (hx : IsRealVal x) : x ≠ ⊥ := by
  obtain ⟨a, rfl⟩ := hx; exact EReal.coe_ne_bot a

/-- An extended real other than the two infinities is a real number. -/
theorem isRealVal_of_ne {x : EReal} (ht : x ≠ ⊤) (hb : x ≠ ⊥) : IsRealVal x := by
  induction x using EReal.rec with
  | bot => exact absurd rfl hb
  | top => exact absurd rfl ht
  | coe r => exact ⟨r, rfl⟩

/-- An extended real whose absolute value `max x (-x)` is below `+∞` is a real number. -/
theorem isRealVal_of_abs_lt_top {x : EReal} (h : max x (-x) < ⊤) : IsRealVal x := by
  induction x using EReal.rec with
  | bot => simp at h
  | top => simp at h
  | coe r => exact ⟨r, rfl⟩

/-- The precondition's test, on one element: the host's `|x| < t` answers `1` for a bound `t` that denotes `+∞` only
    at a real number `x`. -/
theorem isRealVal_of_cmpf_abs {φ : FTy} (x t : Ideal φ) (ht : t = (⊤ : EReal))
    (h : FloatOps.cmpf .olt (FloatOps.hostAbsf x) t = 1#1) : IsRealVal x := by
  subst ht
  apply isRealVal_of_abs_lt_top
  by_contra hn
  have : FloatOps.cmpf (F := Ideal) (φ := φ) .olt (FloatOps.hostAbsf x) (⊤ : EReal) = 0#1 := by
    show Ideal.cmp .olt (max x (-x)) ⊤ = 0#1
    simp only [Ideal.cmp]
    rw [decide_eq_false hn]; rfl
  rw [this] at h
  exact absurd h (by decide)

/-- A finite sum of real numbers is a real number. -/
theorem IsRealVal.sum {ι : Type*} (s : Finset ι) (f : ι → EReal) (hf : ∀ i ∈ s, IsRealVal (f i)) :
    IsRealVal (∑ i ∈ s, f i) := by
  classical
  induction s using Finset.induction_on with
  | empty => rw [Finset.sum_empty]; exact IsRealVal.zero
  | insert a s ha ih =>
    rw [Finset.sum_insert ha]
    exact (hf a (Finset.mem_insert_self a s)).add (ih fun i hi => hf i (Finset.mem_insert_of_mem hi))

/-- A quotient of a real number by a nonzero real number is a real number. -/
theorem IsRealVal.div_coe {x : EReal} (hx : IsRealVal x) {N : ℝ} (hN : N ≠ 0) : IsRealVal (Ideal.div x (N : EReal)) := by
  rw [Ideal.div_coe hN]
  exact hx.mul (IsRealVal.coe _)

/-! ## Re-indexings: each entry of the result is an entry of the operand -/

/-- Reading a real array through any map of indices gives a real array. -/
theorem IsReal.comp {ι κ : Type*} {v : ι → EReal} (hv : IsReal v) (f : κ → ι) : IsReal (fun j => v (f j)) :=
  fun j => hv (f j)

/-- A gather's entry is the operand's at the operand index of the result index: the start index read off the index array,
    clamped so that the slice fits, plus the batch and offset coordinates — an index of the operand whatever the start
    indices hold. -/
theorem gather_apply {α : Type} {s si t : Shape} {w : Nat} (d : GatherDims s si t) (x : s.Idx → α) (idx : IVec si w) (j : t.Idx) :
    Host.gather d x idx j = x (d.operandIdx j idx) := rfl

/-- So a gather of a real array is real, at any dimension numbers and any start indices. -/
theorem IsReal.gather {s si t : Shape} {w : Nat} {φ : FTy} (d : GatherDims s si t) {x : FVec Ideal s φ} (hx : IsReal x)
    (idx : IVec si w) : IsReal (Host.gather d x idx) :=
  fun j => hx (d.operandIdx j idx)

theorem IsReal.broadcastInDim {s t : Shape} {φ : FTy} (dims : Fin s.rank → Fin t.rank) (h : s.BroadcastsInDim t dims)
    {x : FVec Ideal s φ} (hx : IsReal x) : IsReal (broadcastInDim t dims h x) :=
  fun _ => hx _

theorem IsReal.transpose {s t : Shape} {φ : FTy} (perm : List (Fin s.rank)) (h : s.Transposes perm t)
    {x : FVec Ideal s φ} (hx : IsReal x) : IsReal (transpose t perm x h) :=
  fun _ => hx _

theorem IsReal.shapeCast {s t : Shape} {φ : FTy} (h : s.ShapeCasts t) {x : FVec Ideal s φ} (hx : IsReal x) :
    IsReal (shapeCast t x h) :=
  fun _ => hx _

theorem IsReal.extractStridedSlice {s t : Shape} {φ : FTy} (off : Fin s.rank → Nat) (h : s.Slices off t)
    {x : FVec Ideal s φ} (hx : IsReal x) : IsReal (extractStridedSlice t off x h) :=
  fun _ => hx _

/-- A constant array is real when its pattern denotes a real number. -/
theorem IsReal.constant (s : Shape) (φ : FTy) (b : BitVec φ.bits) (hb : IsRealVal (Ideal.ofBits φ b)) :
    IsReal (constant (F := Ideal) s φ b) :=
  fun _ => hb

/-- The zero array (the pattern `+0.0` at `f32`) is real. -/
theorem IsReal.constant_zero_f32 (s : Shape) : IsReal (Idealize.ShloMosaic.constant (F := Ideal) s .f32 0x00000000#32) :=
  fun _ => ⟨0, by show Ideal.ofBits .f32 0x00000000#32 = _; rw [Ideal.ofBits_zero_f32, EReal.coe_zero]⟩

/-- A change of float format is the identity on the extended reals. -/
theorem IsReal.truncf {s : Shape} {φ ψ : FTy} {x : FVec Ideal s φ} (hx : IsReal x) (h : ψ.bits < φ.bits) :
    IsReal (truncf ψ x h : FVec Ideal s ψ) :=
  fun i => hx i

theorem IsReal.extf {s : Shape} {φ ψ : FTy} {x : FVec Ideal s φ} (hx : IsReal x) (h : φ.bits < ψ.bits) :
    IsReal (extf ψ x h : FVec Ideal s ψ) :=
  fun i => hx i

/-! ## Elementwise arithmetic -/

theorem IsReal.addf {s : Shape} {φ : FTy} {a b : FVec Ideal s φ} (ha : IsReal a) (hb : IsReal b) : IsReal (addf a b) :=
  fun i => (ha.apply i).add (hb.apply i)

theorem IsReal.subf {s : Shape} {φ : FTy} {a b : FVec Ideal s φ} (ha : IsReal a) (hb : IsReal b) : IsReal (subf a b) :=
  fun i => (ha.apply i).sub (hb.apply i)

theorem IsReal.mulf {s : Shape} {φ : FTy} {a b : FVec Ideal s φ} (ha : IsReal a) (hb : IsReal b) : IsReal (mulf a b) :=
  fun i => (ha.apply i).mul (hb.apply i)

/-- The host's quotient by an array whose entries are one nonzero real number. -/
theorem IsReal.hostDivf_coe {s : Shape} {φ : FTy} {a b : FVec Ideal s φ} (ha : IsReal a) {N : ℝ} (hN : N ≠ 0)
    (hb : ∀ i, b i = (N : EReal)) : IsReal (Host.divf a b) := fun i => by
  show IsRealVal (Ideal.div (a i) (b i))
  rw [hb i]
  exact (ha.apply i).div_coe hN

/-! ## Contractions and sums -/

/-- A kernel's matrix product of real arrays onto a real accumulator is real: at an index, the accumulator's entry plus the
    finite sum over the contraction index of the products of the operands' entries. -/
theorem IsReal.matmul {sl sr so : Shape} {φ₁ φ₂ : FTy} (d : DotDims sl sr so) (prec : Option ContractPrecision)
    {lhs : FVec Ideal sl φ₁} {rhs : FVec Ideal sr φ₂} {acc : FVec Ideal so .f32} (hl : IsReal lhs) (hr : IsReal rhs)
    (ha : IsReal acc) : IsReal (FloatOps.matmul d prec lhs rhs acc) := fun j => by
  rw [Ideal.matmul_apply]
  exact (ha.apply j).add (IsRealVal.sum _ _ fun k _ => (hl.apply _).mul (hr.apply _))

/-- The host's `dot_general` of real arrays is real: the same finite sum of products, onto zero. -/
theorem IsReal.dotGeneral {sl sr so : Shape} {φ₁ φ₂ : FTy} (d : DotDims sl sr so) (prec : Option ContractPrecision)
    (sched : HostSchedule) {lhs : FVec Ideal sl φ₁} {rhs : FVec Ideal sr φ₂} (hl : IsReal lhs) (hr : IsReal rhs) :
    IsReal (FloatOps.dotGeneral d prec sched lhs rhs) := fun j => by
  rw [Ideal.dotGeneral_apply]
  exact IsRealVal.sum _ _ fun k _ => (hl.apply _).mul (hr.apply _)

/-- The host's sum over some axes of a real array from a real initial value is real: at an index, the initial value plus
    the finite sum of the operand's entries that reduce to it. -/
theorem IsReal.hostReduceAdd {s t u : Shape} {φ : FTy} {axes : List (Fin s.rank)} {x : FVec Ideal s φ} (hx : IsReal x)
    {init : u.Idx → Ideal φ} (hi : IsReal init) (h : s.ReducesTo axes t) (hu : 0 < u.numel) :
    IsReal (Host.reduceAdd x init h hu) := fun j => by
  show IsRealVal (Ideal.hostReduceAdd h x (init (Shape.Idx.first hu)) j)
  unfold Ideal.hostReduceAdd
  exact (hi.apply _).add (IsRealVal.sum _ _ fun i _ => hx.apply i)

/-- A kernel's sum over some axes of a real array is real. -/
theorem IsReal.reduceAdd {s t : Shape} {axes : List (Fin s.rank)} (h : s.Reduces axes t) {x : s.Idx → EReal} (hx : IsReal x) :
    IsReal (Ideal.reduceAdd h x) := fun j => by
  unfold Ideal.reduceAdd
  exact IsRealVal.sum _ _ fun i _ => hx.apply i

/-- … as the printed `vector.multi_reduction <add>` spells it. -/
theorem IsReal.multiReduction_add {s t : Shape} {φ : FTy} {axes : List (Fin s.rank)} {src : FVec Ideal s φ} (hx : IsReal src)
    (acc : BitVec φ.bits) (h : s.Reduces axes t) (hφ : FKind.Formats φ) (hacc : acc = FKind.add.neutral φ hφ) :
    IsReal (multiReduction .add axes t src acc h hφ hacc) :=
  IsReal.reduceAdd h hx

/-- A scatter with addition, read at an index: the operand's entry plus the finite sum of the update entries whose result
    index is that index (an update that lands outside the operand is dropped). -/
theorem scatterAdd_apply {s si u : Shape} {w : Nat} {φ : FTy} (d : ScatterDims s si u) (x : FVec Ideal s φ) (idx : IVec si w)
    (upd : FVec Ideal u φ) (i : s.Idx) :
    Host.scatterAdd d x idx upd i = x i + ∑ j ∈ Finset.univ.filter (fun j => d.resultIdx? j idx = some i), upd j := rfl

/-- So a scatter with addition of real updates into a real operand is real, at any dimension numbers and any indices. -/
theorem IsReal.scatterAdd {s si u : Shape} {w : Nat} {φ : FTy} (d : ScatterDims s si u) {x : FVec Ideal s φ} (hx : IsReal x)
    (idx : IVec si w) {upd : FVec Ideal u φ} (hu : IsReal upd) : IsReal (Host.scatterAdd d x idx upd) := fun i => by
  rw [scatterAdd_apply]
  exact (hx.apply i).add (IsRealVal.sum _ _ fun j _ => hu.apply j)

end Cert.Finite

end
-- ==== Proof.NetLawConsts.lean ====
/-
  The two float literals of the batch network as real numbers.

  The pattern 0x4A000000 has sign 0, exponent field 148 and a zero fraction: it denotes 2^23 · 2^(148 − 127 − 23) = 2^21
  = 2097152, the batch size.  The pattern 0x3727C5AC has sign 0, exponent field 110 and fraction 2606508: it denotes
  (2^23 + 2606508) · 2^(110 − 127 − 23) = 10995116 · 2^(−40), a positive real number (close to 1e-5; only its sign and
  its finiteness matter below).
-/
import proofs.«114887_j65481071405707_2_alg».proof.Proof.Spec
import proofs.«114887_j65481071405707_2_alg».proof.Proof.LibFinite

noncomputable section

namespace Cert.BatchNet

open Idealize.ShloMosaic Cert.Finite

/-- The divisor literal is the real number 2097152, the number of rows. -/
theorem cB_eq : cB = ((2097152 : ℝ) : EReal) := by
  unfold cB
  simp [Ideal.ofBits, Ideal.ieee, -EReal.coe_mul]; norm_num

/-- The number of rows, as a real, is that divisor. -/
theorem card_B : (Fintype.card (Fin B) : ℝ) = 2097152 := by
  simp [B]

theorem B_ne_zero : (2097152 : ℝ) ≠ 0 := by norm_num

/-- The pattern 0x3F800000 (sign 0, exponent field 127, zero fraction: 2^23 · 2^(127 − 127 − 23)) denotes the number one. -/
theorem ofBits_one_f32 : Ideal.ofBits .f32 0x3F800000#32 = 1 := by
  simp [Ideal.ofBits, Ideal.ieee, -EReal.coe_mul]; norm_num

/-- The literal added to the variance is a positive real number. -/
theorem cEps_pos : ∃ q : ℝ, 0 < q ∧ cEps = (q : EReal) := by
  refine ⟨(10995116 : ℝ) * (2 : ℝ) ^ (-40 : ℤ), by positivity, ?_⟩
  unfold cEps
  simp [Ideal.ofBits, Ideal.ieee, -EReal.coe_mul]

end Cert.BatchNet

end
-- ==== Proof.NetLawVar.lean ====
/-
  On a batch of real numbers the two variances agree.

  For a feature whose B entries are real numbers the mean (the sum divided by the real number B) is a real number; the
  mean of the squared deviations from it is a nonnegative real number (a sum of squares of reals times the positive real
  1/B), and it equals the mean of the squares minus the squared mean (the expansion of the square, which needs the data to
  be finite and the divisor to be the number of terms).  The maximum of a nonnegative number and zero is that number, so
  the clamped form is the same number.
-/
import proofs.«114887_j65481071405707_2_alg».proof.Proof.Spec
import proofs.«114887_j65481071405707_2_alg».proof.Proof.LibFinite
import proofs.«114887_j65481071405707_2_alg».proof.Proof.LibVarLaw
import proofs.«114887_j65481071405707_2_alg».proof.Proof.NetLawConsts

noncomputable section

namespace Cert.BatchNet

open Idealize.ShloMosaic Cert.Finite Cert.VarLaw
open scoped BigOperators

/-- The larger of two real numbers is a real number. -/
theorem isRealVal_max {x y : EReal} (hx : IsRealVal x) (hy : IsRealVal y) : IsRealVal (max x y) := by
  rcases le_total x y with h | h
  · rw [max_eq_right h]; exact hy
  · rw [max_eq_left h]; exact hx

/-- The mean of a feature of real entries is a real number (whatever the number of rows: the divisor is a nonzero real). -/
theorem mean_isRealVal {n d : ℕ} (y : Fin n → Fin d → EReal) (hy : ∀ r o, IsRealVal (y r o)) (o : Fin d) :
    IsRealVal (mean y o) := by
  unfold mean
  rw [cB_eq]
  exact mean_isReal (fun r => y r o) (fun r => hy r o) 2097152 B_ne_zero

/-- The mean of the squared deviations of real numbers from a real number, over a positive real count, is a
    nonnegative real number. -/
theorem dev_nonneg {ι : Type*} [Fintype ι] (v : ι → EReal) (hv : ∀ r, IsRealVal (v r)) (μ : EReal) (hμ : IsRealVal μ)
    (N : ℝ) (hN : 0 < N) :
    ∃ q : ℝ, 0 ≤ q ∧ Ideal.div (∑ r, (v r - μ) * (v r - μ)) (N : EReal) = (q : EReal) := by
  obtain ⟨h, rfl⟩ := exists_real_family v hv
  obtain ⟨m, rfl⟩ := hμ
  refine ⟨(∑ r, (h r - m) * (h r - m)) * (1 / N),
    mul_nonneg (Finset.sum_nonneg fun r _ => mul_self_nonneg _) (by positivity), ?_⟩
  have h1 : ∀ r, ((h r : EReal) - (m : EReal)) * ((h r : EReal) - (m : EReal)) = (((h r - m) * (h r - m) : ℝ) : EReal) := by
    intro r; rw [← EReal.coe_sub, ← EReal.coe_mul]
  simp only [h1]
  rw [Ideal.div_coe hN.ne', ← coe_sum, ← EReal.coe_mul]

/-- The variance of a feature of real entries, as the mean of the squared deviations, is a nonnegative real number. -/
theorem varDev_nonneg {n d : ℕ} (y : Fin n → Fin d → EReal) (hy : ∀ r o, IsRealVal (y r o)) (o : Fin d) :
    ∃ q : ℝ, 0 ≤ q ∧ varDev y o = (q : EReal) := by
  unfold varDev
  rw [cB_eq]
  exact dev_nonneg (fun r => y r o) (fun r => hy r o) (mean y o) (mean_isRealVal y hy o) 2097152 (by norm_num)

/-- Over the B rows, the mean of the squares minus the squared mean is the mean of the squared deviations. -/
theorem sumsq_eq_varDev {d : ℕ} (y : Fin B → Fin d → EReal) (hy : ∀ r o, IsRealVal (y r o)) (o : Fin d) :
    Ideal.div (∑ r, y r o * y r o) cB - mean y o * mean y o = varDev y o := by
  unfold varDev mean
  rw [cB_eq]
  exact (var_law_of_isReal (fun r => y r o) (fun r => hy r o) 2097152 card_B B_ne_zero).symm

/-- Over the B rows, the clamped variance of a feature of real entries is the mean of the squared deviations. -/
theorem varSq_eq_varDev {d : ℕ} (y : Fin B → Fin d → EReal) (hy : ∀ r o, IsRealVal (y r o)) (o : Fin d) :
    varSq y o = varDev y o := by
  obtain ⟨q, hq0, hq⟩ := varDev_nonneg y hy o
  unfold varSq
  rw [sumsq_eq_varDev y hy o, hq]
  exact max_eq_left (EReal.coe_nonneg.mpr hq0)

/-- … as functions of the feature. -/
theorem varSq_eq_varDev_fun {d : ℕ} (y : Fin B → Fin d → EReal) (hy : ∀ r o, IsRealVal (y r o)) :
    varSq y = varDev y :=
  funext fun o => varSq_eq_varDev y hy o

end Cert.BatchNet

end
-- ==== Proof.NetLawBlock.lean ====
/-
  One block of the network on real data: the result is real, and it is the same for the two variances.

  An affine layer of real data with real weights is real (finite sums of products of reals).  The normalisation subtracts
  the mean (real), multiplies by the gain (real) and by the reciprocal square root of variance + ε: the variance is a
  nonnegative real and ε a positive real, so their sum is a positive real and its reciprocal square root a real number;
  adding the shift and taking the maximum with zero stay in the reals.  The skip connection adds the block's (real) input
  and takes the maximum with zero again.  Over the B rows the two variances of the affine layer's output are the same
  function, so the two blocks are the same function.
-/
import proofs.«114887_j65481071405707_2_alg».proof.Proof.Spec
import proofs.«114887_j65481071405707_2_alg».proof.Proof.LibFinite
import proofs.«114887_j65481071405707_2_alg».proof.Proof.NetLawConsts
import proofs.«114887_j65481071405707_2_alg».proof.Proof.NetLawVar

noncomputable section

namespace Cert.BatchNet

open Idealize.ShloMosaic Cert.Finite
open scoped BigOperators

/-- An affine layer of real rows with real weights and real offsets is real. -/
theorem lin_isRealVal {n k d : ℕ} (x : Fin n → Fin k → EReal) (w : Fin d → Fin k → EReal) (b : Fin d → EReal)
    (hx : ∀ r j, IsRealVal (x r j)) (hw : ∀ o j, IsRealVal (w o j)) (hb : ∀ o, IsRealVal (b o)) (r : Fin n) (o : Fin d) :
    IsRealVal (lin x w b r o) := by
  unfold lin
  exact (IsRealVal.sum _ _ fun j _ => (hx r j).mul (hw o j)).add (hb o)

/-- The reciprocal square root of a nonnegative real plus ε is a real number. -/
theorem rsqrt_add_eps_isRealVal (q : ℝ) (hq : 0 ≤ q) : IsRealVal (Ideal.rsqrt ((q : EReal) + cEps)) := by
  obtain ⟨e, he0, he⟩ := cEps_pos
  have hpos : 0 < q + e := add_pos_of_nonneg_of_pos hq he0
  rw [he, ← EReal.coe_add, Ideal.rsqrt_coe, if_neg (not_lt.mpr hpos.le), if_neg hpos.ne']
  exact IsRealVal.coe _

/-- The normalisation of real data with a nonnegative real variance, real gain and real shift, followed by the maximum with
    zero, is real. -/
theorem normRelu_isRealVal {n d : ℕ} (v g be : Fin d → EReal) (y : Fin n → Fin d → EReal)
    (hv : ∀ o, ∃ q : ℝ, 0 ≤ q ∧ v o = (q : EReal)) (hg : ∀ o, IsRealVal (g o)) (hbe : ∀ o, IsRealVal (be o))
    (hy : ∀ r o, IsRealVal (y r o)) (r : Fin n) (o : Fin d) : IsRealVal (normRelu v g be y r o) := by
  unfold normRelu
  obtain ⟨q, hq0, hq⟩ := hv o
  rw [hq]
  exact isRealVal_max
    ((((hg o).mul ((hy r o).sub (mean_isRealVal y hy o))).mul (rsqrt_add_eps_isRealVal q hq0)).add (hbe o))
    IsRealVal.zero

/-- A block on real data with real weights is real (with the variance as the mean of squared deviations). -/
theorem block_varDev_isRealVal {n k d : ℕ} (x : Fin n → Fin k → EReal) (w : Fin d → Fin k → EReal) (b g be : Fin d → EReal)
    (hx : ∀ r j, IsRealVal (x r j)) (hw : ∀ o j, IsRealVal (w o j)) (hb : ∀ o, IsRealVal (b o))
    (hg : ∀ o, IsRealVal (g o)) (hbe : ∀ o, IsRealVal (be o)) (r : Fin n) (o : Fin d) :
    IsRealVal (block (@varDev) x w b g be r o) := by
  unfold block
  exact normRelu_isRealVal _ g be _ (fun o => varDev_nonneg _ (lin_isRealVal x w b hx hw hb) o) hg hbe
    (lin_isRealVal x w b hx hw hb) r o

/-- Over the B rows a block on real data with real weights is the same function for the two variances. -/
theorem block_varSq_eq_varDev {k d : ℕ} (x : Fin B → Fin k → EReal) (w : Fin d → Fin k → EReal) (b g be : Fin d → EReal)
    (hx : ∀ r j, IsRealVal (x r j)) (hw : ∀ o j, IsRealVal (w o j)) (hb : ∀ o, IsRealVal (b o)) :
    block (@varSq) x w b g be = block (@varDev) x w b g be := by
  unfold block
  rw [varSq_eq_varDev_fun (lin x w b) (lin_isRealVal x w b hx hw hb)]

/-- A block with a skip connection on real data with real weights is real. -/
theorem skipBlock_varDev_isRealVal {n d : ℕ} (x : Fin n → Fin d → EReal) (w : Fin d → Fin d → EReal) (b g be : Fin d → EReal)
    (hx : ∀ r j, IsRealVal (x r j)) (hw : ∀ o j, IsRealVal (w o j)) (hb : ∀ o, IsRealVal (b o))
    (hg : ∀ o, IsRealVal (g o)) (hbe : ∀ o, IsRealVal (be o)) (r : Fin n) (o : Fin d) :
    IsRealVal (skipBlock (@varDev) x w b g be r o) := by
  unfold skipBlock
  exact isRealVal_max ((block_varDev_isRealVal x w b g be hx hw hb hg hbe r o).add (hx r o)) IsRealVal.zero

/-- Over the B rows a block with a skip connection on real data is the same function for the two variances. -/
theorem skipBlock_varSq_eq_varDev {d : ℕ} (x : Fin B → Fin d → EReal) (w : Fin d → Fin d → EReal) (b g be : Fin d → EReal)
    (hx : ∀ r j, IsRealVal (x r j)) (hw : ∀ o j, IsRealVal (w o j)) (hb : ∀ o, IsRealVal (b o)) :
    skipBlock (@varSq) x w b g be = skipBlock (@varDev) x w b g be := by
  funext r o
  unfold skipBlock
  rw [block_varSq_eq_varDev x w b g be hx hw hb]

end Cert.BatchNet

end
-- ==== Proof.NetLaw.lean ====
/-
  The whole network on real data is the same for the two variances.

  Going through the five blocks in order, each block's input is real and is the same for the two variances (the batch for
  the first block; the previous block's output afterwards), so its output is real and is the same for the two variances.
  The last affine layer and the logistic function are then applied to equal arguments.
-/
import proofs.«114887_j65481071405707_2_alg».proof.Proof.Spec
import proofs.«114887_j65481071405707_2_alg».proof.Proof.LibFinite
import proofs.«114887_j65481071405707_2_alg».proof.Proof.NetLawBlock

noncomputable section

namespace Cert.BatchNet

open Idealize.ShloMosaic Idealize.ShloMosaic.ValueIdx Cert.Finite

/-- Every entry of every weight is a real number. -/
structure Params.IsReal (p : Params) : Prop where
  w_fm : ∀ o j, IsRealVal (p.w_fm o j)
  b_fm : ∀ o, IsRealVal (p.b_fm o)
  g_fm : ∀ o, IsRealVal (p.g_fm o)
  be_fm : ∀ o, IsRealVal (p.be_fm o)
  w_c1 : ∀ o j, IsRealVal (p.w_c1 o j)
  b_c1 : ∀ o, IsRealVal (p.b_c1 o)
  g_c1 : ∀ o, IsRealVal (p.g_c1 o)
  be_c1 : ∀ o, IsRealVal (p.be_c1 o)
  w_p1 : ∀ o j, IsRealVal (p.w_p1 o j)
  b_p1 : ∀ o, IsRealVal (p.b_p1 o)
  g_p1 : ∀ o, IsRealVal (p.g_p1 o)
  be_p1 : ∀ o, IsRealVal (p.be_p1 o)
  w_c2 : ∀ o j, IsRealVal (p.w_c2 o j)
  b_c2 : ∀ o, IsRealVal (p.b_c2 o)
  g_c2 : ∀ o, IsRealVal (p.g_c2 o)
  be_c2 : ∀ o, IsRealVal (p.be_c2 o)
  w_p2 : ∀ o j, IsRealVal (p.w_p2 o j)
  b_p2 : ∀ o, IsRealVal (p.b_p2 o)
  g_p2 : ∀ o, IsRealVal (p.g_p2 o)
  be_p2 : ∀ o, IsRealVal (p.be_p2 o)
  w_fc : ∀ o j, IsRealVal (p.w_fc o j)
  b_fc : ∀ o, IsRealVal (p.b_fc o)

section Layers

variable (x : Fin B → Fin 8 → EReal) (p : Params) (hx : ∀ r k, IsRealVal (x r k)) (hp : p.IsReal)
include hx hp

theorem act1_isRealVal (r : Fin B) (o : Fin 16) : IsRealVal (act1 (@varDev) x p r o) := by
  unfold act1
  exact block_varDev_isRealVal x _ _ _ _ hx hp.w_fm hp.b_fm hp.g_fm hp.be_fm r o

theorem act1_eq : act1 (@varSq) x p = act1 (@varDev) x p := by
  unfold act1
  exact block_varSq_eq_varDev x _ _ _ _ hx hp.w_fm hp.b_fm

theorem act2_isRealVal (r : Fin B) (o : Fin 16) : IsRealVal (act2 (@varDev) x p r o) := by
  unfold act2
  exact skipBlock_varDev_isRealVal _ _ _ _ _ (act1_isRealVal x p hx hp) hp.w_c1 hp.b_c1 hp.g_c1 hp.be_c1 r o

theorem act2_eq : act2 (@varSq) x p = act2 (@varDev) x p := by
  unfold act2
  rw [act1_eq x p hx hp]
  exact skipBlock_varSq_eq_varDev _ _ _ _ _ (act1_isRealVal x p hx hp) hp.w_c1 hp.b_c1

theorem act3_isRealVal (r : Fin B) (o : Fin 12) : IsRealVal (act3 (@varDev) x p r o) := by
  unfold act3
  exact block_varDev_isRealVal _ _ _ _ _ (act2_isRealVal x p hx hp) hp.w_p1 hp.b_p1 hp.g_p1 hp.be_p1 r o

theorem act3_eq : act3 (@varSq) x p = act3 (@varDev) x p := by
  unfold act3
  rw [act2_eq x p hx hp]
  exact block_varSq_eq_varDev _ _ _ _ _ (act2_isRealVal x p hx hp) hp.w_p1 hp.b_p1

theorem act4_isRealVal (r : Fin B) (o : Fin 12) : IsRealVal (act4 (@varDev) x p r o) := by
  unfold act4
  exact skipBlock_varDev_isRealVal _ _ _ _ _ (act3_isRealVal x p hx hp) hp.w_c2 hp.b_c2 hp.g_c2 hp.be_c2 r o

theorem act4_eq : act4 (@varSq) x p = act4 (@varDev) x p := by
  unfold act4
  rw [act3_eq x p hx hp]
  exact skipBlock_varSq_eq_varDev _ _ _ _ _ (act3_isRealVal x p hx hp) hp.w_c2 hp.b_c2

theorem act5_isRealVal (r : Fin B) (o : Fin 8) : IsRealVal (act5 (@varDev) x p r o) := by
  unfold act5
  exact block_varDev_isRealVal _ _ _ _ _ (act4_isRealVal x p hx hp) hp.w_p2 hp.b_p2 hp.g_p2 hp.be_p2 r o

theorem act5_eq : act5 (@varSq) x p = act5 (@varDev) x p := by
  unfold act5
  rw [act4_eq x p hx hp]
  exact block_varSq_eq_varDev _ _ _ _ _ (act4_isRealVal x p hx hp) hp.w_p2 hp.b_p2

end Layers

/-- On a batch of real rows with real weights the network is the same for the two variances. -/
theorem net_varSq_eq_varDev (x : Fin B → Fin 8 → EReal) (p : Params) (hx : ∀ r k, IsRealVal (x r k)) (hp : p.IsReal)
    (r : Fin B) : net (@varSq) x p r = net (@varDev) x p r := by
  unfold net
  rw [act5_eq x p hx hp]

/-- The weights read off real arrays are real. -/
theorem params_isReal (a1 : FVec Ideal ⟨2, ![16, 8]⟩ .f32) (a2 a3 a4 : FVec Ideal ⟨1, ![16]⟩ .f32)
    (a5 : FVec Ideal ⟨2, ![16, 16]⟩ .f32) (a6 a7 a8 : FVec Ideal ⟨1, ![16]⟩ .f32)
    (a9 : FVec Ideal ⟨2, ![12, 16]⟩ .f32) (a10 a11 a12 : FVec Ideal ⟨1, ![12]⟩ .f32)
    (a13 : FVec Ideal ⟨2, ![12, 12]⟩ .f32) (a14 a15 a16 : FVec Ideal ⟨1, ![12]⟩ .f32)
    (a17 : FVec Ideal ⟨2, ![8, 12]⟩ .f32) (a18 a19 a20 : FVec Ideal ⟨1, ![8]⟩ .f32)
    (a21 : FVec Ideal ⟨2, ![1, 8]⟩ .f32) (a22 : FVec Ideal ⟨1, ![1]⟩ .f32)
    (h1 : IsReal a1) (h2 : IsReal a2) (h3 : IsReal a3) (h4 : IsReal a4) (h5 : IsReal a5) (h6 : IsReal a6)
    (h7 : IsReal a7) (h8 : IsReal a8) (h9 : IsReal a9) (h10 : IsReal a10) (h11 : IsReal a11) (h12 : IsReal a12)
    (h13 : IsReal a13) (h14 : IsReal a14) (h15 : IsReal a15) (h16 : IsReal a16) (h17 : IsReal a17) (h18 : IsReal a18)
    (h19 : IsReal a19) (h20 : IsReal a20) (h21 : IsReal a21) (h22 : IsReal a22) :
    Params.IsReal (params a1 a2 a3 a4 a5 a6 a7 a8 a9 a10 a11 a12 a13 a14 a15 a16 a17 a18 a19 a20 a21 a22) where
  w_fm := fun o j => h1 (ix2 o j)
  b_fm := fun o => h2 (ix1 o)
  g_fm := fun o => h3 (ix1 o)
  be_fm := fun o => h4 (ix1 o)
  w_c1 := fun o j => h5 (ix2 o j)
  b_c1 := fun o => h6 (ix1 o)
  g_c1 := fun o => h7 (ix1 o)
  be_c1 := fun o => h8 (ix1 o)
  w_p1 := fun o j => h9 (ix2 o j)
  b_p1 := fun o => h10 (ix1 o)
  g_p1 := fun o => h11 (ix1 o)
  be_p1 := fun o => h12 (ix1 o)
  w_c2 := fun o j => h13 (ix2 o j)
  b_c2 := fun o => h14 (ix1 o)
  g_c2 := fun o => h15 (ix1 o)
  be_c2 := fun o => h16 (ix1 o)
  w_p2 := fun o j => h17 (ix2 o j)
  b_p2 := fun o => h18 (ix1 o)
  g_p2 := fun o => h19 (ix1 o)
  be_p2 := fun o => h20 (ix1 o)
  w_fc := fun o j => h21 (ix2 o j)
  b_fc := fun o => h22 (ix1 o)

/-- The output array of a real batch with real weights is the same for the two variances. -/
theorem result_varSq_eq_varDev (a0 : FVec Ideal ⟨2, ![B, 8]⟩ .f32) (p : Params) (ha0 : IsReal a0) (hp : p.IsReal) :
    result (@varSq) a0 p = result (@varDev) a0 p := by
  funext i
  exact net_varSq_eq_varDev (rows a0) p (fun r k => ha0 (ix2 r k)) hp (i 0)

end Cert.BatchNet

end
-- ==== Proof.Bridge.lean ====
/-
  From tiles to the batch, and from the feature-major arrays to the network's layers.

  A feature-major array X : [k, B] holds row r's feature j at (j, r).  Because every body acts column by column, the
  array assembled from the tiles' results is the whole-array function of the whole inputs; and the statistics block,
  summed over its two halves, sixteen tiles each, 65,536 columns a tile, holds the two sums over the whole batch.
-/
import proofs.«114887_j65481071405707_2_alg».proof.Proof.TileLayers
import proofs.«114887_j65481071405707_2_alg».proof.Proof.LibVarLaw
import proofs.«114887_j65481071405707_2_alg».proof.Proof.NetLaw

noncomputable section

namespace Cert.BatchNet.Tile

open Idealize.ShloMosaic Idealize.ShloMosaic.ValueIdx Cert.LibDenseLayers Cert.BatchNet

/-- Feature-major view of rows: `cols X r j = X (j, r)`. -/
def cols {k n : ℕ} (X : Mat k n) : Fin n → Fin k → EReal := fun r j => X (ix2 j r)

/-- The affine tile map is the affine layer, feature-major. -/
theorem aff_eq_lin {o k n : ℕ} (W : Mat o k) (X : Mat k n) (b : Mat o 1) (p : Fin o) (r : Fin n) :
    aff W X b (ix2 p r) = lin (cols X) (rows W) (fun q => b (ix2 q (0 : Fin 1))) r p := by
  rw [aff_apply]
  unfold lin cols rows
  congr 1
  exact Finset.sum_congr rfl fun j _ => mul_comm _ _

/-- Normalisation with the mean and a variance `vf` of the batch is the block of the network. -/
theorem bn_eq_block (vf : VarFn) {o k n : ℕ} (W : Mat o k) (X : Mat k n) (b g be mu var : Mat o 1)
    (hmu : ∀ q, mu (ix2 q (0 : Fin 1)) = mean (lin (cols X) (rows W) (fun q => b (ix2 q (0 : Fin 1)))) q)
    (hvar : ∀ q, var (ix2 q (0 : Fin 1)) = vf (lin (cols X) (rows W) (fun q => b (ix2 q (0 : Fin 1)))) q)
    (p : Fin o) (r : Fin n) :
    bn (aff W X b) g be mu var (ix2 p r)
      = block vf (cols X) (rows W) (fun q => b (ix2 q (0 : Fin 1))) (fun q => g (ix2 q (0 : Fin 1)))
          (fun q => be (ix2 q (0 : Fin 1))) r p := by
  rw [bn_apply, aff_eq_lin, hmu, hvar]
  rfl

/-! ## Tiles of columns -/

/-- Columns `off … off + n − 1` of a feature-major array. -/
def colTile {k N : ℕ} (n off : ℕ) (h : off + n ≤ N) (X : Mat k N) : Mat k n :=
  fun i => X (ix2 (rowOf i) ⟨off + (colOf i).val, by have := (colOf i).isLt; omega⟩)

theorem colTile_apply {k N : ℕ} (n off : ℕ) (h : off + n ≤ N) (X : Mat k N) (p : Fin k) (e : Fin n) :
    colTile n off h X (ix2 p e) = X (ix2 p ⟨off + e.val, by have := e.isLt; omega⟩) := rfl

/-- The affine map of a tile is the tile of the affine map. -/
theorem aff_colTile {o k N : ℕ} (n off : ℕ) (h : off + n ≤ N) (W : Mat o k) (X : Mat k N) (b : Mat o 1) :
    aff W (colTile n off h X) b = colTile n off h (aff W X b) := funext fun i => by
  obtain ⟨p, e, rfl⟩ : ∃ (p : Fin o) (e : Fin n), i = ix2 p e := ⟨i 0, i 1, eq_ix2 i⟩
  rfl

/-- Normalisation of a tile is the tile of the normalisation. -/
theorem bn_colTile {o N : ℕ} (n off : ℕ) (h : off + n ≤ N) (Y : Mat o N) (g be mu var : Mat o 1) :
    bn (colTile n off h Y) g be mu var = colTile n off h (bn Y g be mu var) := funext fun i => by
  obtain ⟨p, e, rfl⟩ : ∃ (p : Fin o) (e : Fin n), i = ix2 p e := ⟨i 0, i 1, eq_ix2 i⟩
  rfl

/-- The skip connection on tiles is the tile of the skip connection. -/
theorem skip_colTile {o N : ℕ} (n off : ℕ) (h : off + n ≤ N) (A X : Mat o N) :
    skip (colTile n off h A) (colTile n off h X) = colTile n off h (skip A X) := funext fun i => by
  obtain ⟨p, e, rfl⟩ : ∃ (p : Fin o) (e : Fin n), i = ix2 p e := ⟨i 0, i 1, eq_ix2 i⟩
  rfl

/-- A body's block on a tile is the tile of the block on the whole array. -/
theorem bn_aff_colTile {o k N : ℕ} (n off : ℕ) (h : off + n ≤ N) (W : Mat o k) (X : Mat k N) (b g be mu var : Mat o 1) :
    bn (aff W (colTile n off h X) b) g be mu var = colTile n off h (bn (aff W X b) g be mu var) := by
  rw [aff_colTile, bn_colTile]

/-- The same with the skip connection. -/
theorem skip_bn_aff_colTile {o N : ℕ} (n off : ℕ) (h : off + n ≤ N) (W : Mat o o) (X : Mat o N) (b g be mu var : Mat o 1) :
    skip (bn (aff W (colTile n off h X) b) g be mu var) (colTile n off h X)
      = colTile n off h (skip (bn (aff W X b) g be mu var) X) := by
  rw [bn_aff_colTile, skip_colTile]

/-! ## The batch as two halves of sixteen tiles of 65,536 columns -/

/-- Column `l` of tile `s` of half `q` is a column of the batch. -/
theorem batch_lt (q : Fin 2) (s : Fin 16) (l : Fin 65536) : (q.val * 16 + s.val) * 65536 + l.val < 2097152 := by
  have := q.isLt; have := s.isLt; have := l.isLt; omega

/-- A sum over the batch, taken half by half, tile by tile, column by column. -/
theorem sum_batch {M : Type*} [AddCommMonoid M] (f : Fin 2097152 → M) :
    ∑ q : Fin 2, ∑ s : Fin 16, ∑ l : Fin 65536, f ⟨(q.val * 16 + s.val) * 65536 + l.val, batch_lt q s l⟩ = ∑ r, f r := by
  have h1 := Cert.VarLaw.sum_tiles 2 16 32 (by norm_num)
    (fun t : Fin 32 => ∑ l : Fin 65536, f ⟨t.val * 65536 + l.val, by have := t.isLt; have := l.isLt; omega⟩)
  have h2 := Cert.VarLaw.sum_tiles 32 65536 2097152 (by norm_num) f
  exact h1.trans h2

/-! ## An accumulator reset at the start of each half -/

/-- Entrywise sum of two blocks is their sum as functions. -/
theorem addf_eq_add {s : Shape} (a b : FVec Ideal s .f32) : addf a b = a + b := rfl

/-- A quantity that is reset to `Z` plus the point's term at the first point of each half (points 0 and 16 of 32) and
    grows by the point's term at every other point holds, after the last point of half `q`, `Z` plus the sum of that
    half's sixteen terms. -/
theorem half_sums {α : Type*} [AddCommMonoid α] (S : (n : ℕ) → n < 32 → α) (P : Fin 32 → α) (Z : α)
    (hA : ∀ t : Fin 32, t.val % 16 = 0 → S t.val t.isLt = Z + P t)
    (hB : ∀ t : Fin 32, ¬t.val % 16 = 0 → S t.val t.isLt = S (t.val - 1) (by have := t.isLt; omega) + P t)
    (q : Fin 2) :
    S (q.val * 16 + 15) (by have := q.isLt; omega)
      = Z + ∑ s : Fin 16, P ⟨q.val * 16 + s.val, by have := q.isLt; have := s.isLt; omega⟩ := by
  have hq := q.isLt
  have hS : ∀ (n n' : ℕ) (h : n < 32) (h' : n' < 32), n = n' → S n h = S n' h' := by
    intro n n' h h' e; subst e; rfl
  have key : ∀ (s : ℕ) (hs : s < 16), S (q.val * 16 + s) (by omega)
      = Z + ∑ u : Fin (s + 1), P ⟨q.val * 16 + u.val, by have := u.isLt; omega⟩ := by
    intro s
    induction s with
    | zero =>
      intro hs
      have h := hA ⟨q.val * 16 + 0, by omega⟩ (by dsimp only; omega)
      rw [h, Fin.sum_univ_one]
      rfl
    | succ s ih =>
      intro hs
      have hb := hB ⟨q.val * 16 + (s + 1), by omega⟩ (by dsimp only; omega)
      have e : q.val * 16 + (s + 1) - 1 = q.val * 16 + s := by omega
      rw [hb, hS _ _ _ (by omega) e, ih (by omega), add_assoc]
      conv_rhs => rw [Fin.sum_univ_castSucc]
      rfl
  exact key 15 (by omega)

end Cert.BatchNet.Tile

end
-- ==== Proof.Values4.lean ====
/-
  Region 4, at the ideal instance: the body's arithmetic as the tile functions of the network — the activation block is
  the normalised affine map of the loaded tile with its skip connection, the statistics block grows by the two lane sums of the next layer's
  affine map of that block.
-/
import proofs.«114887_j65481071405707_2_alg».proof.Proof.Pieces4
import proofs.«114887_j65481071405707_2_alg».proof.Proof.TileLayers
import proofs.«114887_j65481071405707_2_alg».proof.Proof.Bridge

set_option maxRecDepth 16384

noncomputable section

namespace Cert.KernelIdeal.Net.R4

open Cert.KernelIdeal Cert.KernelIdeal.Gen
open Idealize.ShloMosaic Idealize.ShloMosaic.TcCoe Idealize.SL.Sem Idealize.ShloMosaic.ValueIdx
open Cert.BatchNet Cert.BatchNet.Tile Cert.LibDenseLayers

/-- The activation block as a tile function. -/
theorem pay_act_eq (v3 : Vec Ideal S12x12 .f32) (v4 : Vec Ideal S12x65536 .f32) (v7 v11 v16 v18 v26 : Vec Ideal S12x1 .f32) :
    k4_pay1 (k4_pay4 v3 v4 v7 v11 v16 v18 v26 v4) (FloatOps.ofBits .f32 0x00000000#32 : Ideal .f32) = skip (bn (aff v3 v4 v7) v16 v26 v18 v11) v4 := by
  unfold k4_pay1 k4_pay4
  rw [← skip_eq _ _ shapeCasts_S12x65536_S12x65536, ← act_eq dot_S12x12_S12x65536_S12x65536_1_0_0_1_n_n rfl rfl (fun _ _ => rfl) (fun _ _ => rfl) (fun _ _ => rfl) (fun _ _ => rfl) shapeCasts_S12x65536_S12x65536 shapeCasts_S12x1_S12x1 broadcasts_S12x1_S12x65536]

/-- The statistics block's update. -/
theorem pay_stats_eq (P : FVec Ideal S12x65536 .f32) (v38 : Vec Ideal S8x12 .f32) (v40 : Vec Ideal S8x1 .f32) (v49 : Vec Ideal S1x8x2 .f32) :
    k4_pay2 P (FloatOps.ofBits .f32 0x00000000#32 : Ideal .f32) v38 v40 v49 = addf v49 (laneSums (aff v38 (k4_pay1 P (FloatOps.ofBits .f32 0x00000000#32 : Ideal .f32)) v40)) := by
  unfold k4_pay2
  exact stats_aff_eq dot_S8x12_S12x65536_S8x65536_1_0_0_1_n_n rfl rfl (fun _ _ => rfl) (fun _ _ => rfl) (fun _ _ => rfl) (fun _ _ => rfl) _ _ v38 (k4_pay1 P (FloatOps.ofBits .f32 0x00000000#32 : Ideal .f32)) v40 v49 _ _ _ _ _

/-- The block a half starts from is zero. -/
theorem pay_zero_eq : (k4_pay3 : FVec Ideal S1x8x2 .f32) = 0 := by
  unfold k4_pay3
  exact zeroBlock_eq _

end Cert.KernelIdeal.Net.R4

end
-- ==== Proof.Blocks4.lean ====
/-
  Region 4: which part of its array each window's block is.  Point t of the 32 handles columns 65,536·t …
  65,536·t + 65,535 of the input and of the activation output; the statistics block of point t is slab t / 16;
  every other window's block is its whole array.
-/
import proofs.«114887_j65481071405707_2_alg».proof.Proof.Values4
import Idealize.ShloMosaic.Lib.Pipeline.Value

set_option maxRecDepth 16384

noncomputable section

namespace Cert.KernelIdeal.Net.R4

open Cert.KernelIdeal Cert.KernelIdeal.Gen
open Idealize.ShloMosaic Idealize.ShloMosaic.TcCoe Idealize.SL.Sem Idealize.ShloMosaic.ValueIdx
open Cert.BatchNet Cert.BatchNet.Tile Cert.LibDenseLayers

variable (V : (c : Dev nD) → (b : Ref sig .tc) → Buf (Elt Ideal) ((c : Thread nD τ).loc b))

/-! The arrays the region finds in its nine input windows. -/
def in0 (c : Dev nD) : Mat 12 2097152 := V c (Pipeline.arrRef spec4 0)
def in1 (c : Dev nD) : Mat 12 12 := V c (Pipeline.arrRef spec4 1)
def in2 (c : Dev nD) : Mat 12 1 := V c (Pipeline.arrRef spec4 2)
def in3 (c : Dev nD) : Mat 12 1 := V c (Pipeline.arrRef spec4 3)
def in4 (c : Dev nD) : Mat 12 1 := V c (Pipeline.arrRef spec4 4)
def in5 (c : Dev nD) : Mat 12 1 := V c (Pipeline.arrRef spec4 5)
def in6 (c : Dev nD) : Mat 12 1 := V c (Pipeline.arrRef spec4 6)
def in7 (c : Dev nD) : Mat 8 12 := V c (Pipeline.arrRef spec4 7)
def in8 (c : Dev nD) : Mat 8 1 := V c (Pipeline.arrRef spec4 8)

theorem N32 : cfg4.N = 32 := N_4

theorem lt32 (t : Fin cfg4.N) : t.val < 32 := lt_of_lt_of_eq t.isLt N32

theorem tile_le (t : Fin cfg4.N) : t.val * 65536 + 65536 ≤ 2097152 := by have := lt32 t; omega

/-- The printed index maps over the grid. -/
theorem idx_facts : ∀ t : Fin cfg4.N, win4_0.index t (0 : Fin 2) = 0
    ∧ win4_0.index t (1 : Fin 2) = t.val
    ∧ win4_9.index t (0 : Fin 2) = 0
    ∧ win4_9.index t (1 : Fin 2) = t.val
    ∧ win4_10.index t (0 : Fin 3) = t.val / 16
    ∧ win4_10.index t (1 : Fin 3) = 0
    ∧ win4_10.index t (2 : Fin 3) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_6.index t (0 : Fin 2) = 0
    ∧ win4_6.index t (1 : Fin 2) = 0
    ∧ win4_7.index t (0 : Fin 2) = 0
    ∧ win4_7.index t (1 : Fin 2) = 0
    ∧ win4_8.index t (0 : Fin 2) = 0
    ∧ win4_8.index t (1 : Fin 2) = 0 :=
  (by decide +kernel : ∀ t : Fin grid4.N, _)

/-- Window 1's block is its whole array at every point. -/
theorem blk_1 (c : Dev nD) (t : Fin cfg4.N) : iblk4 V c 1 t = in1 V c := by
  unfold in1
  obtain ⟨e0, e1, e2, e3, e4, e5, e6, e7, e8, e9, e10, e11, e12, e13, e14, e15, e16, e17, e18, e19, e20, e21, e22⟩ := idx_facts t
  funext j
  show V c (Pipeline.arrRef spec4 1) (((cfg4.win 1).blk t).view.emb j) = V c (Pipeline.arrRef spec4 1) j
  refine congrArg _ ?_
  funext a
  apply Fin.ext
  match a with
  | ⟨0, _⟩ => show win4_1.index t (0 : Fin 2) * 12 + 1 * (j 0).val = (j 0).val; rw [e7]; omega
  | ⟨1, _⟩ => show win4_1.index t (1 : Fin 2) * 12 + 1 * (j 1).val = (j 1).val; rw [e8]; omega

/-- Window 2's block is its whole array at every point. -/
theorem blk_2 (c : Dev nD) (t : Fin cfg4.N) : iblk4 V c 2 t = in2 V c := by
  unfold in2
  obtain ⟨e0, e1, e2, e3, e4, e5, e6, e7, e8, e9, e10, e11, e12, e13, e14, e15, e16, e17, e18, e19, e20, e21, e22⟩ := idx_facts t
  funext j
  show V c (Pipeline.arrRef spec4 2) (((cfg4.win 2).blk t).view.emb j) = V c (Pipeline.arrRef spec4 2) j
  refine congrArg _ ?_
  funext a
  apply Fin.ext
  match a with
  | ⟨0, _⟩ => show win4_2.index t (0 : Fin 2) * 12 + 1 * (j 0).val = (j 0).val; rw [e9]; omega
  | ⟨1, _⟩ => show win4_2.index t (1 : Fin 2) * 1 + 1 * (j 1).val = (j 1).val; rw [e10]; omega

/-- Window 3's block is its whole array at every point. -/
theorem blk_3 (c : Dev nD) (t : Fin cfg4.N) : iblk4 V c 3 t = in3 V c := by
  unfold in3
  obtain ⟨e0, e1, e2, e3, e4, e5, e6, e7, e8, e9, e10, e11, e12, e13, e14, e15, e16, e17, e18, e19, e20, e21, e22⟩ := idx_facts t
  funext j
  show V c (Pipeline.arrRef spec4 3) (((cfg4.win 3).blk t).view.emb j) = V c (Pipeline.arrRef spec4 3) j
  refine congrArg _ ?_
  funext a
  apply Fin.ext
  match a with
  | ⟨0, _⟩ => show win4_3.index t (0 : Fin 2) * 12 + 1 * (j 0).val = (j 0).val; rw [e11]; omega
  | ⟨1, _⟩ => show win4_3.index t (1 : Fin 2) * 1 + 1 * (j 1).val = (j 1).val; rw [e12]; omega

/-- Window 4's block is its whole array at every point. -/
theorem blk_4 (c : Dev nD) (t : Fin cfg4.N) : iblk4 V c 4 t = in4 V c := by
  unfold in4
  obtain ⟨e0, e1, e2, e3, e4, e5, e6, e7, e8, e9, e10, e11, e12, e13, e14, e15, e16, e17, e18, e19, e20, e21, e22⟩ := idx_facts t
  funext j
  show V c (Pipeline.arrRef spec4 4) (((cfg4.win 4).blk t).view.emb j) = V c (Pipeline.arrRef spec4 4) j
  refine congrArg _ ?_
  funext a
  apply Fin.ext
  match a with
  | ⟨0, _⟩ => show win4_4.index t (0 : Fin 2) * 12 + 1 * (j 0).val = (j 0).val; rw [e13]; omega
  | ⟨1, _⟩ => show win4_4.index t (1 : Fin 2) * 1 + 1 * (j 1).val = (j 1).val; rw [e14]; omega

/-- Window 5's block is its whole array at every point. -/
theorem blk_5 (c : Dev nD) (t : Fin cfg4.N) : iblk4 V c 5 t = in5 V c := by
  unfold in5
  obtain ⟨e0, e1, e2, e3, e4, e5, e6, e7, e8, e9, e10, e11, e12, e13, e14, e15, e16, e17, e18, e19, e20, e21, e22⟩ := idx_facts t
  funext j
  show V c (Pipeline.arrRef spec4 5) (((cfg4.win 5).blk t).view.emb j) = V c (Pipeline.arrRef spec4 5) j
  refine congrArg _ ?_
  funext a
  apply Fin.ext
  match a with
  | ⟨0, _⟩ => show win4_5.index t (0 : Fin 2) * 12 + 1 * (j 0).val = (j 0).val; rw [e15]; omega
  | ⟨1, _⟩ => show win4_5.index t (1 : Fin 2) * 1 + 1 * (j 1).val = (j 1).val; rw [e16]; omega

/-- Window 6's block is its whole array at every point. -/
theorem blk_6 (c : Dev nD) (t : Fin cfg4.N) : iblk4 V c 6 t = in6 V c := by
  unfold in6
  obtain ⟨e0, e1, e2, e3, e4, e5, e6, e7, e8, e9, e10, e11, e12, e13, e14, e15, e16, e17, e18, e19, e20, e21, e22⟩ := idx_facts t
  funext j
  show V c (Pipeline.arrRef spec4 6) (((cfg4.win 6).blk t).view.emb j) = V c (Pipeline.arrRef spec4 6) j
  refine congrArg _ ?_
  funext a
  apply Fin.ext
  match a with
  | ⟨0, _⟩ => show win4_6.index t (0 : Fin 2) * 12 + 1 * (j 0).val = (j 0).val; rw [e17]; omega
  | ⟨1, _⟩ => show win4_6.index t (1 : Fin 2) * 1 + 1 * (j 1).val = (j 1).val; rw [e18]; omega

/-- Window 7's block is its whole array at every point. -/
theorem blk_7 (c : Dev nD) (t : Fin cfg4.N) : iblk4 V c 7 t = in7 V c := by
  unfold in7
  obtain ⟨e0, e1, e2, e3, e4, e5, e6, e7, e8, e9, e10, e11, e12, e13, e14, e15, e16, e17, e18, e19, e20, e21, e22⟩ := idx_facts t
  funext j
  show V c (Pipeline.arrRef spec4 7) (((cfg4.win 7).blk t).view.emb j) = V c (Pipeline.arrRef spec4 7) j
  refine congrArg _ ?_
  funext a
  apply Fin.ext
  match a with
  | ⟨0, _⟩ => show win4_7.index t (0 : Fin 2) * 8 + 1 * (j 0).val = (j 0).val; rw [e19]; omega
  | ⟨1, _⟩ => show win4_7.index t (1 : Fin 2) * 12 + 1 * (j 1).val = (j 1).val; rw [e20]; omega

/-- Window 8's block is its whole array at every point. -/
theorem blk_8 (c : Dev nD) (t : Fin cfg4.N) : iblk4 V c 8 t = in8 V c := by
  unfold in8
  obtain ⟨e0, e1, e2, e3, e4, e5, e6, e7, e8, e9, e10, e11, e12, e13, e14, e15, e16, e17, e18, e19, e20, e21, e22⟩ := idx_facts t
  funext j
  show V c (Pipeline.arrRef spec4 8) (((cfg4.win 8).blk t).view.emb j) = V c (Pipeline.arrRef spec4 8) j
  refine congrArg _ ?_
  funext a
  apply Fin.ext
  match a with
  | ⟨0, _⟩ => show win4_8.index t (0 : Fin 2) * 8 + 1 * (j 0).val = (j 0).val; rw [e21]; omega
  | ⟨1, _⟩ => show win4_8.index t (1 : Fin 2) * 1 + 1 * (j 1).val = (j 1).val; rw [e22]; omega

/-- Window 0's block at point t is columns 65,536·t … of its array. -/
theorem blk_0 (c : Dev nD) (t : Fin cfg4.N) :
    iblk4 V c 0 t = colTile 65536 (t.val * 65536) (tile_le t) (in0 V c) := by
  unfold in0
  obtain ⟨e0, e1, e2, e3, e4, e5, e6, e7, e8, e9, e10, e11, e12, e13, e14, e15, e16, e17, e18, e19, e20, e21, e22⟩ := idx_facts t
  funext j
  obtain ⟨p, e, rfl⟩ : ∃ (p : Fin 12) (e : Fin 65536), j = ix2 p e := ⟨j 0, j 1, eq_ix2 j⟩
  rw [colTile_apply]
  show V c (Pipeline.arrRef spec4 0) (((cfg4.win 0).blk t).view.emb (ix2 p e)) = _
  refine congrArg _ ?_
  funext a
  apply Fin.ext
  match a with
  | ⟨0, _⟩ => show win4_0.index t (0 : Fin 2) * 12 + 1 * p.val = p.val; rw [e0]; omega
  | ⟨1, _⟩ => show win4_0.index t (1 : Fin 2) * 65536 + 1 * e.val = t.val * 65536 + e.val; rw [e1]; omega

end Cert.KernelIdeal.Net.R4

end
-- ==== Proof.Arrays4.lean ====
/-
  Region 4: what the two output buffers hold after every point, and the tiles' values as functions of the arrays
  the region finds.  The activation block of point t is tile t of the whole-array activation `actArr`; the statistics
  buffer is reset at the first point of a half and grows, point by point, by the two lane sums of the next layer's
  affine map of that tile (`partAt`).
-/
import proofs.«114887_j65481071405707_2_alg».proof.Proof.Blocks4

set_option maxRecDepth 16384

noncomputable section

namespace Cert.KernelIdeal.Net.R4

open Cert.KernelIdeal Cert.KernelIdeal.Gen
open Idealize.ShloMosaic Idealize.ShloMosaic.TcCoe Idealize.SL.Sem Idealize.ShloMosaic.ValueIdx
open Cert.BatchNet Cert.BatchNet.Tile Cert.LibDenseLayers

variable (V : (c : Dev nD) → (b : Ref sig .tc) → Buf (Elt Ideal) ((c : Thread nD τ).loc b))

/-- The activation block of point t, as the body computes it from its loaded blocks. -/
def actAt (c : Dev nD) (t : Fin cfg4.N) : FVec Ideal S12x65536 .f32 := k4_pay1 (k4_pay4 (iblk4 V c 1 t) (iblk4 V c 0 t) (iblk4 V c 2 t) (iblk4 V c 6 t) (iblk4 V c 3 t) (iblk4 V c 5 t) (iblk4 V c 4 t) (iblk4 V c 0 t)) (FloatOps.ofBits .f32 0x00000000#32 : Ideal .f32)

/-- The statistics block after point t's update of `old`. -/
def statUpd (c : Dev nD) (t : Fin cfg4.N) (old : Vec Ideal S1x8x2 .f32) : FVec Ideal S1x8x2 .f32 := k4_pay2 (k4_pay4 (iblk4 V c 1 t) (iblk4 V c 0 t) (iblk4 V c 2 t) (iblk4 V c 6 t) (iblk4 V c 3 t) (iblk4 V c 5 t) (iblk4 V c 4 t) (iblk4 V c 0 t)) (FloatOps.ofBits .f32 0x00000000#32 : Ideal .f32) (iblk4 V c 7 t) (iblk4 V c 8 t) old

/-- What the activation output's buffer holds after point n. -/
theorem acts (c : Dev nD) (t : Fin cfg4.N) : (outsAt4 V c t.val t.isLt).1 = actAt V c t := by
  unfold actAt
  by_cases h0 : t.val % 16 = 0
  · rw [outsAt4_A V c t h0]
    dsimp only
    exact out_A_9 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) ((hcond4_0 t).mpr h0) (iblk4 V c 0 t) (iblk4 V c 1 t) (iblk4 V c 2 t) (iblk4 V c 3 t) (iblk4 V c 4 t) (iblk4 V c 5 t) (iblk4 V c 6 t) (iblk4 V c 7 t) (iblk4 V c 8 t)
  · rw [outsAt4_B V c t h0]
    dsimp only
    exact out_B_9 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (fun hh => h0 ((hcond4_0 t).mp hh)) (iblk4 V c 0 t) (iblk4 V c 1 t) (iblk4 V c 2 t) (iblk4 V c 3 t) (iblk4 V c 4 t) (iblk4 V c 5 t) (iblk4 V c 6 t) (iblk4 V c 7 t) (iblk4 V c 8 t) _

theorem stat_A' (c : Dev nD) (t : Fin cfg4.N) (h0 : t.val % 16 = 0) :
    (outsAt4 V c t.val t.isLt).2 = statUpd V c t (k4_pay3 (F := Ideal)) := by
  unfold statUpd
  rw [outsAt4_A V c t h0]
  exact out_A_10 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) ((hcond4_0 t).mpr h0) (iblk4 V c 0 t) (iblk4 V c 1 t) (iblk4 V c 2 t) (iblk4 V c 3 t) (iblk4 V c 4 t) (iblk4 V c 5 t) (iblk4 V c 6 t) (iblk4 V c 7 t) (iblk4 V c 8 t)

theorem stat_B' (c : Dev nD) (t : Fin cfg4.N) (h0 : ¬t.val % 16 = 0) :
    (outsAt4 V c t.val t.isLt).2
      = statUpd V c t (outsAt4 V c (t.val - 1) (Nat.lt_of_le_of_lt (Nat.sub_le _ _) t.isLt)).2 := by
  unfold statUpd
  rw [outsAt4_B V c t h0]
  exact out_B_10 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (fun hh => h0 ((hcond4_0 t).mp hh)) (iblk4 V c 0 t) (iblk4 V c 1 t) (iblk4 V c 2 t) (iblk4 V c 3 t) (iblk4 V c 4 t) (iblk4 V c 5 t) (iblk4 V c 6 t) (iblk4 V c 7 t) (iblk4 V c 8 t) _

/-- The whole activation array: the network's block applied to the array the region finds. -/
def actArr (c : Dev nD) : Mat 12 2097152 := skip (bn (aff (in1 V c) (in0 V c) (in2 V c)) (in3 V c) (in4 V c) (in5 V c) (in6 V c)) (in0 V c)

/-- The activation block of point t is tile t of the whole activation array. -/
theorem actAt_eq (c : Dev nD) (t : Fin cfg4.N) :
    actAt V c t = colTile 65536 (t.val * 65536) (tile_le t) (actArr V c) := by
  unfold actAt actArr
  rw [blk_0 V c t, blk_1 V c t, blk_2 V c t, blk_3 V c t, blk_4 V c t, blk_5 V c t, blk_6 V c t]
  rw [pay_act_eq]
  exact skip_bn_aff_colTile 65536 (t.val * 65536) (tile_le t) (in1 V c) (in0 V c) (in2 V c) (in3 V c) (in4 V c) (in5 V c) (in6 V c)

/-- The two lane sums of the next layer's affine map of tile t of the activation array. -/
def partAt (c : Dev nD) (t : Fin cfg4.N) : FVec Ideal S1x8x2 .f32 :=
  laneSums (aff (in7 V c) (colTile 65536 (t.val * 65536) (tile_le t) (actArr V c)) (in8 V c))

/-- A point's update adds its tile's lane sums. -/
theorem statUpd_eq (c : Dev nD) (t : Fin cfg4.N) (old : Vec Ideal S1x8x2 .f32) :
    statUpd V c t old = old + partAt V c t := by
  have ha := actAt_eq V c t
  unfold actAt at ha
  unfold statUpd partAt
  rw [pay_stats_eq, ha, blk_7 V c t, blk_8 V c t, addf_eq_add]

theorem stat_A (c : Dev nD) (t : Fin cfg4.N) (h0 : t.val % 16 = 0) :
    (outsAt4 V c t.val t.isLt).2 = 0 + partAt V c t := by
  rw [stat_A' V c t h0, statUpd_eq, pay_zero_eq]

theorem stat_B (c : Dev nD) (t : Fin cfg4.N) (h0 : ¬t.val % 16 = 0) :
    (outsAt4 V c t.val t.isLt).2
      = (outsAt4 V c (t.val - 1) (Nat.lt_of_le_of_lt (Nat.sub_le _ _) t.isLt)).2 + partAt V c t := by
  rw [stat_B' V c t h0, statUpd_eq]

end Cert.KernelIdeal.Net.R4

end
-- ==== Proof.Finals4.lean ====
/-
  Region 4: the write-backs.  Point t writes its activation block back to columns 65,536·t … of the activation
  array; the statistics block is written back after the last point of each half, to that half's slab.  Every entry of
  either array is written, so after the region the arrays are the functions `actArr` and `statArr` of what the region
  found.
-/
import proofs.«114887_j65481071405707_2_alg».proof.Proof.Arrays4

set_option maxRecDepth 16384

noncomputable section

namespace Cert.KernelIdeal.Net.R4

open Cert.KernelIdeal Cert.KernelIdeal.Gen
open Idealize.ShloMosaic Idealize.ShloMosaic.TcCoe Idealize.SL.Sem Idealize.ShloMosaic.ValueIdx
open Idealize.ShloMosaic.Pipeline (Dat)
open Cert.BatchNet Cert.BatchNet.Tile Cert.LibDenseLayers

variable (V : (c : Dev nD) → (b : Ref sig .tc) → Buf (Elt Ideal) ((c : Thread nD τ).loc b))

theorem lt_N {n : ℕ} (h : n < 32) : n < cfg4.N := lt_of_lt_of_eq h N32.symm

/-- After the last point of half q the statistics buffer holds the sum of the half's sixteen tiles' lane sums. -/
theorem stats_half (c : Dev nD) (q : Fin 2) :
    (outsAt4 V c (q.val * 16 + 15) (lt_N (by have := q.isLt; omega))).2
      = 0 + ∑ s : Fin 16, partAt V c ⟨q.val * 16 + s.val, lt_N (by have := q.isLt; have := s.isLt; omega)⟩ :=
  half_sums (fun n h => (outsAt4 V c n (lt_N h)).2)
    (fun t => partAt V c ⟨t.val, lt_N t.isLt⟩) 0
    (fun t h0 => stat_A V c ⟨t.val, lt_N t.isLt⟩ h0)
    (fun t h0 => stat_B V c ⟨t.val, lt_N t.isLt⟩ h0) q

/-- The statistics array after the region. -/
def statArr (c : Dev nD) : FVec Ideal S2x8x2 .f32 := fun i =>
  (0 + ∑ s : Fin 16, partAt V c ⟨(i 0).val * 16 + s.val, lt_N (by have h0 : (i 0).val < 2 := (i 0).isLt; have := s.isLt; omega)⟩)
    (ix3 (0 : Fin 1) (⟨(i 1).val, (i 1).isLt⟩ : Fin 8) (⟨(i 2).val, (i 2).isLt⟩ : Fin 2))

theorem statArr_apply (c : Dev nD) (q : Fin 2) (o : Fin 8) (u : Fin 2) :
    statArr V c (ix3 q o u)
      = (0 + ∑ s : Fin 16, partAt V c ⟨q.val * 16 + s.val, lt_N (by have := q.isLt; have := s.isLt; omega)⟩)
          (ix3 (0 : Fin 1) o u) := rfl

/-! ## The activation output -/

theorem flushed9_eq (c : Dev nD) (t : Fin cfg4.N) :
    (dat4 V c).flushed 9 t = ((cfg4.win 9).blk t).view.read (Elt Ideal) (actArr V c) := by
  obtain ⟨e0, e1, e2, e3, e4, e5, e6, e7, e8, e9, e10, e11, e12, e13, e14, e15, e16, e17, e18, e19, e20, e21, e22⟩ := idx_facts t
  show (cfg4.win 9).cut (grid4.coords t) ((dat4 V c).after 9 t) = _
  rw [after4_9, acts V c t, actAt_eq V c t]
  funext j
  obtain ⟨p, e, rfl⟩ : ∃ (p : Fin 12) (e : Fin 65536), j = ix2 p e := ⟨j 0, j 1, eq_ix2 j⟩
  show colTile 65536 (t.val * 65536) (tile_le t) (actArr V c) (ix2 p e) = actArr V c (((cfg4.win 9).blk t).view.emb (ix2 p e))
  rw [colTile_apply]
  refine congrArg _ ?_
  funext a
  apply Fin.ext
  match a with
  | ⟨0, _⟩ => show p.val = win4_9.index t (0 : Fin 2) * 12 + 1 * p.val; rw [e2]; omega
  | ⟨1, _⟩ => show t.val * 65536 + e.val = win4_9.index t (1 : Fin 2) * 65536 + 1 * e.val; rw [e3]; omega

theorem mem_blk9 (t : Fin cfg4.N) (i : S12x2097152.Idx) :
    i ∈ ((cfg4.win 9).blk t).view.set ↔ ∀ a : Fin 2, win4_9.index t a * S12x65536.size a ≤ (i a).val ∧ (i a).val < win4_9.index t a * S12x65536.size a + S12x65536.size a := by
  show i ∈ ((View.whole main_v66_0).slice (win4_9.rect t)).set ↔ _
  rw [View.set_slice_whole, Rect.mem_set_unit]
  exact Iff.rfl

/-- The activation array after the region. -/
theorem final9 (c : Dev nD) : (dat4 V c).arrAt 9 cfg4.N = actArr V c :=
  (dat4 V c).arrAt_eq_of_cover 9 (actArr V c) (fun t _ => flushed9_eq V c t) fun i => by
    have hi0 : (i 0).val < 12 := (i 0).isLt
    have hi1 : (i 1).val < 2097152 := (i 1).isLt
    refine ⟨⟨(i 1).val / 65536, lt_N (by omega)⟩, flush4_9 _, ?_⟩
    rw [mem_blk9]
    obtain ⟨e0, e1, e2, e3, e4, e5, e6, e7, e8, e9, e10, e11, e12, e13, e14, e15, e16, e17, e18, e19, e20, e21, e22⟩ := idx_facts (⟨(i 1).val / 65536, lt_N (by omega)⟩ : Fin cfg4.N)
    intro a
    match a with
    | ⟨0, _⟩ => show win4_9.index _ (0 : Fin 2) * 12 ≤ (i 0).val ∧ (i 0).val < win4_9.index _ (0 : Fin 2) * 12 + 12; rw [e2]; omega
    | ⟨1, _⟩ => show win4_9.index _ (1 : Fin 2) * 65536 ≤ (i 1).val ∧ (i 1).val < win4_9.index _ (1 : Fin 2) * 65536 + 65536; rw [e3]; show (i 1).val / 65536 * 65536 ≤ _ ∧ _ < (i 1).val / 65536 * 65536 + 65536; omega

/-! ## The statistics output -/

theorem outs_congr (c : Dev nD) (n n' : ℕ) (h : n < cfg4.N) (h' : n' < cfg4.N) (e : n = n') :
    outsAt4 V c n h = outsAt4 V c n' h' := by subst e; rfl

theorem flushed10_eq (c : Dev nD) (t : Fin cfg4.N) (hf : (cfg4.win 10).flush t = true) :
    (dat4 V c).flushed 10 t = ((cfg4.win 10).blk t).view.read (Elt Ideal) (statArr V c) := by
  obtain ⟨e0, e1, e2, e3, e4, e5, e6, e7, e8, e9, e10, e11, e12, e13, e14, e15, e16, e17, e18, e19, e20, e21, e22⟩ := idx_facts t
  have h15 : t.val % 16 = 15 := (flush4_10 t).mp hf
  have ht : t.val < 32 := lt32 t
  show (cfg4.win 10).cut (grid4.coords t) ((dat4 V c).after 10 t) = _
  rw [after4_10, outs_congr V c t.val ((⟨t.val / 16, by omega⟩ : Fin 2).val * 16 + 15) t.isLt (lt_N (by show t.val / 16 * 16 + 15 < 32; omega)) (by show t.val = t.val / 16 * 16 + 15; omega),
    stats_half V c ⟨t.val / 16, by omega⟩]
  funext j
  show _ = statArr V c (((cfg4.win 10).blk t).view.emb j)
  have hj0 : (j 0).val = 0 := by have h : (j 0).val < 1 := (j 0).isLt; omega
  have hemb : ((cfg4.win 10).blk t).view.emb j
      = ix3 (⟨t.val / 16, by omega⟩ : Fin 2) (⟨(j 1).val, (j 1).isLt⟩ : Fin 8) (⟨(j 2).val, (j 2).isLt⟩ : Fin 2) := by
    funext a
    apply Fin.ext
    match a with
    | ⟨0, _⟩ => show win4_10.index t (0 : Fin 3) * 1 + 1 * (j 0).val = t.val / 16; rw [e4, hj0]; omega
    | ⟨1, _⟩ => show win4_10.index t (1 : Fin 3) * 8 + 1 * (j 1).val = (j 1).val; rw [e5]; omega
    | ⟨2, _⟩ => show win4_10.index t (2 : Fin 3) * 2 + 1 * (j 2).val = (j 2).val; rw [e6]; omega
  rw [hemb, statArr_apply]
  refine congrArg _ ?_
  funext a
  apply Fin.ext
  match a with
  | ⟨0, _⟩ => exact hj0
  | ⟨1, _⟩ => rfl
  | ⟨2, _⟩ => rfl

theorem mem_blk10 (t : Fin cfg4.N) (i : S2x8x2.Idx) :
    i ∈ ((cfg4.win 10).blk t).view.set ↔ ∀ a : Fin 3, win4_10.index t a * S1x8x2.size a ≤ (i a).val ∧ (i a).val < win4_10.index t a * S1x8x2.size a + S1x8x2.size a := by
  show i ∈ ((View.whole main_v66_1).slice (win4_10.rect t)).set ↔ _
  rw [View.set_slice_whole, Rect.mem_set_unit]
  exact Iff.rfl

/-- The statistics array after the region. -/
theorem final10 (c : Dev nD) : (dat4 V c).arrAt 10 cfg4.N = statArr V c :=
  (dat4 V c).arrAt_eq_of_cover 10 (statArr V c) (flushed10_eq V c) fun i => by
    have hi0 : (i 0).val < 2 := (i 0).isLt
    have hi1 : (i 1).val < 8 := (i 1).isLt
    have hi2 : (i 2).val < 2 := (i 2).isLt
    refine ⟨⟨(i 0).val * 16 + 15, lt_N (by omega)⟩, (flush4_10 _).mpr (by show ((i 0).val * 16 + 15) % 16 = 15; omega), ?_⟩
    rw [mem_blk10]
    obtain ⟨e0, e1, e2, e3, e4, e5, e6, e7, e8, e9, e10, e11, e12, e13, e14, e15, e16, e17, e18, e19, e20, e21, e22⟩ := idx_facts (⟨(i 0).val * 16 + 15, lt_N (by omega)⟩ : Fin cfg4.N)
    intro a
    match a with
    | ⟨0, _⟩ => show win4_10.index _ (0 : Fin 3) * 1 ≤ (i 0).val ∧ (i 0).val < win4_10.index _ (0 : Fin 3) * 1 + 1; rw [e4]; show ((i 0).val * 16 + 15) / 16 * 1 ≤ _ ∧ _ < ((i 0).val * 16 + 15) / 16 * 1 + 1; omega
    | ⟨1, _⟩ => show win4_10.index _ (1 : Fin 3) * 8 ≤ (i 1).val ∧ (i 1).val < win4_10.index _ (1 : Fin 3) * 8 + 8; rw [e5]; omega
    | ⟨2, _⟩ => show win4_10.index _ (2 : Fin 3) * 2 ≤ (i 2).val ∧ (i 2).val < win4_10.index _ (2 : Fin 3) * 2 + 2; rw [e6]; omega

end Cert.KernelIdeal.Net.R4

end
-- ==== Proof.Region5.lean ====
/-
  Region 5: the last block of the network, the last affine layer and the logistic function, tile by tile.  Point t of
  the 32 handles columns 65,536·t … of the input array and writes the same columns of the one-row output array, so
  after the region that array is the whole-array function `outArr` of the arrays the region finds.
-/
import proofs.«114887_j65481071405707_2_alg».proof.Proof.Gen.KernelIdeal.Frame
import proofs.«114887_j65481071405707_2_alg».proof.Proof.TileLayers
import proofs.«114887_j65481071405707_2_alg».proof.Proof.Bridge
import Idealize.ShloMosaic.Lib.Pipeline.Value

set_option maxRecDepth 16384

noncomputable section

namespace Cert.KernelIdeal.Net.R5

open Cert.KernelIdeal Cert.KernelIdeal.Gen
open Idealize.ShloMosaic Idealize.ShloMosaic.TcCoe Idealize.SL.Sem Idealize.ShloMosaic.ValueIdx
open Idealize.ShloMosaic.Pipeline (Dat)
open Cert.BatchNet Cert.BatchNet.Tile Cert.LibDenseLayers

theorem hz2 : (![0, 0] : Fin 2 → Nat) = fun _ => 0 := funext fun a => by fin_cases a <;> rfl

/-- The logistic function of every entry. -/
def logi {o n : ℕ} (Y : Mat o n) : Mat o n := fun i => Ideal.logistic (Y i)

theorem logi_colTile {o N : ℕ} (n off : ℕ) (h : off + n ≤ N) (Y : Mat o N) :
    logi (colTile n off h Y) = colTile n off h (logi Y) := funext fun i => by
  obtain ⟨p, e, rfl⟩ : ∃ (p : Fin o) (e : Fin n), i = ix2 p e := ⟨i 0, i 1, eq_ix2 i⟩
  rfl

/-- The body's arithmetic as tile functions: the block, the last affine layer, the logistic function. -/
theorem pay_eq (v0 : Vec Ideal S8x12 .f32) (v1 : Vec Ideal S12x65536 .f32) (v4 v8 v13 v15 v23 : Vec Ideal S8x1 .f32)
    (v29 : Vec Ideal S1x8 .f32) (v31 : Vec Ideal S1x1 .f32) :
    k5_pay1 v0 v1 v4 v8 v13 v15 v23 v29 v31 = logi (aff v29 (bn (aff v0 v1 v4) v13 v23 v15 v8) v31) := by
  unfold k5_pay1
  rw [← act_eq dot_S8x12_S12x65536_S8x65536_1_0_0_1_n_n rfl rfl (fun _ _ => rfl) (fun _ _ => rfl) (fun _ _ => rfl) (fun _ _ => rfl) shapeCasts_S12x65536_S12x65536 shapeCasts_S8x1_S8x1 broadcasts_S8x1_S8x65536,
    ← affine_eq' dot_S1x8_S8x65536_S1x65536_1_0_0_1_n_n rfl rfl (fun _ _ => rfl) (fun _ _ => rfl) (fun _ _ => rfl) (fun _ _ => rfl) shapeCasts_S1x1_S1x1 broadcasts_S1x1_S1x65536]
  rfl

variable (V : (c : Dev nD) → (b : Ref sig .tc) → Buf (Elt Ideal) ((c : Thread nD τ).loc b))

/-! The arrays the region finds in its nine input windows. -/
def in0 (c : Dev nD) : Mat 12 2097152 := V c (Pipeline.arrRef spec5 0)
def in1 (c : Dev nD) : Mat 8 12 := V c (Pipeline.arrRef spec5 1)
def in2 (c : Dev nD) : Mat 8 1 := V c (Pipeline.arrRef spec5 2)
def in3 (c : Dev nD) : Mat 8 1 := V c (Pipeline.arrRef spec5 3)
def in4 (c : Dev nD) : Mat 8 1 := V c (Pipeline.arrRef spec5 4)
def in5 (c : Dev nD) : Mat 8 1 := V c (Pipeline.arrRef spec5 5)
def in6 (c : Dev nD) : Mat 8 1 := V c (Pipeline.arrRef spec5 6)
def in7 (c : Dev nD) : Mat 1 8 := V c (Pipeline.arrRef spec5 7)
def in8 (c : Dev nD) : Mat 1 1 := V c (Pipeline.arrRef spec5 8)

theorem N32 : cfg5.N = 32 := N_5

theorem lt_N {n : ℕ} (h : n < 32) : n < cfg5.N := lt_of_lt_of_eq h N32.symm

theorem lt32 (t : Fin cfg5.N) : t.val < 32 := lt_of_lt_of_eq t.isLt N32

theorem tile_le (t : Fin cfg5.N) : t.val * 65536 + 65536 ≤ 2097152 := by have := lt32 t; omega

/-- The printed index maps over the grid. -/
theorem idx_facts : ∀ t : Fin cfg5.N, win5_0.index t (0 : Fin 2) = 0
    ∧ win5_0.index t (1 : Fin 2) = t.val
    ∧ win5_9.index t (0 : Fin 2) = 0
    ∧ win5_9.index t (1 : Fin 2) = t.val
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = 0
    ∧ win5_5.index t (1 : Fin 2) = 0
    ∧ win5_6.index t (0 : Fin 2) = 0
    ∧ win5_6.index t (1 : Fin 2) = 0
    ∧ win5_7.index t (0 : Fin 2) = 0
    ∧ win5_7.index t (1 : Fin 2) = 0
    ∧ win5_8.index t (0 : Fin 2) = 0
    ∧ win5_8.index t (1 : Fin 2) = 0 :=
  (by decide +kernel : ∀ t : Fin grid5.N, _)

theorem blk_1 (c : Dev nD) (t : Fin cfg5.N) : iblk5 V c 1 t = in1 V c := by
  unfold in1
  obtain ⟨e0, e1, e2, e3, e4, e5, e6, e7, e8, e9, e10, e11, e12, e13, e14, e15, e16, e17, e18, e19⟩ := idx_facts t
  funext j
  show V c (Pipeline.arrRef spec5 1) (((cfg5.win 1).blk t).view.emb j) = V c (Pipeline.arrRef spec5 1) j
  refine congrArg _ ?_
  funext a
  apply Fin.ext
  match a with
  | ⟨0, _⟩ => show win5_1.index t (0 : Fin 2) * 8 + 1 * (j 0).val = (j 0).val; rw [e4]; omega
  | ⟨1, _⟩ => show win5_1.index t (1 : Fin 2) * 12 + 1 * (j 1).val = (j 1).val; rw [e5]; omega

theorem blk_2 (c : Dev nD) (t : Fin cfg5.N) : iblk5 V c 2 t = in2 V c := by
  unfold in2
  obtain ⟨e0, e1, e2, e3, e4, e5, e6, e7, e8, e9, e10, e11, e12, e13, e14, e15, e16, e17, e18, e19⟩ := idx_facts t
  funext j
  show V c (Pipeline.arrRef spec5 2) (((cfg5.win 2).blk t).view.emb j) = V c (Pipeline.arrRef spec5 2) j
  refine congrArg _ ?_
  funext a
  apply Fin.ext
  match a with
  | ⟨0, _⟩ => show win5_2.index t (0 : Fin 2) * 8 + 1 * (j 0).val = (j 0).val; rw [e6]; omega
  | ⟨1, _⟩ => show win5_2.index t (1 : Fin 2) * 1 + 1 * (j 1).val = (j 1).val; rw [e7]; omega

theorem blk_3 (c : Dev nD) (t : Fin cfg5.N) : iblk5 V c 3 t = in3 V c := by
  unfold in3
  obtain ⟨e0, e1, e2, e3, e4, e5, e6, e7, e8, e9, e10, e11, e12, e13, e14, e15, e16, e17, e18, e19⟩ := idx_facts t
  funext j
  show V c (Pipeline.arrRef spec5 3) (((cfg5.win 3).blk t).view.emb j) = V c (Pipeline.arrRef spec5 3) j
  refine congrArg _ ?_
  funext a
  apply Fin.ext
  match a with
  | ⟨0, _⟩ => show win5_3.index t (0 : Fin 2) * 8 + 1 * (j 0).val = (j 0).val; rw [e8]; omega
  | ⟨1, _⟩ => show win5_3.index t (1 : Fin 2) * 1 + 1 * (j 1).val = (j 1).val; rw [e9]; omega

theorem blk_4 (c : Dev nD) (t : Fin cfg5.N) : iblk5 V c 4 t = in4 V c := by
  unfold in4
  obtain ⟨e0, e1, e2, e3, e4, e5, e6, e7, e8, e9, e10, e11, e12, e13, e14, e15, e16, e17, e18, e19⟩ := idx_facts t
  funext j
  show V c (Pipeline.arrRef spec5 4) (((cfg5.win 4).blk t).view.emb j) = V c (Pipeline.arrRef spec5 4) j
  refine congrArg _ ?_
  funext a
  apply Fin.ext
  match a with
  | ⟨0, _⟩ => show win5_4.index t (0 : Fin 2) * 8 + 1 * (j 0).val = (j 0).val; rw [e10]; omega
  | ⟨1, _⟩ => show win5_4.index t (1 : Fin 2) * 1 + 1 * (j 1).val = (j 1).val; rw [e11]; omega

theorem blk_5 (c : Dev nD) (t : Fin cfg5.N) : iblk5 V c 5 t = in5 V c := by
  unfold in5
  obtain ⟨e0, e1, e2, e3, e4, e5, e6, e7, e8, e9, e10, e11, e12, e13, e14, e15, e16, e17, e18, e19⟩ := idx_facts t
  funext j
  show V c (Pipeline.arrRef spec5 5) (((cfg5.win 5).blk t).view.emb j) = V c (Pipeline.arrRef spec5 5) j
  refine congrArg _ ?_
  funext a
  apply Fin.ext
  match a with
  | ⟨0, _⟩ => show win5_5.index t (0 : Fin 2) * 8 + 1 * (j 0).val = (j 0).val; rw [e12]; omega
  | ⟨1, _⟩ => show win5_5.index t (1 : Fin 2) * 1 + 1 * (j 1).val = (j 1).val; rw [e13]; omega

theorem blk_6 (c : Dev nD) (t : Fin cfg5.N) : iblk5 V c 6 t = in6 V c := by
  unfold in6
  obtain ⟨e0, e1, e2, e3, e4, e5, e6, e7, e8, e9, e10, e11, e12, e13, e14, e15, e16, e17, e18, e19⟩ := idx_facts t
  funext j
  show V c (Pipeline.arrRef spec5 6) (((cfg5.win 6).blk t).view.emb j) = V c (Pipeline.arrRef spec5 6) j
  refine congrArg _ ?_
  funext a
  apply Fin.ext
  match a with
  | ⟨0, _⟩ => show win5_6.index t (0 : Fin 2) * 8 + 1 * (j 0).val = (j 0).val; rw [e14]; omega
  | ⟨1, _⟩ => show win5_6.index t (1 : Fin 2) * 1 + 1 * (j 1).val = (j 1).val; rw [e15]; omega

theorem blk_7 (c : Dev nD) (t : Fin cfg5.N) : iblk5 V c 7 t = in7 V c := by
  unfold in7
  obtain ⟨e0, e1, e2, e3, e4, e5, e6, e7, e8, e9, e10, e11, e12, e13, e14, e15, e16, e17, e18, e19⟩ := idx_facts t
  funext j
  show V c (Pipeline.arrRef spec5 7) (((cfg5.win 7).blk t).view.emb j) = V c (Pipeline.arrRef spec5 7) j
  refine congrArg _ ?_
  funext a
  apply Fin.ext
  match a with
  | ⟨0, _⟩ => show win5_7.index t (0 : Fin 2) * 1 + 1 * (j 0).val = (j 0).val; rw [e16]; omega
  | ⟨1, _⟩ => show win5_7.index t (1 : Fin 2) * 8 + 1 * (j 1).val = (j 1).val; rw [e17]; omega

theorem blk_8 (c : Dev nD) (t : Fin cfg5.N) : iblk5 V c 8 t = in8 V c := by
  unfold in8
  obtain ⟨e0, e1, e2, e3, e4, e5, e6, e7, e8, e9, e10, e11, e12, e13, e14, e15, e16, e17, e18, e19⟩ := idx_facts t
  funext j
  show V c (Pipeline.arrRef spec5 8) (((cfg5.win 8).blk t).view.emb j) = V c (Pipeline.arrRef spec5 8) j
  refine congrArg _ ?_
  funext a
  apply Fin.ext
  match a with
  | ⟨0, _⟩ => show win5_8.index t (0 : Fin 2) * 1 + 1 * (j 0).val = (j 0).val; rw [e18]; omega
  | ⟨1, _⟩ => show win5_8.index t (1 : Fin 2) * 1 + 1 * (j 1).val = (j 1).val; rw [e19]; omega

theorem blk_0 (c : Dev nD) (t : Fin cfg5.N) :
    iblk5 V c 0 t = colTile 65536 (t.val * 65536) (tile_le t) (in0 V c) := by
  unfold in0
  obtain ⟨e0, e1, e2, e3, e4, e5, e6, e7, e8, e9, e10, e11, e12, e13, e14, e15, e16, e17, e18, e19⟩ := idx_facts t
  funext j
  obtain ⟨p, e, rfl⟩ : ∃ (p : Fin 12) (e : Fin 65536), j = ix2 p e := ⟨j 0, j 1, eq_ix2 j⟩
  rw [colTile_apply]
  show V c (Pipeline.arrRef spec5 0) (((cfg5.win 0).blk t).view.emb (ix2 p e)) = _
  refine congrArg _ ?_
  funext a
  apply Fin.ext
  match a with
  | ⟨0, _⟩ => show win5_0.index t (0 : Fin 2) * 12 + 1 * p.val = p.val; rw [e0]; omega
  | ⟨1, _⟩ => show win5_0.index t (1 : Fin 2) * 65536 + 1 * e.val = t.val * 65536 + e.val; rw [e1]; omega

/-- The output array: the network's last block, last affine layer and logistic function of the arrays found. -/
def outArr (c : Dev nD) : Mat 1 2097152 :=
  logi (aff (in7 V c) (bn (aff (in1 V c) (in0 V c) (in2 V c)) (in3 V c) (in4 V c) (in5 V c) (in6 V c)) (in8 V c))

theorem outArr_apply (c : Dev nD) (i : (⟨2, ![1, 2097152]⟩ : Shape).Idx) :
    outArr V c i = Ideal.logistic
      (aff (in7 V c) (bn (aff (in1 V c) (in0 V c) (in2 V c)) (in3 V c) (in4 V c) (in5 V c) (in6 V c)) (in8 V c) i) := rfl

/-- What point t leaves in the output's buffer. -/
theorem after_eq (c : Dev nD) (t : Fin cfg5.N) :
    (dat5 V c).after 9 t = colTile 65536 (t.val * 65536) (tile_le t) (outArr V c) := by
  rw [after5_9]
  unfold out5_9
  rw [View.canon_unit_zero hz2]
  simp only [View.ld_unit_zero (S := S12x65536) hz2, View.ld_unit_zero (S := S8x12) hz2, View.ld_unit_zero (S := S8x1) hz2,
    View.ld_unit_zero (S := S1x8) hz2, View.ld_unit_zero (S := S1x1) hz2]
  rw [blk_0 V c t, blk_1 V c t, blk_2 V c t, blk_3 V c t, blk_4 V c t, blk_5 V c t, blk_6 V c t, blk_7 V c t, blk_8 V c t]
  rw [pay_eq]
  unfold outArr
  rw [bn_aff_colTile, aff_colTile, logi_colTile]

theorem flushed9_eq (c : Dev nD) (t : Fin cfg5.N) :
    (dat5 V c).flushed 9 t = ((cfg5.win 9).blk t).view.read (Elt Ideal) (outArr V c) := by
  obtain ⟨e0, e1, e2, e3, e4, e5, e6, e7, e8, e9, e10, e11, e12, e13, e14, e15, e16, e17, e18, e19⟩ := idx_facts t
  show (cfg5.win 9).cut (grid5.coords t) ((dat5 V c).after 9 t) = _
  rw [after_eq V c t]
  funext j
  obtain ⟨p, e, rfl⟩ : ∃ (p : Fin 1) (e : Fin 65536), j = ix2 p e := ⟨j 0, j 1, eq_ix2 j⟩
  show colTile 65536 (t.val * 65536) (tile_le t) (outArr V c) (ix2 p e) = outArr V c (((cfg5.win 9).blk t).view.emb (ix2 p e))
  rw [colTile_apply]
  refine congrArg _ ?_
  funext a
  apply Fin.ext
  match a with
  | ⟨0, _⟩ => show p.val = win5_9.index t (0 : Fin 2) * 1 + 1 * p.val; rw [e2]; omega
  | ⟨1, _⟩ => show t.val * 65536 + e.val = win5_9.index t (1 : Fin 2) * 65536 + 1 * e.val; rw [e3]; omega

theorem mem_blk9 (t : Fin cfg5.N) (i : S1x2097152.Idx) :
    i ∈ ((cfg5.win 9).blk t).view.set ↔ ∀ a : Fin 2, win5_9.index t a * S1x65536.size a ≤ (i a).val ∧ (i a).val < win5_9.index t a * S1x65536.size a + S1x65536.size a := by
  show i ∈ ((View.whole main_v82).slice (win5_9.rect t)).set ↔ _
  rw [View.set_slice_whole, Rect.mem_set_unit]
  exact Iff.rfl

/-- The output array after the region. -/
theorem final9 (c : Dev nD) : (dat5 V c).arrAt 9 cfg5.N = outArr V c :=
  (dat5 V c).arrAt_eq_of_cover 9 (outArr V c) (fun t _ => flushed9_eq V c t) fun i => by
    have hi0 : (i 0).val < 1 := (i 0).isLt
    have hi1 : (i 1).val < 2097152 := (i 1).isLt
    refine ⟨⟨(i 1).val / 65536, lt_N (by omega)⟩, flush5_9 _, ?_⟩
    rw [mem_blk9]
    obtain ⟨e0, e1, e2, e3, e4, e5, e6, e7, e8, e9, e10, e11, e12, e13, e14, e15, e16, e17, e18, e19⟩ := idx_facts (⟨(i 1).val / 65536, lt_N (by omega)⟩ : Fin cfg5.N)
    intro a
    match a with
    | ⟨0, _⟩ => show win5_9.index _ (0 : Fin 2) * 1 ≤ (i 0).val ∧ (i 0).val < win5_9.index _ (0 : Fin 2) * 1 + 1; rw [e2]; omega
    | ⟨1, _⟩ => show win5_9.index _ (1 : Fin 2) * 65536 ≤ (i 1).val ∧ (i 1).val < win5_9.index _ (1 : Fin 2) * 65536 + 65536; rw [e3]; show (i 1).val / 65536 * 65536 ≤ _ ∧ _ < (i 1).val / 65536 * 65536 + 65536; omega

end Cert.KernelIdeal.Net.R5

end
-- ==== Proof.Pieces2.lean ====
/-
  Region 2 (one block of the network with its skip connection applied to a tile of columns, and the next layer's lane
  sums): what each of the two control cases leaves in the two output buffers, as the body's arithmetic of the blocks
  it loaded.  At the first point of a half the statistics block is first set to zero; at every other point it is read
  as the point before left it.
-/
import proofs.«114887_j65481071405707_2_alg».proof.Proof.Gen.KernelIdeal.Frame
import Idealize.ShloMosaic.Lib.Pipeline.Value
import Idealize.ShloMosaic.Lib.Tactic

set_option maxRecDepth 16384

noncomputable section

namespace Cert.KernelIdeal.Net.R2

open Cert.KernelIdeal Cert.KernelIdeal.Gen
open Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The activation block, first point of a half. -/
theorem out_A_9 (c : Dev nD) (i : grid2.Coords) (arg2 : Memref sig .tc .vmem S16x65536 .f32) (harg2 : arg2.IsWhole) (arg3 : Memref sig .tc .vmem S16x16 .f32) (harg3 : arg3.IsWhole) (arg4 : Memref sig .tc .vmem S16x1 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S12x16 .f32) (harg9 : arg9.IsWhole) (arg10 : Memref sig .tc .vmem S12x1 .f32) (harg10 : arg10.IsWhole) (arg11 : Memref sig .tc .vmem S16x65536 .f32) (harg11 : arg11.IsWhole) (arg12 : Memref sig .tc .vmem S1x12x2 .f32) (harg12 : arg12.IsWhole) (hc0 : cond2_0 i) (x0 : Vec F S16x65536 .f32) (x1 : Vec F S16x16 .f32) (x2 : Vec F S16x1 .f32) (x3 : Vec F S16x1 .f32) (x4 : Vec F S16x1 .f32) (x5 : Vec F S16x1 .f32) (x6 : Vec F S16x1 .f32) (x7 : Vec F S12x16 .f32) (x8 : Vec F S12x1 .f32) :
    out2_A_9 c i arg2 harg2 arg3 harg3 arg4 harg4 arg5 harg5 arg6 harg6 arg7 harg7 arg8 harg8 arg9 harg9 arg10 harg10 arg11 harg11 arg12 harg12 hc0 x0 x1 x2 x3 x4 x5 x6 x7 x8 = k2_pay1 (k2_pay4 x1 x0 x2 x6 x3 x5 x4 x0) (FloatOps.ofBits .f32 0x00000000#32 : F .f32) := by
  unfold out2_A_9
  rw [View.read_writes_eq_canon _ _ _ (cover2_A_9 c i arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun2_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread, View.ld_unit_zero (S := S16x65536) hz2, View.ld_unit_zero (S := S16x16) hz2, View.ld_unit_zero (S := S16x1) hz2, View.ld_unit_zero (S := S12x16) hz2, View.ld_unit_zero (S := S12x1) hz2, View.ld_unit_zero (S := S1x12x2) hz3]

/-- The activation block, any other point. -/
theorem out_B_9 (c : Dev nD) (i : grid2.Coords) (arg2 : Memref sig .tc .vmem S16x65536 .f32) (harg2 : arg2.IsWhole) (arg3 : Memref sig .tc .vmem S16x16 .f32) (harg3 : arg3.IsWhole) (arg4 : Memref sig .tc .vmem S16x1 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S12x16 .f32) (harg9 : arg9.IsWhole) (arg10 : Memref sig .tc .vmem S12x1 .f32) (harg10 : arg10.IsWhole) (arg11 : Memref sig .tc .vmem S16x65536 .f32) (harg11 : arg11.IsWhole) (arg12 : Memref sig .tc .vmem S1x12x2 .f32) (harg12 : arg12.IsWhole) (hc0 : ¬cond2_0 i) (x0 : Vec F S16x65536 .f32) (x1 : Vec F S16x16 .f32) (x2 : Vec F S16x1 .f32) (x3 : Vec F S16x1 .f32) (x4 : Vec F S16x1 .f32) (x5 : Vec F S16x1 .f32) (x6 : Vec F S16x1 .f32) (x7 : Vec F S12x16 .f32) (x8 : Vec F S12x1 .f32) (xo10 : Vec F S1x12x2 .f32) :
    out2_B_9 c i arg2 harg2 arg3 harg3 arg4 harg4 arg5 harg5 arg6 harg6 arg7 harg7 arg8 harg8 arg9 harg9 arg10 harg10 arg11 harg11 arg12 harg12 hc0 x0 x1 x2 x3 x4 x5 x6 x7 x8 xo10 = k2_pay1 (k2_pay4 x1 x0 x2 x6 x3 x5 x4 x0) (FloatOps.ofBits .f32 0x00000000#32 : F .f32) := by
  unfold out2_B_9
  rw [View.read_writes_eq_canon _ _ _ (cover2_B_9 c i arg2 harg2 arg3 harg3 arg4 harg4 arg5 harg5 arg6 harg6 arg7 harg7 arg8 harg8 arg9 harg9 arg10 harg10 arg11 harg11 arg12 harg12 hc0 x0 x1 x2 x3 x4 x5 x6 x7 x8 xo10)]
  unfold kernelRun2_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread, View.ld_unit_zero (S := S16x65536) hz2, View.ld_unit_zero (S := S16x16) hz2, View.ld_unit_zero (S := S16x1) hz2, View.ld_unit_zero (S := S12x16) hz2, View.ld_unit_zero (S := S12x1) hz2, View.ld_unit_zero (S := S1x12x2) hz3]

/-- The statistics block, any point but the first of a half: the block as found, updated. -/
theorem out_B_10 (c : Dev nD) (i : grid2.Coords) (arg2 : Memref sig .tc .vmem S16x65536 .f32) (harg2 : arg2.IsWhole) (arg3 : Memref sig .tc .vmem S16x16 .f32) (harg3 : arg3.IsWhole) (arg4 : Memref sig .tc .vmem S16x1 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S12x16 .f32) (harg9 : arg9.IsWhole) (arg10 : Memref sig .tc .vmem S12x1 .f32) (harg10 : arg10.IsWhole) (arg11 : Memref sig .tc .vmem S16x65536 .f32) (harg11 : arg11.IsWhole) (arg12 : Memref sig .tc .vmem S1x12x2 .f32) (harg12 : arg12.IsWhole) (hc0 : ¬cond2_0 i) (x0 : Vec F S16x65536 .f32) (x1 : Vec F S16x16 .f32) (x2 : Vec F S16x1 .f32) (x3 : Vec F S16x1 .f32) (x4 : Vec F S16x1 .f32) (x5 : Vec F S16x1 .f32) (x6 : Vec F S16x1 .f32) (x7 : Vec F S12x16 .f32) (x8 : Vec F S12x1 .f32) (xo10 : Vec F S1x12x2 .f32) :
    out2_B_10 c i arg2 harg2 arg3 harg3 arg4 harg4 arg5 harg5 arg6 harg6 arg7 harg7 arg8 harg8 arg9 harg9 arg10 harg10 arg11 harg11 arg12 harg12 hc0 x0 x1 x2 x3 x4 x5 x6 x7 x8 xo10 = k2_pay2 (k2_pay4 x1 x0 x2 x6 x3 x5 x4 x0) (FloatOps.ofBits .f32 0x00000000#32 : F .f32) x7 x8 xo10 := by
  unfold out2_B_10
  rw [View.read_writes_eq_canon _ _ _ (cover2_B_10 c i arg2 harg2 arg3 harg3 arg4 harg4 arg5 harg5 arg6 harg6 arg7 harg7 arg8 harg8 arg9 harg9 arg10 harg10 arg11 harg11 arg12 harg12 hc0 x0 x1 x2 x3 x4 x5 x6 x7 x8 xo10)]
  unfold kernelRun2_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg12.read_unread, View.ld_unit_zero (S := S16x65536) hz2, View.ld_unit_zero (S := S16x16) hz2, View.ld_unit_zero (S := S16x1) hz2, View.ld_unit_zero (S := S12x16) hz2, View.ld_unit_zero (S := S12x1) hz2, View.ld_unit_zero (S := S1x12x2) hz3]

/-- The statistics block, first point of a half: the zero block, updated. -/
theorem out_A_10 (c : Dev nD) (i : grid2.Coords) (arg2 : Memref sig .tc .vmem S16x65536 .f32) (harg2 : arg2.IsWhole) (arg3 : Memref sig .tc .vmem S16x16 .f32) (harg3 : arg3.IsWhole) (arg4 : Memref sig .tc .vmem S16x1 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S12x16 .f32) (harg9 : arg9.IsWhole) (arg10 : Memref sig .tc .vmem S12x1 .f32) (harg10 : arg10.IsWhole) (arg11 : Memref sig .tc .vmem S16x65536 .f32) (harg11 : arg11.IsWhole) (arg12 : Memref sig .tc .vmem S1x12x2 .f32) (harg12 : arg12.IsWhole) (hc0 : cond2_0 i) (x0 : Vec F S16x65536 .f32) (x1 : Vec F S16x16 .f32) (x2 : Vec F S16x1 .f32) (x3 : Vec F S16x1 .f32) (x4 : Vec F S16x1 .f32) (x5 : Vec F S16x1 .f32) (x6 : Vec F S16x1 .f32) (x7 : Vec F S12x16 .f32) (x8 : Vec F S12x1 .f32) :
    out2_A_10 c i arg2 harg2 arg3 harg3 arg4 harg4 arg5 harg5 arg6 harg6 arg7 harg7 arg8 harg8 arg9 harg9 arg10 harg10 arg11 harg11 arg12 harg12 hc0 x0 x1 x2 x3 x4 x5 x6 x7 x8 = k2_pay2 (k2_pay4 x1 x0 x2 x6 x3 x5 x4 x0) (FloatOps.ofBits .f32 0x00000000#32 : F .f32) x7 x8 k2_pay3 := by
  unfold out2_A_10
  rw [View.read_writes_eq_canon _ _ _ (cover2_A_10 c i arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun2_A
  dsimp only
  sl_unfold_words
  rw [View.canon_cons_unit_zero (S := S1x12x2) hz3, View.readCov_unit_zero (S := S1x12x2) _ hz3]
  simp only [View.readAt_eq_ld, harg2.read_unread, harg3.read_unread, harg4.read_unread, harg5.read_unread, harg6.read_unread, harg7.read_unread, harg8.read_unread, harg9.read_unread, harg10.read_unread, harg12.read_unread, View.ld_unit_zero (S := S16x65536) hz2, View.ld_unit_zero (S := S16x16) hz2, View.ld_unit_zero (S := S16x1) hz2, View.ld_unit_zero (S := S12x16) hz2, View.ld_unit_zero (S := S12x1) hz2, View.ld_unit_zero (S := S1x12x2) hz3]

end Cert.KernelIdeal.Net.R2

end
-- ==== Proof.Values2.lean ====
/-
  Region 2, at the ideal instance: the body's arithmetic as the tile functions of the network — the activation block is
  the normalised affine map of the loaded tile with its skip connection, the statistics block grows by the two lane sums of the next layer's
  affine map of that block.
-/
import proofs.«114887_j65481071405707_2_alg».proof.Proof.Pieces2
import proofs.«114887_j65481071405707_2_alg».proof.Proof.TileLayers
import proofs.«114887_j65481071405707_2_alg».proof.Proof.Bridge

set_option maxRecDepth 16384

noncomputable section

namespace Cert.KernelIdeal.Net.R2

open Cert.KernelIdeal Cert.KernelIdeal.Gen
open Idealize.ShloMosaic Idealize.ShloMosaic.TcCoe Idealize.SL.Sem Idealize.ShloMosaic.ValueIdx
open Cert.BatchNet Cert.BatchNet.Tile Cert.LibDenseLayers

/-- The activation block as a tile function. -/
theorem pay_act_eq (v3 : Vec Ideal S16x16 .f32) (v4 : Vec Ideal S16x65536 .f32) (v7 v11 v16 v18 v26 : Vec Ideal S16x1 .f32) :
    k2_pay1 (k2_pay4 v3 v4 v7 v11 v16 v18 v26 v4) (FloatOps.ofBits .f32 0x00000000#32 : Ideal .f32) = skip (bn (aff v3 v4 v7) v16 v26 v18 v11) v4 := by
  unfold k2_pay1 k2_pay4
  rw [← skip_eq _ _ shapeCasts_S16x65536_S16x65536, ← act_eq dot_S16x16_S16x65536_S16x65536_1_0_0_1_n_n rfl rfl (fun _ _ => rfl) (fun _ _ => rfl) (fun _ _ => rfl) (fun _ _ => rfl) shapeCasts_S16x65536_S16x65536 shapeCasts_S16x1_S16x1 broadcasts_S16x1_S16x65536]

/-- The statistics block's update. -/
theorem pay_stats_eq (P : FVec Ideal S16x65536 .f32) (v38 : Vec Ideal S12x16 .f32) (v40 : Vec Ideal S12x1 .f32) (v49 : Vec Ideal S1x12x2 .f32) :
    k2_pay2 P (FloatOps.ofBits .f32 0x00000000#32 : Ideal .f32) v38 v40 v49 = addf v49 (laneSums (aff v38 (k2_pay1 P (FloatOps.ofBits .f32 0x00000000#32 : Ideal .f32)) v40)) := by
  unfold k2_pay2
  exact stats_aff_eq dot_S12x16_S16x65536_S12x65536_1_0_0_1_n_n rfl rfl (fun _ _ => rfl) (fun _ _ => rfl) (fun _ _ => rfl) (fun _ _ => rfl) _ _ v38 (k2_pay1 P (FloatOps.ofBits .f32 0x00000000#32 : Ideal .f32)) v40 v49 _ _ _ _ _

/-- The block a half starts from is zero. -/
theorem pay_zero_eq : (k2_pay3 : FVec Ideal S1x12x2 .f32) = 0 := by
  unfold k2_pay3
  exact zeroBlock_eq _

end Cert.KernelIdeal.Net.R2

end
-- ==== Proof.Blocks2.lean ====
/-
  Region 2: which part of its array each window's block is.  Point t of the 32 handles columns 65,536·t …
  65,536·t + 65,535 of the input and of the activation output; the statistics block of point t is slab t / 16;
  every other window's block is its whole array.
-/
import proofs.«114887_j65481071405707_2_alg».proof.Proof.Values2
import Idealize.ShloMosaic.Lib.Pipeline.Value

set_option maxRecDepth 16384

noncomputable section

namespace Cert.KernelIdeal.Net.R2

open Cert.KernelIdeal Cert.KernelIdeal.Gen
open Idealize.ShloMosaic Idealize.ShloMosaic.TcCoe Idealize.SL.Sem Idealize.ShloMosaic.ValueIdx
open Cert.BatchNet Cert.BatchNet.Tile Cert.LibDenseLayers

variable (V : (c : Dev nD) → (b : Ref sig .tc) → Buf (Elt Ideal) ((c : Thread nD τ).loc b))

/-! The arrays the region finds in its nine input windows. -/
def in0 (c : Dev nD) : Mat 16 2097152 := V c (Pipeline.arrRef spec2 0)
def in1 (c : Dev nD) : Mat 16 16 := V c (Pipeline.arrRef spec2 1)
def in2 (c : Dev nD) : Mat 16 1 := V c (Pipeline.arrRef spec2 2)
def in3 (c : Dev nD) : Mat 16 1 := V c (Pipeline.arrRef spec2 3)
def in4 (c : Dev nD) : Mat 16 1 := V c (Pipeline.arrRef spec2 4)
def in5 (c : Dev nD) : Mat 16 1 := V c (Pipeline.arrRef spec2 5)
def in6 (c : Dev nD) : Mat 16 1 := V c (Pipeline.arrRef spec2 6)
def in7 (c : Dev nD) : Mat 12 16 := V c (Pipeline.arrRef spec2 7)
def in8 (c : Dev nD) : Mat 12 1 := V c (Pipeline.arrRef spec2 8)

theorem N32 : cfg2.N = 32 := N_2

theorem lt32 (t : Fin cfg2.N) : t.val < 32 := lt_of_lt_of_eq t.isLt N32

theorem tile_le (t : Fin cfg2.N) : t.val * 65536 + 65536 ≤ 2097152 := by have := lt32 t; omega

/-- The printed index maps over the grid. -/
theorem idx_facts : ∀ t : Fin cfg2.N, win2_0.index t (0 : Fin 2) = 0
    ∧ win2_0.index t (1 : Fin 2) = t.val
    ∧ win2_9.index t (0 : Fin 2) = 0
    ∧ win2_9.index t (1 : Fin 2) = t.val
    ∧ win2_10.index t (0 : Fin 3) = t.val / 16
    ∧ win2_10.index t (1 : Fin 3) = 0
    ∧ win2_10.index t (2 : Fin 3) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0 :=
  (by decide +kernel : ∀ t : Fin grid2.N, _)

/-- Window 1's block is its whole array at every point. -/
theorem blk_1 (c : Dev nD) (t : Fin cfg2.N) : iblk2 V c 1 t = in1 V c := by
  unfold in1
  obtain ⟨e0, e1, e2, e3, e4, e5, e6, e7, e8, e9, e10, e11, e12, e13, e14, e15, e16, e17, e18, e19, e20, e21, e22⟩ := idx_facts t
  funext j
  show V c (Pipeline.arrRef spec2 1) (((cfg2.win 1).blk t).view.emb j) = V c (Pipeline.arrRef spec2 1) j
  refine congrArg _ ?_
  funext a
  apply Fin.ext
  match a with
  | ⟨0, _⟩ => show win2_1.index t (0 : Fin 2) * 16 + 1 * (j 0).val = (j 0).val; rw [e7]; omega
  | ⟨1, _⟩ => show win2_1.index t (1 : Fin 2) * 16 + 1 * (j 1).val = (j 1).val; rw [e8]; omega

/-- Window 2's block is its whole array at every point. -/
theorem blk_2 (c : Dev nD) (t : Fin cfg2.N) : iblk2 V c 2 t = in2 V c := by
  unfold in2
  obtain ⟨e0, e1, e2, e3, e4, e5, e6, e7, e8, e9, e10, e11, e12, e13, e14, e15, e16, e17, e18, e19, e20, e21, e22⟩ := idx_facts t
  funext j
  show V c (Pipeline.arrRef spec2 2) (((cfg2.win 2).blk t).view.emb j) = V c (Pipeline.arrRef spec2 2) j
  refine congrArg _ ?_
  funext a
  apply Fin.ext
  match a with
  | ⟨0, _⟩ => show win2_2.index t (0 : Fin 2) * 16 + 1 * (j 0).val = (j 0).val; rw [e9]; omega
  | ⟨1, _⟩ => show win2_2.index t (1 : Fin 2) * 1 + 1 * (j 1).val = (j 1).val; rw [e10]; omega

/-- Window 3's block is its whole array at every point. -/
theorem blk_3 (c : Dev nD) (t : Fin cfg2.N) : iblk2 V c 3 t = in3 V c := by
  unfold in3
  obtain ⟨e0, e1, e2, e3, e4, e5, e6, e7, e8, e9, e10, e11, e12, e13, e14, e15, e16, e17, e18, e19, e20, e21, e22⟩ := idx_facts t
  funext j
  show V c (Pipeline.arrRef spec2 3) (((cfg2.win 3).blk t).view.emb j) = V c (Pipeline.arrRef spec2 3) j
  refine congrArg _ ?_
  funext a
  apply Fin.ext
  match a with
  | ⟨0, _⟩ => show win2_3.index t (0 : Fin 2) * 16 + 1 * (j 0).val = (j 0).val; rw [e11]; omega
  | ⟨1, _⟩ => show win2_3.index t (1 : Fin 2) * 1 + 1 * (j 1).val = (j 1).val; rw [e12]; omega

/-- Window 4's block is its whole array at every point. -/
theorem blk_4 (c : Dev nD) (t : Fin cfg2.N) : iblk2 V c 4 t = in4 V c := by
  unfold in4
  obtain ⟨e0, e1, e2, e3, e4, e5, e6, e7, e8, e9, e10, e11, e12, e13, e14, e15, e16, e17, e18, e19, e20, e21, e22⟩ := idx_facts t
  funext j
  show V c (Pipeline.arrRef spec2 4) (((cfg2.win 4).blk t).view.emb j) = V c (Pipeline.arrRef spec2 4) j
  refine congrArg _ ?_
  funext a
  apply Fin.ext
  match a with
  | ⟨0, _⟩ => show win2_4.index t (0 : Fin 2) * 16 + 1 * (j 0).val = (j 0).val; rw [e13]; omega
  | ⟨1, _⟩ => show win2_4.index t (1 : Fin 2) * 1 + 1 * (j 1).val = (j 1).val; rw [e14]; omega

/-- Window 5's block is its whole array at every point. -/
theorem blk_5 (c : Dev nD) (t : Fin cfg2.N) : iblk2 V c 5 t = in5 V c := by
  unfold in5
  obtain ⟨e0, e1, e2, e3, e4, e5, e6, e7, e8, e9, e10, e11, e12, e13, e14, e15, e16, e17, e18, e19, e20, e21, e22⟩ := idx_facts t
  funext j
  show V c (Pipeline.arrRef spec2 5) (((cfg2.win 5).blk t).view.emb j) = V c (Pipeline.arrRef spec2 5) j
  refine congrArg _ ?_
  funext a
  apply Fin.ext
  match a with
  | ⟨0, _⟩ => show win2_5.index t (0 : Fin 2) * 16 + 1 * (j 0).val = (j 0).val; rw [e15]; omega
  | ⟨1, _⟩ => show win2_5.index t (1 : Fin 2) * 1 + 1 * (j 1).val = (j 1).val; rw [e16]; omega

/-- Window 6's block is its whole array at every point. -/
theorem blk_6 (c : Dev nD) (t : Fin cfg2.N) : iblk2 V c 6 t = in6 V c := by
  unfold in6
  obtain ⟨e0, e1, e2, e3, e4, e5, e6, e7, e8, e9, e10, e11, e12, e13, e14, e15, e16, e17, e18, e19, e20, e21, e22⟩ := idx_facts t
  funext j
  show V c (Pipeline.arrRef spec2 6) (((cfg2.win 6).blk t).view.emb j) = V c (Pipeline.arrRef spec2 6) j
  refine congrArg _ ?_
  funext a
  apply Fin.ext
  match a with
  | ⟨0, _⟩ => show win2_6.index t (0 : Fin 2) * 16 + 1 * (j 0).val = (j 0).val; rw [e17]; omega
  | ⟨1, _⟩ => show win2_6.index t (1 : Fin 2) * 1 + 1 * (j 1).val = (j 1).val; rw [e18]; omega

/-- Window 7's block is its whole array at every point. -/
theorem blk_7 (c : Dev nD) (t : Fin cfg2.N) : iblk2 V c 7 t = in7 V c := by
  unfold in7
  obtain ⟨e0, e1, e2, e3, e4, e5, e6, e7, e8, e9, e10, e11, e12, e13, e14, e15, e16, e17, e18, e19, e20, e21, e22⟩ := idx_facts t
  funext j
  show V c (Pipeline.arrRef spec2 7) (((cfg2.win 7).blk t).view.emb j) = V c (Pipeline.arrRef spec2 7) j
  refine congrArg _ ?_
  funext a
  apply Fin.ext
  match a with
  | ⟨0, _⟩ => show win2_7.index t (0 : Fin 2) * 12 + 1 * (j 0).val = (j 0).val; rw [e19]; omega
  | ⟨1, _⟩ => show win2_7.index t (1 : Fin 2) * 16 + 1 * (j 1).val = (j 1).val; rw [e20]; omega

/-- Window 8's block is its whole array at every point. -/
theorem blk_8 (c : Dev nD) (t : Fin cfg2.N) : iblk2 V c 8 t = in8 V c := by
  unfold in8
  obtain ⟨e0, e1, e2, e3, e4, e5, e6, e7, e8, e9, e10, e11, e12, e13, e14, e15, e16, e17, e18, e19, e20, e21, e22⟩ := idx_facts t
  funext j
  show V c (Pipeline.arrRef spec2 8) (((cfg2.win 8).blk t).view.emb j) = V c (Pipeline.arrRef spec2 8) j
  refine congrArg _ ?_
  funext a
  apply Fin.ext
  match a with
  | ⟨0, _⟩ => show win2_8.index t (0 : Fin 2) * 12 + 1 * (j 0).val = (j 0).val; rw [e21]; omega
  | ⟨1, _⟩ => show win2_8.index t (1 : Fin 2) * 1 + 1 * (j 1).val = (j 1).val; rw [e22]; omega

/-- Window 0's block at point t is columns 65,536·t … of its array. -/
theorem blk_0 (c : Dev nD) (t : Fin cfg2.N) :
    iblk2 V c 0 t = colTile 65536 (t.val * 65536) (tile_le t) (in0 V c) := by
  unfold in0
  obtain ⟨e0, e1, e2, e3, e4, e5, e6, e7, e8, e9, e10, e11, e12, e13, e14, e15, e16, e17, e18, e19, e20, e21, e22⟩ := idx_facts t
  funext j
  obtain ⟨p, e, rfl⟩ : ∃ (p : Fin 16) (e : Fin 65536), j = ix2 p e := ⟨j 0, j 1, eq_ix2 j⟩
  rw [colTile_apply]
  show V c (Pipeline.arrRef spec2 0) (((cfg2.win 0).blk t).view.emb (ix2 p e)) = _
  refine congrArg _ ?_
  funext a
  apply Fin.ext
  match a with
  | ⟨0, _⟩ => show win2_0.index t (0 : Fin 2) * 16 + 1 * p.val = p.val; rw [e0]; omega
  | ⟨1, _⟩ => show win2_0.index t (1 : Fin 2) * 65536 + 1 * e.val = t.val * 65536 + e.val; rw [e1]; omega

end Cert.KernelIdeal.Net.R2

end
-- ==== Proof.Arrays2.lean ====
/-
  Region 2: what the two output buffers hold after every point, and the tiles' values as functions of the arrays
  the region finds.  The activation block of point t is tile t of the whole-array activation `actArr`; the statistics
  buffer is reset at the first point of a half and grows, point by point, by the two lane sums of the next layer's
  affine map of that tile (`partAt`).
-/
import proofs.«114887_j65481071405707_2_alg».proof.Proof.Blocks2

set_option maxRecDepth 16384

noncomputable section

namespace Cert.KernelIdeal.Net.R2

open Cert.KernelIdeal Cert.KernelIdeal.Gen
open Idealize.ShloMosaic Idealize.ShloMosaic.TcCoe Idealize.SL.Sem Idealize.ShloMosaic.ValueIdx
open Cert.BatchNet Cert.BatchNet.Tile Cert.LibDenseLayers

variable (V : (c : Dev nD) → (b : Ref sig .tc) → Buf (Elt Ideal) ((c : Thread nD τ).loc b))

/-- The activation block of point t, as the body computes it from its loaded blocks. -/
def actAt (c : Dev nD) (t : Fin cfg2.N) : FVec Ideal S16x65536 .f32 := k2_pay1 (k2_pay4 (iblk2 V c 1 t) (iblk2 V c 0 t) (iblk2 V c 2 t) (iblk2 V c 6 t) (iblk2 V c 3 t) (iblk2 V c 5 t) (iblk2 V c 4 t) (iblk2 V c 0 t)) (FloatOps.ofBits .f32 0x00000000#32 : Ideal .f32)

/-- The statistics block after point t's update of `old`. -/
def statUpd (c : Dev nD) (t : Fin cfg2.N) (old : Vec Ideal S1x12x2 .f32) : FVec Ideal S1x12x2 .f32 := k2_pay2 (k2_pay4 (iblk2 V c 1 t) (iblk2 V c 0 t) (iblk2 V c 2 t) (iblk2 V c 6 t) (iblk2 V c 3 t) (iblk2 V c 5 t) (iblk2 V c 4 t) (iblk2 V c 0 t)) (FloatOps.ofBits .f32 0x00000000#32 : Ideal .f32) (iblk2 V c 7 t) (iblk2 V c 8 t) old

/-- What the activation output's buffer holds after point n. -/
theorem acts (c : Dev nD) (t : Fin cfg2.N) : (outsAt2 V c t.val t.isLt).1 = actAt V c t := by
  unfold actAt
  by_cases h0 : t.val % 16 = 0
  · rw [outsAt2_A V c t h0]
    dsimp only
    exact out_A_9 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t)
  · rw [outsAt2_B V c t h0]
    dsimp only
    exact out_B_9 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (fun hh => h0 ((hcond2_0 t).mp hh)) (iblk2 V c 0 t) (iblk2 V c 1 t) (iblk2 V c 2 t) (iblk2 V c 3 t) (iblk2 V c 4 t) (iblk2 V c 5 t) (iblk2 V c 6 t) (iblk2 V c 7 t) (iblk2 V c 8 t) _

theorem stat_A' (c : Dev nD) (t : Fin cfg2.N) (h0 : t.val % 16 = 0) :
    (outsAt2 V c t.val t.isLt).2 = statUpd V c t (k2_pay3 (F := Ideal)) := by
  unfold statUpd
  rw [outsAt2_A V c t h0]
  exact out_A_10 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t)

theorem stat_B' (c : Dev nD) (t : Fin cfg2.N) (h0 : ¬t.val % 16 = 0) :
    (outsAt2 V c t.val t.isLt).2
      = statUpd V c t (outsAt2 V c (t.val - 1) (Nat.lt_of_le_of_lt (Nat.sub_le _ _) t.isLt)).2 := by
  unfold statUpd
  rw [outsAt2_B V c t h0]
  exact out_B_10 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (fun hh => h0 ((hcond2_0 t).mp hh)) (iblk2 V c 0 t) (iblk2 V c 1 t) (iblk2 V c 2 t) (iblk2 V c 3 t) (iblk2 V c 4 t) (iblk2 V c 5 t) (iblk2 V c 6 t) (iblk2 V c 7 t) (iblk2 V c 8 t) _

/-- The whole activation array: the network's block applied to the array the region finds. -/
def actArr (c : Dev nD) : Mat 16 2097152 := skip (bn (aff (in1 V c) (in0 V c) (in2 V c)) (in3 V c) (in4 V c) (in5 V c) (in6 V c)) (in0 V c)

/-- The activation block of point t is tile t of the whole activation array. -/
theorem actAt_eq (c : Dev nD) (t : Fin cfg2.N) :
    actAt V c t = colTile 65536 (t.val * 65536) (tile_le t) (actArr V c) := by
  unfold actAt actArr
  rw [blk_0 V c t, blk_1 V c t, blk_2 V c t, blk_3 V c t, blk_4 V c t, blk_5 V c t, blk_6 V c t]
  rw [pay_act_eq]
  exact skip_bn_aff_colTile 65536 (t.val * 65536) (tile_le t) (in1 V c) (in0 V c) (in2 V c) (in3 V c) (in4 V c) (in5 V c) (in6 V c)

/-- The two lane sums of the next layer's affine map of tile t of the activation array. -/
def partAt (c : Dev nD) (t : Fin cfg2.N) : FVec Ideal S1x12x2 .f32 :=
  laneSums (aff (in7 V c) (colTile 65536 (t.val * 65536) (tile_le t) (actArr V c)) (in8 V c))

/-- A point's update adds its tile's lane sums. -/
theorem statUpd_eq (c : Dev nD) (t : Fin cfg2.N) (old : Vec Ideal S1x12x2 .f32) :
    statUpd V c t old = old + partAt V c t := by
  have ha := actAt_eq V c t
  unfold actAt at ha
  unfold statUpd partAt
  rw [pay_stats_eq, ha, blk_7 V c t, blk_8 V c t, addf_eq_add]

theorem stat_A (c : Dev nD) (t : Fin cfg2.N) (h0 : t.val % 16 = 0) :
    (outsAt2 V c t.val t.isLt).2 = 0 + partAt V c t := by
  rw [stat_A' V c t h0, statUpd_eq, pay_zero_eq]

theorem stat_B (c : Dev nD) (t : Fin cfg2.N) (h0 : ¬t.val % 16 = 0) :
    (outsAt2 V c t.val t.isLt).2
      = (outsAt2 V c (t.val - 1) (Nat.lt_of_le_of_lt (Nat.sub_le _ _) t.isLt)).2 + partAt V c t := by
  rw [stat_B' V c t h0, statUpd_eq]

end Cert.KernelIdeal.Net.R2

end
-- ==== Proof.Finals2.lean ====
/-
  Region 2: the write-backs.  Point t writes its activation block back to columns 65,536·t … of the activation
  array; the statistics block is written back after the last point of each half, to that half's slab.  Every entry of
  either array is written, so after the region the arrays are the functions `actArr` and `statArr` of what the region
  found.
-/
import proofs.«114887_j65481071405707_2_alg».proof.Proof.Arrays2

set_option maxRecDepth 16384

noncomputable section

namespace Cert.KernelIdeal.Net.R2

open Cert.KernelIdeal Cert.KernelIdeal.Gen
open Idealize.ShloMosaic Idealize.ShloMosaic.TcCoe Idealize.SL.Sem Idealize.ShloMosaic.ValueIdx
open Idealize.ShloMosaic.Pipeline (Dat)
open Cert.BatchNet Cert.BatchNet.Tile Cert.LibDenseLayers

variable (V : (c : Dev nD) → (b : Ref sig .tc) → Buf (Elt Ideal) ((c : Thread nD τ).loc b))

theorem lt_N {n : ℕ} (h : n < 32) : n < cfg2.N := lt_of_lt_of_eq h N32.symm

/-- After the last point of half q the statistics buffer holds the sum of the half's sixteen tiles' lane sums. -/
theorem stats_half (c : Dev nD) (q : Fin 2) :
    (outsAt2 V c (q.val * 16 + 15) (lt_N (by have := q.isLt; omega))).2
      = 0 + ∑ s : Fin 16, partAt V c ⟨q.val * 16 + s.val, lt_N (by have := q.isLt; have := s.isLt; omega)⟩ :=
  half_sums (fun n h => (outsAt2 V c n (lt_N h)).2)
    (fun t => partAt V c ⟨t.val, lt_N t.isLt⟩) 0
    (fun t h0 => stat_A V c ⟨t.val, lt_N t.isLt⟩ h0)
    (fun t h0 => stat_B V c ⟨t.val, lt_N t.isLt⟩ h0) q

/-- The statistics array after the region. -/
def statArr (c : Dev nD) : FVec Ideal S2x12x2 .f32 := fun i =>
  (0 + ∑ s : Fin 16, partAt V c ⟨(i 0).val * 16 + s.val, lt_N (by have h0 : (i 0).val < 2 := (i 0).isLt; have := s.isLt; omega)⟩)
    (ix3 (0 : Fin 1) (⟨(i 1).val, (i 1).isLt⟩ : Fin 12) (⟨(i 2).val, (i 2).isLt⟩ : Fin 2))

theorem statArr_apply (c : Dev nD) (q : Fin 2) (o : Fin 12) (u : Fin 2) :
    statArr V c (ix3 q o u)
      = (0 + ∑ s : Fin 16, partAt V c ⟨q.val * 16 + s.val, lt_N (by have := q.isLt; have := s.isLt; omega)⟩)
          (ix3 (0 : Fin 1) o u) := rfl

/-! ## The activation output -/

theorem flushed9_eq (c : Dev nD) (t : Fin cfg2.N) :
    (dat2 V c).flushed 9 t = ((cfg2.win 9).blk t).view.read (Elt Ideal) (actArr V c) := by
  obtain ⟨e0, e1, e2, e3, e4, e5, e6, e7, e8, e9, e10, e11, e12, e13, e14, e15, e16, e17, e18, e19, e20, e21, e22⟩ := idx_facts t
  show (cfg2.win 9).cut (grid2.coords t) ((dat2 V c).after 9 t) = _
  rw [after2_9, acts V c t, actAt_eq V c t]
  funext j
  obtain ⟨p, e, rfl⟩ : ∃ (p : Fin 16) (e : Fin 65536), j = ix2 p e := ⟨j 0, j 1, eq_ix2 j⟩
  show colTile 65536 (t.val * 65536) (tile_le t) (actArr V c) (ix2 p e) = actArr V c (((cfg2.win 9).blk t).view.emb (ix2 p e))
  rw [colTile_apply]
  refine congrArg _ ?_
  funext a
  apply Fin.ext
  match a with
  | ⟨0, _⟩ => show p.val = win2_9.index t (0 : Fin 2) * 16 + 1 * p.val; rw [e2]; omega
  | ⟨1, _⟩ => show t.val * 65536 + e.val = win2_9.index t (1 : Fin 2) * 65536 + 1 * e.val; rw [e3]; omega

theorem mem_blk9 (t : Fin cfg2.N) (i : S16x2097152.Idx) :
    i ∈ ((cfg2.win 9).blk t).view.set ↔ ∀ a : Fin 2, win2_9.index t a * S16x65536.size a ≤ (i a).val ∧ (i a).val < win2_9.index t a * S16x65536.size a + S16x65536.size a := by
  show i ∈ ((View.whole main_v34_0).slice (win2_9.rect t)).set ↔ _
  rw [View.set_slice_whole, Rect.mem_set_unit]
  exact Iff.rfl

/-- The activation array after the region. -/
theorem final9 (c : Dev nD) : (dat2 V c).arrAt 9 cfg2.N = actArr V c :=
  (dat2 V c).arrAt_eq_of_cover 9 (actArr V c) (fun t _ => flushed9_eq V c t) fun i => by
    have hi0 : (i 0).val < 16 := (i 0).isLt
    have hi1 : (i 1).val < 2097152 := (i 1).isLt
    refine ⟨⟨(i 1).val / 65536, lt_N (by omega)⟩, flush2_9 _, ?_⟩
    rw [mem_blk9]
    obtain ⟨e0, e1, e2, e3, e4, e5, e6, e7, e8, e9, e10, e11, e12, e13, e14, e15, e16, e17, e18, e19, e20, e21, e22⟩ := idx_facts (⟨(i 1).val / 65536, lt_N (by omega)⟩ : Fin cfg2.N)
    intro a
    match a with
    | ⟨0, _⟩ => show win2_9.index _ (0 : Fin 2) * 16 ≤ (i 0).val ∧ (i 0).val < win2_9.index _ (0 : Fin 2) * 16 + 16; rw [e2]; omega
    | ⟨1, _⟩ => show win2_9.index _ (1 : Fin 2) * 65536 ≤ (i 1).val ∧ (i 1).val < win2_9.index _ (1 : Fin 2) * 65536 + 65536; rw [e3]; show (i 1).val / 65536 * 65536 ≤ _ ∧ _ < (i 1).val / 65536 * 65536 + 65536; omega

/-! ## The statistics output -/

theorem outs_congr (c : Dev nD) (n n' : ℕ) (h : n < cfg2.N) (h' : n' < cfg2.N) (e : n = n') :
    outsAt2 V c n h = outsAt2 V c n' h' := by subst e; rfl

theorem flushed10_eq (c : Dev nD) (t : Fin cfg2.N) (hf : (cfg2.win 10).flush t = true) :
    (dat2 V c).flushed 10 t = ((cfg2.win 10).blk t).view.read (Elt Ideal) (statArr V c) := by
  obtain ⟨e0, e1, e2, e3, e4, e5, e6, e7, e8, e9, e10, e11, e12, e13, e14, e15, e16, e17, e18, e19, e20, e21, e22⟩ := idx_facts t
  have h15 : t.val % 16 = 15 := (flush2_10 t).mp hf
  have ht : t.val < 32 := lt32 t
  show (cfg2.win 10).cut (grid2.coords t) ((dat2 V c).after 10 t) = _
  rw [after2_10, outs_congr V c t.val ((⟨t.val / 16, by omega⟩ : Fin 2).val * 16 + 15) t.isLt (lt_N (by show t.val / 16 * 16 + 15 < 32; omega)) (by show t.val = t.val / 16 * 16 + 15; omega),
    stats_half V c ⟨t.val / 16, by omega⟩]
  funext j
  show _ = statArr V c (((cfg2.win 10).blk t).view.emb j)
  have hj0 : (j 0).val = 0 := by have h : (j 0).val < 1 := (j 0).isLt; omega
  have hemb : ((cfg2.win 10).blk t).view.emb j
      = ix3 (⟨t.val / 16, by omega⟩ : Fin 2) (⟨(j 1).val, (j 1).isLt⟩ : Fin 12) (⟨(j 2).val, (j 2).isLt⟩ : Fin 2) := by
    funext a
    apply Fin.ext
    match a with
    | ⟨0, _⟩ => show win2_10.index t (0 : Fin 3) * 1 + 1 * (j 0).val = t.val / 16; rw [e4, hj0]; omega
    | ⟨1, _⟩ => show win2_10.index t (1 : Fin 3) * 12 + 1 * (j 1).val = (j 1).val; rw [e5]; omega
    | ⟨2, _⟩ => show win2_10.index t (2 : Fin 3) * 2 + 1 * (j 2).val = (j 2).val; rw [e6]; omega
  rw [hemb, statArr_apply]
  refine congrArg _ ?_
  funext a
  apply Fin.ext
  match a with
  | ⟨0, _⟩ => exact hj0
  | ⟨1, _⟩ => rfl
  | ⟨2, _⟩ => rfl

theorem mem_blk10 (t : Fin cfg2.N) (i : S2x12x2.Idx) :
    i ∈ ((cfg2.win 10).blk t).view.set ↔ ∀ a : Fin 3, win2_10.index t a * S1x12x2.size a ≤ (i a).val ∧ (i a).val < win2_10.index t a * S1x12x2.size a + S1x12x2.size a := by
  show i ∈ ((View.whole main_v34_1).slice (win2_10.rect t)).set ↔ _
  rw [View.set_slice_whole, Rect.mem_set_unit]
  exact Iff.rfl

/-- The statistics array after the region. -/
theorem final10 (c : Dev nD) : (dat2 V c).arrAt 10 cfg2.N = statArr V c :=
  (dat2 V c).arrAt_eq_of_cover 10 (statArr V c) (flushed10_eq V c) fun i => by
    have hi0 : (i 0).val < 2 := (i 0).isLt
    have hi1 : (i 1).val < 12 := (i 1).isLt
    have hi2 : (i 2).val < 2 := (i 2).isLt
    refine ⟨⟨(i 0).val * 16 + 15, lt_N (by omega)⟩, (flush2_10 _).mpr (by show ((i 0).val * 16 + 15) % 16 = 15; omega), ?_⟩
    rw [mem_blk10]
    obtain ⟨e0, e1, e2, e3, e4, e5, e6, e7, e8, e9, e10, e11, e12, e13, e14, e15, e16, e17, e18, e19, e20, e21, e22⟩ := idx_facts (⟨(i 0).val * 16 + 15, lt_N (by omega)⟩ : Fin cfg2.N)
    intro a
    match a with
    | ⟨0, _⟩ => show win2_10.index _ (0 : Fin 3) * 1 ≤ (i 0).val ∧ (i 0).val < win2_10.index _ (0 : Fin 3) * 1 + 1; rw [e4]; show ((i 0).val * 16 + 15) / 16 * 1 ≤ _ ∧ _ < ((i 0).val * 16 + 15) / 16 * 1 + 1; omega
    | ⟨1, _⟩ => show win2_10.index _ (1 : Fin 3) * 12 ≤ (i 1).val ∧ (i 1).val < win2_10.index _ (1 : Fin 3) * 12 + 12; rw [e5]; omega
    | ⟨2, _⟩ => show win2_10.index _ (2 : Fin 3) * 2 ≤ (i 2).val ∧ (i 2).val < win2_10.index _ (2 : Fin 3) * 2 + 2; rw [e6]; omega

end Cert.KernelIdeal.Net.R2

end
-- ==== Proof.Pieces3.lean ====
/-
  Region 3 (one block of the network applied to a tile of columns, and the next layer's lane sums): what each of the
  two control cases leaves in the two output buffers, as the body's arithmetic of the blocks it loaded.  At the first
  point of a half the statistics block is first set to zero; at every other point it is read as the point before left it.
-/
import proofs.«114887_j65481071405707_2_alg».proof.Proof.Gen.KernelIdeal.Frame
import Idealize.ShloMosaic.Lib.Pipeline.Value
import Idealize.ShloMosaic.Lib.Tactic

set_option maxRecDepth 16384

noncomputable section

namespace Cert.KernelIdeal.Net.R3

open Cert.KernelIdeal Cert.KernelIdeal.Gen
open Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The activation block, first point of a half. -/
theorem out_A_9 (c : Dev nD) (i : grid3.Coords) (arg2 : Memref sig .tc .vmem S16x65536 .f32) (harg2 : arg2.IsWhole) (arg3 : Memref sig .tc .vmem S12x16 .f32) (harg3 : arg3.IsWhole) (arg4 : Memref sig .tc .vmem S12x1 .f32) (harg4 : arg4.IsWhole) (arg5 : Memref sig .tc .vmem S12x1 .f32) (harg5 : arg5.IsWhole) (arg6 : Memref sig .tc .vmem S12x1 .f32) (harg6 : arg6.IsWhole) (arg7 : Memref sig .tc .vmem S12x1 .f32) (harg7 : arg7.IsWhole) (arg8 : Memref sig .tc .vmem S12x1 .f32) (harg8 : arg8.IsWhole) (arg9 : Memref sig .tc .vmem S12x12 .f32) (harg9 : arg9.IsWhole) (arg10 : Memref sig .tc .vmem S12x1 .f32) (harg10 : arg10.IsWhole) (arg11 : Memref sig .tc .vmem S12x65536 .f32) (harg11 : arg11.IsWhole) (arg12 : Memref sig .tc .vmem S1x12x2 .f32) (harg12 : arg12.IsWhole) (hc0 : cond3_0 i) (x0 : Vec F S16x65536 .f32) (x1 : Vec F S12x16 .f32) (x2 : Vec F S12x1 .f32) (x3 : Vec F S12x1 .f32) (x4 : Vec F S12x1 .f32) (x5 : Vec F S12x1 .f32) (x6 : Vec F S12x1 .f32) (x7 : Vec F S12x12 .f32) (x8 : Vec F S12x1 .f32) :
    out3_A_9 c i arg2 harg2 arg3 harg3 arg4 harg4 arg5 harg5 arg6 harg6 arg7 harg7 arg8 harg8 arg9 harg9 arg10 harg10 arg11 harg11 arg12 harg12 hc0 x0 x1 x2 x3 x4 x5 x6 x7 x8 = k3_pay3 x1 x0 x2 x6 x3 x5 x4 := by
  unfold out3_A_9
  rw [View.read_writes_eq_canon _ _ _ (cover3_A_9 c i arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun3_A
  dsimp only
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread, View.ld_unit_zero (S := S16x65536) hz2, View.ld_unit_zero (S := S12x16) hz2, View.ld_unit_zero (S := S12x1) hz2, View.ld_unit_zero (S := S12x12) hz2, View.ld_unit_zero (S := S12x1) hz2, View.ld_unit_zero (S := S1x12x2) hz3]

/-- The activation block, any other point. -/
theorem out_B_9 (c : Dev nD) (i : grid3.Coords) (arg2 : Memref sig .tc .vmem S16x65536 .f32) (harg2 : arg2.IsWhole) (arg3 : Memref sig .tc .vmem S12x16 .f32) (harg3 : arg3.IsWhole) (arg4 : Memref sig .tc .vmem S12x1 .f32) (harg4 : arg4.IsWhole) (arg5 : Memref sig .tc .vmem S12x1 .f32) (harg5 : arg5.IsWhole) (arg6 : Memref sig .tc .vmem S12x1 .f32) (harg6 : arg6.IsWhole) (arg7 : Memref sig .tc .vmem S12x1 .f32) (harg7 : arg7.IsWhole) (arg8 : Memref sig .tc .vmem S12x1 .f32) (harg8 : arg8.IsWhole) (arg9 : Memref sig .tc .vmem S12x12 .f32) (harg9 : arg9.IsWhole) (arg10 : Memref sig .tc .vmem S12x1 .f32) (harg10 : arg10.IsWhole) (arg11 : Memref sig .tc .vmem S12x65536 .f32) (harg11 : arg11.IsWhole) (arg12 : Memref sig .tc .vmem S1x12x2 .f32) (harg12 : arg12.IsWhole) (hc0 : ¬cond3_0 i) (x0 : Vec F S16x65536 .f32) (x1 : Vec F S12x16 .f32) (x2 : Vec F S12x1 .f32) (x3 : Vec F S12x1 .f32) (x4 : Vec F S12x1 .f32) (x5 : Vec F S12x1 .f32) (x6 : Vec F S12x1 .f32) (x7 : Vec F S12x12 .f32) (x8 : Vec F S12x1 .f32) (xo10 : Vec F S1x12x2 .f32) :
    out3_B_9 c i arg2 harg2 arg3 harg3 arg4 harg4 arg5 harg5 arg6 harg6 arg7 harg7 arg8 harg8 arg9 harg9 arg10 harg10 arg11 harg11 arg12 harg12 hc0 x0 x1 x2 x3 x4 x5 x6 x7 x8 xo10 = k3_pay3 x1 x0 x2 x6 x3 x5 x4 := by
  unfold out3_B_9
  rw [View.read_writes_eq_canon _ _ _ (cover3_B_9 c i arg2 harg2 arg3 harg3 arg4 harg4 arg5 harg5 arg6 harg6 arg7 harg7 arg8 harg8 arg9 harg9 arg10 harg10 arg11 harg11 arg12 harg12 hc0 x0 x1 x2 x3 x4 x5 x6 x7 x8 xo10)]
  unfold kernelRun3_B
  dsimp only
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread, View.ld_unit_zero (S := S16x65536) hz2, View.ld_unit_zero (S := S12x16) hz2, View.ld_unit_zero (S := S12x1) hz2, View.ld_unit_zero (S := S12x12) hz2, View.ld_unit_zero (S := S12x1) hz2, View.ld_unit_zero (S := S1x12x2) hz3]

/-- The statistics block, any point but the first of a half: the block as found, updated. -/
theorem out_B_10 (c : Dev nD) (i : grid3.Coords) (arg2 : Memref sig .tc .vmem S16x65536 .f32) (harg2 : arg2.IsWhole) (arg3 : Memref sig .tc .vmem S12x16 .f32) (harg3 : arg3.IsWhole) (arg4 : Memref sig .tc .vmem S12x1 .f32) (harg4 : arg4.IsWhole) (arg5 : Memref sig .tc .vmem S12x1 .f32) (harg5 : arg5.IsWhole) (arg6 : Memref sig .tc .vmem S12x1 .f32) (harg6 : arg6.IsWhole) (arg7 : Memref sig .tc .vmem S12x1 .f32) (harg7 : arg7.IsWhole) (arg8 : Memref sig .tc .vmem S12x1 .f32) (harg8 : arg8.IsWhole) (arg9 : Memref sig .tc .vmem S12x12 .f32) (harg9 : arg9.IsWhole) (arg10 : Memref sig .tc .vmem S12x1 .f32) (harg10 : arg10.IsWhole) (arg11 : Memref sig .tc .vmem S12x65536 .f32) (harg11 : arg11.IsWhole) (arg12 : Memref sig .tc .vmem S1x12x2 .f32) (harg12 : arg12.IsWhole) (hc0 : ¬cond3_0 i) (x0 : Vec F S16x65536 .f32) (x1 : Vec F S12x16 .f32) (x2 : Vec F S12x1 .f32) (x3 : Vec F S12x1 .f32) (x4 : Vec F S12x1 .f32) (x5 : Vec F S12x1 .f32) (x6 : Vec F S12x1 .f32) (x7 : Vec F S12x12 .f32) (x8 : Vec F S12x1 .f32) (xo10 : Vec F S1x12x2 .f32) :
    out3_B_10 c i arg2 harg2 arg3 harg3 arg4 harg4 arg5 harg5 arg6 harg6 arg7 harg7 arg8 harg8 arg9 harg9 arg10 harg10 arg11 harg11 arg12 harg12 hc0 x0 x1 x2 x3 x4 x5 x6 x7 x8 xo10 = k3_pay1 (k3_pay3 x1 x0 x2 x6 x3 x5 x4) x7 x8 xo10 := by
  unfold out3_B_10
  rw [View.read_writes_eq_canon _ _ _ (cover3_B_10 c i arg2 harg2 arg3 harg3 arg4 harg4 arg5 harg5 arg6 harg6 arg7 harg7 arg8 harg8 arg9 harg9 arg10 harg10 arg11 harg11 arg12 harg12 hc0 x0 x1 x2 x3 x4 x5 x6 x7 x8 xo10)]
  unfold kernelRun3_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg12.read_unread, View.ld_unit_zero (S := S16x65536) hz2, View.ld_unit_zero (S := S12x16) hz2, View.ld_unit_zero (S := S12x1) hz2, View.ld_unit_zero (S := S12x12) hz2, View.ld_unit_zero (S := S12x1) hz2, View.ld_unit_zero (S := S1x12x2) hz3]

/-- The statistics block, first point of a half: the zero block, updated. -/
theorem out_A_10 (c : Dev nD) (i : grid3.Coords) (arg2 : Memref sig .tc .vmem S16x65536 .f32) (harg2 : arg2.IsWhole) (arg3 : Memref sig .tc .vmem S12x16 .f32) (harg3 : arg3.IsWhole) (arg4 : Memref sig .tc .vmem S12x1 .f32) (harg4 : arg4.IsWhole) (arg5 : Memref sig .tc .vmem S12x1 .f32) (harg5 : arg5.IsWhole) (arg6 : Memref sig .tc .vmem S12x1 .f32) (harg6 : arg6.IsWhole) (arg7 : Memref sig .tc .vmem S12x1 .f32) (harg7 : arg7.IsWhole) (arg8 : Memref sig .tc .vmem S12x1 .f32) (harg8 : arg8.IsWhole) (arg9 : Memref sig .tc .vmem S12x12 .f32) (harg9 : arg9.IsWhole) (arg10 : Memref sig .tc .vmem S12x1 .f32) (harg10 : arg10.IsWhole) (arg11 : Memref sig .tc .vmem S12x65536 .f32) (harg11 : arg11.IsWhole) (arg12 : Memref sig .tc .vmem S1x12x2 .f32) (harg12 : arg12.IsWhole) (hc0 : cond3_0 i) (x0 : Vec F S16x65536 .f32) (x1 : Vec F S12x16 .f32) (x2 : Vec F S12x1 .f32) (x3 : Vec F S12x1 .f32) (x4 : Vec F S12x1 .f32) (x5 : Vec F S12x1 .f32) (x6 : Vec F S12x1 .f32) (x7 : Vec F S12x12 .f32) (x8 : Vec F S12x1 .f32) :
    out3_A_10 c i arg2 harg2 arg3 harg3 arg4 harg4 arg5 harg5 arg6 harg6 arg7 harg7 arg8 harg8 arg9 harg9 arg10 harg10 arg11 harg11 arg12 harg12 hc0 x0 x1 x2 x3 x4 x5 x6 x7 x8 = k3_pay1 (k3_pay3 x1 x0 x2 x6 x3 x5 x4) x7 x8 k3_pay2 := by
  unfold out3_A_10
  rw [View.read_writes_eq_canon _ _ _ (cover3_A_10 c i arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun3_A
  dsimp only
  sl_unfold_words
  rw [View.canon_cons_unit_zero (S := S1x12x2) hz3, View.readCov_unit_zero (S := S1x12x2) _ hz3]
  simp only [View.readAt_eq_ld, harg2.read_unread, harg3.read_unread, harg4.read_unread, harg5.read_unread, harg6.read_unread, harg7.read_unread, harg8.read_unread, harg9.read_unread, harg10.read_unread, harg12.read_unread, View.ld_unit_zero (S := S16x65536) hz2, View.ld_unit_zero (S := S12x16) hz2, View.ld_unit_zero (S := S12x1) hz2, View.ld_unit_zero (S := S12x12) hz2, View.ld_unit_zero (S := S12x1) hz2, View.ld_unit_zero (S := S1x12x2) hz3]

end Cert.KernelIdeal.Net.R3

end
-- ==== Proof.Values3.lean ====
/-
  Region 3, at the ideal instance: the body's arithmetic as the tile functions of the network — the activation block is
  the normalised affine map of the loaded tile, the statistics block grows by the two lane sums of the next layer's
  affine map of that block.
-/
import proofs.«114887_j65481071405707_2_alg».proof.Proof.Pieces3
import proofs.«114887_j65481071405707_2_alg».proof.Proof.TileLayers
import proofs.«114887_j65481071405707_2_alg».proof.Proof.Bridge

set_option maxRecDepth 16384

noncomputable section

namespace Cert.KernelIdeal.Net.R3

open Cert.KernelIdeal Cert.KernelIdeal.Gen
open Idealize.ShloMosaic Idealize.ShloMosaic.TcCoe Idealize.SL.Sem Idealize.ShloMosaic.ValueIdx
open Cert.BatchNet Cert.BatchNet.Tile Cert.LibDenseLayers

/-- The activation block as a tile function. -/
theorem pay_act_eq (v3 : Vec Ideal S12x16 .f32) (v4 : Vec Ideal S16x65536 .f32) (v7 v11 v16 v18 v26 : Vec Ideal S12x1 .f32) :
    k3_pay3 v3 v4 v7 v11 v16 v18 v26 = bn (aff v3 v4 v7) v16 v26 v18 v11 := by
  unfold k3_pay3
  exact act_eq dot_S12x16_S16x65536_S12x65536_1_0_0_1_n_n rfl rfl (fun _ _ => rfl) (fun _ _ => rfl) (fun _ _ => rfl) (fun _ _ => rfl) _ _ _ v3 v4 v7 v16 v26 v18 v11

/-- The statistics block's update. -/
theorem pay_stats_eq (A : FVec Ideal S12x65536 .f32) (v38 : Vec Ideal S12x12 .f32) (v40 : Vec Ideal S12x1 .f32) (v49 : Vec Ideal S1x12x2 .f32) :
    k3_pay1 A v38 v40 v49 = addf v49 (laneSums (aff v38 A v40)) := by
  unfold k3_pay1
  exact stats_aff_eq dot_S12x12_S12x65536_S12x65536_1_0_0_1_n_n rfl rfl (fun _ _ => rfl) (fun _ _ => rfl) (fun _ _ => rfl) (fun _ _ => rfl) _ _ v38 A v40 v49 _ _ _ _ _

/-- The block a half starts from is zero. -/
theorem pay_zero_eq : (k3_pay2 : FVec Ideal S1x12x2 .f32) = 0 := by
  unfold k3_pay2
  exact zeroBlock_eq _

end Cert.KernelIdeal.Net.R3

end
-- ==== Proof.Blocks3.lean ====
/-
  Region 3: which part of its array each window's block is.  Point t of the 32 handles columns 65,536·t …
  65,536·t + 65,535 of the input and of the activation output; the statistics block of point t is slab t / 16;
  every other window's block is its whole array.
-/
import proofs.«114887_j65481071405707_2_alg».proof.Proof.Values3
import Idealize.ShloMosaic.Lib.Pipeline.Value

set_option maxRecDepth 16384

noncomputable section

namespace Cert.KernelIdeal.Net.R3

open Cert.KernelIdeal Cert.KernelIdeal.Gen
open Idealize.ShloMosaic Idealize.ShloMosaic.TcCoe Idealize.SL.Sem Idealize.ShloMosaic.ValueIdx
open Cert.BatchNet Cert.BatchNet.Tile Cert.LibDenseLayers

variable (V : (c : Dev nD) → (b : Ref sig .tc) → Buf (Elt Ideal) ((c : Thread nD τ).loc b))

/-! The arrays the region finds in its nine input windows. -/
def in0 (c : Dev nD) : Mat 16 2097152 := V c (Pipeline.arrRef spec3 0)
def in1 (c : Dev nD) : Mat 12 16 := V c (Pipeline.arrRef spec3 1)
def in2 (c : Dev nD) : Mat 12 1 := V c (Pipeline.arrRef spec3 2)
def in3 (c : Dev nD) : Mat 12 1 := V c (Pipeline.arrRef spec3 3)
def in4 (c : Dev nD) : Mat 12 1 := V c (Pipeline.arrRef spec3 4)
def in5 (c : Dev nD) : Mat 12 1 := V c (Pipeline.arrRef spec3 5)
def in6 (c : Dev nD) : Mat 12 1 := V c (Pipeline.arrRef spec3 6)
def in7 (c : Dev nD) : Mat 12 12 := V c (Pipeline.arrRef spec3 7)
def in8 (c : Dev nD) : Mat 12 1 := V c (Pipeline.arrRef spec3 8)

theorem N32 : cfg3.N = 32 := N_3

theorem lt32 (t : Fin cfg3.N) : t.val < 32 := lt_of_lt_of_eq t.isLt N32

theorem tile_le (t : Fin cfg3.N) : t.val * 65536 + 65536 ≤ 2097152 := by have := lt32 t; omega

/-- The printed index maps over the grid. -/
theorem idx_facts : ∀ t : Fin cfg3.N, win3_0.index t (0 : Fin 2) = 0
    ∧ win3_0.index t (1 : Fin 2) = t.val
    ∧ win3_9.index t (0 : Fin 2) = 0
    ∧ win3_9.index t (1 : Fin 2) = t.val
    ∧ win3_10.index t (0 : Fin 3) = t.val / 16
    ∧ win3_10.index t (1 : Fin 3) = 0
    ∧ win3_10.index t (2 : Fin 3) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0 :=
  (by decide +kernel : ∀ t : Fin grid3.N, _)

/-- Window 1's block is its whole array at every point. -/
theorem blk_1 (c : Dev nD) (t : Fin cfg3.N) : iblk3 V c 1 t = in1 V c := by
  unfold in1
  obtain ⟨e0, e1, e2, e3, e4, e5, e6, e7, e8, e9, e10, e11, e12, e13, e14, e15, e16, e17, e18, e19, e20, e21, e22⟩ := idx_facts t
  funext j
  show V c (Pipeline.arrRef spec3 1) (((cfg3.win 1).blk t).view.emb j) = V c (Pipeline.arrRef spec3 1) j
  refine congrArg _ ?_
  funext a
  apply Fin.ext
  match a with
  | ⟨0, _⟩ => show win3_1.index t (0 : Fin 2) * 12 + 1 * (j 0).val = (j 0).val; rw [e7]; omega
  | ⟨1, _⟩ => show win3_1.index t (1 : Fin 2) * 16 + 1 * (j 1).val = (j 1).val; rw [e8]; omega

/-- Window 2's block is its whole array at every point. -/
theorem blk_2 (c : Dev nD) (t : Fin cfg3.N) : iblk3 V c 2 t = in2 V c := by
  unfold in2
  obtain ⟨e0, e1, e2, e3, e4, e5, e6, e7, e8, e9, e10, e11, e12, e13, e14, e15, e16, e17, e18, e19, e20, e21, e22⟩ := idx_facts t
  funext j
  show V c (Pipeline.arrRef spec3 2) (((cfg3.win 2).blk t).view.emb j) = V c (Pipeline.arrRef spec3 2) j
  refine congrArg _ ?_
  funext a
  apply Fin.ext
  match a with
  | ⟨0, _⟩ => show win3_2.index t (0 : Fin 2) * 12 + 1 * (j 0).val = (j 0).val; rw [e9]; omega
  | ⟨1, _⟩ => show win3_2.index t (1 : Fin 2) * 1 + 1 * (j 1).val = (j 1).val; rw [e10]; omega

/-- Window 3's block is its whole array at every point. -/
theorem blk_3 (c : Dev nD) (t : Fin cfg3.N) : iblk3 V c 3 t = in3 V c := by
  unfold in3
  obtain ⟨e0, e1, e2, e3, e4, e5, e6, e7, e8, e9, e10, e11, e12, e13, e14, e15, e16, e17, e18, e19, e20, e21, e22⟩ := idx_facts t
  funext j
  show V c (Pipeline.arrRef spec3 3) (((cfg3.win 3).blk t).view.emb j) = V c (Pipeline.arrRef spec3 3) j
  refine congrArg _ ?_
  funext a
  apply Fin.ext
  match a with
  | ⟨0, _⟩ => show win3_3.index t (0 : Fin 2) * 12 + 1 * (j 0).val = (j 0).val; rw [e11]; omega
  | ⟨1, _⟩ => show win3_3.index t (1 : Fin 2) * 1 + 1 * (j 1).val = (j 1).val; rw [e12]; omega

/-- Window 4's block is its whole array at every point. -/
theorem blk_4 (c : Dev nD) (t : Fin cfg3.N) : iblk3 V c 4 t = in4 V c := by
  unfold in4
  obtain ⟨e0, e1, e2, e3, e4, e5, e6, e7, e8, e9, e10, e11, e12, e13, e14, e15, e16, e17, e18, e19, e20, e21, e22⟩ := idx_facts t
  funext j
  show V c (Pipeline.arrRef spec3 4) (((cfg3.win 4).blk t).view.emb j) = V c (Pipeline.arrRef spec3 4) j
  refine congrArg _ ?_
  funext a
  apply Fin.ext
  match a with
  | ⟨0, _⟩ => show win3_4.index t (0 : Fin 2) * 12 + 1 * (j 0).val = (j 0).val; rw [e13]; omega
  | ⟨1, _⟩ => show win3_4.index t (1 : Fin 2) * 1 + 1 * (j 1).val = (j 1).val; rw [e14]; omega

/-- Window 5's block is its whole array at every point. -/
theorem blk_5 (c : Dev nD) (t : Fin cfg3.N) : iblk3 V c 5 t = in5 V c := by
  unfold in5
  obtain ⟨e0, e1, e2, e3, e4, e5, e6, e7, e8, e9, e10, e11, e12, e13, e14, e15, e16, e17, e18, e19, e20, e21, e22⟩ := idx_facts t
  funext j
  show V c (Pipeline.arrRef spec3 5) (((cfg3.win 5).blk t).view.emb j) = V c (Pipeline.arrRef spec3 5) j
  refine congrArg _ ?_
  funext a
  apply Fin.ext
  match a with
  | ⟨0, _⟩ => show win3_5.index t (0 : Fin 2) * 12 + 1 * (j 0).val = (j 0).val; rw [e15]; omega
  | ⟨1, _⟩ => show win3_5.index t (1 : Fin 2) * 1 + 1 * (j 1).val = (j 1).val; rw [e16]; omega

/-- Window 6's block is its whole array at every point. -/
theorem blk_6 (c : Dev nD) (t : Fin cfg3.N) : iblk3 V c 6 t = in6 V c := by
  unfold in6
  obtain ⟨e0, e1, e2, e3, e4, e5, e6, e7, e8, e9, e10, e11, e12, e13, e14, e15, e16, e17, e18, e19, e20, e21, e22⟩ := idx_facts t
  funext j
  show V c (Pipeline.arrRef spec3 6) (((cfg3.win 6).blk t).view.emb j) = V c (Pipeline.arrRef spec3 6) j
  refine congrArg _ ?_
  funext a
  apply Fin.ext
  match a with
  | ⟨0, _⟩ => show win3_6.index t (0 : Fin 2) * 12 + 1 * (j 0).val = (j 0).val; rw [e17]; omega
  | ⟨1, _⟩ => show win3_6.index t (1 : Fin 2) * 1 + 1 * (j 1).val = (j 1).val; rw [e18]; omega

/-- Window 7's block is its whole array at every point. -/
theorem blk_7 (c : Dev nD) (t : Fin cfg3.N) : iblk3 V c 7 t = in7 V c := by
  unfold in7
  obtain ⟨e0, e1, e2, e3, e4, e5, e6, e7, e8, e9, e10, e11, e12, e13, e14, e15, e16, e17, e18, e19, e20, e21, e22⟩ := idx_facts t
  funext j
  show V c (Pipeline.arrRef spec3 7) (((cfg3.win 7).blk t).view.emb j) = V c (Pipeline.arrRef spec3 7) j
  refine congrArg _ ?_
  funext a
  apply Fin.ext
  match a with
  | ⟨0, _⟩ => show win3_7.index t (0 : Fin 2) * 12 + 1 * (j 0).val = (j 0).val; rw [e19]; omega
  | ⟨1, _⟩ => show win3_7.index t (1 : Fin 2) * 12 + 1 * (j 1).val = (j 1).val; rw [e20]; omega

/-- Window 8's block is its whole array at every point. -/
theorem blk_8 (c : Dev nD) (t : Fin cfg3.N) : iblk3 V c 8 t = in8 V c := by
  unfold in8
  obtain ⟨e0, e1, e2, e3, e4, e5, e6, e7, e8, e9, e10, e11, e12, e13, e14, e15, e16, e17, e18, e19, e20, e21, e22⟩ := idx_facts t
  funext j
  show V c (Pipeline.arrRef spec3 8) (((cfg3.win 8).blk t).view.emb j) = V c (Pipeline.arrRef spec3 8) j
  refine congrArg _ ?_
  funext a
  apply Fin.ext
  match a with
  | ⟨0, _⟩ => show win3_8.index t (0 : Fin 2) * 12 + 1 * (j 0).val = (j 0).val; rw [e21]; omega
  | ⟨1, _⟩ => show win3_8.index t (1 : Fin 2) * 1 + 1 * (j 1).val = (j 1).val; rw [e22]; omega

/-- Window 0's block at point t is columns 65,536·t … of its array. -/
theorem blk_0 (c : Dev nD) (t : Fin cfg3.N) :
    iblk3 V c 0 t = colTile 65536 (t.val * 65536) (tile_le t) (in0 V c) := by
  unfold in0
  obtain ⟨e0, e1, e2, e3, e4, e5, e6, e7, e8, e9, e10, e11, e12, e13, e14, e15, e16, e17, e18, e19, e20, e21, e22⟩ := idx_facts t
  funext j
  obtain ⟨p, e, rfl⟩ : ∃ (p : Fin 16) (e : Fin 65536), j = ix2 p e := ⟨j 0, j 1, eq_ix2 j⟩
  rw [colTile_apply]
  show V c (Pipeline.arrRef spec3 0) (((cfg3.win 0).blk t).view.emb (ix2 p e)) = _
  refine congrArg _ ?_
  funext a
  apply Fin.ext
  match a with
  | ⟨0, _⟩ => show win3_0.index t (0 : Fin 2) * 16 + 1 * p.val = p.val; rw [e0]; omega
  | ⟨1, _⟩ => show win3_0.index t (1 : Fin 2) * 65536 + 1 * e.val = t.val * 65536 + e.val; rw [e1]; omega

end Cert.KernelIdeal.Net.R3

end
-- ==== Proof.Arrays3.lean ====
/-
  Region 3: what the two output buffers hold after every point, and the tiles' values as functions of the arrays
  the region finds.  The activation block of point t is tile t of the whole-array activation `actArr`; the statistics
  buffer is reset at the first point of a half and grows, point by point, by the two lane sums of the next layer's
  affine map of that tile (`partAt`).
-/
import proofs.«114887_j65481071405707_2_alg».proof.Proof.Blocks3

set_option maxRecDepth 16384

noncomputable section

namespace Cert.KernelIdeal.Net.R3

open Cert.KernelIdeal Cert.KernelIdeal.Gen
open Idealize.ShloMosaic Idealize.ShloMosaic.TcCoe Idealize.SL.Sem Idealize.ShloMosaic.ValueIdx
open Cert.BatchNet Cert.BatchNet.Tile Cert.LibDenseLayers

variable (V : (c : Dev nD) → (b : Ref sig .tc) → Buf (Elt Ideal) ((c : Thread nD τ).loc b))

/-- The activation block of point t, as the body computes it from its loaded blocks. -/
def actAt (c : Dev nD) (t : Fin cfg3.N) : FVec Ideal S12x65536 .f32 := k3_pay3 (iblk3 V c 1 t) (iblk3 V c 0 t) (iblk3 V c 2 t) (iblk3 V c 6 t) (iblk3 V c 3 t) (iblk3 V c 5 t) (iblk3 V c 4 t)

/-- The statistics block after point t's update of `old`. -/
def statUpd (c : Dev nD) (t : Fin cfg3.N) (old : Vec Ideal S1x12x2 .f32) : FVec Ideal S1x12x2 .f32 := k3_pay1 (k3_pay3 (iblk3 V c 1 t) (iblk3 V c 0 t) (iblk3 V c 2 t) (iblk3 V c 6 t) (iblk3 V c 3 t) (iblk3 V c 5 t) (iblk3 V c 4 t)) (iblk3 V c 7 t) (iblk3 V c 8 t) old

/-- What the activation output's buffer holds after point n. -/
theorem acts (c : Dev nD) (t : Fin cfg3.N) : (outsAt3 V c t.val t.isLt).1 = actAt V c t := by
  unfold actAt
  by_cases h0 : t.val % 16 = 0
  · rw [outsAt3_A V c t h0]
    dsimp only
    exact out_A_9 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) ((hcond3_0 t).mpr h0) (iblk3 V c 0 t) (iblk3 V c 1 t) (iblk3 V c 2 t) (iblk3 V c 3 t) (iblk3 V c 4 t) (iblk3 V c 5 t) (iblk3 V c 6 t) (iblk3 V c 7 t) (iblk3 V c 8 t)
  · rw [outsAt3_B V c t h0]
    dsimp only
    exact out_B_9 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (fun hh => h0 ((hcond3_0 t).mp hh)) (iblk3 V c 0 t) (iblk3 V c 1 t) (iblk3 V c 2 t) (iblk3 V c 3 t) (iblk3 V c 4 t) (iblk3 V c 5 t) (iblk3 V c 6 t) (iblk3 V c 7 t) (iblk3 V c 8 t) _

theorem stat_A' (c : Dev nD) (t : Fin cfg3.N) (h0 : t.val % 16 = 0) :
    (outsAt3 V c t.val t.isLt).2 = statUpd V c t (k3_pay2 (F := Ideal)) := by
  unfold statUpd
  rw [outsAt3_A V c t h0]
  exact out_A_10 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) ((hcond3_0 t).mpr h0) (iblk3 V c 0 t) (iblk3 V c 1 t) (iblk3 V c 2 t) (iblk3 V c 3 t) (iblk3 V c 4 t) (iblk3 V c 5 t) (iblk3 V c 6 t) (iblk3 V c 7 t) (iblk3 V c 8 t)

theorem stat_B' (c : Dev nD) (t : Fin cfg3.N) (h0 : ¬t.val % 16 = 0) :
    (outsAt3 V c t.val t.isLt).2
      = statUpd V c t (outsAt3 V c (t.val - 1) (Nat.lt_of_le_of_lt (Nat.sub_le _ _) t.isLt)).2 := by
  unfold statUpd
  rw [outsAt3_B V c t h0]
  exact out_B_10 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (fun hh => h0 ((hcond3_0 t).mp hh)) (iblk3 V c 0 t) (iblk3 V c 1 t) (iblk3 V c 2 t) (iblk3 V c 3 t) (iblk3 V c 4 t) (iblk3 V c 5 t) (iblk3 V c 6 t) (iblk3 V c 7 t) (iblk3 V c 8 t) _

/-- The whole activation array: the network's block applied to the array the region finds. -/
def actArr (c : Dev nD) : Mat 12 2097152 := bn (aff (in1 V c) (in0 V c) (in2 V c)) (in3 V c) (in4 V c) (in5 V c) (in6 V c)

/-- The activation block of point t is tile t of the whole activation array. -/
theorem actAt_eq (c : Dev nD) (t : Fin cfg3.N) :
    actAt V c t = colTile 65536 (t.val * 65536) (tile_le t) (actArr V c) := by
  unfold actAt actArr
  rw [blk_0 V c t, blk_1 V c t, blk_2 V c t, blk_3 V c t, blk_4 V c t, blk_5 V c t, blk_6 V c t]
  rw [pay_act_eq]
  exact bn_aff_colTile 65536 (t.val * 65536) (tile_le t) (in1 V c) (in0 V c) (in2 V c) (in3 V c) (in4 V c) (in5 V c) (in6 V c)

/-- The two lane sums of the next layer's affine map of tile t of the activation array. -/
def partAt (c : Dev nD) (t : Fin cfg3.N) : FVec Ideal S1x12x2 .f32 :=
  laneSums (aff (in7 V c) (colTile 65536 (t.val * 65536) (tile_le t) (actArr V c)) (in8 V c))

/-- A point's update adds its tile's lane sums. -/
theorem statUpd_eq (c : Dev nD) (t : Fin cfg3.N) (old : Vec Ideal S1x12x2 .f32) :
    statUpd V c t old = old + partAt V c t := by
  have ha := actAt_eq V c t
  unfold actAt at ha
  unfold statUpd partAt
  rw [pay_stats_eq, ha, blk_7 V c t, blk_8 V c t, addf_eq_add]

theorem stat_A (c : Dev nD) (t : Fin cfg3.N) (h0 : t.val % 16 = 0) :
    (outsAt3 V c t.val t.isLt).2 = 0 + partAt V c t := by
  rw [stat_A' V c t h0, statUpd_eq, pay_zero_eq]

theorem stat_B (c : Dev nD) (t : Fin cfg3.N) (h0 : ¬t.val % 16 = 0) :
    (outsAt3 V c t.val t.isLt).2
      = (outsAt3 V c (t.val - 1) (Nat.lt_of_le_of_lt (Nat.sub_le _ _) t.isLt)).2 + partAt V c t := by
  rw [stat_B' V c t h0, statUpd_eq]

end Cert.KernelIdeal.Net.R3

end
-- ==== Proof.Finals3.lean ====
/-
  Region 3: the write-backs.  Point t writes its activation block back to columns 65,536·t … of the activation
  array; the statistics block is written back after the last point of each half, to that half's slab.  Every entry of
  either array is written, so after the region the arrays are the functions `actArr` and `statArr` of what the region
  found.
-/
import proofs.«114887_j65481071405707_2_alg».proof.Proof.Arrays3

set_option maxRecDepth 16384

noncomputable section

namespace Cert.KernelIdeal.Net.R3

open Cert.KernelIdeal Cert.KernelIdeal.Gen
open Idealize.ShloMosaic Idealize.ShloMosaic.TcCoe Idealize.SL.Sem Idealize.ShloMosaic.ValueIdx
open Idealize.ShloMosaic.Pipeline (Dat)
open Cert.BatchNet Cert.BatchNet.Tile Cert.LibDenseLayers

variable (V : (c : Dev nD) → (b : Ref sig .tc) → Buf (Elt Ideal) ((c : Thread nD τ).loc b))

theorem lt_N {n : ℕ} (h : n < 32) : n < cfg3.N := lt_of_lt_of_eq h N32.symm

/-- After the last point of half q the statistics buffer holds the sum of the half's sixteen tiles' lane sums. -/
theorem stats_half (c : Dev nD) (q : Fin 2) :
    (outsAt3 V c (q.val * 16 + 15) (lt_N (by have := q.isLt; omega))).2
      = 0 + ∑ s : Fin 16, partAt V c ⟨q.val * 16 + s.val, lt_N (by have := q.isLt; have := s.isLt; omega)⟩ :=
  half_sums (fun n h => (outsAt3 V c n (lt_N h)).2)
    (fun t => partAt V c ⟨t.val, lt_N t.isLt⟩) 0
    (fun t h0 => stat_A V c ⟨t.val, lt_N t.isLt⟩ h0)
    (fun t h0 => stat_B V c ⟨t.val, lt_N t.isLt⟩ h0) q

/-- The statistics array after the region. -/
def statArr (c : Dev nD) : FVec Ideal S2x12x2 .f32 := fun i =>
  (0 + ∑ s : Fin 16, partAt V c ⟨(i 0).val * 16 + s.val, lt_N (by have h0 : (i 0).val < 2 := (i 0).isLt; have := s.isLt; omega)⟩)
    (ix3 (0 : Fin 1) (⟨(i 1).val, (i 1).isLt⟩ : Fin 12) (⟨(i 2).val, (i 2).isLt⟩ : Fin 2))

theorem statArr_apply (c : Dev nD) (q : Fin 2) (o : Fin 12) (u : Fin 2) :
    statArr V c (ix3 q o u)
      = (0 + ∑ s : Fin 16, partAt V c ⟨q.val * 16 + s.val, lt_N (by have := q.isLt; have := s.isLt; omega)⟩)
          (ix3 (0 : Fin 1) o u) := rfl

/-! ## The activation output -/

theorem flushed9_eq (c : Dev nD) (t : Fin cfg3.N) :
    (dat3 V c).flushed 9 t = ((cfg3.win 9).blk t).view.read (Elt Ideal) (actArr V c) := by
  obtain ⟨e0, e1, e2, e3, e4, e5, e6, e7, e8, e9, e10, e11, e12, e13, e14, e15, e16, e17, e18, e19, e20, e21, e22⟩ := idx_facts t
  show (cfg3.win 9).cut (grid3.coords t) ((dat3 V c).after 9 t) = _
  rw [after3_9, acts V c t, actAt_eq V c t]
  funext j
  obtain ⟨p, e, rfl⟩ : ∃ (p : Fin 12) (e : Fin 65536), j = ix2 p e := ⟨j 0, j 1, eq_ix2 j⟩
  show colTile 65536 (t.val * 65536) (tile_le t) (actArr V c) (ix2 p e) = actArr V c (((cfg3.win 9).blk t).view.emb (ix2 p e))
  rw [colTile_apply]
  refine congrArg _ ?_
  funext a
  apply Fin.ext
  match a with
  | ⟨0, _⟩ => show p.val = win3_9.index t (0 : Fin 2) * 12 + 1 * p.val; rw [e2]; omega
  | ⟨1, _⟩ => show t.val * 65536 + e.val = win3_9.index t (1 : Fin 2) * 65536 + 1 * e.val; rw [e3]; omega

theorem mem_blk9 (t : Fin cfg3.N) (i : S12x2097152.Idx) :
    i ∈ ((cfg3.win 9).blk t).view.set ↔ ∀ a : Fin 2, win3_9.index t a * S12x65536.size a ≤ (i a).val ∧ (i a).val < win3_9.index t a * S12x65536.size a + S12x65536.size a := by
  show i ∈ ((View.whole main_v50_0).slice (win3_9.rect t)).set ↔ _
  rw [View.set_slice_whole, Rect.mem_set_unit]
  exact Iff.rfl

/-- The activation array after the region. -/
theorem final9 (c : Dev nD) : (dat3 V c).arrAt 9 cfg3.N = actArr V c :=
  (dat3 V c).arrAt_eq_of_cover 9 (actArr V c) (fun t _ => flushed9_eq V c t) fun i => by
    have hi0 : (i 0).val < 12 := (i 0).isLt
    have hi1 : (i 1).val < 2097152 := (i 1).isLt
    refine ⟨⟨(i 1).val / 65536, lt_N (by omega)⟩, flush3_9 _, ?_⟩
    rw [mem_blk9]
    obtain ⟨e0, e1, e2, e3, e4, e5, e6, e7, e8, e9, e10, e11, e12, e13, e14, e15, e16, e17, e18, e19, e20, e21, e22⟩ := idx_facts (⟨(i 1).val / 65536, lt_N (by omega)⟩ : Fin cfg3.N)
    intro a
    match a with
    | ⟨0, _⟩ => show win3_9.index _ (0 : Fin 2) * 12 ≤ (i 0).val ∧ (i 0).val < win3_9.index _ (0 : Fin 2) * 12 + 12; rw [e2]; omega
    | ⟨1, _⟩ => show win3_9.index _ (1 : Fin 2) * 65536 ≤ (i 1).val ∧ (i 1).val < win3_9.index _ (1 : Fin 2) * 65536 + 65536; rw [e3]; show (i 1).val / 65536 * 65536 ≤ _ ∧ _ < (i 1).val / 65536 * 65536 + 65536; omega

/-! ## The statistics output -/

theorem outs_congr (c : Dev nD) (n n' : ℕ) (h : n < cfg3.N) (h' : n' < cfg3.N) (e : n = n') :
    outsAt3 V c n h = outsAt3 V c n' h' := by subst e; rfl

theorem flushed10_eq (c : Dev nD) (t : Fin cfg3.N) (hf : (cfg3.win 10).flush t = true) :
    (dat3 V c).flushed 10 t = ((cfg3.win 10).blk t).view.read (Elt Ideal) (statArr V c) := by
  obtain ⟨e0, e1, e2, e3, e4, e5, e6, e7, e8, e9, e10, e11, e12, e13, e14, e15, e16, e17, e18, e19, e20, e21, e22⟩ := idx_facts t
  have h15 : t.val % 16 = 15 := (flush3_10 t).mp hf
  have ht : t.val < 32 := lt32 t
  show (cfg3.win 10).cut (grid3.coords t) ((dat3 V c).after 10 t) = _
  rw [after3_10, outs_congr V c t.val ((⟨t.val / 16, by omega⟩ : Fin 2).val * 16 + 15) t.isLt (lt_N (by show t.val / 16 * 16 + 15 < 32; omega)) (by show t.val = t.val / 16 * 16 + 15; omega),
    stats_half V c ⟨t.val / 16, by omega⟩]
  funext j
  show _ = statArr V c (((cfg3.win 10).blk t).view.emb j)
  have hj0 : (j 0).val = 0 := by have h : (j 0).val < 1 := (j 0).isLt; omega
  have hemb : ((cfg3.win 10).blk t).view.emb j
      = ix3 (⟨t.val / 16, by omega⟩ : Fin 2) (⟨(j 1).val, (j 1).isLt⟩ : Fin 12) (⟨(j 2).val, (j 2).isLt⟩ : Fin 2) := by
    funext a
    apply Fin.ext
    match a with
    | ⟨0, _⟩ => show win3_10.index t (0 : Fin 3) * 1 + 1 * (j 0).val = t.val / 16; rw [e4, hj0]; omega
    | ⟨1, _⟩ => show win3_10.index t (1 : Fin 3) * 12 + 1 * (j 1).val = (j 1).val; rw [e5]; omega
    | ⟨2, _⟩ => show win3_10.index t (2 : Fin 3) * 2 + 1 * (j 2).val = (j 2).val; rw [e6]; omega
  rw [hemb, statArr_apply]
  refine congrArg _ ?_
  funext a
  apply Fin.ext
  match a with
  | ⟨0, _⟩ => exact hj0
  | ⟨1, _⟩ => rfl
  | ⟨2, _⟩ => rfl

theorem mem_blk10 (t : Fin cfg3.N) (i : S2x12x2.Idx) :
    i ∈ ((cfg3.win 10).blk t).view.set ↔ ∀ a : Fin 3, win3_10.index t a * S1x12x2.size a ≤ (i a).val ∧ (i a).val < win3_10.index t a * S1x12x2.size a + S1x12x2.size a := by
  show i ∈ ((View.whole main_v50_1).slice (win3_10.rect t)).set ↔ _
  rw [View.set_slice_whole, Rect.mem_set_unit]
  exact Iff.rfl

/-- The statistics array after the region. -/
theorem final10 (c : Dev nD) : (dat3 V c).arrAt 10 cfg3.N = statArr V c :=
  (dat3 V c).arrAt_eq_of_cover 10 (statArr V c) (flushed10_eq V c) fun i => by
    have hi0 : (i 0).val < 2 := (i 0).isLt
    have hi1 : (i 1).val < 12 := (i 1).isLt
    have hi2 : (i 2).val < 2 := (i 2).isLt
    refine ⟨⟨(i 0).val * 16 + 15, lt_N (by omega)⟩, (flush3_10 _).mpr (by show ((i 0).val * 16 + 15) % 16 = 15; omega), ?_⟩
    rw [mem_blk10]
    obtain ⟨e0, e1, e2, e3, e4, e5, e6, e7, e8, e9, e10, e11, e12, e13, e14, e15, e16, e17, e18, e19, e20, e21, e22⟩ := idx_facts (⟨(i 0).val * 16 + 15, lt_N (by omega)⟩ : Fin cfg3.N)
    intro a
    match a with
    | ⟨0, _⟩ => show win3_10.index _ (0 : Fin 3) * 1 ≤ (i 0).val ∧ (i 0).val < win3_10.index _ (0 : Fin 3) * 1 + 1; rw [e4]; show ((i 0).val * 16 + 15) / 16 * 1 ≤ _ ∧ _ < ((i 0).val * 16 + 15) / 16 * 1 + 1; omega
    | ⟨1, _⟩ => show win3_10.index _ (1 : Fin 3) * 12 ≤ (i 1).val ∧ (i 1).val < win3_10.index _ (1 : Fin 3) * 12 + 12; rw [e5]; omega
    | ⟨2, _⟩ => show win3_10.index _ (2 : Fin 3) * 2 ≤ (i 2).val ∧ (i 2).val < win3_10.index _ (2 : Fin 3) * 2 + 2; rw [e6]; omega

end Cert.KernelIdeal.Net.R3

end
-- ==== Proof.Pieces0.lean ====
/-
  Region 0 (the first layer's lane sums over a tile of columns of the input): what each of the two control cases leaves
  in the statistics buffer.
-/
import proofs.«114887_j65481071405707_2_alg».proof.Proof.Gen.KernelIdeal.Frame
import Idealize.ShloMosaic.Lib.Pipeline.Value
import Idealize.ShloMosaic.Lib.Tactic

set_option maxRecDepth 16384

noncomputable section

namespace Cert.KernelIdeal.Net.R0

open Cert.KernelIdeal Cert.KernelIdeal.Gen
open Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Any point but the first of a half: the block as found, updated. -/
theorem out_B_3 (c : Dev nD) (i : grid0.Coords) (arg2 : Memref sig .tc .vmem S8x65536 .f32) (harg2 : arg2.IsWhole) (arg3 : Memref sig .tc .vmem S16x8 .f32) (harg3 : arg3.IsWhole) (arg4 : Memref sig .tc .vmem S16x1 .f32) (harg4 : arg4.IsWhole) (arg5 : Memref sig .tc .vmem S1x16x2 .f32) (harg5 : arg5.IsWhole) (hc0 : ¬cond0_0 i) (x0 : Vec F S8x65536 .f32) (x1 : Vec F S16x8 .f32) (x2 : Vec F S16x1 .f32) (xo3 : Vec F S1x16x2 .f32) :
    out0_B_3 c i arg2 harg2 arg3 harg3 arg4 harg4 arg5 harg5 hc0 x0 x1 x2 xo3 = k0_pay2 x1 x0 x2 xo3 := by
  unfold out0_B_3
  rw [View.read_writes_eq_canon _ _ _ (cover0_B_3 c i arg2 harg2 arg3 harg3 arg4 harg4 arg5 harg5 hc0 x0 x1 x2 xo3)]
  unfold kernelRun0_B
  dsimp only
  sl_unfold_words
  rw [View.canon_unit_zero hz3]
  simp only [View.readAt_eq_ld, harg2.read_unread, harg3.read_unread, harg4.read_unread, harg5.read_unread, View.ld_unit_zero (S := S8x65536) hz2, View.ld_unit_zero (S := S16x8) hz2, View.ld_unit_zero (S := S16x1) hz2, View.ld_unit_zero (S := S1x16x2) hz3]

/-- The first point of a half: the zero block, updated. -/
theorem out_A_3 (c : Dev nD) (i : grid0.Coords) (arg2 : Memref sig .tc .vmem S8x65536 .f32) (harg2 : arg2.IsWhole) (arg3 : Memref sig .tc .vmem S16x8 .f32) (harg3 : arg3.IsWhole) (arg4 : Memref sig .tc .vmem S16x1 .f32) (harg4 : arg4.IsWhole) (arg5 : Memref sig .tc .vmem S1x16x2 .f32) (harg5 : arg5.IsWhole) (hc0 : cond0_0 i) (x0 : Vec F S8x65536 .f32) (x1 : Vec F S16x8 .f32) (x2 : Vec F S16x1 .f32) :
    out0_A_3 c i arg2 harg2 arg3 harg3 arg4 harg4 arg5 harg5 hc0 x0 x1 x2 = k0_pay2 x1 x0 x2 k0_pay1 := by
  unfold out0_A_3
  rw [View.read_writes_eq_canon _ _ _ (cover0_A_3 c i arg2 harg2 arg3 harg3 arg4 harg4 arg5 harg5 hc0 x0 x1 x2)]
  unfold kernelRun0_A
  dsimp only
  sl_unfold_words
  rw [View.canon_cons_unit_zero (S := S1x16x2) hz3, View.readCov_unit_zero (S := S1x16x2) _ hz3]
  simp only [View.readAt_eq_ld, harg2.read_unread, harg3.read_unread, harg4.read_unread, harg5.read_unread, View.ld_unit_zero (S := S8x65536) hz2, View.ld_unit_zero (S := S16x8) hz2, View.ld_unit_zero (S := S16x1) hz2, View.ld_unit_zero (S := S1x16x2) hz3]

end Cert.KernelIdeal.Net.R0

end
-- ==== Proof.Values0.lean ====
/-
  Region 0, at the ideal instance: the statistics block grows by the two lane sums of the first layer's affine map of
  the loaded tile of columns.
-/
import proofs.«114887_j65481071405707_2_alg».proof.Proof.Pieces0
import proofs.«114887_j65481071405707_2_alg».proof.Proof.TileLayers
import proofs.«114887_j65481071405707_2_alg».proof.Proof.Bridge

set_option maxRecDepth 16384

noncomputable section

namespace Cert.KernelIdeal.Net.R0

open Cert.KernelIdeal Cert.KernelIdeal.Gen
open Idealize.ShloMosaic Idealize.ShloMosaic.TcCoe Idealize.SL.Sem Idealize.ShloMosaic.ValueIdx
open Cert.BatchNet Cert.BatchNet.Tile Cert.LibDenseLayers

/-- The statistics block's update. -/
theorem pay_stats_eq (v3 : Vec Ideal S16x8 .f32) (v4 : Vec Ideal S8x65536 .f32) (v7 : Vec Ideal S16x1 .f32) (v16 : Vec Ideal S1x16x2 .f32) :
    k0_pay2 v3 v4 v7 v16 = addf v16 (laneSums (aff v3 v4 v7)) := by
  unfold k0_pay2
  rw [shapeCast_self v4]
  exact stats_aff_eq dot_S16x8_S8x65536_S16x65536_1_0_0_1_n_n rfl rfl (fun _ _ => rfl) (fun _ _ => rfl) (fun _ _ => rfl) (fun _ _ => rfl) _ _ v3 v4 v7 v16 _ _ _ _ _

/-- The block a half starts from is zero. -/
theorem pay_zero_eq : (k0_pay1 : FVec Ideal S1x16x2 .f32) = 0 := by
  unfold k0_pay1
  exact zeroBlock_eq _

end Cert.KernelIdeal.Net.R0

end
-- ==== Proof.Region0.lean ====
/-
  Region 0: the statistics array after the region.  Point t of the 32 handles columns 65,536·t … of the input; the
  statistics block of point t is slab t / 16, reset at the first point of a half and written back after its last; half
  q of the array ends holding the sums, over its sixteen tiles, of the lane sums of the first layer's affine map.
-/
import proofs.«114887_j65481071405707_2_alg».proof.Proof.Values0
import Idealize.ShloMosaic.Lib.Pipeline.Value

set_option maxRecDepth 16384

noncomputable section

namespace Cert.KernelIdeal.Net.R0

open Cert.KernelIdeal Cert.KernelIdeal.Gen
open Idealize.ShloMosaic Idealize.ShloMosaic.TcCoe Idealize.SL.Sem Idealize.ShloMosaic.ValueIdx
open Idealize.ShloMosaic.Pipeline (Dat)
open Cert.BatchNet Cert.BatchNet.Tile Cert.LibDenseLayers

variable (V : (c : Dev nD) → (b : Ref sig .tc) → Buf (Elt Ideal) ((c : Thread nD τ).loc b))

/-! The arrays the region finds in its three input windows. -/
def in0 (c : Dev nD) : Mat 8 2097152 := V c (Pipeline.arrRef spec0 0)
def in1 (c : Dev nD) : Mat 16 8 := V c (Pipeline.arrRef spec0 1)
def in2 (c : Dev nD) : Mat 16 1 := V c (Pipeline.arrRef spec0 2)

theorem N32 : cfg0.N = 32 := N_0

theorem lt_N {n : ℕ} (h : n < 32) : n < cfg0.N := lt_of_lt_of_eq h N32.symm

theorem lt32 (t : Fin cfg0.N) : t.val < 32 := lt_of_lt_of_eq t.isLt N32

theorem tile_le (t : Fin cfg0.N) : t.val * 65536 + 65536 ≤ 2097152 := by have := lt32 t; omega

/-- The printed index maps over the grid. -/
theorem idx_facts : ∀ t : Fin cfg0.N, win0_0.index t (0 : Fin 2) = 0
    ∧ win0_0.index t (1 : Fin 2) = t.val
    ∧ win0_3.index t (0 : Fin 3) = t.val / 16
    ∧ win0_3.index t (1 : Fin 3) = 0
    ∧ win0_3.index t (2 : Fin 3) = 0
    ∧ win0_1.index t (0 : Fin 2) = 0
    ∧ win0_1.index t (1 : Fin 2) = 0
    ∧ win0_2.index t (0 : Fin 2) = 0
    ∧ win0_2.index t (1 : Fin 2) = 0 :=
  (by decide +kernel : ∀ t : Fin grid0.N, _)

theorem blk_1 (c : Dev nD) (t : Fin cfg0.N) : iblk0 V c 1 t = in1 V c := by
  unfold in1
  obtain ⟨e0, e1, e2, e3, e4, e5, e6, e7, e8⟩ := idx_facts t
  funext j
  show V c (Pipeline.arrRef spec0 1) (((cfg0.win 1).blk t).view.emb j) = V c (Pipeline.arrRef spec0 1) j
  refine congrArg _ ?_
  funext a
  apply Fin.ext
  match a with
  | ⟨0, _⟩ => show win0_1.index t (0 : Fin 2) * 16 + 1 * (j 0).val = (j 0).val; rw [e5]; omega
  | ⟨1, _⟩ => show win0_1.index t (1 : Fin 2) * 8 + 1 * (j 1).val = (j 1).val; rw [e6]; omega

theorem blk_2 (c : Dev nD) (t : Fin cfg0.N) : iblk0 V c 2 t = in2 V c := by
  unfold in2
  obtain ⟨e0, e1, e2, e3, e4, e5, e6, e7, e8⟩ := idx_facts t
  funext j
  show V c (Pipeline.arrRef spec0 2) (((cfg0.win 2).blk t).view.emb j) = V c (Pipeline.arrRef spec0 2) j
  refine congrArg _ ?_
  funext a
  apply Fin.ext
  match a with
  | ⟨0, _⟩ => show win0_2.index t (0 : Fin 2) * 16 + 1 * (j 0).val = (j 0).val; rw [e7]; omega
  | ⟨1, _⟩ => show win0_2.index t (1 : Fin 2) * 1 + 1 * (j 1).val = (j 1).val; rw [e8]; omega

theorem blk_0 (c : Dev nD) (t : Fin cfg0.N) :
    iblk0 V c 0 t = colTile 65536 (t.val * 65536) (tile_le t) (in0 V c) := by
  unfold in0
  obtain ⟨e0, e1, e2, e3, e4, e5, e6, e7, e8⟩ := idx_facts t
  funext j
  obtain ⟨p, e, rfl⟩ : ∃ (p : Fin 8) (e : Fin 65536), j = ix2 p e := ⟨j 0, j 1, eq_ix2 j⟩
  rw [colTile_apply]
  show V c (Pipeline.arrRef spec0 0) (((cfg0.win 0).blk t).view.emb (ix2 p e)) = _
  refine congrArg _ ?_
  funext a
  apply Fin.ext
  match a with
  | ⟨0, _⟩ => show win0_0.index t (0 : Fin 2) * 8 + 1 * p.val = p.val; rw [e0]; omega
  | ⟨1, _⟩ => show win0_0.index t (1 : Fin 2) * 65536 + 1 * e.val = t.val * 65536 + e.val; rw [e1]; omega

/-- The statistics block after point t's update of `old`. -/
def statUpd (c : Dev nD) (t : Fin cfg0.N) (old : Vec Ideal S1x16x2 .f32) : FVec Ideal S1x16x2 .f32 :=
  k0_pay2 (iblk0 V c 1 t) (iblk0 V c 0 t) (iblk0 V c 2 t) old

theorem stat_A' (c : Dev nD) (t : Fin cfg0.N) (h0 : t.val % 16 = 0) :
    outsAt0 V c t.val t.isLt = statUpd V c t (k0_pay1 (F := Ideal)) := by
  unfold statUpd
  rw [outsAt0_A V c t h0]
  exact out_A_3 (F := Ideal) c (grid0.coords t) (ms0_0 t) (hs0_0 t) (ms0_1 t) (hs0_1 t) (ms0_2 t) (hs0_2 t) (ms0_3 t) (hs0_3 t) ((hcond0_0 t).mpr h0) (iblk0 V c 0 t) (iblk0 V c 1 t) (iblk0 V c 2 t)

theorem stat_B' (c : Dev nD) (t : Fin cfg0.N) (h0 : ¬t.val % 16 = 0) :
    outsAt0 V c t.val t.isLt
      = statUpd V c t (outsAt0 V c (t.val - 1) (Nat.lt_of_le_of_lt (Nat.sub_le _ _) t.isLt)) := by
  unfold statUpd
  rw [outsAt0_B V c t h0]
  exact out_B_3 (F := Ideal) c (grid0.coords t) (ms0_0 t) (hs0_0 t) (ms0_1 t) (hs0_1 t) (ms0_2 t) (hs0_2 t) (ms0_3 t) (hs0_3 t) (fun hh => h0 ((hcond0_0 t).mp hh)) (iblk0 V c 0 t) (iblk0 V c 1 t) (iblk0 V c 2 t) _

/-- The two lane sums of the first layer's affine map of tile t of the input. -/
def partAt (c : Dev nD) (t : Fin cfg0.N) : FVec Ideal S1x16x2 .f32 :=
  laneSums (aff (in1 V c) (colTile 65536 (t.val * 65536) (tile_le t) (in0 V c)) (in2 V c))

theorem statUpd_eq (c : Dev nD) (t : Fin cfg0.N) (old : Vec Ideal S1x16x2 .f32) :
    statUpd V c t old = old + partAt V c t := by
  unfold statUpd partAt
  rw [pay_stats_eq, blk_0 V c t, blk_1 V c t, blk_2 V c t, addf_eq_add]

theorem stat_A (c : Dev nD) (t : Fin cfg0.N) (h0 : t.val % 16 = 0) :
    outsAt0 V c t.val t.isLt = 0 + partAt V c t := by
  rw [stat_A' V c t h0, statUpd_eq, pay_zero_eq]

theorem stat_B (c : Dev nD) (t : Fin cfg0.N) (h0 : ¬t.val % 16 = 0) :
    outsAt0 V c t.val t.isLt
      = outsAt0 V c (t.val - 1) (Nat.lt_of_le_of_lt (Nat.sub_le _ _) t.isLt) + partAt V c t := by
  rw [stat_B' V c t h0, statUpd_eq]

/-- After the last point of half q the buffer holds the sum of the half's sixteen tiles' lane sums. -/
theorem stats_half (c : Dev nD) (q : Fin 2) :
    outsAt0 V c (q.val * 16 + 15) (lt_N (by have := q.isLt; omega))
      = 0 + ∑ s : Fin 16, partAt V c ⟨q.val * 16 + s.val, lt_N (by have := q.isLt; have := s.isLt; omega)⟩ :=
  half_sums (fun n h => outsAt0 V c n (lt_N h))
    (fun t => partAt V c ⟨t.val, lt_N t.isLt⟩) 0
    (fun t h0 => stat_A V c ⟨t.val, lt_N t.isLt⟩ h0)
    (fun t h0 => stat_B V c ⟨t.val, lt_N t.isLt⟩ h0) q

/-- The statistics array after the region. -/
def statArr (c : Dev nD) : FVec Ideal S2x16x2 .f32 := fun i =>
  (0 + ∑ s : Fin 16, partAt V c ⟨(i 0).val * 16 + s.val, lt_N (by have h0 : (i 0).val < 2 := (i 0).isLt; have := s.isLt; omega)⟩)
    (ix3 (0 : Fin 1) (⟨(i 1).val, (i 1).isLt⟩ : Fin 16) (⟨(i 2).val, (i 2).isLt⟩ : Fin 2))

theorem statArr_apply (c : Dev nD) (q : Fin 2) (o : Fin 16) (u : Fin 2) :
    statArr V c (ix3 q o u)
      = (0 + ∑ s : Fin 16, partAt V c ⟨q.val * 16 + s.val, lt_N (by have := q.isLt; have := s.isLt; omega)⟩)
          (ix3 (0 : Fin 1) o u) := rfl

theorem outs_congr (c : Dev nD) (n n' : ℕ) (h : n < cfg0.N) (h' : n' < cfg0.N) (e : n = n') :
    outsAt0 V c n h = outsAt0 V c n' h' := by subst e; rfl

theorem flushed3_eq (c : Dev nD) (t : Fin cfg0.N) (hf : (cfg0.win 3).flush t = true) :
    (dat0 V c).flushed 3 t = ((cfg0.win 3).blk t).view.read (Elt Ideal) (statArr V c) := by
  obtain ⟨e0, e1, e2, e3, e4, e5, e6, e7, e8⟩ := idx_facts t
  have h15 : t.val % 16 = 15 := (flush0_3 t).mp hf
  have ht : t.val < 32 := lt32 t
  show (cfg0.win 3).cut (grid0.coords t) ((dat0 V c).after 3 t) = _
  rw [after0_3, outs_congr V c t.val ((⟨t.val / 16, by omega⟩ : Fin 2).val * 16 + 15) t.isLt (lt_N (by show t.val / 16 * 16 + 15 < 32; omega)) (by show t.val = t.val / 16 * 16 + 15; omega),
    stats_half V c ⟨t.val / 16, by omega⟩]
  funext j
  show _ = statArr V c (((cfg0.win 3).blk t).view.emb j)
  have hj0 : (j 0).val = 0 := by have h : (j 0).val < 1 := (j 0).isLt; omega
  have hemb : ((cfg0.win 3).blk t).view.emb j
      = ix3 (⟨t.val / 16, by omega⟩ : Fin 2) (⟨(j 1).val, (j 1).isLt⟩ : Fin 16) (⟨(j 2).val, (j 2).isLt⟩ : Fin 2) := by
    funext a
    apply Fin.ext
    match a with
    | ⟨0, _⟩ => show win0_3.index t (0 : Fin 3) * 1 + 1 * (j 0).val = t.val / 16; rw [e2, hj0]; omega
    | ⟨1, _⟩ => show win0_3.index t (1 : Fin 3) * 16 + 1 * (j 1).val = (j 1).val; rw [e3]; omega
    | ⟨2, _⟩ => show win0_3.index t (2 : Fin 3) * 2 + 1 * (j 2).val = (j 2).val; rw [e4]; omega
  rw [hemb, statArr_apply]
  refine congrArg _ ?_
  funext a
  apply Fin.ext
  match a with
  | ⟨0, _⟩ => exact hj0
  | ⟨1, _⟩ => rfl
  | ⟨2, _⟩ => rfl

theorem mem_blk3 (t : Fin cfg0.N) (i : S2x16x2.Idx) :
    i ∈ ((cfg0.win 3).blk t).view.set ↔ ∀ a : Fin 3, win0_3.index t a * S1x16x2.size a ≤ (i a).val ∧ (i a).val < win0_3.index t a * S1x16x2.size a + S1x16x2.size a := by
  show i ∈ ((View.whole main_v2).slice (win0_3.rect t)).set ↔ _
  rw [View.set_slice_whole, Rect.mem_set_unit]
  exact Iff.rfl

/-- The statistics array after the region. -/
theorem final3 (c : Dev nD) : (dat0 V c).arrAt 3 cfg0.N = statArr V c :=
  (dat0 V c).arrAt_eq_of_cover 3 (statArr V c) (flushed3_eq V c) fun i => by
    have hi0 : (i 0).val < 2 := (i 0).isLt
    have hi1 : (i 1).val < 16 := (i 1).isLt
    have hi2 : (i 2).val < 2 := (i 2).isLt
    refine ⟨⟨(i 0).val * 16 + 15, lt_N (by omega)⟩, (flush0_3 _).mpr (by show ((i 0).val * 16 + 15) % 16 = 15; omega), ?_⟩
    rw [mem_blk3]
    obtain ⟨e0, e1, e2, e3, e4, e5, e6, e7, e8⟩ := idx_facts (⟨(i 0).val * 16 + 15, lt_N (by omega)⟩ : Fin cfg0.N)
    intro a
    match a with
    | ⟨0, _⟩ => show win0_3.index _ (0 : Fin 3) * 1 ≤ (i 0).val ∧ (i 0).val < win0_3.index _ (0 : Fin 3) * 1 + 1; rw [e2]; show ((i 0).val * 16 + 15) / 16 * 1 ≤ _ ∧ _ < ((i 0).val * 16 + 15) / 16 * 1 + 1; omega
    | ⟨1, _⟩ => show win0_3.index _ (1 : Fin 3) * 16 ≤ (i 1).val ∧ (i 1).val < win0_3.index _ (1 : Fin 3) * 16 + 16; rw [e3]; omega
    | ⟨2, _⟩ => show win0_3.index _ (2 : Fin 3) * 2 ≤ (i 2).val ∧ (i 2).val < win0_3.index _ (2 : Fin 3) * 2 + 2; rw [e4]; omega

end Cert.KernelIdeal.Net.R0

end
-- ==== Proof.Pieces1.lean ====
/-
  Region 1 (one block of the network applied to a tile of columns, and the next layer's lane sums): what each of the
  two control cases leaves in the two output buffers, as the body's arithmetic of the blocks it loaded.  At the first
  point of a half the statistics block is first set to zero; at every other point it is read as the point before left it.
-/
import proofs.«114887_j65481071405707_2_alg».proof.Proof.Gen.KernelIdeal.Frame
import Idealize.ShloMosaic.Lib.Pipeline.Value
import Idealize.ShloMosaic.Lib.Tactic

set_option maxRecDepth 16384

noncomputable section

namespace Cert.KernelIdeal.Net.R1

open Cert.KernelIdeal Cert.KernelIdeal.Gen
open Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The activation block, first point of a half. -/
theorem out_A_9 (c : Dev nD) (i : grid1.Coords) (arg2 : Memref sig .tc .vmem S8x65536 .f32) (harg2 : arg2.IsWhole) (arg3 : Memref sig .tc .vmem S16x8 .f32) (harg3 : arg3.IsWhole) (arg4 : Memref sig .tc .vmem S16x1 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x16 .f32) (harg9 : arg9.IsWhole) (arg10 : Memref sig .tc .vmem S16x1 .f32) (harg10 : arg10.IsWhole) (arg11 : Memref sig .tc .vmem S16x65536 .f32) (harg11 : arg11.IsWhole) (arg12 : Memref sig .tc .vmem S1x16x2 .f32) (harg12 : arg12.IsWhole) (hc0 : cond1_0 i) (x0 : Vec F S8x65536 .f32) (x1 : Vec F S16x8 .f32) (x2 : Vec F S16x1 .f32) (x3 : Vec F S16x1 .f32) (x4 : Vec F S16x1 .f32) (x5 : Vec F S16x1 .f32) (x6 : Vec F S16x1 .f32) (x7 : Vec F S16x16 .f32) (x8 : Vec F S16x1 .f32) :
    out1_A_9 c i arg2 harg2 arg3 harg3 arg4 harg4 arg5 harg5 arg6 harg6 arg7 harg7 arg8 harg8 arg9 harg9 arg10 harg10 arg11 harg11 arg12 harg12 hc0 x0 x1 x2 x3 x4 x5 x6 x7 x8 = k1_pay3 x1 x0 x2 x6 x3 x5 x4 := by
  unfold out1_A_9
  rw [View.read_writes_eq_canon _ _ _ (cover1_A_9 c i arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun1_A
  dsimp only
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread, View.ld_unit_zero (S := S8x65536) hz2, View.ld_unit_zero (S := S16x8) hz2, View.ld_unit_zero (S := S16x1) hz2, View.ld_unit_zero (S := S16x16) hz2, View.ld_unit_zero (S := S16x1) hz2, View.ld_unit_zero (S := S1x16x2) hz3]

/-- The activation block, any other point. -/
theorem out_B_9 (c : Dev nD) (i : grid1.Coords) (arg2 : Memref sig .tc .vmem S8x65536 .f32) (harg2 : arg2.IsWhole) (arg3 : Memref sig .tc .vmem S16x8 .f32) (harg3 : arg3.IsWhole) (arg4 : Memref sig .tc .vmem S16x1 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x16 .f32) (harg9 : arg9.IsWhole) (arg10 : Memref sig .tc .vmem S16x1 .f32) (harg10 : arg10.IsWhole) (arg11 : Memref sig .tc .vmem S16x65536 .f32) (harg11 : arg11.IsWhole) (arg12 : Memref sig .tc .vmem S1x16x2 .f32) (harg12 : arg12.IsWhole) (hc0 : ¬cond1_0 i) (x0 : Vec F S8x65536 .f32) (x1 : Vec F S16x8 .f32) (x2 : Vec F S16x1 .f32) (x3 : Vec F S16x1 .f32) (x4 : Vec F S16x1 .f32) (x5 : Vec F S16x1 .f32) (x6 : Vec F S16x1 .f32) (x7 : Vec F S16x16 .f32) (x8 : Vec F S16x1 .f32) (xo10 : Vec F S1x16x2 .f32) :
    out1_B_9 c i arg2 harg2 arg3 harg3 arg4 harg4 arg5 harg5 arg6 harg6 arg7 harg7 arg8 harg8 arg9 harg9 arg10 harg10 arg11 harg11 arg12 harg12 hc0 x0 x1 x2 x3 x4 x5 x6 x7 x8 xo10 = k1_pay3 x1 x0 x2 x6 x3 x5 x4 := by
  unfold out1_B_9
  rw [View.read_writes_eq_canon _ _ _ (cover1_B_9 c i arg2 harg2 arg3 harg3 arg4 harg4 arg5 harg5 arg6 harg6 arg7 harg7 arg8 harg8 arg9 harg9 arg10 harg10 arg11 harg11 arg12 harg12 hc0 x0 x1 x2 x3 x4 x5 x6 x7 x8 xo10)]
  unfold kernelRun1_B
  dsimp only
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread, View.ld_unit_zero (S := S8x65536) hz2, View.ld_unit_zero (S := S16x8) hz2, View.ld_unit_zero (S := S16x1) hz2, View.ld_unit_zero (S := S16x16) hz2, View.ld_unit_zero (S := S16x1) hz2, View.ld_unit_zero (S := S1x16x2) hz3]

/-- The statistics block, any point but the first of a half: the block as found, updated. -/
theorem out_B_10 (c : Dev nD) (i : grid1.Coords) (arg2 : Memref sig .tc .vmem S8x65536 .f32) (harg2 : arg2.IsWhole) (arg3 : Memref sig .tc .vmem S16x8 .f32) (harg3 : arg3.IsWhole) (arg4 : Memref sig .tc .vmem S16x1 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x16 .f32) (harg9 : arg9.IsWhole) (arg10 : Memref sig .tc .vmem S16x1 .f32) (harg10 : arg10.IsWhole) (arg11 : Memref sig .tc .vmem S16x65536 .f32) (harg11 : arg11.IsWhole) (arg12 : Memref sig .tc .vmem S1x16x2 .f32) (harg12 : arg12.IsWhole) (hc0 : ¬cond1_0 i) (x0 : Vec F S8x65536 .f32) (x1 : Vec F S16x8 .f32) (x2 : Vec F S16x1 .f32) (x3 : Vec F S16x1 .f32) (x4 : Vec F S16x1 .f32) (x5 : Vec F S16x1 .f32) (x6 : Vec F S16x1 .f32) (x7 : Vec F S16x16 .f32) (x8 : Vec F S16x1 .f32) (xo10 : Vec F S1x16x2 .f32) :
    out1_B_10 c i arg2 harg2 arg3 harg3 arg4 harg4 arg5 harg5 arg6 harg6 arg7 harg7 arg8 harg8 arg9 harg9 arg10 harg10 arg11 harg11 arg12 harg12 hc0 x0 x1 x2 x3 x4 x5 x6 x7 x8 xo10 = k1_pay1 (k1_pay3 x1 x0 x2 x6 x3 x5 x4) x7 x8 xo10 := by
  unfold out1_B_10
  rw [View.read_writes_eq_canon _ _ _ (cover1_B_10 c i arg2 harg2 arg3 harg3 arg4 harg4 arg5 harg5 arg6 harg6 arg7 harg7 arg8 harg8 arg9 harg9 arg10 harg10 arg11 harg11 arg12 harg12 hc0 x0 x1 x2 x3 x4 x5 x6 x7 x8 xo10)]
  unfold kernelRun1_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg12.read_unread, View.ld_unit_zero (S := S8x65536) hz2, View.ld_unit_zero (S := S16x8) hz2, View.ld_unit_zero (S := S16x1) hz2, View.ld_unit_zero (S := S16x16) hz2, View.ld_unit_zero (S := S16x1) hz2, View.ld_unit_zero (S := S1x16x2) hz3]

/-- The statistics block, first point of a half: the zero block, updated. -/
theorem out_A_10 (c : Dev nD) (i : grid1.Coords) (arg2 : Memref sig .tc .vmem S8x65536 .f32) (harg2 : arg2.IsWhole) (arg3 : Memref sig .tc .vmem S16x8 .f32) (harg3 : arg3.IsWhole) (arg4 : Memref sig .tc .vmem S16x1 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x16 .f32) (harg9 : arg9.IsWhole) (arg10 : Memref sig .tc .vmem S16x1 .f32) (harg10 : arg10.IsWhole) (arg11 : Memref sig .tc .vmem S16x65536 .f32) (harg11 : arg11.IsWhole) (arg12 : Memref sig .tc .vmem S1x16x2 .f32) (harg12 : arg12.IsWhole) (hc0 : cond1_0 i) (x0 : Vec F S8x65536 .f32) (x1 : Vec F S16x8 .f32) (x2 : Vec F S16x1 .f32) (x3 : Vec F S16x1 .f32) (x4 : Vec F S16x1 .f32) (x5 : Vec F S16x1 .f32) (x6 : Vec F S16x1 .f32) (x7 : Vec F S16x16 .f32) (x8 : Vec F S16x1 .f32) :
    out1_A_10 c i arg2 harg2 arg3 harg3 arg4 harg4 arg5 harg5 arg6 harg6 arg7 harg7 arg8 harg8 arg9 harg9 arg10 harg10 arg11 harg11 arg12 harg12 hc0 x0 x1 x2 x3 x4 x5 x6 x7 x8 = k1_pay1 (k1_pay3 x1 x0 x2 x6 x3 x5 x4) x7 x8 k1_pay2 := by
  unfold out1_A_10
  rw [View.read_writes_eq_canon _ _ _ (cover1_A_10 c i arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun1_A
  dsimp only
  sl_unfold_words
  rw [View.canon_cons_unit_zero (S := S1x16x2) hz3, View.readCov_unit_zero (S := S1x16x2) _ hz3]
  simp only [View.readAt_eq_ld, harg2.read_unread, harg3.read_unread, harg4.read_unread, harg5.read_unread, harg6.read_unread, harg7.read_unread, harg8.read_unread, harg9.read_unread, harg10.read_unread, harg12.read_unread, View.ld_unit_zero (S := S8x65536) hz2, View.ld_unit_zero (S := S16x8) hz2, View.ld_unit_zero (S := S16x1) hz2, View.ld_unit_zero (S := S16x16) hz2, View.ld_unit_zero (S := S16x1) hz2, View.ld_unit_zero (S := S1x16x2) hz3]

end Cert.KernelIdeal.Net.R1

end
-- ==== Proof.Values1.lean ====
/-
  Region 1, at the ideal instance: the body's arithmetic as the tile functions of the network — the activation block is
  the normalised affine map of the loaded tile, the statistics block grows by the two lane sums of the next layer's
  affine map of that block.
-/
import proofs.«114887_j65481071405707_2_alg».proof.Proof.Pieces1
import proofs.«114887_j65481071405707_2_alg».proof.Proof.TileLayers
import proofs.«114887_j65481071405707_2_alg».proof.Proof.Bridge

set_option maxRecDepth 16384

noncomputable section

namespace Cert.KernelIdeal.Net.R1

open Cert.KernelIdeal Cert.KernelIdeal.Gen
open Idealize.ShloMosaic Idealize.ShloMosaic.TcCoe Idealize.SL.Sem Idealize.ShloMosaic.ValueIdx
open Cert.BatchNet Cert.BatchNet.Tile Cert.LibDenseLayers

/-- The activation block as a tile function. -/
theorem pay_act_eq (v3 : Vec Ideal S16x8 .f32) (v4 : Vec Ideal S8x65536 .f32) (v7 v11 v16 v18 v26 : Vec Ideal S16x1 .f32) :
    k1_pay3 v3 v4 v7 v11 v16 v18 v26 = bn (aff v3 v4 v7) v16 v26 v18 v11 := by
  unfold k1_pay3
  exact act_eq dot_S16x8_S8x65536_S16x65536_1_0_0_1_n_n rfl rfl (fun _ _ => rfl) (fun _ _ => rfl) (fun _ _ => rfl) (fun _ _ => rfl) _ _ _ v3 v4 v7 v16 v26 v18 v11

/-- The statistics block's update. -/
theorem pay_stats_eq (A : FVec Ideal S16x65536 .f32) (v38 : Vec Ideal S16x16 .f32) (v40 : Vec Ideal S16x1 .f32) (v49 : Vec Ideal S1x16x2 .f32) :
    k1_pay1 A v38 v40 v49 = addf v49 (laneSums (aff v38 A v40)) := by
  unfold k1_pay1
  exact stats_aff_eq dot_S16x16_S16x65536_S16x65536_1_0_0_1_n_n rfl rfl (fun _ _ => rfl) (fun _ _ => rfl) (fun _ _ => rfl) (fun _ _ => rfl) _ _ v38 A v40 v49 _ _ _ _ _

/-- The block a half starts from is zero. -/
theorem pay_zero_eq : (k1_pay2 : FVec Ideal S1x16x2 .f32) = 0 := by
  unfold k1_pay2
  exact zeroBlock_eq _

end Cert.KernelIdeal.Net.R1

end
-- ==== Proof.Blocks1.lean ====
/-
  Region 1: which part of its array each window's block is.  Point t of the 32 handles columns 65,536·t …
  65,536·t + 65,535 of the input and of the activation output; the statistics block of point t is slab t / 16;
  every other window's block is its whole array.
-/
import proofs.«114887_j65481071405707_2_alg».proof.Proof.Values1
import Idealize.ShloMosaic.Lib.Pipeline.Value

set_option maxRecDepth 16384

noncomputable section

namespace Cert.KernelIdeal.Net.R1

open Cert.KernelIdeal Cert.KernelIdeal.Gen
open Idealize.ShloMosaic Idealize.ShloMosaic.TcCoe Idealize.SL.Sem Idealize.ShloMosaic.ValueIdx
open Cert.BatchNet Cert.BatchNet.Tile Cert.LibDenseLayers

variable (V : (c : Dev nD) → (b : Ref sig .tc) → Buf (Elt Ideal) ((c : Thread nD τ).loc b))

/-! The arrays the region finds in its nine input windows. -/
def in0 (c : Dev nD) : Mat 8 2097152 := V c (Pipeline.arrRef spec1 0)
def in1 (c : Dev nD) : Mat 16 8 := V c (Pipeline.arrRef spec1 1)
def in2 (c : Dev nD) : Mat 16 1 := V c (Pipeline.arrRef spec1 2)
def in3 (c : Dev nD) : Mat 16 1 := V c (Pipeline.arrRef spec1 3)
def in4 (c : Dev nD) : Mat 16 1 := V c (Pipeline.arrRef spec1 4)
def in5 (c : Dev nD) : Mat 16 1 := V c (Pipeline.arrRef spec1 5)
def in6 (c : Dev nD) : Mat 16 1 := V c (Pipeline.arrRef spec1 6)
def in7 (c : Dev nD) : Mat 16 16 := V c (Pipeline.arrRef spec1 7)
def in8 (c : Dev nD) : Mat 16 1 := V c (Pipeline.arrRef spec1 8)

theorem N32 : cfg1.N = 32 := N_1

theorem lt32 (t : Fin cfg1.N) : t.val < 32 := lt_of_lt_of_eq t.isLt N32

theorem tile_le (t : Fin cfg1.N) : t.val * 65536 + 65536 ≤ 2097152 := by have := lt32 t; omega

/-- The printed index maps over the grid. -/
theorem idx_facts : ∀ t : Fin cfg1.N, win1_0.index t (0 : Fin 2) = 0
    ∧ win1_0.index t (1 : Fin 2) = t.val
    ∧ win1_9.index t (0 : Fin 2) = 0
    ∧ win1_9.index t (1 : Fin 2) = t.val
    ∧ win1_10.index t (0 : Fin 3) = t.val / 16
    ∧ win1_10.index t (1 : Fin 3) = 0
    ∧ win1_10.index t (2 : Fin 3) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0 :=
  (by decide +kernel : ∀ t : Fin grid1.N, _)

/-- Window 1's block is its whole array at every point. -/
theorem blk_1 (c : Dev nD) (t : Fin cfg1.N) : iblk1 V c 1 t = in1 V c := by
  unfold in1
  obtain ⟨e0, e1, e2, e3, e4, e5, e6, e7, e8, e9, e10, e11, e12, e13, e14, e15, e16, e17, e18, e19, e20, e21, e22⟩ := idx_facts t
  funext j
  show V c (Pipeline.arrRef spec1 1) (((cfg1.win 1).blk t).view.emb j) = V c (Pipeline.arrRef spec1 1) j
  refine congrArg _ ?_
  funext a
  apply Fin.ext
  match a with
  | ⟨0, _⟩ => show win1_1.index t (0 : Fin 2) * 16 + 1 * (j 0).val = (j 0).val; rw [e7]; omega
  | ⟨1, _⟩ => show win1_1.index t (1 : Fin 2) * 8 + 1 * (j 1).val = (j 1).val; rw [e8]; omega

/-- Window 2's block is its whole array at every point. -/
theorem blk_2 (c : Dev nD) (t : Fin cfg1.N) : iblk1 V c 2 t = in2 V c := by
  unfold in2
  obtain ⟨e0, e1, e2, e3, e4, e5, e6, e7, e8, e9, e10, e11, e12, e13, e14, e15, e16, e17, e18, e19, e20, e21, e22⟩ := idx_facts t
  funext j
  show V c (Pipeline.arrRef spec1 2) (((cfg1.win 2).blk t).view.emb j) = V c (Pipeline.arrRef spec1 2) j
  refine congrArg _ ?_
  funext a
  apply Fin.ext
  match a with
  | ⟨0, _⟩ => show win1_2.index t (0 : Fin 2) * 16 + 1 * (j 0).val = (j 0).val; rw [e9]; omega
  | ⟨1, _⟩ => show win1_2.index t (1 : Fin 2) * 1 + 1 * (j 1).val = (j 1).val; rw [e10]; omega

/-- Window 3's block is its whole array at every point. -/
theorem blk_3 (c : Dev nD) (t : Fin cfg1.N) : iblk1 V c 3 t = in3 V c := by
  unfold in3
  obtain ⟨e0, e1, e2, e3, e4, e5, e6, e7, e8, e9, e10, e11, e12, e13, e14, e15, e16, e17, e18, e19, e20, e21, e22⟩ := idx_facts t
  funext j
  show V c (Pipeline.arrRef spec1 3) (((cfg1.win 3).blk t).view.emb j) = V c (Pipeline.arrRef spec1 3) j
  refine congrArg _ ?_
  funext a
  apply Fin.ext
  match a with
  | ⟨0, _⟩ => show win1_3.index t (0 : Fin 2) * 16 + 1 * (j 0).val = (j 0).val; rw [e11]; omega
  | ⟨1, _⟩ => show win1_3.index t (1 : Fin 2) * 1 + 1 * (j 1).val = (j 1).val; rw [e12]; omega

/-- Window 4's block is its whole array at every point. -/
theorem blk_4 (c : Dev nD) (t : Fin cfg1.N) : iblk1 V c 4 t = in4 V c := by
  unfold in4
  obtain ⟨e0, e1, e2, e3, e4, e5, e6, e7, e8, e9, e10, e11, e12, e13, e14, e15, e16, e17, e18, e19, e20, e21, e22⟩ := idx_facts t
  funext j
  show V c (Pipeline.arrRef spec1 4) (((cfg1.win 4).blk t).view.emb j) = V c (Pipeline.arrRef spec1 4) j
  refine congrArg _ ?_
  funext a
  apply Fin.ext
  match a with
  | ⟨0, _⟩ => show win1_4.index t (0 : Fin 2) * 16 + 1 * (j 0).val = (j 0).val; rw [e13]; omega
  | ⟨1, _⟩ => show win1_4.index t (1 : Fin 2) * 1 + 1 * (j 1).val = (j 1).val; rw [e14]; omega

/-- Window 5's block is its whole array at every point. -/
theorem blk_5 (c : Dev nD) (t : Fin cfg1.N) : iblk1 V c 5 t = in5 V c := by
  unfold in5
  obtain ⟨e0, e1, e2, e3, e4, e5, e6, e7, e8, e9, e10, e11, e12, e13, e14, e15, e16, e17, e18, e19, e20, e21, e22⟩ := idx_facts t
  funext j
  show V c (Pipeline.arrRef spec1 5) (((cfg1.win 5).blk t).view.emb j) = V c (Pipeline.arrRef spec1 5) j
  refine congrArg _ ?_
  funext a
  apply Fin.ext
  match a with
  | ⟨0, _⟩ => show win1_5.index t (0 : Fin 2) * 16 + 1 * (j 0).val = (j 0).val; rw [e15]; omega
  | ⟨1, _⟩ => show win1_5.index t (1 : Fin 2) * 1 + 1 * (j 1).val = (j 1).val; rw [e16]; omega

/-- Window 6's block is its whole array at every point. -/
theorem blk_6 (c : Dev nD) (t : Fin cfg1.N) : iblk1 V c 6 t = in6 V c := by
  unfold in6
  obtain ⟨e0, e1, e2, e3, e4, e5, e6, e7, e8, e9, e10, e11, e12, e13, e14, e15, e16, e17, e18, e19, e20, e21, e22⟩ := idx_facts t
  funext j
  show V c (Pipeline.arrRef spec1 6) (((cfg1.win 6).blk t).view.emb j) = V c (Pipeline.arrRef spec1 6) j
  refine congrArg _ ?_
  funext a
  apply Fin.ext
  match a with
  | ⟨0, _⟩ => show win1_6.index t (0 : Fin 2) * 16 + 1 * (j 0).val = (j 0).val; rw [e17]; omega
  | ⟨1, _⟩ => show win1_6.index t (1 : Fin 2) * 1 + 1 * (j 1).val = (j 1).val; rw [e18]; omega

/-- Window 7's block is its whole array at every point. -/
theorem blk_7 (c : Dev nD) (t : Fin cfg1.N) : iblk1 V c 7 t = in7 V c := by
  unfold in7
  obtain ⟨e0, e1, e2, e3, e4, e5, e6, e7, e8, e9, e10, e11, e12, e13, e14, e15, e16, e17, e18, e19, e20, e21, e22⟩ := idx_facts t
  funext j
  show V c (Pipeline.arrRef spec1 7) (((cfg1.win 7).blk t).view.emb j) = V c (Pipeline.arrRef spec1 7) j
  refine congrArg _ ?_
  funext a
  apply Fin.ext
  match a with
  | ⟨0, _⟩ => show win1_7.index t (0 : Fin 2) * 16 + 1 * (j 0).val = (j 0).val; rw [e19]; omega
  | ⟨1, _⟩ => show win1_7.index t (1 : Fin 2) * 16 + 1 * (j 1).val = (j 1).val; rw [e20]; omega

/-- Window 8's block is its whole array at every point. -/
theorem blk_8 (c : Dev nD) (t : Fin cfg1.N) : iblk1 V c 8 t = in8 V c := by
  unfold in8
  obtain ⟨e0, e1, e2, e3, e4, e5, e6, e7, e8, e9, e10, e11, e12, e13, e14, e15, e16, e17, e18, e19, e20, e21, e22⟩ := idx_facts t
  funext j
  show V c (Pipeline.arrRef spec1 8) (((cfg1.win 8).blk t).view.emb j) = V c (Pipeline.arrRef spec1 8) j
  refine congrArg _ ?_
  funext a
  apply Fin.ext
  match a with
  | ⟨0, _⟩ => show win1_8.index t (0 : Fin 2) * 16 + 1 * (j 0).val = (j 0).val; rw [e21]; omega
  | ⟨1, _⟩ => show win1_8.index t (1 : Fin 2) * 1 + 1 * (j 1).val = (j 1).val; rw [e22]; omega

/-- Window 0's block at point t is columns 65,536·t … of its array. -/
theorem blk_0 (c : Dev nD) (t : Fin cfg1.N) :
    iblk1 V c 0 t = colTile 65536 (t.val * 65536) (tile_le t) (in0 V c) := by
  unfold in0
  obtain ⟨e0, e1, e2, e3, e4, e5, e6, e7, e8, e9, e10, e11, e12, e13, e14, e15, e16, e17, e18, e19, e20, e21, e22⟩ := idx_facts t
  funext j
  obtain ⟨p, e, rfl⟩ : ∃ (p : Fin 8) (e : Fin 65536), j = ix2 p e := ⟨j 0, j 1, eq_ix2 j⟩
  rw [colTile_apply]
  show V c (Pipeline.arrRef spec1 0) (((cfg1.win 0).blk t).view.emb (ix2 p e)) = _
  refine congrArg _ ?_
  funext a
  apply Fin.ext
  match a with
  | ⟨0, _⟩ => show win1_0.index t (0 : Fin 2) * 8 + 1 * p.val = p.val; rw [e0]; omega
  | ⟨1, _⟩ => show win1_0.index t (1 : Fin 2) * 65536 + 1 * e.val = t.val * 65536 + e.val; rw [e1]; omega

end Cert.KernelIdeal.Net.R1

end
-- ==== Proof.Arrays1.lean ====
/-
  Region 1: what the two output buffers hold after every point, and the tiles' values as functions of the arrays
  the region finds.  The activation block of point t is tile t of the whole-array activation `actArr`; the statistics
  buffer is reset at the first point of a half and grows, point by point, by the two lane sums of the next layer's
  affine map of that tile (`partAt`).
-/
import proofs.«114887_j65481071405707_2_alg».proof.Proof.Blocks1

set_option maxRecDepth 16384

noncomputable section

namespace Cert.KernelIdeal.Net.R1

open Cert.KernelIdeal Cert.KernelIdeal.Gen
open Idealize.ShloMosaic Idealize.ShloMosaic.TcCoe Idealize.SL.Sem Idealize.ShloMosaic.ValueIdx
open Cert.BatchNet Cert.BatchNet.Tile Cert.LibDenseLayers

variable (V : (c : Dev nD) → (b : Ref sig .tc) → Buf (Elt Ideal) ((c : Thread nD τ).loc b))

/-- The activation block of point t, as the body computes it from its loaded blocks. -/
def actAt (c : Dev nD) (t : Fin cfg1.N) : FVec Ideal S16x65536 .f32 := k1_pay3 (iblk1 V c 1 t) (iblk1 V c 0 t) (iblk1 V c 2 t) (iblk1 V c 6 t) (iblk1 V c 3 t) (iblk1 V c 5 t) (iblk1 V c 4 t)

/-- The statistics block after point t's update of `old`. -/
def statUpd (c : Dev nD) (t : Fin cfg1.N) (old : Vec Ideal S1x16x2 .f32) : FVec Ideal S1x16x2 .f32 := k1_pay1 (k1_pay3 (iblk1 V c 1 t) (iblk1 V c 0 t) (iblk1 V c 2 t) (iblk1 V c 6 t) (iblk1 V c 3 t) (iblk1 V c 5 t) (iblk1 V c 4 t)) (iblk1 V c 7 t) (iblk1 V c 8 t) old

/-- What the activation output's buffer holds after point n. -/
theorem acts (c : Dev nD) (t : Fin cfg1.N) : (outsAt1 V c t.val t.isLt).1 = actAt V c t := by
  unfold actAt
  by_cases h0 : t.val % 16 = 0
  · rw [outsAt1_A V c t h0]
    dsimp only
    exact out_A_9 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t)
  · rw [outsAt1_B V c t h0]
    dsimp only
    exact out_B_9 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun hh => h0 ((hcond1_0 t).mp hh)) (iblk1 V c 0 t) (iblk1 V c 1 t) (iblk1 V c 2 t) (iblk1 V c 3 t) (iblk1 V c 4 t) (iblk1 V c 5 t) (iblk1 V c 6 t) (iblk1 V c 7 t) (iblk1 V c 8 t) _

theorem stat_A' (c : Dev nD) (t : Fin cfg1.N) (h0 : t.val % 16 = 0) :
    (outsAt1 V c t.val t.isLt).2 = statUpd V c t (k1_pay2 (F := Ideal)) := by
  unfold statUpd
  rw [outsAt1_A V c t h0]
  exact out_A_10 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t)

theorem stat_B' (c : Dev nD) (t : Fin cfg1.N) (h0 : ¬t.val % 16 = 0) :
    (outsAt1 V c t.val t.isLt).2
      = statUpd V c t (outsAt1 V c (t.val - 1) (Nat.lt_of_le_of_lt (Nat.sub_le _ _) t.isLt)).2 := by
  unfold statUpd
  rw [outsAt1_B V c t h0]
  exact out_B_10 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun hh => h0 ((hcond1_0 t).mp hh)) (iblk1 V c 0 t) (iblk1 V c 1 t) (iblk1 V c 2 t) (iblk1 V c 3 t) (iblk1 V c 4 t) (iblk1 V c 5 t) (iblk1 V c 6 t) (iblk1 V c 7 t) (iblk1 V c 8 t) _

/-- The whole activation array: the network's block applied to the array the region finds. -/
def actArr (c : Dev nD) : Mat 16 2097152 := bn (aff (in1 V c) (in0 V c) (in2 V c)) (in3 V c) (in4 V c) (in5 V c) (in6 V c)

/-- The activation block of point t is tile t of the whole activation array. -/
theorem actAt_eq (c : Dev nD) (t : Fin cfg1.N) :
    actAt V c t = colTile 65536 (t.val * 65536) (tile_le t) (actArr V c) := by
  unfold actAt actArr
  rw [blk_0 V c t, blk_1 V c t, blk_2 V c t, blk_3 V c t, blk_4 V c t, blk_5 V c t, blk_6 V c t]
  rw [pay_act_eq]
  exact bn_aff_colTile 65536 (t.val * 65536) (tile_le t) (in1 V c) (in0 V c) (in2 V c) (in3 V c) (in4 V c) (in5 V c) (in6 V c)

/-- The two lane sums of the next layer's affine map of tile t of the activation array. -/
def partAt (c : Dev nD) (t : Fin cfg1.N) : FVec Ideal S1x16x2 .f32 :=
  laneSums (aff (in7 V c) (colTile 65536 (t.val * 65536) (tile_le t) (actArr V c)) (in8 V c))

/-- A point's update adds its tile's lane sums. -/
theorem statUpd_eq (c : Dev nD) (t : Fin cfg1.N) (old : Vec Ideal S1x16x2 .f32) :
    statUpd V c t old = old + partAt V c t := by
  have ha := actAt_eq V c t
  unfold actAt at ha
  unfold statUpd partAt
  rw [pay_stats_eq, ha, blk_7 V c t, blk_8 V c t, addf_eq_add]

theorem stat_A (c : Dev nD) (t : Fin cfg1.N) (h0 : t.val % 16 = 0) :
    (outsAt1 V c t.val t.isLt).2 = 0 + partAt V c t := by
  rw [stat_A' V c t h0, statUpd_eq, pay_zero_eq]

theorem stat_B (c : Dev nD) (t : Fin cfg1.N) (h0 : ¬t.val % 16 = 0) :
    (outsAt1 V c t.val t.isLt).2
      = (outsAt1 V c (t.val - 1) (Nat.lt_of_le_of_lt (Nat.sub_le _ _) t.isLt)).2 + partAt V c t := by
  rw [stat_B' V c t h0, statUpd_eq]

end Cert.KernelIdeal.Net.R1

end
-- ==== Proof.Finals1.lean ====
/-
  Region 1: the write-backs.  Point t writes its activation block back to columns 65,536·t … of the activation
  array; the statistics block is written back after the last point of each half, to that half's slab.  Every entry of
  either array is written, so after the region the arrays are the functions `actArr` and `statArr` of what the region
  found.
-/
import proofs.«114887_j65481071405707_2_alg».proof.Proof.Arrays1

set_option maxRecDepth 16384

noncomputable section

namespace Cert.KernelIdeal.Net.R1

open Cert.KernelIdeal Cert.KernelIdeal.Gen
open Idealize.ShloMosaic Idealize.ShloMosaic.TcCoe Idealize.SL.Sem Idealize.ShloMosaic.ValueIdx
open Idealize.ShloMosaic.Pipeline (Dat)
open Cert.BatchNet Cert.BatchNet.Tile Cert.LibDenseLayers

variable (V : (c : Dev nD) → (b : Ref sig .tc) → Buf (Elt Ideal) ((c : Thread nD τ).loc b))

theorem lt_N {n : ℕ} (h : n < 32) : n < cfg1.N := lt_of_lt_of_eq h N32.symm

/-- After the last point of half q the statistics buffer holds the sum of the half's sixteen tiles' lane sums. -/
theorem stats_half (c : Dev nD) (q : Fin 2) :
    (outsAt1 V c (q.val * 16 + 15) (lt_N (by have := q.isLt; omega))).2
      = 0 + ∑ s : Fin 16, partAt V c ⟨q.val * 16 + s.val, lt_N (by have := q.isLt; have := s.isLt; omega)⟩ :=
  half_sums (fun n h => (outsAt1 V c n (lt_N h)).2)
    (fun t => partAt V c ⟨t.val, lt_N t.isLt⟩) 0
    (fun t h0 => stat_A V c ⟨t.val, lt_N t.isLt⟩ h0)
    (fun t h0 => stat_B V c ⟨t.val, lt_N t.isLt⟩ h0) q

/-- The statistics array after the region. -/
def statArr (c : Dev nD) : FVec Ideal S2x16x2 .f32 := fun i =>
  (0 + ∑ s : Fin 16, partAt V c ⟨(i 0).val * 16 + s.val, lt_N (by have h0 : (i 0).val < 2 := (i 0).isLt; have := s.isLt; omega)⟩)
    (ix3 (0 : Fin 1) (⟨(i 1).val, (i 1).isLt⟩ : Fin 16) (⟨(i 2).val, (i 2).isLt⟩ : Fin 2))

theorem statArr_apply (c : Dev nD) (q : Fin 2) (o : Fin 16) (u : Fin 2) :
    statArr V c (ix3 q o u)
      = (0 + ∑ s : Fin 16, partAt V c ⟨q.val * 16 + s.val, lt_N (by have := q.isLt; have := s.isLt; omega)⟩)
          (ix3 (0 : Fin 1) o u) := rfl

/-! ## The activation output -/

theorem flushed9_eq (c : Dev nD) (t : Fin cfg1.N) :
    (dat1 V c).flushed 9 t = ((cfg1.win 9).blk t).view.read (Elt Ideal) (actArr V c) := by
  obtain ⟨e0, e1, e2, e3, e4, e5, e6, e7, e8, e9, e10, e11, e12, e13, e14, e15, e16, e17, e18, e19, e20, e21, e22⟩ := idx_facts t
  show (cfg1.win 9).cut (grid1.coords t) ((dat1 V c).after 9 t) = _
  rw [after1_9, acts V c t, actAt_eq V c t]
  funext j
  obtain ⟨p, e, rfl⟩ : ∃ (p : Fin 16) (e : Fin 65536), j = ix2 p e := ⟨j 0, j 1, eq_ix2 j⟩
  show colTile 65536 (t.val * 65536) (tile_le t) (actArr V c) (ix2 p e) = actArr V c (((cfg1.win 9).blk t).view.emb (ix2 p e))
  rw [colTile_apply]
  refine congrArg _ ?_
  funext a
  apply Fin.ext
  match a with
  | ⟨0, _⟩ => show p.val = win1_9.index t (0 : Fin 2) * 16 + 1 * p.val; rw [e2]; omega
  | ⟨1, _⟩ => show t.val * 65536 + e.val = win1_9.index t (1 : Fin 2) * 65536 + 1 * e.val; rw [e3]; omega

theorem mem_blk9 (t : Fin cfg1.N) (i : S16x2097152.Idx) :
    i ∈ ((cfg1.win 9).blk t).view.set ↔ ∀ a : Fin 2, win1_9.index t a * S16x65536.size a ≤ (i a).val ∧ (i a).val < win1_9.index t a * S16x65536.size a + S16x65536.size a := by
  show i ∈ ((View.whole main_v18_0).slice (win1_9.rect t)).set ↔ _
  rw [View.set_slice_whole, Rect.mem_set_unit]
  exact Iff.rfl

/-- The activation array after the region. -/
theorem final9 (c : Dev nD) : (dat1 V c).arrAt 9 cfg1.N = actArr V c :=
  (dat1 V c).arrAt_eq_of_cover 9 (actArr V c) (fun t _ => flushed9_eq V c t) fun i => by
    have hi0 : (i 0).val < 16 := (i 0).isLt
    have hi1 : (i 1).val < 2097152 := (i 1).isLt
    refine ⟨⟨(i 1).val / 65536, lt_N (by omega)⟩, flush1_9 _, ?_⟩
    rw [mem_blk9]
    obtain ⟨e0, e1, e2, e3, e4, e5, e6, e7, e8, e9, e10, e11, e12, e13, e14, e15, e16, e17, e18, e19, e20, e21, e22⟩ := idx_facts (⟨(i 1).val / 65536, lt_N (by omega)⟩ : Fin cfg1.N)
    intro a
    match a with
    | ⟨0, _⟩ => show win1_9.index _ (0 : Fin 2) * 16 ≤ (i 0).val ∧ (i 0).val < win1_9.index _ (0 : Fin 2) * 16 + 16; rw [e2]; omega
    | ⟨1, _⟩ => show win1_9.index _ (1 : Fin 2) * 65536 ≤ (i 1).val ∧ (i 1).val < win1_9.index _ (1 : Fin 2) * 65536 + 65536; rw [e3]; show (i 1).val / 65536 * 65536 ≤ _ ∧ _ < (i 1).val / 65536 * 65536 + 65536; omega

/-! ## The statistics output -/

theorem outs_congr (c : Dev nD) (n n' : ℕ) (h : n < cfg1.N) (h' : n' < cfg1.N) (e : n = n') :
    outsAt1 V c n h = outsAt1 V c n' h' := by subst e; rfl

theorem flushed10_eq (c : Dev nD) (t : Fin cfg1.N) (hf : (cfg1.win 10).flush t = true) :
    (dat1 V c).flushed 10 t = ((cfg1.win 10).blk t).view.read (Elt Ideal) (statArr V c) := by
  obtain ⟨e0, e1, e2, e3, e4, e5, e6, e7, e8, e9, e10, e11, e12, e13, e14, e15, e16, e17, e18, e19, e20, e21, e22⟩ := idx_facts t
  have h15 : t.val % 16 = 15 := (flush1_10 t).mp hf
  have ht : t.val < 32 := lt32 t
  show (cfg1.win 10).cut (grid1.coords t) ((dat1 V c).after 10 t) = _
  rw [after1_10, outs_congr V c t.val ((⟨t.val / 16, by omega⟩ : Fin 2).val * 16 + 15) t.isLt (lt_N (by show t.val / 16 * 16 + 15 < 32; omega)) (by show t.val = t.val / 16 * 16 + 15; omega),
    stats_half V c ⟨t.val / 16, by omega⟩]
  funext j
  show _ = statArr V c (((cfg1.win 10).blk t).view.emb j)
  have hj0 : (j 0).val = 0 := by have h : (j 0).val < 1 := (j 0).isLt; omega
  have hemb : ((cfg1.win 10).blk t).view.emb j
      = ix3 (⟨t.val / 16, by omega⟩ : Fin 2) (⟨(j 1).val, (j 1).isLt⟩ : Fin 16) (⟨(j 2).val, (j 2).isLt⟩ : Fin 2) := by
    funext a
    apply Fin.ext
    match a with
    | ⟨0, _⟩ => show win1_10.index t (0 : Fin 3) * 1 + 1 * (j 0).val = t.val / 16; rw [e4, hj0]; omega
    | ⟨1, _⟩ => show win1_10.index t (1 : Fin 3) * 16 + 1 * (j 1).val = (j 1).val; rw [e5]; omega
    | ⟨2, _⟩ => show win1_10.index t (2 : Fin 3) * 2 + 1 * (j 2).val = (j 2).val; rw [e6]; omega
  rw [hemb, statArr_apply]
  refine congrArg _ ?_
  funext a
  apply Fin.ext
  match a with
  | ⟨0, _⟩ => exact hj0
  | ⟨1, _⟩ => rfl
  | ⟨2, _⟩ => rfl

theorem mem_blk10 (t : Fin cfg1.N) (i : S2x16x2.Idx) :
    i ∈ ((cfg1.win 10).blk t).view.set ↔ ∀ a : Fin 3, win1_10.index t a * S1x16x2.size a ≤ (i a).val ∧ (i a).val < win1_10.index t a * S1x16x2.size a + S1x16x2.size a := by
  show i ∈ ((View.whole main_v18_1).slice (win1_10.rect t)).set ↔ _
  rw [View.set_slice_whole, Rect.mem_set_unit]
  exact Iff.rfl

/-- The statistics array after the region. -/
theorem final10 (c : Dev nD) : (dat1 V c).arrAt 10 cfg1.N = statArr V c :=
  (dat1 V c).arrAt_eq_of_cover 10 (statArr V c) (flushed10_eq V c) fun i => by
    have hi0 : (i 0).val < 2 := (i 0).isLt
    have hi1 : (i 1).val < 16 := (i 1).isLt
    have hi2 : (i 2).val < 2 := (i 2).isLt
    refine ⟨⟨(i 0).val * 16 + 15, lt_N (by omega)⟩, (flush1_10 _).mpr (by show ((i 0).val * 16 + 15) % 16 = 15; omega), ?_⟩
    rw [mem_blk10]
    obtain ⟨e0, e1, e2, e3, e4, e5, e6, e7, e8, e9, e10, e11, e12, e13, e14, e15, e16, e17, e18, e19, e20, e21, e22⟩ := idx_facts (⟨(i 0).val * 16 + 15, lt_N (by omega)⟩ : Fin cfg1.N)
    intro a
    match a with
    | ⟨0, _⟩ => show win1_10.index _ (0 : Fin 3) * 1 ≤ (i 0).val ∧ (i 0).val < win1_10.index _ (0 : Fin 3) * 1 + 1; rw [e4]; show ((i 0).val * 16 + 15) / 16 * 1 ≤ _ ∧ _ < ((i 0).val * 16 + 15) / 16 * 1 + 1; omega
    | ⟨1, _⟩ => show win1_10.index _ (1 : Fin 3) * 16 ≤ (i 1).val ∧ (i 1).val < win1_10.index _ (1 : Fin 3) * 16 + 16; rw [e5]; omega
    | ⟨2, _⟩ => show win1_10.index _ (2 : Fin 3) * 2 ≤ (i 2).val ∧ (i 2).val < win1_10.index _ (2 : Fin 3) * 2 + 2; rw [e6]; omega

end Cert.KernelIdeal.Net.R1

end
-- ==== Proof.LibFoldEval.lean ====
/-
  Reading a fold of host operations in one pass, concatenations included.

  The contents of a buffer after a straight line of host operations is a fold: each operation rewrites the buffer it writes
  and leaves every other buffer as it was.  One simplifier pass unfolds such a fold down to the operations' functions of the
  contents it starts from, visiting each shared intermediate once — provided it can reach the operands.  A concatenation keeps
  its operands inside a list of (shape, array) pairs, where a rewrite cannot go; writing the concatenation of two, three or four
  arrays as a function of the arrays themselves puts them back in reach.
-/
import Idealize.ShloMosaic.Lib.StableHlo.Run

namespace Cert.FoldEval

open Idealize.ShloMosaic Idealize.ShloMosaic.StableHlo

variable {α : Type}

/-- The concatenation of two arrays along an axis, as a function of the two arrays. -/
def cat2 (t : Shape) (a : Fin t.rank) (s1 s2 : Shape) (x1 : s1.Idx → α) (x2 : s2.Idx → α)
    (h : Shape.Concatenates [s1, s2] t a) : t.Idx → α :=
  concatenate t a [⟨s1, x1⟩, ⟨s2, x2⟩] h

/-- Of three. -/
def cat3 (t : Shape) (a : Fin t.rank) (s1 s2 s3 : Shape) (x1 : s1.Idx → α) (x2 : s2.Idx → α) (x3 : s3.Idx → α)
    (h : Shape.Concatenates [s1, s2, s3] t a) : t.Idx → α :=
  concatenate t a [⟨s1, x1⟩, ⟨s2, x2⟩, ⟨s3, x3⟩] h

/-- Of four. -/
def cat4 (t : Shape) (a : Fin t.rank) (s1 s2 s3 s4 : Shape) (x1 : s1.Idx → α) (x2 : s2.Idx → α) (x3 : s3.Idx → α)
    (x4 : s4.Idx → α) (h : Shape.Concatenates [s1, s2, s3, s4] t a) : t.Idx → α :=
  concatenate t a [⟨s1, x1⟩, ⟨s2, x2⟩, ⟨s3, x3⟩, ⟨s4, x4⟩] h

theorem cat2_eq (t : Shape) (a : Fin t.rank) (s1 s2 : Shape) (x1 : s1.Idx → α) (x2 : s2.Idx → α)
    (h : Shape.Concatenates [s1, s2] t a) :
    concatenate t a [⟨s1, x1⟩, ⟨s2, x2⟩] h = cat2 t a s1 s2 x1 x2 h := rfl

theorem cat3_eq (t : Shape) (a : Fin t.rank) (s1 s2 s3 : Shape) (x1 : s1.Idx → α) (x2 : s2.Idx → α) (x3 : s3.Idx → α)
    (h : Shape.Concatenates [s1, s2, s3] t a) :
    concatenate t a [⟨s1, x1⟩, ⟨s2, x2⟩, ⟨s3, x3⟩] h = cat3 t a s1 s2 s3 x1 x2 x3 h := rfl

theorem cat4_eq (t : Shape) (a : Fin t.rank) (s1 s2 s3 s4 : Shape) (x1 : s1.Idx → α) (x2 : s2.Idx → α) (x3 : s3.Idx → α)
    (x4 : s4.Idx → α) (h : Shape.Concatenates [s1, s2, s3, s4] t a) :
    concatenate t a [⟨s1, x1⟩, ⟨s2, x2⟩, ⟨s3, x3⟩, ⟨s4, x4⟩] h = cat4 t a s1 s2 s3 s4 x1 x2 x3 x4 h := rfl

/-- Rewrites every `after ops V b` in the goal, for a literal line `ops` over literal references, to the operations' functions
    of `V` at the buffers read, in one simplifier pass; concatenations come out as `cat2` / `cat3` / `cat4`. -/
macro "fold_eval" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      cat2_eq, cat3_eq, cat4_eq, Matrix.cons_val_zero, Matrix.cons_val_one, Matrix.cons_val_two, Matrix.head_cons]))

end Cert.FoldEval
-- ==== Proof.HostCarryA.lean ====
/-
  The weight arrays stay as launched.  No host operation and no kernel region writes a weight array (a region only reads
  one, through an input window, and an input window's array is left as it was entered), so at every boundary between the
  program's segments the array holds what the launch memory holds.  One statement per weight array and boundary, each
  from the boundary before: a stretch of host operations writes none of these buffers, and a region either does not have
  the buffer among its windows or has it as an input.  Boundaries 1 to 4, for the arrays still read later.
-/
import proofs.«114887_j65481071405707_2_alg».proof.Proof.Gen.KernelIdeal.Frame
import proofs.«114887_j65481071405707_2_alg».proof.Proof.LibFoldEval
import Idealize.ShloMosaic.PureOps.Ideal

set_option maxRecDepth 16384

noncomputable section

namespace Cert.KernelIdeal.Net

open Cert.KernelIdeal Cert.KernelIdeal.Gen
open Idealize.ShloMosaic Idealize.ShloMosaic.TcCoe
open Cert.FoldEval

variable (m : (ℓ : Loc nD τ sig) → Buf (Elt Ideal) ℓ) (ρ : Dev nD → PrngReg)

/-! ## At boundary 1 -/

theorem W1_arg1 (c : Dev nD) : W1 m ρ c (Proc.devRef .tc main_arg1) = m ((c : Thread nD τ).loc main_arg1) := by
  show StableHlo.after hostOps0 (W0 m ρ c) (Proc.devRef .tc main_arg1) = _
  fold_eval <;> rfl
theorem W1_arg2 (c : Dev nD) : W1 m ρ c (Proc.devRef .tc main_arg2) = m ((c : Thread nD τ).loc main_arg2) := by
  show StableHlo.after hostOps0 (W0 m ρ c) (Proc.devRef .tc main_arg2) = _
  fold_eval <;> rfl
theorem W1_arg3 (c : Dev nD) : W1 m ρ c (Proc.devRef .tc main_arg3) = m ((c : Thread nD τ).loc main_arg3) := by
  show StableHlo.after hostOps0 (W0 m ρ c) (Proc.devRef .tc main_arg3) = _
  fold_eval <;> rfl
theorem W1_arg4 (c : Dev nD) : W1 m ρ c (Proc.devRef .tc main_arg4) = m ((c : Thread nD τ).loc main_arg4) := by
  show StableHlo.after hostOps0 (W0 m ρ c) (Proc.devRef .tc main_arg4) = _
  fold_eval <;> rfl
theorem W1_arg5 (c : Dev nD) : W1 m ρ c (Proc.devRef .tc main_arg5) = m ((c : Thread nD τ).loc main_arg5) := by
  show StableHlo.after hostOps0 (W0 m ρ c) (Proc.devRef .tc main_arg5) = _
  fold_eval <;> rfl
theorem W1_arg6 (c : Dev nD) : W1 m ρ c (Proc.devRef .tc main_arg6) = m ((c : Thread nD τ).loc main_arg6) := by
  show StableHlo.after hostOps0 (W0 m ρ c) (Proc.devRef .tc main_arg6) = _
  fold_eval <;> rfl
theorem W1_arg7 (c : Dev nD) : W1 m ρ c (Proc.devRef .tc main_arg7) = m ((c : Thread nD τ).loc main_arg7) := by
  show StableHlo.after hostOps0 (W0 m ρ c) (Proc.devRef .tc main_arg7) = _
  fold_eval <;> rfl
theorem W1_arg8 (c : Dev nD) : W1 m ρ c (Proc.devRef .tc main_arg8) = m ((c : Thread nD τ).loc main_arg8) := by
  show StableHlo.after hostOps0 (W0 m ρ c) (Proc.devRef .tc main_arg8) = _
  fold_eval <;> rfl
theorem W1_arg9 (c : Dev nD) : W1 m ρ c (Proc.devRef .tc main_arg9) = m ((c : Thread nD τ).loc main_arg9) := by
  show StableHlo.after hostOps0 (W0 m ρ c) (Proc.devRef .tc main_arg9) = _
  fold_eval <;> rfl
theorem W1_arg10 (c : Dev nD) : W1 m ρ c (Proc.devRef .tc main_arg10) = m ((c : Thread nD τ).loc main_arg10) := by
  show StableHlo.after hostOps0 (W0 m ρ c) (Proc.devRef .tc main_arg10) = _
  fold_eval <;> rfl
theorem W1_arg11 (c : Dev nD) : W1 m ρ c (Proc.devRef .tc main_arg11) = m ((c : Thread nD τ).loc main_arg11) := by
  show StableHlo.after hostOps0 (W0 m ρ c) (Proc.devRef .tc main_arg11) = _
  fold_eval <;> rfl
theorem W1_arg12 (c : Dev nD) : W1 m ρ c (Proc.devRef .tc main_arg12) = m ((c : Thread nD τ).loc main_arg12) := by
  show StableHlo.after hostOps0 (W0 m ρ c) (Proc.devRef .tc main_arg12) = _
  fold_eval <;> rfl
theorem W1_arg13 (c : Dev nD) : W1 m ρ c (Proc.devRef .tc main_arg13) = m ((c : Thread nD τ).loc main_arg13) := by
  show StableHlo.after hostOps0 (W0 m ρ c) (Proc.devRef .tc main_arg13) = _
  fold_eval <;> rfl
theorem W1_arg14 (c : Dev nD) : W1 m ρ c (Proc.devRef .tc main_arg14) = m ((c : Thread nD τ).loc main_arg14) := by
  show StableHlo.after hostOps0 (W0 m ρ c) (Proc.devRef .tc main_arg14) = _
  fold_eval <;> rfl
theorem W1_arg15 (c : Dev nD) : W1 m ρ c (Proc.devRef .tc main_arg15) = m ((c : Thread nD τ).loc main_arg15) := by
  show StableHlo.after hostOps0 (W0 m ρ c) (Proc.devRef .tc main_arg15) = _
  fold_eval <;> rfl
theorem W1_arg16 (c : Dev nD) : W1 m ρ c (Proc.devRef .tc main_arg16) = m ((c : Thread nD τ).loc main_arg16) := by
  show StableHlo.after hostOps0 (W0 m ρ c) (Proc.devRef .tc main_arg16) = _
  fold_eval <;> rfl
theorem W1_arg17 (c : Dev nD) : W1 m ρ c (Proc.devRef .tc main_arg17) = m ((c : Thread nD τ).loc main_arg17) := by
  show StableHlo.after hostOps0 (W0 m ρ c) (Proc.devRef .tc main_arg17) = _
  fold_eval <;> rfl
theorem W1_arg18 (c : Dev nD) : W1 m ρ c (Proc.devRef .tc main_arg18) = m ((c : Thread nD τ).loc main_arg18) := by
  show StableHlo.after hostOps0 (W0 m ρ c) (Proc.devRef .tc main_arg18) = _
  fold_eval <;> rfl
theorem W1_arg19 (c : Dev nD) : W1 m ρ c (Proc.devRef .tc main_arg19) = m ((c : Thread nD τ).loc main_arg19) := by
  show StableHlo.after hostOps0 (W0 m ρ c) (Proc.devRef .tc main_arg19) = _
  fold_eval <;> rfl
theorem W1_arg20 (c : Dev nD) : W1 m ρ c (Proc.devRef .tc main_arg20) = m ((c : Thread nD τ).loc main_arg20) := by
  show StableHlo.after hostOps0 (W0 m ρ c) (Proc.devRef .tc main_arg20) = _
  fold_eval <;> rfl
theorem W1_arg21 (c : Dev nD) : W1 m ρ c (Proc.devRef .tc main_arg21) = m ((c : Thread nD τ).loc main_arg21) := by
  show StableHlo.after hostOps0 (W0 m ρ c) (Proc.devRef .tc main_arg21) = _
  fold_eval <;> rfl
theorem W1_arg22 (c : Dev nD) : W1 m ρ c (Proc.devRef .tc main_arg22) = m ((c : Thread nD τ).loc main_arg22) := by
  show StableHlo.after hostOps0 (W0 m ρ c) (Proc.devRef .tc main_arg22) = _
  fold_eval <;> rfl

/-! ## At boundary 2 -/

theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 1).trans (((dat0 (V1 m ρ) c).arrAt_in 1 rfl _).trans (A_eq0 (V1 m ρ) c 1))
    _ = m ((c : Thread nD τ).loc main_arg1) := W1_arg1 m ρ c
theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = m ((c : Thread nD τ).loc main_arg2) := W1_arg2 m ρ c
theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = m ((c : Thread nD τ).loc main_arg3) := W1_arg3 m ρ c
theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = m ((c : Thread nD τ).loc main_arg4) := W1_arg4 m ρ c
theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = m ((c : Thread nD τ).loc main_arg5) := W1_arg5 m ρ c
theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = m ((c : Thread nD τ).loc main_arg6) := W1_arg6 m ρ c
theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = m ((c : Thread nD τ).loc main_arg7) := W1_arg7 m ρ c
theorem W2_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = m ((c : Thread nD τ).loc main_arg8) := W1_arg8 m ρ c
theorem W2_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = m ((c : Thread nD τ).loc main_arg9) := W1_arg9 m ρ c
theorem W2_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = m ((c : Thread nD τ).loc main_arg10) := W1_arg10 m ρ c
theorem W2_arg11 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = m ((c : Thread nD τ).loc main_arg11) := W1_arg11 m ρ c
theorem W2_arg12 (c : Dev nD) : W2 m ρ c (Proc.devRef .tc main_arg12) = m ((c : Thread nD τ).loc main_arg12) :=
  calc W2 m ρ c (Proc.devRef .tc main_arg12)
    _ = W1 m ρ c (Proc.devRef .tc main_arg12) := W2_of_ne m ρ c main_arg12 (by decide)
    _ = m ((c : Thread nD τ).loc main_arg12) := W1_arg12 m ρ c
theorem W2_arg13 (c : Dev nD) : W2 m ρ c (Proc.devRef .tc main_arg13) = m ((c : Thread nD τ).loc main_arg13) :=
  calc W2 m ρ c (Proc.devRef .tc main_arg13)
    _ = W1 m ρ c (Proc.devRef .tc main_arg13) := W2_of_ne m ρ c main_arg13 (by decide)
    _ = m ((c : Thread nD τ).loc main_arg13) := W1_arg13 m ρ c
theorem W2_arg14 (c : Dev nD) : W2 m ρ c (Proc.devRef .tc main_arg14) = m ((c : Thread nD τ).loc main_arg14) :=
  calc W2 m ρ c (Proc.devRef .tc main_arg14)
    _ = W1 m ρ c (Proc.devRef .tc main_arg14) := W2_of_ne m ρ c main_arg14 (by decide)
    _ = m ((c : Thread nD τ).loc main_arg14) := W1_arg14 m ρ c
theorem W2_arg15 (c : Dev nD) : W2 m ρ c (Proc.devRef .tc main_arg15) = m ((c : Thread nD τ).loc main_arg15) :=
  calc W2 m ρ c (Proc.devRef .tc main_arg15)
    _ = W1 m ρ c (Proc.devRef .tc main_arg15) := W2_of_ne m ρ c main_arg15 (by decide)
    _ = m ((c : Thread nD τ).loc main_arg15) := W1_arg15 m ρ c
theorem W2_arg16 (c : Dev nD) : W2 m ρ c (Proc.devRef .tc main_arg16) = m ((c : Thread nD τ).loc main_arg16) :=
  calc W2 m ρ c (Proc.devRef .tc main_arg16)
    _ = W1 m ρ c (Proc.devRef .tc main_arg16) := W2_of_ne m ρ c main_arg16 (by decide)
    _ = m ((c : Thread nD τ).loc main_arg16) := W1_arg16 m ρ c
theorem W2_arg17 (c : Dev nD) : W2 m ρ c (Proc.devRef .tc main_arg17) = m ((c : Thread nD τ).loc main_arg17) :=
  calc W2 m ρ c (Proc.devRef .tc main_arg17)
    _ = W1 m ρ c (Proc.devRef .tc main_arg17) := W2_of_ne m ρ c main_arg17 (by decide)
    _ = m ((c : Thread nD τ).loc main_arg17) := W1_arg17 m ρ c
theorem W2_arg18 (c : Dev nD) : W2 m ρ c (Proc.devRef .tc main_arg18) = m ((c : Thread nD τ).loc main_arg18) :=
  calc W2 m ρ c (Proc.devRef .tc main_arg18)
    _ = W1 m ρ c (Proc.devRef .tc main_arg18) := W2_of_ne m ρ c main_arg18 (by decide)
    _ = m ((c : Thread nD τ).loc main_arg18) := W1_arg18 m ρ c
theorem W2_arg19 (c : Dev nD) : W2 m ρ c (Proc.devRef .tc main_arg19) = m ((c : Thread nD τ).loc main_arg19) :=
  calc W2 m ρ c (Proc.devRef .tc main_arg19)
    _ = W1 m ρ c (Proc.devRef .tc main_arg19) := W2_of_ne m ρ c main_arg19 (by decide)
    _ = m ((c : Thread nD τ).loc main_arg19) := W1_arg19 m ρ c
theorem W2_arg20 (c : Dev nD) : W2 m ρ c (Proc.devRef .tc main_arg20) = m ((c : Thread nD τ).loc main_arg20) :=
  calc W2 m ρ c (Proc.devRef .tc main_arg20)
    _ = W1 m ρ c (Proc.devRef .tc main_arg20) := W2_of_ne m ρ c main_arg20 (by decide)
    _ = m ((c : Thread nD τ).loc main_arg20) := W1_arg20 m ρ c
theorem W2_arg21 (c : Dev nD) : W2 m ρ c (Proc.devRef .tc main_arg21) = m ((c : Thread nD τ).loc main_arg21) :=
  calc W2 m ρ c (Proc.devRef .tc main_arg21)
    _ = W1 m ρ c (Proc.devRef .tc main_arg21) := W2_of_ne m ρ c main_arg21 (by decide)
    _ = m ((c : Thread nD τ).loc main_arg21) := W1_arg21 m ρ c
theorem W2_arg22 (c : Dev nD) : W2 m ρ c (Proc.devRef .tc main_arg22) = m ((c : Thread nD τ).loc main_arg22) :=
  calc W2 m ρ c (Proc.devRef .tc main_arg22)
    _ = W1 m ρ c (Proc.devRef .tc main_arg22) := W2_of_ne m ρ c main_arg22 (by decide)
    _ = m ((c : Thread nD τ).loc main_arg22) := W1_arg22 m ρ c

/-! ## At boundary 3 -/

theorem W3_arg1 (c : Dev nD) : W3 m ρ c (Proc.devRef .tc main_arg1) = m ((c : Thread nD τ).loc main_arg1) := by
  show StableHlo.after hostOps1 (W2 m ρ c) (Proc.devRef .tc main_arg1) = _
  fold_eval <;> exact W2_arg1 m ρ c
theorem W3_arg5 (c : Dev nD) : W3 m ρ c (Proc.devRef .tc main_arg5) = m ((c : Thread nD τ).loc main_arg5) := by
  show StableHlo.after hostOps1 (W2 m ρ c) (Proc.devRef .tc main_arg5) = _
  fold_eval <;> exact W2_arg5 m ρ c
theorem W3_arg6 (c : Dev nD) : W3 m ρ c (Proc.devRef .tc main_arg6) = m ((c : Thread nD τ).loc main_arg6) := by
  show StableHlo.after hostOps1 (W2 m ρ c) (Proc.devRef .tc main_arg6) = _
  fold_eval <;> exact W2_arg6 m ρ c
theorem W3_arg7 (c : Dev nD) : W3 m ρ c (Proc.devRef .tc main_arg7) = m ((c : Thread nD τ).loc main_arg7) := by
  show StableHlo.after hostOps1 (W2 m ρ c) (Proc.devRef .tc main_arg7) = _
  fold_eval <;> exact W2_arg7 m ρ c
theorem W3_arg8 (c : Dev nD) : W3 m ρ c (Proc.devRef .tc main_arg8) = m ((c : Thread nD τ).loc main_arg8) := by
  show StableHlo.after hostOps1 (W2 m ρ c) (Proc.devRef .tc main_arg8) = _
  fold_eval <;> exact W2_arg8 m ρ c
theorem W3_arg9 (c : Dev nD) : W3 m ρ c (Proc.devRef .tc main_arg9) = m ((c : Thread nD τ).loc main_arg9) := by
  show StableHlo.after hostOps1 (W2 m ρ c) (Proc.devRef .tc main_arg9) = _
  fold_eval <;> exact W2_arg9 m ρ c
theorem W3_arg10 (c : Dev nD) : W3 m ρ c (Proc.devRef .tc main_arg10) = m ((c : Thread nD τ).loc main_arg10) := by
  show StableHlo.after hostOps1 (W2 m ρ c) (Proc.devRef .tc main_arg10) = _
  fold_eval <;> exact W2_arg10 m ρ c
theorem W3_arg11 (c : Dev nD) : W3 m ρ c (Proc.devRef .tc main_arg11) = m ((c : Thread nD τ).loc main_arg11) := by
  show StableHlo.after hostOps1 (W2 m ρ c) (Proc.devRef .tc main_arg11) = _
  fold_eval <;> exact W2_arg11 m ρ c
theorem W3_arg12 (c : Dev nD) : W3 m ρ c (Proc.devRef .tc main_arg12) = m ((c : Thread nD τ).loc main_arg12) := by
  show StableHlo.after hostOps1 (W2 m ρ c) (Proc.devRef .tc main_arg12) = _
  fold_eval <;> exact W2_arg12 m ρ c
theorem W3_arg13 (c : Dev nD) : W3 m ρ c (Proc.devRef .tc main_arg13) = m ((c : Thread nD τ).loc main_arg13) := by
  show StableHlo.after hostOps1 (W2 m ρ c) (Proc.devRef .tc main_arg13) = _
  fold_eval <;> exact W2_arg13 m ρ c
theorem W3_arg14 (c : Dev nD) : W3 m ρ c (Proc.devRef .tc main_arg14) = m ((c : Thread nD τ).loc main_arg14) := by
  show StableHlo.after hostOps1 (W2 m ρ c) (Proc.devRef .tc main_arg14) = _
  fold_eval <;> exact W2_arg14 m ρ c
theorem W3_arg15 (c : Dev nD) : W3 m ρ c (Proc.devRef .tc main_arg15) = m ((c : Thread nD τ).loc main_arg15) := by
  show StableHlo.after hostOps1 (W2 m ρ c) (Proc.devRef .tc main_arg15) = _
  fold_eval <;> exact W2_arg15 m ρ c
theorem W3_arg16 (c : Dev nD) : W3 m ρ c (Proc.devRef .tc main_arg16) = m ((c : Thread nD τ).loc main_arg16) := by
  show StableHlo.after hostOps1 (W2 m ρ c) (Proc.devRef .tc main_arg16) = _
  fold_eval <;> exact W2_arg16 m ρ c
theorem W3_arg17 (c : Dev nD) : W3 m ρ c (Proc.devRef .tc main_arg17) = m ((c : Thread nD τ).loc main_arg17) := by
  show StableHlo.after hostOps1 (W2 m ρ c) (Proc.devRef .tc main_arg17) = _
  fold_eval <;> exact W2_arg17 m ρ c
theorem W3_arg18 (c : Dev nD) : W3 m ρ c (Proc.devRef .tc main_arg18) = m ((c : Thread nD τ).loc main_arg18) := by
  show StableHlo.after hostOps1 (W2 m ρ c) (Proc.devRef .tc main_arg18) = _
  fold_eval <;> exact W2_arg18 m ρ c
theorem W3_arg19 (c : Dev nD) : W3 m ρ c (Proc.devRef .tc main_arg19) = m ((c : Thread nD τ).loc main_arg19) := by
  show StableHlo.after hostOps1 (W2 m ρ c) (Proc.devRef .tc main_arg19) = _
  fold_eval <;> exact W2_arg19 m ρ c
theorem W3_arg20 (c : Dev nD) : W3 m ρ c (Proc.devRef .tc main_arg20) = m ((c : Thread nD τ).loc main_arg20) := by
  show StableHlo.after hostOps1 (W2 m ρ c) (Proc.devRef .tc main_arg20) = _
  fold_eval <;> exact W2_arg20 m ρ c
theorem W3_arg21 (c : Dev nD) : W3 m ρ c (Proc.devRef .tc main_arg21) = m ((c : Thread nD τ).loc main_arg21) := by
  show StableHlo.after hostOps1 (W2 m ρ c) (Proc.devRef .tc main_arg21) = _
  fold_eval <;> exact W2_arg21 m ρ c
theorem W3_arg22 (c : Dev nD) : W3 m ρ c (Proc.devRef .tc main_arg22) = m ((c : Thread nD τ).loc main_arg22) := by
  show StableHlo.after hostOps1 (W2 m ρ c) (Proc.devRef .tc main_arg22) = _
  fold_eval <;> exact W2_arg22 m ρ c

/-! ## At boundary 4 -/

theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 7).trans (((dat1 (V3 m ρ) c).arrAt_in 7 rfl _).trans (A_eq1 (V3 m ρ) c 7))
    _ = m ((c : Thread nD τ).loc main_arg5) := W3_arg5 m ρ c
theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = m ((c : Thread nD τ).loc main_arg6) := W3_arg6 m ρ c
theorem W4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = m ((c : Thread nD τ).loc main_arg7) := W3_arg7 m ρ c
theorem W4_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = m ((c : Thread nD τ).loc main_arg8) := W3_arg8 m ρ c
theorem W4_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = m ((c : Thread nD τ).loc main_arg9) := W3_arg9 m ρ c
theorem W4_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = m ((c : Thread nD τ).loc main_arg10) := W3_arg10 m ρ c
theorem W4_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = m ((c : Thread nD τ).loc main_arg11) := W3_arg11 m ρ c
theorem W4_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = m ((c : Thread nD τ).loc main_arg12) := W3_arg12 m ρ c
theorem W4_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = m ((c : Thread nD τ).loc main_arg13) := W3_arg13 m ρ c
theorem W4_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = m ((c : Thread nD τ).loc main_arg14) := W3_arg14 m ρ c
theorem W4_arg15 (c : Dev nD) : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = m ((c : Thread nD τ).loc main_arg15) := W3_arg15 m ρ c
theorem W4_arg16 (c : Dev nD) : W4 m ρ c (Proc.devRef .tc main_arg16) = m ((c : Thread nD τ).loc main_arg16) :=
  calc W4 m ρ c (Proc.devRef .tc main_arg16)
    _ = W3 m ρ c (Proc.devRef .tc main_arg16) := W4_of_ne m ρ c main_arg16 (by decide)
    _ = m ((c : Thread nD τ).loc main_arg16) := W3_arg16 m ρ c
theorem W4_arg17 (c : Dev nD) : W4 m ρ c (Proc.devRef .tc main_arg17) = m ((c : Thread nD τ).loc main_arg17) :=
  calc W4 m ρ c (Proc.devRef .tc main_arg17)
    _ = W3 m ρ c (Proc.devRef .tc main_arg17) := W4_of_ne m ρ c main_arg17 (by decide)
    _ = m ((c : Thread nD τ).loc main_arg17) := W3_arg17 m ρ c
theorem W4_arg18 (c : Dev nD) : W4 m ρ c (Proc.devRef .tc main_arg18) = m ((c : Thread nD τ).loc main_arg18) :=
  calc W4 m ρ c (Proc.devRef .tc main_arg18)
    _ = W3 m ρ c (Proc.devRef .tc main_arg18) := W4_of_ne m ρ c main_arg18 (by decide)
    _ = m ((c : Thread nD τ).loc main_arg18) := W3_arg18 m ρ c
theorem W4_arg19 (c : Dev nD) : W4 m ρ c (Proc.devRef .tc main_arg19) = m ((c : Thread nD τ).loc main_arg19) :=
  calc W4 m ρ c (Proc.devRef .tc main_arg19)
    _ = W3 m ρ c (Proc.devRef .tc main_arg19) := W4_of_ne m ρ c main_arg19 (by decide)
    _ = m ((c : Thread nD τ).loc main_arg19) := W3_arg19 m ρ c
theorem W4_arg20 (c : Dev nD) : W4 m ρ c (Proc.devRef .tc main_arg20) = m ((c : Thread nD τ).loc main_arg20) :=
  calc W4 m ρ c (Proc.devRef .tc main_arg20)
    _ = W3 m ρ c (Proc.devRef .tc main_arg20) := W4_of_ne m ρ c main_arg20 (by decide)
    _ = m ((c : Thread nD τ).loc main_arg20) := W3_arg20 m ρ c
theorem W4_arg21 (c : Dev nD) : W4 m ρ c (Proc.devRef .tc main_arg21) = m ((c : Thread nD τ).loc main_arg21) :=
  calc W4 m ρ c (Proc.devRef .tc main_arg21)
    _ = W3 m ρ c (Proc.devRef .tc main_arg21) := W4_of_ne m ρ c main_arg21 (by decide)
    _ = m ((c : Thread nD τ).loc main_arg21) := W3_arg21 m ρ c
theorem W4_arg22 (c : Dev nD) : W4 m ρ c (Proc.devRef .tc main_arg22) = m ((c : Thread nD τ).loc main_arg22) :=
  calc W4 m ρ c (Proc.devRef .tc main_arg22)
    _ = W3 m ρ c (Proc.devRef .tc main_arg22) := W4_of_ne m ρ c main_arg22 (by decide)
    _ = m ((c : Thread nD τ).loc main_arg22) := W3_arg22 m ρ c

end Cert.KernelIdeal.Net

end
-- ==== Proof.HostCarryB.lean ====
/-
  The weight arrays stay as launched.  No host operation and no kernel region writes a weight array (a region only reads
  one, through an input window, and an input window's array is left as it was entered), so at every boundary between the
  program's segments the array holds what the launch memory holds.  One statement per weight array and boundary, each
  from the boundary before: a stretch of host operations writes none of these buffers, and a region either does not have
  the buffer among its windows or has it as an input.  Boundaries 5 to 8, for the arrays still read later.
-/
import proofs.«114887_j65481071405707_2_alg».proof.Proof.HostCarryA

set_option maxRecDepth 16384

noncomputable section

namespace Cert.KernelIdeal.Net

open Cert.KernelIdeal Cert.KernelIdeal.Gen
open Idealize.ShloMosaic Idealize.ShloMosaic.TcCoe
open Cert.FoldEval

variable (m : (ℓ : Loc nD τ sig) → Buf (Elt Ideal) ℓ) (ρ : Dev nD → PrngReg)

/-! ## At boundary 5 -/

theorem W5_arg5 (c : Dev nD) : W5 m ρ c (Proc.devRef .tc main_arg5) = m ((c : Thread nD τ).loc main_arg5) := by
  show StableHlo.after hostOps2 (W4 m ρ c) (Proc.devRef .tc main_arg5) = _
  fold_eval <;> exact W4_arg5 m ρ c
theorem W5_arg9 (c : Dev nD) : W5 m ρ c (Proc.devRef .tc main_arg9) = m ((c : Thread nD τ).loc main_arg9) := by
  show StableHlo.after hostOps2 (W4 m ρ c) (Proc.devRef .tc main_arg9) = _
  fold_eval <;> exact W4_arg9 m ρ c
theorem W5_arg10 (c : Dev nD) : W5 m ρ c (Proc.devRef .tc main_arg10) = m ((c : Thread nD τ).loc main_arg10) := by
  show StableHlo.after hostOps2 (W4 m ρ c) (Proc.devRef .tc main_arg10) = _
  fold_eval <;> exact W4_arg10 m ρ c
theorem W5_arg11 (c : Dev nD) : W5 m ρ c (Proc.devRef .tc main_arg11) = m ((c : Thread nD τ).loc main_arg11) := by
  show StableHlo.after hostOps2 (W4 m ρ c) (Proc.devRef .tc main_arg11) = _
  fold_eval <;> exact W4_arg11 m ρ c
theorem W5_arg12 (c : Dev nD) : W5 m ρ c (Proc.devRef .tc main_arg12) = m ((c : Thread nD τ).loc main_arg12) := by
  show StableHlo.after hostOps2 (W4 m ρ c) (Proc.devRef .tc main_arg12) = _
  fold_eval <;> exact W4_arg12 m ρ c
theorem W5_arg13 (c : Dev nD) : W5 m ρ c (Proc.devRef .tc main_arg13) = m ((c : Thread nD τ).loc main_arg13) := by
  show StableHlo.after hostOps2 (W4 m ρ c) (Proc.devRef .tc main_arg13) = _
  fold_eval <;> exact W4_arg13 m ρ c
theorem W5_arg14 (c : Dev nD) : W5 m ρ c (Proc.devRef .tc main_arg14) = m ((c : Thread nD τ).loc main_arg14) := by
  show StableHlo.after hostOps2 (W4 m ρ c) (Proc.devRef .tc main_arg14) = _
  fold_eval <;> exact W4_arg14 m ρ c
theorem W5_arg15 (c : Dev nD) : W5 m ρ c (Proc.devRef .tc main_arg15) = m ((c : Thread nD τ).loc main_arg15) := by
  show StableHlo.after hostOps2 (W4 m ρ c) (Proc.devRef .tc main_arg15) = _
  fold_eval <;> exact W4_arg15 m ρ c
theorem W5_arg16 (c : Dev nD) : W5 m ρ c (Proc.devRef .tc main_arg16) = m ((c : Thread nD τ).loc main_arg16) := by
  show StableHlo.after hostOps2 (W4 m ρ c) (Proc.devRef .tc main_arg16) = _
  fold_eval <;> exact W4_arg16 m ρ c
theorem W5_arg17 (c : Dev nD) : W5 m ρ c (Proc.devRef .tc main_arg17) = m ((c : Thread nD τ).loc main_arg17) := by
  show StableHlo.after hostOps2 (W4 m ρ c) (Proc.devRef .tc main_arg17) = _
  fold_eval <;> exact W4_arg17 m ρ c
theorem W5_arg18 (c : Dev nD) : W5 m ρ c (Proc.devRef .tc main_arg18) = m ((c : Thread nD τ).loc main_arg18) := by
  show StableHlo.after hostOps2 (W4 m ρ c) (Proc.devRef .tc main_arg18) = _
  fold_eval <;> exact W4_arg18 m ρ c
theorem W5_arg19 (c : Dev nD) : W5 m ρ c (Proc.devRef .tc main_arg19) = m ((c : Thread nD τ).loc main_arg19) := by
  show StableHlo.after hostOps2 (W4 m ρ c) (Proc.devRef .tc main_arg19) = _
  fold_eval <;> exact W4_arg19 m ρ c
theorem W5_arg20 (c : Dev nD) : W5 m ρ c (Proc.devRef .tc main_arg20) = m ((c : Thread nD τ).loc main_arg20) := by
  show StableHlo.after hostOps2 (W4 m ρ c) (Proc.devRef .tc main_arg20) = _
  fold_eval <;> exact W4_arg20 m ρ c
theorem W5_arg21 (c : Dev nD) : W5 m ρ c (Proc.devRef .tc main_arg21) = m ((c : Thread nD τ).loc main_arg21) := by
  show StableHlo.after hostOps2 (W4 m ρ c) (Proc.devRef .tc main_arg21) = _
  fold_eval <;> exact W4_arg21 m ρ c
theorem W5_arg22 (c : Dev nD) : W5 m ρ c (Proc.devRef .tc main_arg22) = m ((c : Thread nD τ).loc main_arg22) := by
  show StableHlo.after hostOps2 (W4 m ρ c) (Proc.devRef .tc main_arg22) = _
  fold_eval <;> exact W4_arg22 m ρ c

/-! ## At boundary 6 -/

theorem W6_arg9 (c : Dev nD) : W6 m ρ c (Proc.devRef .tc main_arg9) = m ((c : Thread nD τ).loc main_arg9) :=
  calc W6 m ρ c (Proc.devRef .tc main_arg9)
    _ = W5 m ρ c (Proc.devRef .tc main_arg9) := (W6_arr m ρ c 7).trans (((dat2 (V5 m ρ) c).arrAt_in 7 rfl _).trans (A_eq2 (V5 m ρ) c 7))
    _ = m ((c : Thread nD τ).loc main_arg9) := W5_arg9 m ρ c
theorem W6_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = m ((c : Thread nD τ).loc main_arg10) := W5_arg10 m ρ c
theorem W6_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = m ((c : Thread nD τ).loc main_arg11) := W5_arg11 m ρ c
theorem W6_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = m ((c : Thread nD τ).loc main_arg12) := W5_arg12 m ρ c
theorem W6_arg13 (c : Dev nD) : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = m ((c : Thread nD τ).loc main_arg13) := W5_arg13 m ρ c
theorem W6_arg14 (c : Dev nD) : W6 m ρ c (Proc.devRef .tc main_arg14) = m ((c : Thread nD τ).loc main_arg14) :=
  calc W6 m ρ c (Proc.devRef .tc main_arg14)
    _ = W5 m ρ c (Proc.devRef .tc main_arg14) := W6_of_ne m ρ c main_arg14 (by decide)
    _ = m ((c : Thread nD τ).loc main_arg14) := W5_arg14 m ρ c
theorem W6_arg15 (c : Dev nD) : W6 m ρ c (Proc.devRef .tc main_arg15) = m ((c : Thread nD τ).loc main_arg15) :=
  calc W6 m ρ c (Proc.devRef .tc main_arg15)
    _ = W5 m ρ c (Proc.devRef .tc main_arg15) := W6_of_ne m ρ c main_arg15 (by decide)
    _ = m ((c : Thread nD τ).loc main_arg15) := W5_arg15 m ρ c
theorem W6_arg16 (c : Dev nD) : W6 m ρ c (Proc.devRef .tc main_arg16) = m ((c : Thread nD τ).loc main_arg16) :=
  calc W6 m ρ c (Proc.devRef .tc main_arg16)
    _ = W5 m ρ c (Proc.devRef .tc main_arg16) := W6_of_ne m ρ c main_arg16 (by decide)
    _ = m ((c : Thread nD τ).loc main_arg16) := W5_arg16 m ρ c
theorem W6_arg17 (c : Dev nD) : W6 m ρ c (Proc.devRef .tc main_arg17) = m ((c : Thread nD τ).loc main_arg17) :=
  calc W6 m ρ c (Proc.devRef .tc main_arg17)
    _ = W5 m ρ c (Proc.devRef .tc main_arg17) := W6_of_ne m ρ c main_arg17 (by decide)
    _ = m ((c : Thread nD τ).loc main_arg17) := W5_arg17 m ρ c
theorem W6_arg18 (c : Dev nD) : W6 m ρ c (Proc.devRef .tc main_arg18) = m ((c : Thread nD τ).loc main_arg18) :=
  calc W6 m ρ c (Proc.devRef .tc main_arg18)
    _ = W5 m ρ c (Proc.devRef .tc main_arg18) := W6_of_ne m ρ c main_arg18 (by decide)
    _ = m ((c : Thread nD τ).loc main_arg18) := W5_arg18 m ρ c
theorem W6_arg19 (c : Dev nD) : W6 m ρ c (Proc.devRef .tc main_arg19) = m ((c : Thread nD τ).loc main_arg19) :=
  calc W6 m ρ c (Proc.devRef .tc main_arg19)
    _ = W5 m ρ c (Proc.devRef .tc main_arg19) := W6_of_ne m ρ c main_arg19 (by decide)
    _ = m ((c : Thread nD τ).loc main_arg19) := W5_arg19 m ρ c
theorem W6_arg20 (c : Dev nD) : W6 m ρ c (Proc.devRef .tc main_arg20) = m ((c : Thread nD τ).loc main_arg20) :=
  calc W6 m ρ c (Proc.devRef .tc main_arg20)
    _ = W5 m ρ c (Proc.devRef .tc main_arg20) := W6_of_ne m ρ c main_arg20 (by decide)
    _ = m ((c : Thread nD τ).loc main_arg20) := W5_arg20 m ρ c
theorem W6_arg21 (c : Dev nD) : W6 m ρ c (Proc.devRef .tc main_arg21) = m ((c : Thread nD τ).loc main_arg21) :=
  calc W6 m ρ c (Proc.devRef .tc main_arg21)
    _ = W5 m ρ c (Proc.devRef .tc main_arg21) := W6_of_ne m ρ c main_arg21 (by decide)
    _ = m ((c : Thread nD τ).loc main_arg21) := W5_arg21 m ρ c
theorem W6_arg22 (c : Dev nD) : W6 m ρ c (Proc.devRef .tc main_arg22) = m ((c : Thread nD τ).loc main_arg22) :=
  calc W6 m ρ c (Proc.devRef .tc main_arg22)
    _ = W5 m ρ c (Proc.devRef .tc main_arg22) := W6_of_ne m ρ c main_arg22 (by decide)
    _ = m ((c : Thread nD τ).loc main_arg22) := W5_arg22 m ρ c

/-! ## At boundary 7 -/

theorem W7_arg9 (c : Dev nD) : W7 m ρ c (Proc.devRef .tc main_arg9) = m ((c : Thread nD τ).loc main_arg9) := by
  show StableHlo.after hostOps3 (W6 m ρ c) (Proc.devRef .tc main_arg9) = _
  fold_eval <;> exact W6_arg9 m ρ c
theorem W7_arg13 (c : Dev nD) : W7 m ρ c (Proc.devRef .tc main_arg13) = m ((c : Thread nD τ).loc main_arg13) := by
  show StableHlo.after hostOps3 (W6 m ρ c) (Proc.devRef .tc main_arg13) = _
  fold_eval <;> exact W6_arg13 m ρ c
theorem W7_arg14 (c : Dev nD) : W7 m ρ c (Proc.devRef .tc main_arg14) = m ((c : Thread nD τ).loc main_arg14) := by
  show StableHlo.after hostOps3 (W6 m ρ c) (Proc.devRef .tc main_arg14) = _
  fold_eval <;> exact W6_arg14 m ρ c
theorem W7_arg15 (c : Dev nD) : W7 m ρ c (Proc.devRef .tc main_arg15) = m ((c : Thread nD τ).loc main_arg15) := by
  show StableHlo.after hostOps3 (W6 m ρ c) (Proc.devRef .tc main_arg15) = _
  fold_eval <;> exact W6_arg15 m ρ c
theorem W7_arg16 (c : Dev nD) : W7 m ρ c (Proc.devRef .tc main_arg16) = m ((c : Thread nD τ).loc main_arg16) := by
  show StableHlo.after hostOps3 (W6 m ρ c) (Proc.devRef .tc main_arg16) = _
  fold_eval <;> exact W6_arg16 m ρ c
theorem W7_arg17 (c : Dev nD) : W7 m ρ c (Proc.devRef .tc main_arg17) = m ((c : Thread nD τ).loc main_arg17) := by
  show StableHlo.after hostOps3 (W6 m ρ c) (Proc.devRef .tc main_arg17) = _
  fold_eval <;> exact W6_arg17 m ρ c
theorem W7_arg18 (c : Dev nD) : W7 m ρ c (Proc.devRef .tc main_arg18) = m ((c : Thread nD τ).loc main_arg18) := by
  show StableHlo.after hostOps3 (W6 m ρ c) (Proc.devRef .tc main_arg18) = _
  fold_eval <;> exact W6_arg18 m ρ c
theorem W7_arg19 (c : Dev nD) : W7 m ρ c (Proc.devRef .tc main_arg19) = m ((c : Thread nD τ).loc main_arg19) := by
  show StableHlo.after hostOps3 (W6 m ρ c) (Proc.devRef .tc main_arg19) = _
  fold_eval <;> exact W6_arg19 m ρ c
theorem W7_arg20 (c : Dev nD) : W7 m ρ c (Proc.devRef .tc main_arg20) = m ((c : Thread nD τ).loc main_arg20) := by
  show StableHlo.after hostOps3 (W6 m ρ c) (Proc.devRef .tc main_arg20) = _
  fold_eval <;> exact W6_arg20 m ρ c
theorem W7_arg21 (c : Dev nD) : W7 m ρ c (Proc.devRef .tc main_arg21) = m ((c : Thread nD τ).loc main_arg21) := by
  show StableHlo.after hostOps3 (W6 m ρ c) (Proc.devRef .tc main_arg21) = _
  fold_eval <;> exact W6_arg21 m ρ c
theorem W7_arg22 (c : Dev nD) : W7 m ρ c (Proc.devRef .tc main_arg22) = m ((c : Thread nD τ).loc main_arg22) := by
  show StableHlo.after hostOps3 (W6 m ρ c) (Proc.devRef .tc main_arg22) = _
  fold_eval <;> exact W6_arg22 m ρ c

/-! ## At boundary 8 -/

theorem W8_arg13 (c : Dev nD) : W8 m ρ c (Proc.devRef .tc main_arg13) = m ((c : Thread nD τ).loc main_arg13) :=
  calc W8 m ρ c (Proc.devRef .tc main_arg13)
    _ = W7 m ρ c (Proc.devRef .tc main_arg13) := (W8_arr m ρ c 7).trans (((dat3 (V7 m ρ) c).arrAt_in 7 rfl _).trans (A_eq3 (V7 m ρ) c 7))
    _ = m ((c : Thread nD τ).loc main_arg13) := W7_arg13 m ρ c
theorem W8_arg14 (c : Dev nD) : W8 m ρ c (Proc.devRef .tc main_arg14) = m ((c : Thread nD τ).loc main_arg14) :=
  calc W8 m ρ c (Proc.devRef .tc main_arg14)
    _ = W7 m ρ c (Proc.devRef .tc main_arg14) := W8_of_ne m ρ c main_arg14 (by decide)
    _ = m ((c : Thread nD τ).loc main_arg14) := W7_arg14 m ρ c
theorem W8_arg15 (c : Dev nD) : W8 m ρ c (Proc.devRef .tc main_arg15) = m ((c : Thread nD τ).loc main_arg15) :=
  calc W8 m ρ c (Proc.devRef .tc main_arg15)
    _ = W7 m ρ c (Proc.devRef .tc main_arg15) := W8_of_ne m ρ c main_arg15 (by decide)
    _ = m ((c : Thread nD τ).loc main_arg15) := W7_arg15 m ρ c
theorem W8_arg16 (c : Dev nD) : W8 m ρ c (Proc.devRef .tc main_arg16) = m ((c : Thread nD τ).loc main_arg16) :=
  calc W8 m ρ c (Proc.devRef .tc main_arg16)
    _ = W7 m ρ c (Proc.devRef .tc main_arg16) := W8_of_ne m ρ c main_arg16 (by decide)
    _ = m ((c : Thread nD τ).loc main_arg16) := W7_arg16 m ρ c
theorem W8_arg17 (c : Dev nD) : W8 m ρ c (Proc.devRef .tc main_arg17) = m ((c : Thread nD τ).loc main_arg17) :=
  calc W8 m ρ c (Proc.devRef .tc main_arg17)
    _ = W7 m ρ c (Proc.devRef .tc main_arg17) := W8_of_ne m ρ c main_arg17 (by decide)
    _ = m ((c : Thread nD τ).loc main_arg17) := W7_arg17 m ρ c
theorem W8_arg18 (c : Dev nD) : W8 m ρ c (Proc.devRef .tc main_arg18) = m ((c : Thread nD τ).loc main_arg18) :=
  calc W8 m ρ c (Proc.devRef .tc main_arg18)
    _ = W7 m ρ c (Proc.devRef .tc main_arg18) := W8_of_ne m ρ c main_arg18 (by decide)
    _ = m ((c : Thread nD τ).loc main_arg18) := W7_arg18 m ρ c
theorem W8_arg19 (c : Dev nD) : W8 m ρ c (Proc.devRef .tc main_arg19) = m ((c : Thread nD τ).loc main_arg19) :=
  calc W8 m ρ c (Proc.devRef .tc main_arg19)
    _ = W7 m ρ c (Proc.devRef .tc main_arg19) := W8_of_ne m ρ c main_arg19 (by decide)
    _ = m ((c : Thread nD τ).loc main_arg19) := W7_arg19 m ρ c
theorem W8_arg20 (c : Dev nD) : W8 m ρ c (Proc.devRef .tc main_arg20) = m ((c : Thread nD τ).loc main_arg20) :=
  calc W8 m ρ c (Proc.devRef .tc main_arg20)
    _ = W7 m ρ c (Proc.devRef .tc main_arg20) := W8_of_ne m ρ c main_arg20 (by decide)
    _ = m ((c : Thread nD τ).loc main_arg20) := W7_arg20 m ρ c
theorem W8_arg21 (c : Dev nD) : W8 m ρ c (Proc.devRef .tc main_arg21) = m ((c : Thread nD τ).loc main_arg21) :=
  calc W8 m ρ c (Proc.devRef .tc main_arg21)
    _ = W7 m ρ c (Proc.devRef .tc main_arg21) := W8_of_ne m ρ c main_arg21 (by decide)
    _ = m ((c : Thread nD τ).loc main_arg21) := W7_arg21 m ρ c
theorem W8_arg22 (c : Dev nD) : W8 m ρ c (Proc.devRef .tc main_arg22) = m ((c : Thread nD τ).loc main_arg22) :=
  calc W8 m ρ c (Proc.devRef .tc main_arg22)
    _ = W7 m ρ c (Proc.devRef .tc main_arg22) := W8_of_ne m ρ c main_arg22 (by decide)
    _ = m ((c : Thread nD τ).loc main_arg22) := W7_arg22 m ρ c

end Cert.KernelIdeal.Net

end
-- ==== Proof.HostCarryC.lean ====
/-
  The weight arrays stay as launched.  No host operation and no kernel region writes a weight array (a region only reads
  one, through an input window, and an input window's array is left as it was entered), so at every boundary between the
  program's segments the array holds what the launch memory holds.  One statement per weight array and boundary, each
  from the boundary before: a stretch of host operations writes none of these buffers, and a region either does not have
  the buffer among its windows or has it as an input.  Boundaries 9 to 11, for the arrays still read later.
-/
import proofs.«114887_j65481071405707_2_alg».proof.Proof.HostCarryB

set_option maxRecDepth 16384

noncomputable section

namespace Cert.KernelIdeal.Net

open Cert.KernelIdeal Cert.KernelIdeal.Gen
open Idealize.ShloMosaic Idealize.ShloMosaic.TcCoe
open Cert.FoldEval

variable (m : (ℓ : Loc nD τ sig) → Buf (Elt Ideal) ℓ) (ρ : Dev nD → PrngReg)

/-! ## At boundary 9 -/

theorem W9_arg13 (c : Dev nD) : W9 m ρ c (Proc.devRef .tc main_arg13) = m ((c : Thread nD τ).loc main_arg13) := by
  show StableHlo.after hostOps4 (W8 m ρ c) (Proc.devRef .tc main_arg13) = _
  fold_eval <;> exact W8_arg13 m ρ c
theorem W9_arg17 (c : Dev nD) : W9 m ρ c (Proc.devRef .tc main_arg17) = m ((c : Thread nD τ).loc main_arg17) := by
  show StableHlo.after hostOps4 (W8 m ρ c) (Proc.devRef .tc main_arg17) = _
  fold_eval <;> exact W8_arg17 m ρ c
theorem W9_arg18 (c : Dev nD) : W9 m ρ c (Proc.devRef .tc main_arg18) = m ((c : Thread nD τ).loc main_arg18) := by
  show StableHlo.after hostOps4 (W8 m ρ c) (Proc.devRef .tc main_arg18) = _
  fold_eval <;> exact W8_arg18 m ρ c
theorem W9_arg19 (c : Dev nD) : W9 m ρ c (Proc.devRef .tc main_arg19) = m ((c : Thread nD τ).loc main_arg19) := by
  show StableHlo.after hostOps4 (W8 m ρ c) (Proc.devRef .tc main_arg19) = _
  fold_eval <;> exact W8_arg19 m ρ c
theorem W9_arg20 (c : Dev nD) : W9 m ρ c (Proc.devRef .tc main_arg20) = m ((c : Thread nD τ).loc main_arg20) := by
  show StableHlo.after hostOps4 (W8 m ρ c) (Proc.devRef .tc main_arg20) = _
  fold_eval <;> exact W8_arg20 m ρ c
theorem W9_arg21 (c : Dev nD) : W9 m ρ c (Proc.devRef .tc main_arg21) = m ((c : Thread nD τ).loc main_arg21) := by
  show StableHlo.after hostOps4 (W8 m ρ c) (Proc.devRef .tc main_arg21) = _
  fold_eval <;> exact W8_arg21 m ρ c
theorem W9_arg22 (c : Dev nD) : W9 m ρ c (Proc.devRef .tc main_arg22) = m ((c : Thread nD τ).loc main_arg22) := by
  show StableHlo.after hostOps4 (W8 m ρ c) (Proc.devRef .tc main_arg22) = _
  fold_eval <;> exact W8_arg22 m ρ c

/-! ## At boundary 10 -/

theorem W10_arg17 (c : Dev nD) : W10 m ρ c (Proc.devRef .tc main_arg17) = m ((c : Thread nD τ).loc main_arg17) :=
  calc W10 m ρ c (Proc.devRef .tc main_arg17)
    _ = W9 m ρ c (Proc.devRef .tc main_arg17) := (W10_arr m ρ c 7).trans (((dat4 (V9 m ρ) c).arrAt_in 7 rfl _).trans (A_eq4 (V9 m ρ) c 7))
    _ = m ((c : Thread nD τ).loc main_arg17) := W9_arg17 m ρ c
theorem W10_arg18 (c : Dev nD) : W10 m ρ c (Proc.devRef .tc main_arg18) = m ((c : Thread nD τ).loc main_arg18) :=
  calc W10 m ρ c (Proc.devRef .tc main_arg18)
    _ = W9 m ρ c (Proc.devRef .tc main_arg18) := W10_of_ne m ρ c main_arg18 (by decide)
    _ = m ((c : Thread nD τ).loc main_arg18) := W9_arg18 m ρ c
theorem W10_arg19 (c : Dev nD) : W10 m ρ c (Proc.devRef .tc main_arg19) = m ((c : Thread nD τ).loc main_arg19) :=
  calc W10 m ρ c (Proc.devRef .tc main_arg19)
    _ = W9 m ρ c (Proc.devRef .tc main_arg19) := W10_of_ne m ρ c main_arg19 (by decide)
    _ = m ((c : Thread nD τ).loc main_arg19) := W9_arg19 m ρ c
theorem W10_arg20 (c : Dev nD) : W10 m ρ c (Proc.devRef .tc main_arg20) = m ((c : Thread nD τ).loc main_arg20) :=
  calc W10 m ρ c (Proc.devRef .tc main_arg20)
    _ = W9 m ρ c (Proc.devRef .tc main_arg20) := W10_of_ne m ρ c main_arg20 (by decide)
    _ = m ((c : Thread nD τ).loc main_arg20) := W9_arg20 m ρ c
theorem W10_arg21 (c : Dev nD) : W10 m ρ c (Proc.devRef .tc main_arg21) = m ((c : Thread nD τ).loc main_arg21) :=
  calc W10 m ρ c (Proc.devRef .tc main_arg21)
    _ = W9 m ρ c (Proc.devRef .tc main_arg21) := W10_of_ne m ρ c main_arg21 (by decide)
    _ = m ((c : Thread nD τ).loc main_arg21) := W9_arg21 m ρ c
theorem W10_arg22 (c : Dev nD) : W10 m ρ c (Proc.devRef .tc main_arg22) = m ((c : Thread nD τ).loc main_arg22) :=
  calc W10 m ρ c (Proc.devRef .tc main_arg22)
    _ = W9 m ρ c (Proc.devRef .tc main_arg22) := W10_of_ne m ρ c main_arg22 (by decide)
    _ = m ((c : Thread nD τ).loc main_arg22) := W9_arg22 m ρ c

/-! ## At boundary 11 -/

theorem W11_arg17 (c : Dev nD) : W11 m ρ c (Proc.devRef .tc main_arg17) = m ((c : Thread nD τ).loc main_arg17) := by
  show StableHlo.after hostOps5 (W10 m ρ c) (Proc.devRef .tc main_arg17) = _
  fold_eval <;> exact W10_arg17 m ρ c
theorem W11_arg21 (c : Dev nD) : W11 m ρ c (Proc.devRef .tc main_arg21) = m ((c : Thread nD τ).loc main_arg21) := by
  show StableHlo.after hostOps5 (W10 m ρ c) (Proc.devRef .tc main_arg21) = _
  fold_eval <;> exact W10_arg21 m ρ c

end Cert.KernelIdeal.Net

end
-- ==== Proof.HostReadsDefs.lean ====
/-
  The statistics a batch-normalised layer is given, as functions of the partial sums that the layer before leaves.

  The partial sums arrive as an array [2, n, 2]: for each half c' of the batch and each feature o, entry (c', o, 0) is that
  half's sum of the feature and entry (c', o, 1) that half's sum of its square.  Adding the two halves (a reduction over
  the first axis starting from zero) gives, per feature, the whole batch's sum and sum of squares.  The mean is the first
  divided by the batch size 2²¹; the variance is the second divided by the batch size, minus the squared mean, and then
  the larger of that and zero.  Both are stored as one column, shape [n, 1].

  This file names these two columns as functions of the partial sums (`meanOf`, `varOf`), composed exactly as the
  operations compose, and reads each at an index as plain arithmetic on the extended reals.  It also reads at an index the
  two re-layouts the program applies to whole arrays: a row [1, n] viewed as a column [n, 1], and (from the library) a
  vector viewed as a column and a matrix transposed.
-/
import Idealize.ShloMosaic.PureOps.Ideal.Laws
import Idealize.ShloMosaic.Lib.IdealHost
import Idealize.ShloMosaic.Lib.ValueIdx
import Idealize.ShloMosaic.Lib.ValueLayout
import Idealize.ShloMosaic.Lib.Pipeline.Value

noncomputable section

namespace Cert.KernelIdeal.Net

open Idealize.ShloMosaic Idealize.ShloMosaic.ValueIdx

variable {n : ℕ}

/-- The two halves' partial sums added: a reduction over the first axis from the initial value zero. -/
def sumsOf (hr : (⟨3, ![2, n, 2]⟩ : Shape).ReducesTo [0] ⟨2, ![n, 2]⟩) (hu : 0 < (⟨0, ![]⟩ : Shape).numel)
    (S : FVec Ideal ⟨3, ![2, n, 2]⟩ .f32) : FVec Ideal ⟨2, ![n, 2]⟩ .f32 :=
  Host.reduceAdd S (constant (F := Ideal) ⟨0, ![]⟩ .f32 0x00000000#32) hr hu

/-- The mean column: the first column of the sums divided by the batch size. -/
def meanOf (hr : (⟨3, ![2, n, 2]⟩ : Shape).ReducesTo [0] ⟨2, ![n, 2]⟩) (hu : 0 < (⟨0, ![]⟩ : Shape).numel)
    (hs : (⟨2, ![n, 2]⟩ : Shape).Slices ![0, 0] ⟨2, ![n, 1]⟩)
    (hb : (⟨0, ![]⟩ : Shape).BroadcastsInDim ⟨2, ![n, 1]⟩ (![] : Fin 0 → Fin 2))
    (S : FVec Ideal ⟨3, ![2, n, 2]⟩ .f32) : FVec Ideal ⟨2, ![n, 1]⟩ .f32 :=
  Host.divf (extractStridedSlice ⟨2, ![n, 1]⟩ ![0, 0] (sumsOf hr hu S) hs)
    (broadcastInDim ⟨2, ![n, 1]⟩ ![] hb (constant (F := Ideal) ⟨0, ![]⟩ .f32 0x4A000000#32))

/-- The variance column: the second column of the sums divided by the batch size, minus the squared mean, and then the
    larger of that and zero. -/
def varOf (hr : (⟨3, ![2, n, 2]⟩ : Shape).ReducesTo [0] ⟨2, ![n, 2]⟩) (hu : 0 < (⟨0, ![]⟩ : Shape).numel)
    (hs : (⟨2, ![n, 2]⟩ : Shape).Slices ![0, 0] ⟨2, ![n, 1]⟩)
    (hs' : (⟨2, ![n, 2]⟩ : Shape).Slices ![0, 1] ⟨2, ![n, 1]⟩)
    (hb : (⟨0, ![]⟩ : Shape).BroadcastsInDim ⟨2, ![n, 1]⟩ (![] : Fin 0 → Fin 2))
    (S : FVec Ideal ⟨3, ![2, n, 2]⟩ .f32) : FVec Ideal ⟨2, ![n, 1]⟩ .f32 :=
  maximumf
    (subf
      (Host.divf (extractStridedSlice ⟨2, ![n, 1]⟩ ![0, 1] (sumsOf hr hu S) hs')
        (broadcastInDim ⟨2, ![n, 1]⟩ ![] hb (constant (F := Ideal) ⟨0, ![]⟩ .f32 0x4A000000#32)))
      (mulf (meanOf hr hu hs hb S) (meanOf hr hu hs hb S)))
    (broadcastInDim ⟨2, ![n, 1]⟩ ![] hb (constant (F := Ideal) ⟨0, ![]⟩ .f32 0x00000000#32))

/-- The added halves at (o, k): the sum over the two halves of the entries (c', o, k). -/
theorem sumsOf_apply (hr : (⟨3, ![2, n, 2]⟩ : Shape).ReducesTo [0] ⟨2, ![n, 2]⟩) (hu : 0 < (⟨0, ![]⟩ : Shape).numel)
    (S : FVec Ideal ⟨3, ![2, n, 2]⟩ .f32) (o : Fin n) (k : Fin 2) :
    sumsOf hr hu S (ix2 o k) = ∑ c' : Fin 2, S (ix3 c' o k) := by
  have h : (⟨3, ![2, n, 2]⟩ : Shape).Reduces [0] ⟨2, ![n, 2]⟩ := ⟨hr.1, Nat.two_pos, hr.2⟩
  show Ideal.hostReduceAdd hr S _ (ix2 o k) = _
  rw [Ideal.hostReduceAdd_single hr h]
  show Ideal.ofBits .f32 0x00000000#32 + _ = _
  rw [Ideal.ofBits_zero_f32, zero_add]
  refine Finset.sum_congr rfl fun c' _ => congrArg S (funext fun a => Fin.ext ?_)
  match a with
  | ⟨0, _⟩ => rfl
  | ⟨1, _⟩ => rfl
  | ⟨2, _⟩ => rfl

/-- The mean of feature `o`: the two halves' sums added, divided by the batch size. -/
theorem meanOf_apply (hr : (⟨3, ![2, n, 2]⟩ : Shape).ReducesTo [0] ⟨2, ![n, 2]⟩) (hu : 0 < (⟨0, ![]⟩ : Shape).numel)
    (hs : (⟨2, ![n, 2]⟩ : Shape).Slices ![0, 0] ⟨2, ![n, 1]⟩)
    (hb : (⟨0, ![]⟩ : Shape).BroadcastsInDim ⟨2, ![n, 1]⟩ (![] : Fin 0 → Fin 2))
    (S : FVec Ideal ⟨3, ![2, n, 2]⟩ .f32) (o : Fin n) :
    meanOf hr hu hs hb S (ix2 o 0)
      = Ideal.div (∑ c' : Fin 2, S (ix3 c' o 0)) (Ideal.ofBits .f32 0x4A000000#32) := by
  show Ideal.div (extractStridedSlice ⟨2, ![n, 1]⟩ ![0, 0] (sumsOf hr hu S) hs (ix2 o 0))
      (broadcastInDim ⟨2, ![n, 1]⟩ ![] hb (constant (F := Ideal) ⟨0, ![]⟩ .f32 0x4A000000#32) (ix2 o 0)) = _
  rw [slice2_axis1_apply 0 (sumsOf hr hu S) hs o 0 0 rfl, broadcastInDim_scalar_apply, sumsOf_apply]
  rfl

/-- The variance of feature `o`: the two halves' sums of squares added, divided by the batch size, minus the squared
    mean, and the larger of that and zero. -/
theorem varOf_apply (hr : (⟨3, ![2, n, 2]⟩ : Shape).ReducesTo [0] ⟨2, ![n, 2]⟩) (hu : 0 < (⟨0, ![]⟩ : Shape).numel)
    (hs : (⟨2, ![n, 2]⟩ : Shape).Slices ![0, 0] ⟨2, ![n, 1]⟩)
    (hs' : (⟨2, ![n, 2]⟩ : Shape).Slices ![0, 1] ⟨2, ![n, 1]⟩)
    (hb : (⟨0, ![]⟩ : Shape).BroadcastsInDim ⟨2, ![n, 1]⟩ (![] : Fin 0 → Fin 2))
    (S : FVec Ideal ⟨3, ![2, n, 2]⟩ .f32) (o : Fin n) :
    varOf hr hu hs hs' hb S (ix2 o 0)
      = max (Ideal.div (∑ c' : Fin 2, S (ix3 c' o 1)) (Ideal.ofBits .f32 0x4A000000#32)
              - meanOf hr hu hs hb S (ix2 o 0) * meanOf hr hu hs hb S (ix2 o 0)) 0 := by
  show max (Ideal.div (extractStridedSlice ⟨2, ![n, 1]⟩ ![0, 1] (sumsOf hr hu S) hs' (ix2 o 0))
        (broadcastInDim ⟨2, ![n, 1]⟩ ![] hb (constant (F := Ideal) ⟨0, ![]⟩ .f32 0x4A000000#32) (ix2 o 0))
      - meanOf hr hu hs hb S (ix2 o 0) * meanOf hr hu hs hb S (ix2 o 0))
      (broadcastInDim ⟨2, ![n, 1]⟩ ![] hb (constant (F := Ideal) ⟨0, ![]⟩ .f32 0x00000000#32) (ix2 o 0)) = _
  rw [slice2_axis1_apply 1 (sumsOf hr hu S) hs' o 0 1 rfl, broadcastInDim_scalar_apply, broadcastInDim_scalar_apply,
    sumsOf_apply]
  show max _ (Ideal.ofBits .f32 0x00000000#32) = _
  rw [Ideal.ofBits_zero_f32]
  rfl

/-- A row `[1, n]` viewed as a column `[n, 1]` reads, at (r, 0), the row's entry (0, r). -/
theorem shapeCast_1n_n1_apply {α : Type} (x : (⟨2, ![1, n]⟩ : Shape).Idx → α)
    (h : (⟨2, ![1, n]⟩ : Shape).ShapeCasts ⟨2, ![n, 1]⟩) (r : Fin n) (u : Fin 1) :
    shapeCast ⟨2, ![n, 1]⟩ x h (ix2 r u) = x (ix2 0 r) :=
  shapeCast_apply x h _ _ (by
    have hu : u.val = 0 := by omega
    rw [Shape.rowMajor_val_two, Shape.rowMajor_val_two]
    show (0 : Fin 1).val * n + r.val = r.val * 1 + u.val
    rw [hu]
    simp)

end Cert.KernelIdeal.Net

end
-- ==== Proof.HostReadsStats.lean ====
/-
  The mean and variance columns each normalising layer is given, at the three feature counts the network has (16, 12, 8),
  as functions of the partial sums the layer before leaves, with each read at a feature as plain arithmetic; and the
  re-layouts of whole arrays read at an index: a vector viewed as a column, the input batch transposed, and the last
  layer's row of outputs viewed as a column.
-/
import proofs.«114887_j65481071405707_2_alg».proof.Proof.Gen.KernelIdeal
import proofs.«114887_j65481071405707_2_alg».proof.Proof.HostReadsDefs

noncomputable section

namespace Cert.KernelIdeal.Net

open Cert.KernelIdeal Cert.KernelIdeal.Gen
open Idealize.ShloMosaic Idealize.ShloMosaic.ValueIdx

/-- The mean column of 16 features from the partial sums `S`. -/
def meanOf16 (S : FVec Ideal S2x16x2 .f32) : FVec Ideal S16x1 .f32 :=
  meanOf reducesTo_S2x16x2_S16x2_d0 h_S_ slices_S16x2_S16x1_0_0 bcast_S_S16x1 S

/-- The variance column of 16 features from the partial sums `S`. -/
def varOf16 (S : FVec Ideal S2x16x2 .f32) : FVec Ideal S16x1 .f32 :=
  varOf reducesTo_S2x16x2_S16x2_d0 h_S_ slices_S16x2_S16x1_0_0 slices_S16x2_S16x1_0_1 bcast_S_S16x1 S

/-- The mean of feature `o`: the two halves' sums added and divided by the batch size. -/
theorem meanOf16_apply (S : FVec Ideal S2x16x2 .f32) (o : Fin 16) :
    meanOf16 S (ix2 o 0) = Ideal.div (∑ c' : Fin 2, S (ix3 c' o 0)) (Ideal.ofBits .f32 0x4A000000#32) :=
  meanOf_apply _ _ _ _ S o

/-- The variance of feature `o`: the two halves' sums of squares added and divided by the batch size, minus the squared
    mean, and the larger of that and zero. -/
theorem varOf16_apply (S : FVec Ideal S2x16x2 .f32) (o : Fin 16) :
    varOf16 S (ix2 o 0)
      = max (Ideal.div (∑ c' : Fin 2, S (ix3 c' o 1)) (Ideal.ofBits .f32 0x4A000000#32)
              - meanOf16 S (ix2 o 0) * meanOf16 S (ix2 o 0)) 0 :=
  varOf_apply _ _ _ _ _ S o

/-- The mean column of 12 features from the partial sums `S`. -/
def meanOf12 (S : FVec Ideal S2x12x2 .f32) : FVec Ideal S12x1 .f32 :=
  meanOf reducesTo_S2x12x2_S12x2_d0 h_S_ slices_S12x2_S12x1_0_0 bcast_S_S12x1 S

/-- The variance column of 12 features from the partial sums `S`. -/
def varOf12 (S : FVec Ideal S2x12x2 .f32) : FVec Ideal S12x1 .f32 :=
  varOf reducesTo_S2x12x2_S12x2_d0 h_S_ slices_S12x2_S12x1_0_0 slices_S12x2_S12x1_0_1 bcast_S_S12x1 S

/-- The mean of feature `o`: the two halves' sums added and divided by the batch size. -/
theorem meanOf12_apply (S : FVec Ideal S2x12x2 .f32) (o : Fin 12) :
    meanOf12 S (ix2 o 0) = Ideal.div (∑ c' : Fin 2, S (ix3 c' o 0)) (Ideal.ofBits .f32 0x4A000000#32) :=
  meanOf_apply _ _ _ _ S o

/-- The variance of feature `o`: the two halves' sums of squares added and divided by the batch size, minus the squared
    mean, and the larger of that and zero. -/
theorem varOf12_apply (S : FVec Ideal S2x12x2 .f32) (o : Fin 12) :
    varOf12 S (ix2 o 0)
      = max (Ideal.div (∑ c' : Fin 2, S (ix3 c' o 1)) (Ideal.ofBits .f32 0x4A000000#32)
              - meanOf12 S (ix2 o 0) * meanOf12 S (ix2 o 0)) 0 :=
  varOf_apply _ _ _ _ _ S o

/-- The mean column of 8 features from the partial sums `S`. -/
def meanOf8 (S : FVec Ideal S2x8x2 .f32) : FVec Ideal S8x1 .f32 :=
  meanOf reducesTo_S2x8x2_S8x2_d0 h_S_ slices_S8x2_S8x1_0_0 bcast_S_S8x1 S

/-- The variance column of 8 features from the partial sums `S`. -/
def varOf8 (S : FVec Ideal S2x8x2 .f32) : FVec Ideal S8x1 .f32 :=
  varOf reducesTo_S2x8x2_S8x2_d0 h_S_ slices_S8x2_S8x1_0_0 slices_S8x2_S8x1_0_1 bcast_S_S8x1 S

/-- The mean of feature `o`: the two halves' sums added and divided by the batch size. -/
theorem meanOf8_apply (S : FVec Ideal S2x8x2 .f32) (o : Fin 8) :
    meanOf8 S (ix2 o 0) = Ideal.div (∑ c' : Fin 2, S (ix3 c' o 0)) (Ideal.ofBits .f32 0x4A000000#32) :=
  meanOf_apply _ _ _ _ S o

/-- The variance of feature `o`: the two halves' sums of squares added and divided by the batch size, minus the squared
    mean, and the larger of that and zero. -/
theorem varOf8_apply (S : FVec Ideal S2x8x2 .f32) (o : Fin 8) :
    varOf8 S (ix2 o 0)
      = max (Ideal.div (∑ c' : Fin 2, S (ix3 c' o 1)) (Ideal.ofBits .f32 0x4A000000#32)
              - meanOf8 S (ix2 o 0) * meanOf8 S (ix2 o 0)) 0 :=
  varOf_apply _ _ _ _ _ S o

/-- The input batch transposed reads, at (k, r), the batch's entry (r, k). -/
theorem transposed_apply (x : FVec Ideal S2097152x8 .f32) (k : Fin 8) (r : Fin 2097152) :
    transpose S8x2097152 [1, 0] x transposes_S2097152x8_S8x2097152_1_0 (ix2 k r) = x (ix2 r k) :=
  transpose_ix2_apply x _ k r

/-- The last layer's row of outputs viewed as a column reads, at (r, 0), the row's entry (0, r). -/
theorem resultColumn_apply (x : FVec Ideal S1x2097152 .f32) (r : Fin 2097152) :
    shapeCast S2097152x1 x shapeCasts_S1x2097152_S2097152x1 (ix2 r 0) = x (ix2 0 r) :=
  shapeCast_1n_n1_apply x _ r 0

/-- A vector of 16 viewed as a column reads, at (o, 0), the vector's entry o. -/
theorem column16_apply (v : FVec Ideal S16 .f32) (o : Fin 16) :
    shapeCast S16x1 v shapeCasts_S16_S16x1 (ix2 o 0) = v (ix1 o) :=
  shapeCast_apply v _ _ _ (by
    rw [Shape.rowMajor_val_one, Shape.rowMajor_val_two]
    show o.val = o.val * 1 + (0 : Fin 1).val
    simp)

/-- A vector of 12 viewed as a column reads, at (o, 0), the vector's entry o. -/
theorem column12_apply (v : FVec Ideal S12 .f32) (o : Fin 12) :
    shapeCast S12x1 v shapeCasts_S12_S12x1 (ix2 o 0) = v (ix1 o) :=
  shapeCast_apply v _ _ _ (by
    rw [Shape.rowMajor_val_one, Shape.rowMajor_val_two]
    show o.val = o.val * 1 + (0 : Fin 1).val
    simp)

/-- A vector of 8 viewed as a column reads, at (o, 0), the vector's entry o. -/
theorem column8_apply (v : FVec Ideal S8 .f32) (o : Fin 8) :
    shapeCast S8x1 v shapeCasts_S8_S8x1 (ix2 o 0) = v (ix1 o) :=
  shapeCast_apply v _ _ _ (by
    rw [Shape.rowMajor_val_one, Shape.rowMajor_val_two]
    show o.val = o.val * 1 + (0 : Fin 1).val
    simp)

/-- A vector of 1 viewed as a column reads, at (o, 0), the vector's entry o. -/
theorem column1_apply (v : FVec Ideal S1 .f32) (o : Fin 1) :
    shapeCast S1x1 v shapeCasts_S1_S1x1 (ix2 o 0) = v (ix1 o) :=
  shapeCast_apply v _ _ _ (by
    rw [Shape.rowMajor_val_one, Shape.rowMajor_val_two]
    show o.val = o.val * 1 + (0 : Fin 1).val
    simp)

end Cert.KernelIdeal.Net

end
-- ==== Proof.HostReads01.lean ====
/-
  What each kernel region finds in its input arrays, as terms over the launch memory and over the arrays the region before
  leaves.  A region's input array is one of: a weight matrix, untouched since the launch; a weight vector viewed as a
  column by a host operation just before the region; the input batch transposed; the activations the region before
  wrote; or the mean and variance columns the host computes from the partial sums the region before wrote.  Each
  statement unfolds the stretch of host operations before the region down to the buffers it reads, and reads those at
  the boundary before.  Regions 0 and 1.
-/
import proofs.«114887_j65481071405707_2_alg».proof.Proof.HostCarryA
import proofs.«114887_j65481071405707_2_alg».proof.Proof.HostReadsStats

set_option maxRecDepth 16384

noncomputable section

namespace Cert.KernelIdeal.Net

open Cert.KernelIdeal Cert.KernelIdeal.Gen
open Idealize.ShloMosaic Idealize.ShloMosaic.TcCoe Idealize.ShloMosaic.ValueIdx
open Cert.FoldEval

variable (m : (ℓ : Loc nD τ sig) → Buf (Elt Ideal) ℓ) (ρ : Dev nD → PrngReg)

/-! ## Region 0 -/

/-- Region 0, window 0: the input batch, transposed. -/
theorem entry0_0 (c : Dev nD) :
    V1 m ρ c (Pipeline.arrRef spec0 0) = transpose S8x2097152 [1, 0] (m ((c : Thread nD τ).loc main_arg0)) transposes_S2097152x8_S8x2097152_1_0 := by
  show StableHlo.after hostOps0 (W0 m ρ c) (Proc.devRef .tc main_v0) = _
  fold_eval <;> rfl

/-- Region 0, window 1: a weight matrix, as launched. -/
theorem entry0_1 (c : Dev nD) :
    V1 m ρ c (Pipeline.arrRef spec0 1) = m ((c : Thread nD τ).loc main_arg1) := by
  show StableHlo.after hostOps0 (W0 m ρ c) (Proc.devRef .tc main_arg1) = _
  fold_eval <;> rfl

/-- Region 0, window 2: a weight vector viewed as a column. -/
theorem entry0_2 (c : Dev nD) :
    V1 m ρ c (Pipeline.arrRef spec0 2) = shapeCast S16x1 (m ((c : Thread nD τ).loc main_arg2)) shapeCasts_S16_S16x1 := by
  show StableHlo.after hostOps0 (W0 m ρ c) (Proc.devRef .tc main_v1) = _
  fold_eval <;> rfl

/-! ## Region 1 -/

/-- Region 1, window 0: the input batch, transposed: the first region leaves its input as entered. -/
theorem entry1_0 (c : Dev nD) :
    V3 m ρ c (Pipeline.arrRef spec1 0) = transpose S8x2097152 [1, 0] (m ((c : Thread nD τ).loc main_arg0)) transposes_S2097152x8_S8x2097152_1_0 := by
  show StableHlo.after hostOps1 (W2 m ρ c) (Proc.devRef .tc main_v0) = _
  fold_eval
  exact ((W2_arr m ρ c 0).trans (((dat0 (V1 m ρ) c).arrAt_in 0 rfl _).trans (A_eq0 (V1 m ρ) c 0))).trans (entry0_0 m ρ c)

/-- Region 1, window 1: a weight matrix, as launched. -/
theorem entry1_1 (c : Dev nD) :
    V3 m ρ c (Pipeline.arrRef spec1 1) = m ((c : Thread nD τ).loc main_arg1) := by
  show StableHlo.after hostOps1 (W2 m ρ c) (Proc.devRef .tc main_arg1) = _
  fold_eval <;> exact W2_arg1 m ρ c

/-- Region 1, window 2: a weight vector viewed as a column. -/
theorem entry1_2 (c : Dev nD) :
    V3 m ρ c (Pipeline.arrRef spec1 2) = shapeCast S16x1 (m ((c : Thread nD τ).loc main_arg2)) shapeCasts_S16_S16x1 := by
  show StableHlo.after hostOps1 (W2 m ρ c) (Proc.devRef .tc main_v14) = _
  fold_eval
  rw [W2_arg2 m ρ c]
  rfl

/-- Region 1, window 3: a weight vector viewed as a column. -/
theorem entry1_3 (c : Dev nD) :
    V3 m ρ c (Pipeline.arrRef spec1 3) = shapeCast S16x1 (m ((c : Thread nD τ).loc main_arg3)) shapeCasts_S16_S16x1 := by
  show StableHlo.after hostOps1 (W2 m ρ c) (Proc.devRef .tc main_v15) = _
  fold_eval
  rw [W2_arg3 m ρ c]
  rfl

/-- Region 1, window 4: a weight vector viewed as a column. -/
theorem entry1_4 (c : Dev nD) :
    V3 m ρ c (Pipeline.arrRef spec1 4) = shapeCast S16x1 (m ((c : Thread nD τ).loc main_arg4)) shapeCasts_S16_S16x1 := by
  show StableHlo.after hostOps1 (W2 m ρ c) (Proc.devRef .tc main_v16) = _
  fold_eval
  rw [W2_arg4 m ρ c]
  rfl

/-- Region 1, window 5: the mean column, from the partial sums the region before leaves. -/
theorem entry1_5 (c : Dev nD) :
    V3 m ρ c (Pipeline.arrRef spec1 5) = meanOf16 ((dat0 (V1 m ρ) c).arrAt 3 cfg0.N) := by
  show StableHlo.after hostOps1 (W2 m ρ c) (Proc.devRef .tc main_v6) = _
  fold_eval
  rw [show W2 m ρ c (Proc.devRef .tc main_v2) = (dat0 (V1 m ρ) c).arrAt 3 cfg0.N from W2_arr m ρ c 3]
  rfl

/-- Region 1, window 6: the variance column, from the partial sums the region before leaves. -/
theorem entry1_6 (c : Dev nD) :
    V3 m ρ c (Pipeline.arrRef spec1 6) = varOf16 ((dat0 (V1 m ρ) c).arrAt 3 cfg0.N) := by
  show StableHlo.after hostOps1 (W2 m ρ c) (Proc.devRef .tc main_v13) = _
  fold_eval
  rw [show W2 m ρ c (Proc.devRef .tc main_v2) = (dat0 (V1 m ρ) c).arrAt 3 cfg0.N from W2_arr m ρ c 3]
  rfl

/-- Region 1, window 7: a weight matrix, as launched. -/
theorem entry1_7 (c : Dev nD) :
    V3 m ρ c (Pipeline.arrRef spec1 7) = m ((c : Thread nD τ).loc main_arg5) := by
  show StableHlo.after hostOps1 (W2 m ρ c) (Proc.devRef .tc main_arg5) = _
  fold_eval <;> exact W2_arg5 m ρ c

/-- Region 1, window 8: a weight vector viewed as a column. -/
theorem entry1_8 (c : Dev nD) :
    V3 m ρ c (Pipeline.arrRef spec1 8) = shapeCast S16x1 (m ((c : Thread nD τ).loc main_arg6)) shapeCasts_S16_S16x1 := by
  show StableHlo.after hostOps1 (W2 m ρ c) (Proc.devRef .tc main_v17) = _
  fold_eval
  rw [W2_arg6 m ρ c]
  rfl

end Cert.KernelIdeal.Net

end
-- ==== Proof.HostReads23.lean ====
/-
  What each kernel region finds in its input arrays, as terms over the launch memory and over the arrays the region before
  leaves.  A region's input array is one of: a weight matrix, untouched since the launch; a weight vector viewed as a
  column by a host operation just before the region; the input batch transposed; the activations the region before
  wrote; or the mean and variance columns the host computes from the partial sums the region before wrote.  Each
  statement unfolds the stretch of host operations before the region down to the buffers it reads, and reads those at
  the boundary before.  Regions 2 and 3.
-/
import proofs.«114887_j65481071405707_2_alg».proof.Proof.HostCarryB
import proofs.«114887_j65481071405707_2_alg».proof.Proof.HostReads01

set_option maxRecDepth 16384

noncomputable section

namespace Cert.KernelIdeal.Net

open Cert.KernelIdeal Cert.KernelIdeal.Gen
open Idealize.ShloMosaic Idealize.ShloMosaic.TcCoe Idealize.ShloMosaic.ValueIdx
open Cert.FoldEval

variable (m : (ℓ : Loc nD τ sig) → Buf (Elt Ideal) ℓ) (ρ : Dev nD → PrngReg)

/-! ## Region 2 -/

/-- Region 2, window 0: the activations the region before leaves. -/
theorem entry2_0 (c : Dev nD) :
    V5 m ρ c (Pipeline.arrRef spec2 0) = (dat1 (V3 m ρ) c).arrAt 9 cfg1.N := by
  show StableHlo.after hostOps2 (W4 m ρ c) (Proc.devRef .tc main_v18_0) = _
  fold_eval <;> exact W4_arr m ρ c 9

/-- Region 2, window 1: a weight matrix, as launched. -/
theorem entry2_1 (c : Dev nD) :
    V5 m ρ c (Pipeline.arrRef spec2 1) = m ((c : Thread nD τ).loc main_arg5) := by
  show StableHlo.after hostOps2 (W4 m ρ c) (Proc.devRef .tc main_arg5) = _
  fold_eval <;> exact W4_arg5 m ρ c

/-- Region 2, window 2: a weight vector viewed as a column. -/
theorem entry2_2 (c : Dev nD) :
    V5 m ρ c (Pipeline.arrRef spec2 2) = shapeCast S16x1 (m ((c : Thread nD τ).loc main_arg6)) shapeCasts_S16_S16x1 := by
  show StableHlo.after hostOps2 (W4 m ρ c) (Proc.devRef .tc main_v30) = _
  fold_eval
  rw [W4_arg6 m ρ c]
  rfl

/-- Region 2, window 3: a weight vector viewed as a column. -/
theorem entry2_3 (c : Dev nD) :
    V5 m ρ c (Pipeline.arrRef spec2 3) = shapeCast S16x1 (m ((c : Thread nD τ).loc main_arg7)) shapeCasts_S16_S16x1 := by
  show StableHlo.after hostOps2 (W4 m ρ c) (Proc.devRef .tc main_v31) = _
  fold_eval
  rw [W4_arg7 m ρ c]
  rfl

/-- Region 2, window 4: a weight vector viewed as a column. -/
theorem entry2_4 (c : Dev nD) :
    V5 m ρ c (Pipeline.arrRef spec2 4) = shapeCast S16x1 (m ((c : Thread nD τ).loc main_arg8)) shapeCasts_S16_S16x1 := by
  show StableHlo.after hostOps2 (W4 m ρ c) (Proc.devRef .tc main_v32) = _
  fold_eval
  rw [W4_arg8 m ρ c]
  rfl

/-- Region 2, window 5: the mean column, from the partial sums the region before leaves. -/
theorem entry2_5 (c : Dev nD) :
    V5 m ρ c (Pipeline.arrRef spec2 5) = meanOf16 ((dat1 (V3 m ρ) c).arrAt 10 cfg1.N) := by
  show StableHlo.after hostOps2 (W4 m ρ c) (Proc.devRef .tc main_v22) = _
  fold_eval
  rw [show W4 m ρ c (Proc.devRef .tc main_v18_1) = (dat1 (V3 m ρ) c).arrAt 10 cfg1.N from W4_arr m ρ c 10]
  rfl

/-- Region 2, window 6: the variance column, from the partial sums the region before leaves. -/
theorem entry2_6 (c : Dev nD) :
    V5 m ρ c (Pipeline.arrRef spec2 6) = varOf16 ((dat1 (V3 m ρ) c).arrAt 10 cfg1.N) := by
  show StableHlo.after hostOps2 (W4 m ρ c) (Proc.devRef .tc main_v29) = _
  fold_eval
  rw [show W4 m ρ c (Proc.devRef .tc main_v18_1) = (dat1 (V3 m ρ) c).arrAt 10 cfg1.N from W4_arr m ρ c 10]
  rfl

/-- Region 2, window 7: a weight matrix, as launched. -/
theorem entry2_7 (c : Dev nD) :
    V5 m ρ c (Pipeline.arrRef spec2 7) = m ((c : Thread nD τ).loc main_arg9) := by
  show StableHlo.after hostOps2 (W4 m ρ c) (Proc.devRef .tc main_arg9) = _
  fold_eval <;> exact W4_arg9 m ρ c

/-- Region 2, window 8: a weight vector viewed as a column. -/
theorem entry2_8 (c : Dev nD) :
    V5 m ρ c (Pipeline.arrRef spec2 8) = shapeCast S12x1 (m ((c : Thread nD τ).loc main_arg10)) shapeCasts_S12_S12x1 := by
  show StableHlo.after hostOps2 (W4 m ρ c) (Proc.devRef .tc main_v33) = _
  fold_eval
  rw [W4_arg10 m ρ c]
  rfl

/-! ## Region 3 -/

/-- Region 3, window 0: the activations the region before leaves. -/
theorem entry3_0 (c : Dev nD) :
    V7 m ρ c (Pipeline.arrRef spec3 0) = (dat2 (V5 m ρ) c).arrAt 9 cfg2.N := by
  show StableHlo.after hostOps3 (W6 m ρ c) (Proc.devRef .tc main_v34_0) = _
  fold_eval <;> exact W6_arr m ρ c 9

/-- Region 3, window 1: a weight matrix, as launched. -/
theorem entry3_1 (c : Dev nD) :
    V7 m ρ c (Pipeline.arrRef spec3 1) = m ((c : Thread nD τ).loc main_arg9) := by
  show StableHlo.after hostOps3 (W6 m ρ c) (Proc.devRef .tc main_arg9) = _
  fold_eval <;> exact W6_arg9 m ρ c

/-- Region 3, window 2: a weight vector viewed as a column. -/
theorem entry3_2 (c : Dev nD) :
    V7 m ρ c (Pipeline.arrRef spec3 2) = shapeCast S12x1 (m ((c : Thread nD τ).loc main_arg10)) shapeCasts_S12_S12x1 := by
  show StableHlo.after hostOps3 (W6 m ρ c) (Proc.devRef .tc main_v46) = _
  fold_eval
  rw [W6_arg10 m ρ c]
  rfl

/-- Region 3, window 3: a weight vector viewed as a column. -/
theorem entry3_3 (c : Dev nD) :
    V7 m ρ c (Pipeline.arrRef spec3 3) = shapeCast S12x1 (m ((c : Thread nD τ).loc main_arg11)) shapeCasts_S12_S12x1 := by
  show StableHlo.after hostOps3 (W6 m ρ c) (Proc.devRef .tc main_v47) = _
  fold_eval
  rw [W6_arg11 m ρ c]
  rfl

/-- Region 3, window 4: a weight vector viewed as a column. -/
theorem entry3_4 (c : Dev nD) :
    V7 m ρ c (Pipeline.arrRef spec3 4) = shapeCast S12x1 (m ((c : Thread nD τ).loc main_arg12)) shapeCasts_S12_S12x1 := by
  show StableHlo.after hostOps3 (W6 m ρ c) (Proc.devRef .tc main_v48) = _
  fold_eval
  rw [W6_arg12 m ρ c]
  rfl

/-- Region 3, window 5: the mean column, from the partial sums the region before leaves. -/
theorem entry3_5 (c : Dev nD) :
    V7 m ρ c (Pipeline.arrRef spec3 5) = meanOf12 ((dat2 (V5 m ρ) c).arrAt 10 cfg2.N) := by
  show StableHlo.after hostOps3 (W6 m ρ c) (Proc.devRef .tc main_v38) = _
  fold_eval
  rw [show W6 m ρ c (Proc.devRef .tc main_v34_1) = (dat2 (V5 m ρ) c).arrAt 10 cfg2.N from W6_arr m ρ c 10]
  rfl

/-- Region 3, window 6: the variance column, from the partial sums the region before leaves. -/
theorem entry3_6 (c : Dev nD) :
    V7 m ρ c (Pipeline.arrRef spec3 6) = varOf12 ((dat2 (V5 m ρ) c).arrAt 10 cfg2.N) := by
  show StableHlo.after hostOps3 (W6 m ρ c) (Proc.devRef .tc main_v45) = _
  fold_eval
  rw [show W6 m ρ c (Proc.devRef .tc main_v34_1) = (dat2 (V5 m ρ) c).arrAt 10 cfg2.N from W6_arr m ρ c 10]
  rfl

/-- Region 3, window 7: a weight matrix, as launched. -/
theorem entry3_7 (c : Dev nD) :
    V7 m ρ c (Pipeline.arrRef spec3 7) = m ((c : Thread nD τ).loc main_arg13) := by
  show StableHlo.after hostOps3 (W6 m ρ c) (Proc.devRef .tc main_arg13) = _
  fold_eval <;> exact W6_arg13 m ρ c

/-- Region 3, window 8: a weight vector viewed as a column. -/
theorem entry3_8 (c : Dev nD) :
    V7 m ρ c (Pipeline.arrRef spec3 8) = shapeCast S12x1 (m ((c : Thread nD τ).loc main_arg14)) shapeCasts_S12_S12x1 := by
  show StableHlo.after hostOps3 (W6 m ρ c) (Proc.devRef .tc main_v49) = _
  fold_eval
  rw [W6_arg14 m ρ c]
  rfl

end Cert.KernelIdeal.Net

end
-- ==== Proof.HostReads45.lean ====
/-
  What each kernel region finds in its input arrays, as terms over the launch memory and over the arrays the region before
  leaves.  A region's input array is one of: a weight matrix, untouched since the launch; a weight vector viewed as a
  column by a host operation just before the region; the input batch transposed; the activations the region before
  wrote; or the mean and variance columns the host computes from the partial sums the region before wrote.  Each
  statement unfolds the stretch of host operations before the region down to the buffers it reads, and reads those at
  the boundary before.  Regions 4 and 5, and the program's result.
-/
import proofs.«114887_j65481071405707_2_alg».proof.Proof.HostCarryC
import proofs.«114887_j65481071405707_2_alg».proof.Proof.HostReads23

set_option maxRecDepth 16384

noncomputable section

namespace Cert.KernelIdeal.Net

open Cert.KernelIdeal Cert.KernelIdeal.Gen
open Idealize.ShloMosaic Idealize.ShloMosaic.TcCoe Idealize.ShloMosaic.ValueIdx
open Cert.FoldEval

variable (m : (ℓ : Loc nD τ sig) → Buf (Elt Ideal) ℓ) (ρ : Dev nD → PrngReg)

/-! ## Region 4 -/

/-- Region 4, window 0: the activations the region before leaves. -/
theorem entry4_0 (c : Dev nD) :
    V9 m ρ c (Pipeline.arrRef spec4 0) = (dat3 (V7 m ρ) c).arrAt 9 cfg3.N := by
  show StableHlo.after hostOps4 (W8 m ρ c) (Proc.devRef .tc main_v50_0) = _
  fold_eval <;> exact W8_arr m ρ c 9

/-- Region 4, window 1: a weight matrix, as launched. -/
theorem entry4_1 (c : Dev nD) :
    V9 m ρ c (Pipeline.arrRef spec4 1) = m ((c : Thread nD τ).loc main_arg13) := by
  show StableHlo.after hostOps4 (W8 m ρ c) (Proc.devRef .tc main_arg13) = _
  fold_eval <;> exact W8_arg13 m ρ c

/-- Region 4, window 2: a weight vector viewed as a column. -/
theorem entry4_2 (c : Dev nD) :
    V9 m ρ c (Pipeline.arrRef spec4 2) = shapeCast S12x1 (m ((c : Thread nD τ).loc main_arg14)) shapeCasts_S12_S12x1 := by
  show StableHlo.after hostOps4 (W8 m ρ c) (Proc.devRef .tc main_v62) = _
  fold_eval
  rw [W8_arg14 m ρ c]
  rfl

/-- Region 4, window 3: a weight vector viewed as a column. -/
theorem entry4_3 (c : Dev nD) :
    V9 m ρ c (Pipeline.arrRef spec4 3) = shapeCast S12x1 (m ((c : Thread nD τ).loc main_arg15)) shapeCasts_S12_S12x1 := by
  show StableHlo.after hostOps4 (W8 m ρ c) (Proc.devRef .tc main_v63) = _
  fold_eval
  rw [W8_arg15 m ρ c]
  rfl

/-- Region 4, window 4: a weight vector viewed as a column. -/
theorem entry4_4 (c : Dev nD) :
    V9 m ρ c (Pipeline.arrRef spec4 4) = shapeCast S12x1 (m ((c : Thread nD τ).loc main_arg16)) shapeCasts_S12_S12x1 := by
  show StableHlo.after hostOps4 (W8 m ρ c) (Proc.devRef .tc main_v64) = _
  fold_eval
  rw [W8_arg16 m ρ c]
  rfl

/-- Region 4, window 5: the mean column, from the partial sums the region before leaves. -/
theorem entry4_5 (c : Dev nD) :
    V9 m ρ c (Pipeline.arrRef spec4 5) = meanOf12 ((dat3 (V7 m ρ) c).arrAt 10 cfg3.N) := by
  show StableHlo.after hostOps4 (W8 m ρ c) (Proc.devRef .tc main_v54) = _
  fold_eval
  rw [show W8 m ρ c (Proc.devRef .tc main_v50_1) = (dat3 (V7 m ρ) c).arrAt 10 cfg3.N from W8_arr m ρ c 10]
  rfl

/-- Region 4, window 6: the variance column, from the partial sums the region before leaves. -/
theorem entry4_6 (c : Dev nD) :
    V9 m ρ c (Pipeline.arrRef spec4 6) = varOf12 ((dat3 (V7 m ρ) c).arrAt 10 cfg3.N) := by
  show StableHlo.after hostOps4 (W8 m ρ c) (Proc.devRef .tc main_v61) = _
  fold_eval
  rw [show W8 m ρ c (Proc.devRef .tc main_v50_1) = (dat3 (V7 m ρ) c).arrAt 10 cfg3.N from W8_arr m ρ c 10]
  rfl

/-- Region 4, window 7: a weight matrix, as launched. -/
theorem entry4_7 (c : Dev nD) :
    V9 m ρ c (Pipeline.arrRef spec4 7) = m ((c : Thread nD τ).loc main_arg17) := by
  show StableHlo.after hostOps4 (W8 m ρ c) (Proc.devRef .tc main_arg17) = _
  fold_eval <;> exact W8_arg17 m ρ c

/-- Region 4, window 8: a weight vector viewed as a column. -/
theorem entry4_8 (c : Dev nD) :
    V9 m ρ c (Pipeline.arrRef spec4 8) = shapeCast S8x1 (m ((c : Thread nD τ).loc main_arg18)) shapeCasts_S8_S8x1 := by
  show StableHlo.after hostOps4 (W8 m ρ c) (Proc.devRef .tc main_v65) = _
  fold_eval
  rw [W8_arg18 m ρ c]
  rfl

/-! ## Region 5 -/

/-- Region 5, window 0: the activations the region before leaves. -/
theorem entry5_0 (c : Dev nD) :
    V11 m ρ c (Pipeline.arrRef spec5 0) = (dat4 (V9 m ρ) c).arrAt 9 cfg4.N := by
  show StableHlo.after hostOps5 (W10 m ρ c) (Proc.devRef .tc main_v66_0) = _
  fold_eval <;> exact W10_arr m ρ c 9

/-- Region 5, window 1: a weight matrix, as launched. -/
theorem entry5_1 (c : Dev nD) :
    V11 m ρ c (Pipeline.arrRef spec5 1) = m ((c : Thread nD τ).loc main_arg17) := by
  show StableHlo.after hostOps5 (W10 m ρ c) (Proc.devRef .tc main_arg17) = _
  fold_eval <;> exact W10_arg17 m ρ c

/-- Region 5, window 2: a weight vector viewed as a column. -/
theorem entry5_2 (c : Dev nD) :
    V11 m ρ c (Pipeline.arrRef spec5 2) = shapeCast S8x1 (m ((c : Thread nD τ).loc main_arg18)) shapeCasts_S8_S8x1 := by
  show StableHlo.after hostOps5 (W10 m ρ c) (Proc.devRef .tc main_v78) = _
  fold_eval
  rw [W10_arg18 m ρ c]
  rfl

/-- Region 5, window 3: a weight vector viewed as a column. -/
theorem entry5_3 (c : Dev nD) :
    V11 m ρ c (Pipeline.arrRef spec5 3) = shapeCast S8x1 (m ((c : Thread nD τ).loc main_arg19)) shapeCasts_S8_S8x1 := by
  show StableHlo.after hostOps5 (W10 m ρ c) (Proc.devRef .tc main_v79) = _
  fold_eval
  rw [W10_arg19 m ρ c]
  rfl

/-- Region 5, window 4: a weight vector viewed as a column. -/
theorem entry5_4 (c : Dev nD) :
    V11 m ρ c (Pipeline.arrRef spec5 4) = shapeCast S8x1 (m ((c : Thread nD τ).loc main_arg20)) shapeCasts_S8_S8x1 := by
  show StableHlo.after hostOps5 (W10 m ρ c) (Proc.devRef .tc main_v80) = _
  fold_eval
  rw [W10_arg20 m ρ c]
  rfl

/-- Region 5, window 5: the mean column, from the partial sums the region before leaves. -/
theorem entry5_5 (c : Dev nD) :
    V11 m ρ c (Pipeline.arrRef spec5 5) = meanOf8 ((dat4 (V9 m ρ) c).arrAt 10 cfg4.N) := by
  show StableHlo.after hostOps5 (W10 m ρ c) (Proc.devRef .tc main_v70) = _
  fold_eval
  rw [show W10 m ρ c (Proc.devRef .tc main_v66_1) = (dat4 (V9 m ρ) c).arrAt 10 cfg4.N from W10_arr m ρ c 10]
  rfl

/-- Region 5, window 6: the variance column, from the partial sums the region before leaves. -/
theorem entry5_6 (c : Dev nD) :
    V11 m ρ c (Pipeline.arrRef spec5 6) = varOf8 ((dat4 (V9 m ρ) c).arrAt 10 cfg4.N) := by
  show StableHlo.after hostOps5 (W10 m ρ c) (Proc.devRef .tc main_v77) = _
  fold_eval
  rw [show W10 m ρ c (Proc.devRef .tc main_v66_1) = (dat4 (V9 m ρ) c).arrAt 10 cfg4.N from W10_arr m ρ c 10]
  rfl

/-- Region 5, window 7: a weight matrix, as launched. -/
theorem entry5_7 (c : Dev nD) :
    V11 m ρ c (Pipeline.arrRef spec5 7) = m ((c : Thread nD τ).loc main_arg21) := by
  show StableHlo.after hostOps5 (W10 m ρ c) (Proc.devRef .tc main_arg21) = _
  fold_eval <;> exact W10_arg21 m ρ c

/-- Region 5, window 8: a weight vector viewed as a column. -/
theorem entry5_8 (c : Dev nD) :
    V11 m ρ c (Pipeline.arrRef spec5 8) = shapeCast S1x1 (m ((c : Thread nD τ).loc main_arg22)) shapeCasts_S1_S1x1 := by
  show StableHlo.after hostOps5 (W10 m ρ c) (Proc.devRef .tc main_v81) = _
  fold_eval
  rw [W10_arg22 m ρ c]
  rfl

/-! ## The result -/

/-- The program's result: the last region's row of outputs viewed as a column. -/
theorem result_eq (c : Dev nD) :
    W13 m ρ c (Proc.devRef .tc main_v83)
      = shapeCast S2097152x1 ((dat5 (V11 m ρ) c).arrAt 9 cfg5.N) shapeCasts_S1x2097152_S2097152x1 := by
  show StableHlo.after hostOps6 (W12 m ρ c) (Proc.devRef .tc main_v83) = _
  fold_eval
  rw [show W12 m ρ c (Proc.devRef .tc main_v82) = (dat5 (V11 m ρ) c).arrAt 9 cfg5.N from W12_arr m ρ c 9]
  rfl

end Cert.KernelIdeal.Net

end
-- ==== Proof.NetSteps.lean ====
/-
  One layer of the network from the arrays a region finds, and the batch statistics from the statistics array.

  The statistics array has two halves; half q holds, for every feature o, the sums over its sixteen tiles of the lane
  sums of the affine map Y = W·A + b of the activation array A: entry (q, o, 0) sums Y(o, ·), entry (q, o, 1) sums
  Y(o, ·)².  Added over the two halves these are the sums over the whole batch, so the host's quotients by the batch
  size are the mean of Y's feature o and, clamped at zero, the mean of its square minus the squared mean.
-/
import proofs.«114887_j65481071405707_2_alg».proof.Proof.Bridge

noncomputable section

namespace Cert.BatchNet.Tile

open Idealize.ShloMosaic Idealize.ShloMosaic.ValueIdx Cert.LibDenseLayers Cert.BatchNet

/-- A column as a function of the feature. -/
def colv {o : ℕ} (b : Mat o 1) : Fin o → EReal := fun q => b (ix2 q (0 : Fin 1))

theorem aff_eq_lin' {o k n : ℕ} (W : Mat o k) (X : Mat k n) (b : Mat o 1) (p : Fin o) (r : Fin n) :
    aff W X b (ix2 p r) = lin (cols X) (rows W) (colv b) r p := aff_eq_lin W X b p r

/-- The skip connection after the block is the network's block with its skip connection. -/
theorem skip_eq_skipBlock (vf : VarFn) {o n : ℕ} (W : Mat o o) (X : Mat o n) (b g be mu var : Mat o 1)
    (hmu : ∀ q, mu (ix2 q (0 : Fin 1)) = mean (lin (cols X) (rows W) (colv b)) q)
    (hvar : ∀ q, var (ix2 q (0 : Fin 1)) = vf (lin (cols X) (rows W) (colv b)) q)
    (p : Fin o) (r : Fin n) :
    skip (bn (aff W X b) g be mu var) X (ix2 p r)
      = skipBlock vf (cols X) (rows W) (colv b) (colv g) (colv be) r p := by
  rw [skip_apply, bn_eq_block vf W X b g be mu var hmu hvar]
  rfl

/-- The first entries of the two halves add up to the sum of the affine map over the batch. -/
theorem halves_sum0 {d k : ℕ} (W : Mat d k) (A : Mat k 2097152) (b : Mat d 1) (o : Fin d)
    (h : ∀ (q : Fin 2) (s : Fin 16), (q.val * 16 + s.val) * 65536 + 65536 ≤ 2097152) :
    ∑ q : Fin 2, (0 + ∑ s : Fin 16, laneSums (aff W (colTile 65536 ((q.val * 16 + s.val) * 65536) (h q s) A) b))
        (ix3 (0 : Fin 1) o (0 : Fin 2))
      = ∑ r : Fin 2097152, aff W A b (ix2 o r) := by
  rw [← sum_batch (fun r => aff W A b (ix2 o r))]
  refine Finset.sum_congr rfl fun q _ => ?_
  rw [Pi.add_apply, Pi.zero_apply, zero_add, Finset.sum_apply]
  refine Finset.sum_congr rfl fun s _ => ?_
  rw [laneSums_apply0, aff_colTile]
  refine Finset.sum_congr rfl fun l _ => ?_
  rw [colTile_apply]

/-- The second entries add up to the sum of its square. -/
theorem halves_sum1 {d k : ℕ} (W : Mat d k) (A : Mat k 2097152) (b : Mat d 1) (o : Fin d)
    (h : ∀ (q : Fin 2) (s : Fin 16), (q.val * 16 + s.val) * 65536 + 65536 ≤ 2097152) :
    ∑ q : Fin 2, (0 + ∑ s : Fin 16, laneSums (aff W (colTile 65536 ((q.val * 16 + s.val) * 65536) (h q s) A) b))
        (ix3 (0 : Fin 1) o (1 : Fin 2))
      = ∑ r : Fin 2097152, aff W A b (ix2 o r) * aff W A b (ix2 o r) := by
  rw [← sum_batch (fun r => aff W A b (ix2 o r) * aff W A b (ix2 o r))]
  refine Finset.sum_congr rfl fun q _ => ?_
  rw [Pi.add_apply, Pi.zero_apply, zero_add, Finset.sum_apply]
  refine Finset.sum_congr rfl fun s _ => ?_
  rw [laneSums_apply1, aff_colTile]
  refine Finset.sum_congr rfl fun l _ => ?_
  rw [colTile_apply]

/-- The host's mean from the statistics array is the mean of the next layer's affine map. -/
theorem mean_of_halves {d k : ℕ} (W : Mat d k) (A : Mat k 2097152) (b : Mat d 1) (o : Fin d)
    (h : ∀ (q : Fin 2) (s : Fin 16), (q.val * 16 + s.val) * 65536 + 65536 ≤ 2097152)
    (S : FVec Ideal ⟨3, ![2, d, 2]⟩ .f32)
    (hS : ∀ (q : Fin 2) (u : Fin 2), S (ix3 q o u)
      = (0 + ∑ s : Fin 16, laneSums (aff W (colTile 65536 ((q.val * 16 + s.val) * 65536) (h q s) A) b))
          (ix3 (0 : Fin 1) o u)) :
    Ideal.div (∑ q : Fin 2, S (ix3 q o (0 : Fin 2))) (Ideal.ofBits .f32 0x4A000000#32)
      = mean (lin (cols A) (rows W) (colv b)) o := by
  rw [Finset.sum_congr rfl fun q _ => hS q 0, halves_sum0]
  show _ = Ideal.div (∑ r, lin (cols A) (rows W) (colv b) r o) cB
  rw [Finset.sum_congr rfl fun r _ => aff_eq_lin' W A b o r]
  rfl

/-- The host's clamped variance from the statistics array is `varSq` of the next layer's affine map. -/
theorem var_of_halves {d k : ℕ} (W : Mat d k) (A : Mat k 2097152) (b : Mat d 1) (o : Fin d)
    (h : ∀ (q : Fin 2) (s : Fin 16), (q.val * 16 + s.val) * 65536 + 65536 ≤ 2097152)
    (S : FVec Ideal ⟨3, ![2, d, 2]⟩ .f32)
    (hS : ∀ (q : Fin 2) (u : Fin 2), S (ix3 q o u)
      = (0 + ∑ s : Fin 16, laneSums (aff W (colTile 65536 ((q.val * 16 + s.val) * 65536) (h q s) A) b))
          (ix3 (0 : Fin 1) o u))
    (m : EReal) (hm : m = mean (lin (cols A) (rows W) (colv b)) o) :
    max (Ideal.div (∑ q : Fin 2, S (ix3 q o (1 : Fin 2))) (Ideal.ofBits .f32 0x4A000000#32) - m * m) 0
      = varSq (lin (cols A) (rows W) (colv b)) o := by
  rw [Finset.sum_congr rfl fun q _ => hS q 1, halves_sum1, hm]
  show _ = max (Ideal.div (∑ r, lin (cols A) (rows W) (colv b) r o * lin (cols A) (rows W) (colv b) r o) cB
    - mean (lin (cols A) (rows W) (colv b)) o * mean (lin (cols A) (rows W) (colv b)) o) 0
  rw [Finset.sum_congr rfl fun r _ => by rw [aff_eq_lin' W A b o r]]
  rfl

end Cert.BatchNet.Tile

end
-- ==== Proof.NetArrays.lean ====
/-
  One layer of the network from the arrays a region finds, with every array named by what it holds.

  A region finds its input feature-major (entry (j, r) is feature j of row r), its weight matrix as stored, and its bias,
  gain, shift, mean and variance as columns.  Once each of these is known to hold the corresponding piece of the network
  — the columns of the input are the previous layer's output, the matrix's rows the layer's weights, the columns the
  layer's vectors, and the mean and variance columns the batch statistics of the layer's affine map — the array the
  region writes is the layer's output, feature-major.  The statistics themselves come from the two halves' partial sums
  of the affine map over the sixteen tiles of each half: added and divided by the batch size they are the mean, and the
  mean of the squares minus the squared mean, clamped below at zero.
-/
import proofs.«114887_j65481071405707_2_alg».proof.Proof.NetSteps
import proofs.«114887_j65481071405707_2_alg».proof.Proof.HostReadsDefs

noncomputable section

namespace Cert.BatchNet.Tile

open Idealize.ShloMosaic Idealize.ShloMosaic.ValueIdx Cert.LibDenseLayers Cert.BatchNet Cert.KernelIdeal.Net

/-- A block: the columns of the normalised affine map are the network's block of the columns of the input. -/
theorem block_of_arrays {o k n : ℕ} (W : Mat o k) (X : Mat k n) (b g be mu var : Mat o 1)
    (xin : Fin n → Fin k → EReal) (w : Fin o → Fin k → EReal) (bv gv bev : Fin o → EReal)
    (hX : cols X = xin) (hW : rows W = w) (hb : colv b = bv) (hg : colv g = gv) (hbe : colv be = bev)
    (hmu : ∀ q, mu (ix2 q (0 : Fin 1)) = mean (lin xin w bv) q)
    (hvar : ∀ q, var (ix2 q (0 : Fin 1)) = varSq (lin xin w bv) q) :
    cols (bn (aff W X b) g be mu var) = block (@varSq) xin w bv gv bev := by
  subst hX hW hb hg hbe
  funext r p
  exact bn_eq_block (@varSq) W X b g be mu var hmu hvar p r

/-- A block with its skip connection. -/
theorem skipBlock_of_arrays {o n : ℕ} (W : Mat o o) (X : Mat o n) (b g be mu var : Mat o 1)
    (xin : Fin n → Fin o → EReal) (w : Fin o → Fin o → EReal) (bv gv bev : Fin o → EReal)
    (hX : cols X = xin) (hW : rows W = w) (hb : colv b = bv) (hg : colv g = gv) (hbe : colv be = bev)
    (hmu : ∀ q, mu (ix2 q (0 : Fin 1)) = mean (lin xin w bv) q)
    (hvar : ∀ q, var (ix2 q (0 : Fin 1)) = varSq (lin xin w bv) q) :
    cols (skip (bn (aff W X b) g be mu var) X) = skipBlock (@varSq) xin w bv gv bev := by
  subst hX hW hb hg hbe
  funext r p
  exact skip_eq_skipBlock (@varSq) W X b g be mu var hmu hvar p r

/-- The last affine map: its one feature at row `r`. -/
theorem lin_of_arrays {o k n : ℕ} (W : Mat o k) (X : Mat k n) (b : Mat o 1)
    (xin : Fin n → Fin k → EReal) (w : Fin o → Fin k → EReal) (bv : Fin o → EReal)
    (hX : cols X = xin) (hW : rows W = w) (hb : colv b = bv) (p : Fin o) (r : Fin n) :
    aff W X b (ix2 p r) = lin xin w bv r p := by
  subst hX hW hb
  exact aff_eq_lin' W X b p r

/-- The mean and variance columns the host computes from the two halves' partial sums of the affine map `W·A + b`
    are the batch mean of that map and the mean of its square minus the squared mean, clamped below at zero. -/
theorem stats_of_arrays {d k : ℕ}
    (hr : (⟨3, ![2, d, 2]⟩ : Shape).ReducesTo [0] ⟨2, ![d, 2]⟩) (hu : 0 < (⟨0, ![]⟩ : Shape).numel)
    (hs : (⟨2, ![d, 2]⟩ : Shape).Slices ![0, 0] ⟨2, ![d, 1]⟩)
    (hs' : (⟨2, ![d, 2]⟩ : Shape).Slices ![0, 1] ⟨2, ![d, 1]⟩)
    (hb : (⟨0, ![]⟩ : Shape).BroadcastsInDim ⟨2, ![d, 1]⟩ (![] : Fin 0 → Fin 2))
    (W : Mat d k) (A : Mat k 2097152) (b : Mat d 1) (S : FVec Ideal ⟨3, ![2, d, 2]⟩ .f32)
    (tl : ∀ (q : Fin 2) (s : Fin 16), (q.val * 16 + s.val) * 65536 + 65536 ≤ 2097152)
    (hS : ∀ (q : Fin 2) (o : Fin d) (u : Fin 2), S (ix3 q o u)
      = (0 + ∑ s : Fin 16, laneSums (aff W (colTile 65536 ((q.val * 16 + s.val) * 65536) (tl q s) A) b))
          (ix3 (0 : Fin 1) o u))
    (a : Fin 2097152 → Fin k → EReal) (w : Fin d → Fin k → EReal) (bv : Fin d → EReal)
    (hA : cols A = a) (hW : rows W = w) (hbv : colv b = bv) (o : Fin d) :
    meanOf hr hu hs hb S (ix2 o 0) = mean (lin a w bv) o
      ∧ varOf hr hu hs hs' hb S (ix2 o 0) = varSq (lin a w bv) o := by
  subst hA hW hbv
  have hm : meanOf hr hu hs hb S (ix2 o 0) = mean (lin (cols A) (rows W) (colv b)) o := by
    rw [meanOf_apply]
    exact mean_of_halves W A b o tl S (fun q u => hS q o u)
  refine ⟨hm, ?_⟩
  rw [varOf_apply]
  exact var_of_halves W A b o tl S (fun q u => hS q o u) _ hm

end Cert.BatchNet.Tile

end
-- ==== Proof.KernelNetIn.lean ====
/-
  What each kernel region finds in its input arrays, in the network's terms.  The first two regions find the input batch
  feature-major, so its columns are the batch's rows; a weight matrix is found as launched, so its rows are the layer's
  weights; a bias, gain or shift vector is found as a column whose entries are the vector's.
-/
import proofs.«114887_j65481071405707_2_alg».proof.Proof.HostReads45
import proofs.«114887_j65481071405707_2_alg».proof.Proof.NetArrays

set_option maxRecDepth 16384

noncomputable section

namespace Cert.KernelIdeal.Net

open Cert.KernelIdeal Cert.KernelIdeal.Gen
open Idealize.ShloMosaic Idealize.ShloMosaic.TcCoe Idealize.ShloMosaic.ValueIdx
open Cert.FoldEval
open Cert.BatchNet Cert.BatchNet.Tile Cert.LibDenseLayers

variable (m : (ℓ : Loc nD τ sig) → Buf (Elt Ideal) ℓ) (ρ : Dev nD → PrngReg)

/-! ## Region 0 -/

/-- Region 0's input, feature-major: its columns are the rows of the batch. -/
theorem colsIn0_0 (c : Dev nD) :
    cols (V1 m ρ c (Pipeline.arrRef spec0 0) : Mat 8 2097152) = rows (m ((c : Thread nD τ).loc main_arg0) : FVec Ideal ⟨2, ![2097152, 8]⟩ .f32) := by
  funext r j
  show (V1 m ρ c (Pipeline.arrRef spec0 0) : Mat 8 2097152) (ix2 j r) = _
  rw [entry0_0 m ρ c]
  exact transposed_apply _ j r

/-- Region 0, window 1: the rows of a weight matrix. -/
theorem rowsIn0_1 (c : Dev nD) :
    rows (V1 m ρ c (Pipeline.arrRef spec0 1) : Mat 16 8) = rows (m ((c : Thread nD τ).loc main_arg1) : FVec Ideal ⟨2, ![16, 8]⟩ .f32) :=
  congrArg (rows (n := 16) (d := 8)) (entry0_1 m ρ c)

/-- Region 0, window 2: a weight vector stored as a column. -/
theorem colvIn0_2 (c : Dev nD) :
    colv (V1 m ρ c (Pipeline.arrRef spec0 2) : Mat 16 1) = vec (m ((c : Thread nD τ).loc main_arg2) : FVec Ideal ⟨1, ![16]⟩ .f32) := by
  funext q
  show (V1 m ρ c (Pipeline.arrRef spec0 2) : Mat 16 1) (ix2 q (0 : Fin 1)) = (m ((c : Thread nD τ).loc main_arg2) : FVec Ideal ⟨1, ![16]⟩ .f32) (ix1 q)
  rw [entry0_2 m ρ c]
  exact column16_apply _ q

/-! ## Region 1 -/

/-- Region 1's input, feature-major: its columns are the rows of the batch. -/
theorem colsIn1_0 (c : Dev nD) :
    cols (V3 m ρ c (Pipeline.arrRef spec1 0) : Mat 8 2097152) = rows (m ((c : Thread nD τ).loc main_arg0) : FVec Ideal ⟨2, ![2097152, 8]⟩ .f32) := by
  funext r j
  show (V3 m ρ c (Pipeline.arrRef spec1 0) : Mat 8 2097152) (ix2 j r) = _
  rw [entry1_0 m ρ c]
  exact transposed_apply _ j r

/-- Region 1, window 1: the rows of a weight matrix. -/
theorem rowsIn1_1 (c : Dev nD) :
    rows (V3 m ρ c (Pipeline.arrRef spec1 1) : Mat 16 8) = rows (m ((c : Thread nD τ).loc main_arg1) : FVec Ideal ⟨2, ![16, 8]⟩ .f32) :=
  congrArg (rows (n := 16) (d := 8)) (entry1_1 m ρ c)

/-- Region 1, window 2: a weight vector stored as a column. -/
theorem colvIn1_2 (c : Dev nD) :
    colv (V3 m ρ c (Pipeline.arrRef spec1 2) : Mat 16 1) = vec (m ((c : Thread nD τ).loc main_arg2) : FVec Ideal ⟨1, ![16]⟩ .f32) := by
  funext q
  show (V3 m ρ c (Pipeline.arrRef spec1 2) : Mat 16 1) (ix2 q (0 : Fin 1)) = (m ((c : Thread nD τ).loc main_arg2) : FVec Ideal ⟨1, ![16]⟩ .f32) (ix1 q)
  rw [entry1_2 m ρ c]
  exact column16_apply _ q

/-- Region 1, window 3: a weight vector stored as a column. -/
theorem colvIn1_3 (c : Dev nD) :
    colv (V3 m ρ c (Pipeline.arrRef spec1 3) : Mat 16 1) = vec (m ((c : Thread nD τ).loc main_arg3) : FVec Ideal ⟨1, ![16]⟩ .f32) := by
  funext q
  show (V3 m ρ c (Pipeline.arrRef spec1 3) : Mat 16 1) (ix2 q (0 : Fin 1)) = (m ((c : Thread nD τ).loc main_arg3) : FVec Ideal ⟨1, ![16]⟩ .f32) (ix1 q)
  rw [entry1_3 m ρ c]
  exact column16_apply _ q

/-- Region 1, window 4: a weight vector stored as a column. -/
theorem colvIn1_4 (c : Dev nD) :
    colv (V3 m ρ c (Pipeline.arrRef spec1 4) : Mat 16 1) = vec (m ((c : Thread nD τ).loc main_arg4) : FVec Ideal ⟨1, ![16]⟩ .f32) := by
  funext q
  show (V3 m ρ c (Pipeline.arrRef spec1 4) : Mat 16 1) (ix2 q (0 : Fin 1)) = (m ((c : Thread nD τ).loc main_arg4) : FVec Ideal ⟨1, ![16]⟩ .f32) (ix1 q)
  rw [entry1_4 m ρ c]
  exact column16_apply _ q

/-- Region 1, window 7: the rows of a weight matrix. -/
theorem rowsIn1_7 (c : Dev nD) :
    rows (V3 m ρ c (Pipeline.arrRef spec1 7) : Mat 16 16) = rows (m ((c : Thread nD τ).loc main_arg5) : FVec Ideal ⟨2, ![16, 16]⟩ .f32) :=
  congrArg (rows (n := 16) (d := 16)) (entry1_7 m ρ c)

/-- Region 1, window 8: a weight vector stored as a column. -/
theorem colvIn1_8 (c : Dev nD) :
    colv (V3 m ρ c (Pipeline.arrRef spec1 8) : Mat 16 1) = vec (m ((c : Thread nD τ).loc main_arg6) : FVec Ideal ⟨1, ![16]⟩ .f32) := by
  funext q
  show (V3 m ρ c (Pipeline.arrRef spec1 8) : Mat 16 1) (ix2 q (0 : Fin 1)) = (m ((c : Thread nD τ).loc main_arg6) : FVec Ideal ⟨1, ![16]⟩ .f32) (ix1 q)
  rw [entry1_8 m ρ c]
  exact column16_apply _ q

/-! ## Region 2 -/

/-- Region 2, window 1: the rows of a weight matrix. -/
theorem rowsIn2_1 (c : Dev nD) :
    rows (V5 m ρ c (Pipeline.arrRef spec2 1) : Mat 16 16) = rows (m ((c : Thread nD τ).loc main_arg5) : FVec Ideal ⟨2, ![16, 16]⟩ .f32) :=
  congrArg (rows (n := 16) (d := 16)) (entry2_1 m ρ c)

/-- Region 2, window 2: a weight vector stored as a column. -/
theorem colvIn2_2 (c : Dev nD) :
    colv (V5 m ρ c (Pipeline.arrRef spec2 2) : Mat 16 1) = vec (m ((c : Thread nD τ).loc main_arg6) : FVec Ideal ⟨1, ![16]⟩ .f32) := by
  funext q
  show (V5 m ρ c (Pipeline.arrRef spec2 2) : Mat 16 1) (ix2 q (0 : Fin 1)) = (m ((c : Thread nD τ).loc main_arg6) : FVec Ideal ⟨1, ![16]⟩ .f32) (ix1 q)
  rw [entry2_2 m ρ c]
  exact column16_apply _ q

/-- Region 2, window 3: a weight vector stored as a column. -/
theorem colvIn2_3 (c : Dev nD) :
    colv (V5 m ρ c (Pipeline.arrRef spec2 3) : Mat 16 1) = vec (m ((c : Thread nD τ).loc main_arg7) : FVec Ideal ⟨1, ![16]⟩ .f32) := by
  funext q
  show (V5 m ρ c (Pipeline.arrRef spec2 3) : Mat 16 1) (ix2 q (0 : Fin 1)) = (m ((c : Thread nD τ).loc main_arg7) : FVec Ideal ⟨1, ![16]⟩ .f32) (ix1 q)
  rw [entry2_3 m ρ c]
  exact column16_apply _ q

/-- Region 2, window 4: a weight vector stored as a column. -/
theorem colvIn2_4 (c : Dev nD) :
    colv (V5 m ρ c (Pipeline.arrRef spec2 4) : Mat 16 1) = vec (m ((c : Thread nD τ).loc main_arg8) : FVec Ideal ⟨1, ![16]⟩ .f32) := by
  funext q
  show (V5 m ρ c (Pipeline.arrRef spec2 4) : Mat 16 1) (ix2 q (0 : Fin 1)) = (m ((c : Thread nD τ).loc main_arg8) : FVec Ideal ⟨1, ![16]⟩ .f32) (ix1 q)
  rw [entry2_4 m ρ c]
  exact column16_apply _ q

/-- Region 2, window 7: the rows of a weight matrix. -/
theorem rowsIn2_7 (c : Dev nD) :
    rows (V5 m ρ c (Pipeline.arrRef spec2 7) : Mat 12 16) = rows (m ((c : Thread nD τ).loc main_arg9) : FVec Ideal ⟨2, ![12, 16]⟩ .f32) :=
  congrArg (rows (n := 12) (d := 16)) (entry2_7 m ρ c)

/-- Region 2, window 8: a weight vector stored as a column. -/
theorem colvIn2_8 (c : Dev nD) :
    colv (V5 m ρ c (Pipeline.arrRef spec2 8) : Mat 12 1) = vec (m ((c : Thread nD τ).loc main_arg10) : FVec Ideal ⟨1, ![12]⟩ .f32) := by
  funext q
  show (V5 m ρ c (Pipeline.arrRef spec2 8) : Mat 12 1) (ix2 q (0 : Fin 1)) = (m ((c : Thread nD τ).loc main_arg10) : FVec Ideal ⟨1, ![12]⟩ .f32) (ix1 q)
  rw [entry2_8 m ρ c]
  exact column12_apply _ q

/-! ## Region 3 -/

/-- Region 3, window 1: the rows of a weight matrix. -/
theorem rowsIn3_1 (c : Dev nD) :
    rows (V7 m ρ c (Pipeline.arrRef spec3 1) : Mat 12 16) = rows (m ((c : Thread nD τ).loc main_arg9) : FVec Ideal ⟨2, ![12, 16]⟩ .f32) :=
  congrArg (rows (n := 12) (d := 16)) (entry3_1 m ρ c)

/-- Region 3, window 2: a weight vector stored as a column. -/
theorem colvIn3_2 (c : Dev nD) :
    colv (V7 m ρ c (Pipeline.arrRef spec3 2) : Mat 12 1) = vec (m ((c : Thread nD τ).loc main_arg10) : FVec Ideal ⟨1, ![12]⟩ .f32) := by
  funext q
  show (V7 m ρ c (Pipeline.arrRef spec3 2) : Mat 12 1) (ix2 q (0 : Fin 1)) = (m ((c : Thread nD τ).loc main_arg10) : FVec Ideal ⟨1, ![12]⟩ .f32) (ix1 q)
  rw [entry3_2 m ρ c]
  exact column12_apply _ q

/-- Region 3, window 3: a weight vector stored as a column. -/
theorem colvIn3_3 (c : Dev nD) :
    colv (V7 m ρ c (Pipeline.arrRef spec3 3) : Mat 12 1) = vec (m ((c : Thread nD τ).loc main_arg11) : FVec Ideal ⟨1, ![12]⟩ .f32) := by
  funext q
  show (V7 m ρ c (Pipeline.arrRef spec3 3) : Mat 12 1) (ix2 q (0 : Fin 1)) = (m ((c : Thread nD τ).loc main_arg11) : FVec Ideal ⟨1, ![12]⟩ .f32) (ix1 q)
  rw [entry3_3 m ρ c]
  exact column12_apply _ q

/-- Region 3, window 4: a weight vector stored as a column. -/
theorem colvIn3_4 (c : Dev nD) :
    colv (V7 m ρ c (Pipeline.arrRef spec3 4) : Mat 12 1) = vec (m ((c : Thread nD τ).loc main_arg12) : FVec Ideal ⟨1, ![12]⟩ .f32) := by
  funext q
  show (V7 m ρ c (Pipeline.arrRef spec3 4) : Mat 12 1) (ix2 q (0 : Fin 1)) = (m ((c : Thread nD τ).loc main_arg12) : FVec Ideal ⟨1, ![12]⟩ .f32) (ix1 q)
  rw [entry3_4 m ρ c]
  exact column12_apply _ q

/-- Region 3, window 7: the rows of a weight matrix. -/
theorem rowsIn3_7 (c : Dev nD) :
    rows (V7 m ρ c (Pipeline.arrRef spec3 7) : Mat 12 12) = rows (m ((c : Thread nD τ).loc main_arg13) : FVec Ideal ⟨2, ![12, 12]⟩ .f32) :=
  congrArg (rows (n := 12) (d := 12)) (entry3_7 m ρ c)

/-- Region 3, window 8: a weight vector stored as a column. -/
theorem colvIn3_8 (c : Dev nD) :
    colv (V7 m ρ c (Pipeline.arrRef spec3 8) : Mat 12 1) = vec (m ((c : Thread nD τ).loc main_arg14) : FVec Ideal ⟨1, ![12]⟩ .f32) := by
  funext q
  show (V7 m ρ c (Pipeline.arrRef spec3 8) : Mat 12 1) (ix2 q (0 : Fin 1)) = (m ((c : Thread nD τ).loc main_arg14) : FVec Ideal ⟨1, ![12]⟩ .f32) (ix1 q)
  rw [entry3_8 m ρ c]
  exact column12_apply _ q

/-! ## Region 4 -/

/-- Region 4, window 1: the rows of a weight matrix. -/
theorem rowsIn4_1 (c : Dev nD) :
    rows (V9 m ρ c (Pipeline.arrRef spec4 1) : Mat 12 12) = rows (m ((c : Thread nD τ).loc main_arg13) : FVec Ideal ⟨2, ![12, 12]⟩ .f32) :=
  congrArg (rows (n := 12) (d := 12)) (entry4_1 m ρ c)

/-- Region 4, window 2: a weight vector stored as a column. -/
theorem colvIn4_2 (c : Dev nD) :
    colv (V9 m ρ c (Pipeline.arrRef spec4 2) : Mat 12 1) = vec (m ((c : Thread nD τ).loc main_arg14) : FVec Ideal ⟨1, ![12]⟩ .f32) := by
  funext q
  show (V9 m ρ c (Pipeline.arrRef spec4 2) : Mat 12 1) (ix2 q (0 : Fin 1)) = (m ((c : Thread nD τ).loc main_arg14) : FVec Ideal ⟨1, ![12]⟩ .f32) (ix1 q)
  rw [entry4_2 m ρ c]
  exact column12_apply _ q

/-- Region 4, window 3: a weight vector stored as a column. -/
theorem colvIn4_3 (c : Dev nD) :
    colv (V9 m ρ c (Pipeline.arrRef spec4 3) : Mat 12 1) = vec (m ((c : Thread nD τ).loc main_arg15) : FVec Ideal ⟨1, ![12]⟩ .f32) := by
  funext q
  show (V9 m ρ c (Pipeline.arrRef spec4 3) : Mat 12 1) (ix2 q (0 : Fin 1)) = (m ((c : Thread nD τ).loc main_arg15) : FVec Ideal ⟨1, ![12]⟩ .f32) (ix1 q)
  rw [entry4_3 m ρ c]
  exact column12_apply _ q

/-- Region 4, window 4: a weight vector stored as a column. -/
theorem colvIn4_4 (c : Dev nD) :
    colv (V9 m ρ c (Pipeline.arrRef spec4 4) : Mat 12 1) = vec (m ((c : Thread nD τ).loc main_arg16) : FVec Ideal ⟨1, ![12]⟩ .f32) := by
  funext q
  show (V9 m ρ c (Pipeline.arrRef spec4 4) : Mat 12 1) (ix2 q (0 : Fin 1)) = (m ((c : Thread nD τ).loc main_arg16) : FVec Ideal ⟨1, ![12]⟩ .f32) (ix1 q)
  rw [entry4_4 m ρ c]
  exact column12_apply _ q

/-- Region 4, window 7: the rows of a weight matrix. -/
theorem rowsIn4_7 (c : Dev nD) :
    rows (V9 m ρ c (Pipeline.arrRef spec4 7) : Mat 8 12) = rows (m ((c : Thread nD τ).loc main_arg17) : FVec Ideal ⟨2, ![8, 12]⟩ .f32) :=
  congrArg (rows (n := 8) (d := 12)) (entry4_7 m ρ c)

/-- Region 4, window 8: a weight vector stored as a column. -/
theorem colvIn4_8 (c : Dev nD) :
    colv (V9 m ρ c (Pipeline.arrRef spec4 8) : Mat 8 1) = vec (m ((c : Thread nD τ).loc main_arg18) : FVec Ideal ⟨1, ![8]⟩ .f32) := by
  funext q
  show (V9 m ρ c (Pipeline.arrRef spec4 8) : Mat 8 1) (ix2 q (0 : Fin 1)) = (m ((c : Thread nD τ).loc main_arg18) : FVec Ideal ⟨1, ![8]⟩ .f32) (ix1 q)
  rw [entry4_8 m ρ c]
  exact column8_apply _ q

/-! ## Region 5 -/

/-- Region 5, window 1: the rows of a weight matrix. -/
theorem rowsIn5_1 (c : Dev nD) :
    rows (V11 m ρ c (Pipeline.arrRef spec5 1) : Mat 8 12) = rows (m ((c : Thread nD τ).loc main_arg17) : FVec Ideal ⟨2, ![8, 12]⟩ .f32) :=
  congrArg (rows (n := 8) (d := 12)) (entry5_1 m ρ c)

/-- Region 5, window 2: a weight vector stored as a column. -/
theorem colvIn5_2 (c : Dev nD) :
    colv (V11 m ρ c (Pipeline.arrRef spec5 2) : Mat 8 1) = vec (m ((c : Thread nD τ).loc main_arg18) : FVec Ideal ⟨1, ![8]⟩ .f32) := by
  funext q
  show (V11 m ρ c (Pipeline.arrRef spec5 2) : Mat 8 1) (ix2 q (0 : Fin 1)) = (m ((c : Thread nD τ).loc main_arg18) : FVec Ideal ⟨1, ![8]⟩ .f32) (ix1 q)
  rw [entry5_2 m ρ c]
  exact column8_apply _ q

/-- Region 5, window 3: a weight vector stored as a column. -/
theorem colvIn5_3 (c : Dev nD) :
    colv (V11 m ρ c (Pipeline.arrRef spec5 3) : Mat 8 1) = vec (m ((c : Thread nD τ).loc main_arg19) : FVec Ideal ⟨1, ![8]⟩ .f32) := by
  funext q
  show (V11 m ρ c (Pipeline.arrRef spec5 3) : Mat 8 1) (ix2 q (0 : Fin 1)) = (m ((c : Thread nD τ).loc main_arg19) : FVec Ideal ⟨1, ![8]⟩ .f32) (ix1 q)
  rw [entry5_3 m ρ c]
  exact column8_apply _ q

/-- Region 5, window 4: a weight vector stored as a column. -/
theorem colvIn5_4 (c : Dev nD) :
    colv (V11 m ρ c (Pipeline.arrRef spec5 4) : Mat 8 1) = vec (m ((c : Thread nD τ).loc main_arg20) : FVec Ideal ⟨1, ![8]⟩ .f32) := by
  funext q
  show (V11 m ρ c (Pipeline.arrRef spec5 4) : Mat 8 1) (ix2 q (0 : Fin 1)) = (m ((c : Thread nD τ).loc main_arg20) : FVec Ideal ⟨1, ![8]⟩ .f32) (ix1 q)
  rw [entry5_4 m ρ c]
  exact column8_apply _ q

/-- Region 5, window 7: the rows of a weight matrix. -/
theorem rowsIn5_7 (c : Dev nD) :
    rows (V11 m ρ c (Pipeline.arrRef spec5 7) : Mat 1 8) = rows (m ((c : Thread nD τ).loc main_arg21) : FVec Ideal ⟨2, ![1, 8]⟩ .f32) :=
  congrArg (rows (n := 1) (d := 8)) (entry5_7 m ρ c)

/-- Region 5, window 8: a weight vector stored as a column. -/
theorem colvIn5_8 (c : Dev nD) :
    colv (V11 m ρ c (Pipeline.arrRef spec5 8) : Mat 1 1) = vec (m ((c : Thread nD τ).loc main_arg22) : FVec Ideal ⟨1, ![1]⟩ .f32) := by
  funext q
  show (V11 m ρ c (Pipeline.arrRef spec5 8) : Mat 1 1) (ix2 q (0 : Fin 1)) = (m ((c : Thread nD τ).loc main_arg22) : FVec Ideal ⟨1, ![1]⟩ .f32) (ix1 q)
  rw [entry5_8 m ρ c]
  exact column1_apply _ q

end Cert.KernelIdeal.Net

end
-- ==== Proof.KernelNetA.lean ====
/-
  The idealized kernel computes the network, layer by layer.  For each region: the mean and variance columns it finds are
  the batch statistics of its layer's affine map — they are the host's quotients of the two halves' partial sums that the
  region before accumulated over its tiles, and those partial sums are of exactly that affine map of the region before's
  activation array —, so the array it writes is the layer's output, feature-major.  Layer 1, and the weights as the network's parameters.
-/
import proofs.«114887_j65481071405707_2_alg».proof.Proof.Region0
import proofs.«114887_j65481071405707_2_alg».proof.Proof.Finals1
import proofs.«114887_j65481071405707_2_alg».proof.Proof.KernelNetIn

set_option maxRecDepth 16384

noncomputable section

namespace Cert.KernelIdeal.Net

open Cert.KernelIdeal Cert.KernelIdeal.Gen
open Idealize.ShloMosaic Idealize.ShloMosaic.TcCoe Idealize.ShloMosaic.ValueIdx
open Cert.FoldEval
open Cert.BatchNet Cert.BatchNet.Tile Cert.LibDenseLayers

variable (m : (ℓ : Loc nD τ sig) → Buf (Elt Ideal) ℓ) (ρ : Dev nD → PrngReg)

/-- The network's weights, from the launch contents of the 22 weight arrays. -/
abbrev pOf (c : Dev nD) : Params :=
  params (m ((c : Thread nD τ).loc main_arg1) : FVec Ideal ⟨2, ![16, 8]⟩ .f32)
    (m ((c : Thread nD τ).loc main_arg2) : FVec Ideal ⟨1, ![16]⟩ .f32)
    (m ((c : Thread nD τ).loc main_arg3) : FVec Ideal ⟨1, ![16]⟩ .f32)
    (m ((c : Thread nD τ).loc main_arg4) : FVec Ideal ⟨1, ![16]⟩ .f32)
    (m ((c : Thread nD τ).loc main_arg5) : FVec Ideal ⟨2, ![16, 16]⟩ .f32)
    (m ((c : Thread nD τ).loc main_arg6) : FVec Ideal ⟨1, ![16]⟩ .f32)
    (m ((c : Thread nD τ).loc main_arg7) : FVec Ideal ⟨1, ![16]⟩ .f32)
    (m ((c : Thread nD τ).loc main_arg8) : FVec Ideal ⟨1, ![16]⟩ .f32)
    (m ((c : Thread nD τ).loc main_arg9) : FVec Ideal ⟨2, ![12, 16]⟩ .f32)
    (m ((c : Thread nD τ).loc main_arg10) : FVec Ideal ⟨1, ![12]⟩ .f32)
    (m ((c : Thread nD τ).loc main_arg11) : FVec Ideal ⟨1, ![12]⟩ .f32)
    (m ((c : Thread nD τ).loc main_arg12) : FVec Ideal ⟨1, ![12]⟩ .f32)
    (m ((c : Thread nD τ).loc main_arg13) : FVec Ideal ⟨2, ![12, 12]⟩ .f32)
    (m ((c : Thread nD τ).loc main_arg14) : FVec Ideal ⟨1, ![12]⟩ .f32)
    (m ((c : Thread nD τ).loc main_arg15) : FVec Ideal ⟨1, ![12]⟩ .f32)
    (m ((c : Thread nD τ).loc main_arg16) : FVec Ideal ⟨1, ![12]⟩ .f32)
    (m ((c : Thread nD τ).loc main_arg17) : FVec Ideal ⟨2, ![8, 12]⟩ .f32)
    (m ((c : Thread nD τ).loc main_arg18) : FVec Ideal ⟨1, ![8]⟩ .f32)
    (m ((c : Thread nD τ).loc main_arg19) : FVec Ideal ⟨1, ![8]⟩ .f32)
    (m ((c : Thread nD τ).loc main_arg20) : FVec Ideal ⟨1, ![8]⟩ .f32)
    (m ((c : Thread nD τ).loc main_arg21) : FVec Ideal ⟨2, ![1, 8]⟩ .f32)
    (m ((c : Thread nD τ).loc main_arg22) : FVec Ideal ⟨1, ![1]⟩ .f32)

/-- The mean and variance columns region 1 finds are the batch statistics of layer 1's affine map. -/
theorem stats1 (c : Dev nD) (o : Fin 16) :
    R1.in5 (V3 m ρ) c (ix2 o (0 : Fin 1)) = mean (lin (rows (m ((c : Thread nD τ).loc main_arg0) : FVec Ideal ⟨2, ![2097152, 8]⟩ .f32)) (pOf m c).w_fm (pOf m c).b_fm) o
      ∧ R1.in6 (V3 m ρ) c (ix2 o (0 : Fin 1)) = varSq (lin (rows (m ((c : Thread nD τ).loc main_arg0) : FVec Ideal ⟨2, ![2097152, 8]⟩ .f32)) (pOf m c).w_fm (pOf m c).b_fm) o := by
  have e5 : R1.in5 (V3 m ρ) c = meanOf16 (R0.statArr (V1 m ρ) c) :=
    (entry1_5 m ρ c).trans (congrArg meanOf16 (R0.final3 (V1 m ρ) c))
  have e6 : R1.in6 (V3 m ρ) c = varOf16 (R0.statArr (V1 m ρ) c) :=
    (entry1_6 m ρ c).trans (congrArg varOf16 (R0.final3 (V1 m ρ) c))
  rw [e5, e6]
  exact stats_of_arrays reducesTo_S2x16x2_S16x2_d0 h_S_ slices_S16x2_S16x1_0_0 slices_S16x2_S16x1_0_1 bcast_S_S16x1
    (R0.in1 (V1 m ρ) c) (R0.in0 (V1 m ρ) c) (R0.in2 (V1 m ρ) c) (R0.statArr (V1 m ρ) c)
    (fun q s => by have := q.isLt; have := s.isLt; omega)
    (fun q o u => R0.statArr_apply (V1 m ρ) c q o u)
    _ _ _ (colsIn0_0 m ρ c) (rowsIn0_1 m ρ c) (colvIn0_2 m ρ c) o

/-- The activation array region 1 leaves is layer 1's output, feature-major. -/
theorem act1_cols (c : Dev nD) : cols (R1.actArr (V3 m ρ) c) = act1 (@varSq) (rows (m ((c : Thread nD τ).loc main_arg0) : FVec Ideal ⟨2, ![2097152, 8]⟩ .f32)) (pOf m c) :=
  block_of_arrays (R1.in1 (V3 m ρ) c) (R1.in0 (V3 m ρ) c) (R1.in2 (V3 m ρ) c) (R1.in3 (V3 m ρ) c)
    (R1.in4 (V3 m ρ) c) (R1.in5 (V3 m ρ) c) (R1.in6 (V3 m ρ) c) _ _ _ _ _
    (colsIn1_0 m ρ c) (rowsIn1_1 m ρ c) (colvIn1_2 m ρ c) (colvIn1_3 m ρ c) (colvIn1_4 m ρ c)
    (fun q => (stats1 m ρ c q).1) (fun q => (stats1 m ρ c q).2)

end Cert.KernelIdeal.Net

end
-- ==== Proof.KernelNetB.lean ====
/-
  The idealized kernel computes the network, layer by layer.  For each region: the mean and variance columns it finds are
  the batch statistics of its layer's affine map — they are the host's quotients of the two halves' partial sums that the
  region before accumulated over its tiles, and those partial sums are of exactly that affine map of the region before's
  activation array —, so the array it writes is the layer's output, feature-major.  Layers 2 and 3.
-/
import proofs.«114887_j65481071405707_2_alg».proof.Proof.Finals2
import proofs.«114887_j65481071405707_2_alg».proof.Proof.Finals3
import proofs.«114887_j65481071405707_2_alg».proof.Proof.KernelNetA

set_option maxRecDepth 16384

noncomputable section

namespace Cert.KernelIdeal.Net

open Cert.KernelIdeal Cert.KernelIdeal.Gen
open Idealize.ShloMosaic Idealize.ShloMosaic.TcCoe Idealize.ShloMosaic.ValueIdx
open Cert.FoldEval
open Cert.BatchNet Cert.BatchNet.Tile Cert.LibDenseLayers

variable (m : (ℓ : Loc nD τ sig) → Buf (Elt Ideal) ℓ) (ρ : Dev nD → PrngReg)

/-- The mean and variance columns region 2 finds are the batch statistics of layer 2's affine map. -/
theorem stats2 (c : Dev nD) (o : Fin 16) :
    R2.in5 (V5 m ρ) c (ix2 o (0 : Fin 1)) = mean (lin (act1 (@varSq) (rows (m ((c : Thread nD τ).loc main_arg0) : FVec Ideal ⟨2, ![2097152, 8]⟩ .f32)) (pOf m c)) (pOf m c).w_c1 (pOf m c).b_c1) o
      ∧ R2.in6 (V5 m ρ) c (ix2 o (0 : Fin 1)) = varSq (lin (act1 (@varSq) (rows (m ((c : Thread nD τ).loc main_arg0) : FVec Ideal ⟨2, ![2097152, 8]⟩ .f32)) (pOf m c)) (pOf m c).w_c1 (pOf m c).b_c1) o := by
  have e5 : R2.in5 (V5 m ρ) c = meanOf16 (R1.statArr (V3 m ρ) c) :=
    (entry2_5 m ρ c).trans (congrArg meanOf16 (R1.final10 (V3 m ρ) c))
  have e6 : R2.in6 (V5 m ρ) c = varOf16 (R1.statArr (V3 m ρ) c) :=
    (entry2_6 m ρ c).trans (congrArg varOf16 (R1.final10 (V3 m ρ) c))
  rw [e5, e6]
  exact stats_of_arrays reducesTo_S2x16x2_S16x2_d0 h_S_ slices_S16x2_S16x1_0_0 slices_S16x2_S16x1_0_1 bcast_S_S16x1
    (R1.in7 (V3 m ρ) c) (R1.actArr (V3 m ρ) c) (R1.in8 (V3 m ρ) c) (R1.statArr (V3 m ρ) c)
    (fun q s => by have := q.isLt; have := s.isLt; omega)
    (fun q o u => R1.statArr_apply (V3 m ρ) c q o u)
    _ _ _ (act1_cols m ρ c) (rowsIn1_7 m ρ c) (colvIn1_8 m ρ c) o

/-- Region 2's input array is the activation array region 1 leaves: layer 1's output, feature-major. -/
theorem in0_cols2 (c : Dev nD) : cols (R2.in0 (V5 m ρ) c) = act1 (@varSq) (rows (m ((c : Thread nD τ).loc main_arg0) : FVec Ideal ⟨2, ![2097152, 8]⟩ .f32)) (pOf m c) := by
  have e : R2.in0 (V5 m ρ) c = R1.actArr (V3 m ρ) c :=
    (entry2_0 m ρ c).trans (R1.final9 (V3 m ρ) c)
  rw [e]
  exact act1_cols m ρ c

/-- The activation array region 2 leaves is layer 2's output, feature-major. -/
theorem act2_cols (c : Dev nD) : cols (R2.actArr (V5 m ρ) c) = act2 (@varSq) (rows (m ((c : Thread nD τ).loc main_arg0) : FVec Ideal ⟨2, ![2097152, 8]⟩ .f32)) (pOf m c) :=
  skipBlock_of_arrays (R2.in1 (V5 m ρ) c) (R2.in0 (V5 m ρ) c) (R2.in2 (V5 m ρ) c) (R2.in3 (V5 m ρ) c)
    (R2.in4 (V5 m ρ) c) (R2.in5 (V5 m ρ) c) (R2.in6 (V5 m ρ) c) _ _ _ _ _
    (in0_cols2 m ρ c) (rowsIn2_1 m ρ c) (colvIn2_2 m ρ c) (colvIn2_3 m ρ c) (colvIn2_4 m ρ c)
    (fun q => (stats2 m ρ c q).1) (fun q => (stats2 m ρ c q).2)

/-- The mean and variance columns region 3 finds are the batch statistics of layer 3's affine map. -/
theorem stats3 (c : Dev nD) (o : Fin 12) :
    R3.in5 (V7 m ρ) c (ix2 o (0 : Fin 1)) = mean (lin (act2 (@varSq) (rows (m ((c : Thread nD τ).loc main_arg0) : FVec Ideal ⟨2, ![2097152, 8]⟩ .f32)) (pOf m c)) (pOf m c).w_p1 (pOf m c).b_p1) o
      ∧ R3.in6 (V7 m ρ) c (ix2 o (0 : Fin 1)) = varSq (lin (act2 (@varSq) (rows (m ((c : Thread nD τ).loc main_arg0) : FVec Ideal ⟨2, ![2097152, 8]⟩ .f32)) (pOf m c)) (pOf m c).w_p1 (pOf m c).b_p1) o := by
  have e5 : R3.in5 (V7 m ρ) c = meanOf12 (R2.statArr (V5 m ρ) c) :=
    (entry3_5 m ρ c).trans (congrArg meanOf12 (R2.final10 (V5 m ρ) c))
  have e6 : R3.in6 (V7 m ρ) c = varOf12 (R2.statArr (V5 m ρ) c) :=
    (entry3_6 m ρ c).trans (congrArg varOf12 (R2.final10 (V5 m ρ) c))
  rw [e5, e6]
  exact stats_of_arrays reducesTo_S2x12x2_S12x2_d0 h_S_ slices_S12x2_S12x1_0_0 slices_S12x2_S12x1_0_1 bcast_S_S12x1
    (R2.in7 (V5 m ρ) c) (R2.actArr (V5 m ρ) c) (R2.in8 (V5 m ρ) c) (R2.statArr (V5 m ρ) c)
    (fun q s => by have := q.isLt; have := s.isLt; omega)
    (fun q o u => R2.statArr_apply (V5 m ρ) c q o u)
    _ _ _ (act2_cols m ρ c) (rowsIn2_7 m ρ c) (colvIn2_8 m ρ c) o

/-- Region 3's input array is the activation array region 2 leaves: layer 2's output, feature-major. -/
theorem in0_cols3 (c : Dev nD) : cols (R3.in0 (V7 m ρ) c) = act2 (@varSq) (rows (m ((c : Thread nD τ).loc main_arg0) : FVec Ideal ⟨2, ![2097152, 8]⟩ .f32)) (pOf m c) := by
  have e : R3.in0 (V7 m ρ) c = R2.actArr (V5 m ρ) c :=
    (entry3_0 m ρ c).trans (R2.final9 (V5 m ρ) c)
  rw [e]
  exact act2_cols m ρ c

/-- The activation array region 3 leaves is layer 3's output, feature-major. -/
theorem act3_cols (c : Dev nD) : cols (R3.actArr (V7 m ρ) c) = act3 (@varSq) (rows (m ((c : Thread nD τ).loc main_arg0) : FVec Ideal ⟨2, ![2097152, 8]⟩ .f32)) (pOf m c) :=
  block_of_arrays (R3.in1 (V7 m ρ) c) (R3.in0 (V7 m ρ) c) (R3.in2 (V7 m ρ) c) (R3.in3 (V7 m ρ) c)
    (R3.in4 (V7 m ρ) c) (R3.in5 (V7 m ρ) c) (R3.in6 (V7 m ρ) c) _ _ _ _ _
    (in0_cols3 m ρ c) (rowsIn3_1 m ρ c) (colvIn3_2 m ρ c) (colvIn3_3 m ρ c) (colvIn3_4 m ρ c)
    (fun q => (stats3 m ρ c q).1) (fun q => (stats3 m ρ c q).2)

end Cert.KernelIdeal.Net

end
-- ==== Proof.KernelNetC.lean ====
/-
  The idealized kernel computes the network, layer by layer.  For each region: the mean and variance columns it finds are
  the batch statistics of its layer's affine map — they are the host's quotients of the two halves' partial sums that the
  region before accumulated over its tiles, and those partial sums are of exactly that affine map of the region before's
  activation array —, so the array it writes is the layer's output, feature-major.  Layers 4 and 5.
-/
import proofs.«114887_j65481071405707_2_alg».proof.Proof.Finals4
import proofs.«114887_j65481071405707_2_alg».proof.Proof.Region5
import proofs.«114887_j65481071405707_2_alg».proof.Proof.KernelNetB

set_option maxRecDepth 16384

noncomputable section

namespace Cert.KernelIdeal.Net

open Cert.KernelIdeal Cert.KernelIdeal.Gen
open Idealize.ShloMosaic Idealize.ShloMosaic.TcCoe Idealize.ShloMosaic.ValueIdx
open Cert.FoldEval
open Cert.BatchNet Cert.BatchNet.Tile Cert.LibDenseLayers

variable (m : (ℓ : Loc nD τ sig) → Buf (Elt Ideal) ℓ) (ρ : Dev nD → PrngReg)

/-- The mean and variance columns region 4 finds are the batch statistics of layer 4's affine map. -/
theorem stats4 (c : Dev nD) (o : Fin 12) :
    R4.in5 (V9 m ρ) c (ix2 o (0 : Fin 1)) = mean (lin (act3 (@varSq) (rows (m ((c : Thread nD τ).loc main_arg0) : FVec Ideal ⟨2, ![2097152, 8]⟩ .f32)) (pOf m c)) (pOf m c).w_c2 (pOf m c).b_c2) o
      ∧ R4.in6 (V9 m ρ) c (ix2 o (0 : Fin 1)) = varSq (lin (act3 (@varSq) (rows (m ((c : Thread nD τ).loc main_arg0) : FVec Ideal ⟨2, ![2097152, 8]⟩ .f32)) (pOf m c)) (pOf m c).w_c2 (pOf m c).b_c2) o := by
  have e5 : R4.in5 (V9 m ρ) c = meanOf12 (R3.statArr (V7 m ρ) c) :=
    (entry4_5 m ρ c).trans (congrArg meanOf12 (R3.final10 (V7 m ρ) c))
  have e6 : R4.in6 (V9 m ρ) c = varOf12 (R3.statArr (V7 m ρ) c) :=
    (entry4_6 m ρ c).trans (congrArg varOf12 (R3.final10 (V7 m ρ) c))
  rw [e5, e6]
  exact stats_of_arrays reducesTo_S2x12x2_S12x2_d0 h_S_ slices_S12x2_S12x1_0_0 slices_S12x2_S12x1_0_1 bcast_S_S12x1
    (R3.in7 (V7 m ρ) c) (R3.actArr (V7 m ρ) c) (R3.in8 (V7 m ρ) c) (R3.statArr (V7 m ρ) c)
    (fun q s => by have := q.isLt; have := s.isLt; omega)
    (fun q o u => R3.statArr_apply (V7 m ρ) c q o u)
    _ _ _ (act3_cols m ρ c) (rowsIn3_7 m ρ c) (colvIn3_8 m ρ c) o

/-- Region 4's input array is the activation array region 3 leaves: layer 3's output, feature-major. -/
theorem in0_cols4 (c : Dev nD) : cols (R4.in0 (V9 m ρ) c) = act3 (@varSq) (rows (m ((c : Thread nD τ).loc main_arg0) : FVec Ideal ⟨2, ![2097152, 8]⟩ .f32)) (pOf m c) := by
  have e : R4.in0 (V9 m ρ) c = R3.actArr (V7 m ρ) c :=
    (entry4_0 m ρ c).trans (R3.final9 (V7 m ρ) c)
  rw [e]
  exact act3_cols m ρ c

/-- The activation array region 4 leaves is layer 4's output, feature-major. -/
theorem act4_cols (c : Dev nD) : cols (R4.actArr (V9 m ρ) c) = act4 (@varSq) (rows (m ((c : Thread nD τ).loc main_arg0) : FVec Ideal ⟨2, ![2097152, 8]⟩ .f32)) (pOf m c) :=
  skipBlock_of_arrays (R4.in1 (V9 m ρ) c) (R4.in0 (V9 m ρ) c) (R4.in2 (V9 m ρ) c) (R4.in3 (V9 m ρ) c)
    (R4.in4 (V9 m ρ) c) (R4.in5 (V9 m ρ) c) (R4.in6 (V9 m ρ) c) _ _ _ _ _
    (in0_cols4 m ρ c) (rowsIn4_1 m ρ c) (colvIn4_2 m ρ c) (colvIn4_3 m ρ c) (colvIn4_4 m ρ c)
    (fun q => (stats4 m ρ c q).1) (fun q => (stats4 m ρ c q).2)

/-- The mean and variance columns region 5 finds are the batch statistics of layer 5's affine map. -/
theorem stats5 (c : Dev nD) (o : Fin 8) :
    R5.in5 (V11 m ρ) c (ix2 o (0 : Fin 1)) = mean (lin (act4 (@varSq) (rows (m ((c : Thread nD τ).loc main_arg0) : FVec Ideal ⟨2, ![2097152, 8]⟩ .f32)) (pOf m c)) (pOf m c).w_p2 (pOf m c).b_p2) o
      ∧ R5.in6 (V11 m ρ) c (ix2 o (0 : Fin 1)) = varSq (lin (act4 (@varSq) (rows (m ((c : Thread nD τ).loc main_arg0) : FVec Ideal ⟨2, ![2097152, 8]⟩ .f32)) (pOf m c)) (pOf m c).w_p2 (pOf m c).b_p2) o := by
  have e5 : R5.in5 (V11 m ρ) c = meanOf8 (R4.statArr (V9 m ρ) c) :=
    (entry5_5 m ρ c).trans (congrArg meanOf8 (R4.final10 (V9 m ρ) c))
  have e6 : R5.in6 (V11 m ρ) c = varOf8 (R4.statArr (V9 m ρ) c) :=
    (entry5_6 m ρ c).trans (congrArg varOf8 (R4.final10 (V9 m ρ) c))
  rw [e5, e6]
  exact stats_of_arrays reducesTo_S2x8x2_S8x2_d0 h_S_ slices_S8x2_S8x1_0_0 slices_S8x2_S8x1_0_1 bcast_S_S8x1
    (R4.in7 (V9 m ρ) c) (R4.actArr (V9 m ρ) c) (R4.in8 (V9 m ρ) c) (R4.statArr (V9 m ρ) c)
    (fun q s => by have := q.isLt; have := s.isLt; omega)
    (fun q o u => R4.statArr_apply (V9 m ρ) c q o u)
    _ _ _ (act4_cols m ρ c) (rowsIn4_7 m ρ c) (colvIn4_8 m ρ c) o

/-- Region 5's input array is the activation array region 4 leaves: layer 4's output, feature-major. -/
theorem in0_cols5 (c : Dev nD) : cols (R5.in0 (V11 m ρ) c) = act4 (@varSq) (rows (m ((c : Thread nD τ).loc main_arg0) : FVec Ideal ⟨2, ![2097152, 8]⟩ .f32)) (pOf m c) := by
  have e : R5.in0 (V11 m ρ) c = R4.actArr (V9 m ρ) c :=
    (entry5_0 m ρ c).trans (R4.final9 (V9 m ρ) c)
  rw [e]
  exact act4_cols m ρ c

/-- The normalised block region 5 computes is layer 5's output, feature-major. -/
theorem act5_cols (c : Dev nD) :
    cols (bn (aff (R5.in1 (V11 m ρ) c) (R5.in0 (V11 m ρ) c) (R5.in2 (V11 m ρ) c)) (R5.in3 (V11 m ρ) c)
      (R5.in4 (V11 m ρ) c) (R5.in5 (V11 m ρ) c) (R5.in6 (V11 m ρ) c)) = act5 (@varSq) (rows (m ((c : Thread nD τ).loc main_arg0) : FVec Ideal ⟨2, ![2097152, 8]⟩ .f32)) (pOf m c) :=
  block_of_arrays (R5.in1 (V11 m ρ) c) (R5.in0 (V11 m ρ) c) (R5.in2 (V11 m ρ) c) (R5.in3 (V11 m ρ) c)
    (R5.in4 (V11 m ρ) c) (R5.in5 (V11 m ρ) c) (R5.in6 (V11 m ρ) c) _ _ _ _ _
    (in0_cols5 m ρ c) (rowsIn5_1 m ρ c) (colvIn5_2 m ρ c) (colvIn5_3 m ρ c) (colvIn5_4 m ρ c)
    (fun q => (stats5 m ρ c q).1) (fun q => (stats5 m ρ c q).2)

end Cert.KernelIdeal.Net

end
-- ==== Proof.KernelRun.lean ====
/-
  The idealized kernel's run with its result named.  Every weakly fair execution of the program ends, nothing
  faulting, with the result array at the contents the last stretch of host operations leaves (the fold `W13` of the
  launch memory through the six kernel regions and the seven stretches of host operations, read at the result's
  buffer) and with every argument array as launched.
-/
import proofs.«114887_j65481071405707_2_alg».proof.Proof.Gen.KernelIdeal.Frame

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result array ends at `W13 m ρ c` read at its buffer, the arguments as launched. -/
theorem run_named : θ_run defs (onTc (τ := τ) (main (F := F))) ⟨m, fun _ => 0, ρ⟩ (fun r => ∀ c : Dev nD,
      r.2.mem ((c.tc : Thread nD τ).loc main_v83) = W13 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v83 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c),
       (h c _ (mem_uc main_arg16 (by decide))).trans (W13_main_arg16 m ρ c),
       (h c _ (mem_uc main_arg17 (by decide))).trans (W13_main_arg17 m ρ c),
       (h c _ (mem_uc main_arg18 (by decide))).trans (W13_main_arg18 m ρ c),
       (h c _ (mem_uc main_arg19 (by decide))).trans (W13_main_arg19 m ρ c),
       (h c _ (mem_uc main_arg20 (by decide))).trans (W13_main_arg20 m ρ c),
       (h c _ (mem_uc main_arg21 (by decide))).trans (W13_main_arg21 m ρ c),
       (h c _ (mem_uc main_arg22 (by decide))).trans (W13_main_arg22 m ρ c)⟩)

end Cert.KernelIdeal.Net

end
-- ==== Proof.KernelNet.lean ====
/-
  The idealized kernel's result is the network's output with the variance taken as the mean of squares minus the squared
  mean, clamped below at zero.  The last region applies the last affine map to layer 5's output and then the logistic
  function, writing one row; the host views that row as a column.  With the run of the program this gives: every weakly
  fair execution ends, nothing faulting, with the result array holding the network's output and every argument array as
  launched.
-/
import proofs.«114887_j65481071405707_2_alg».proof.Proof.KernelNetC
import proofs.«114887_j65481071405707_2_alg».proof.Proof.KernelRun

set_option maxRecDepth 16384

noncomputable section

namespace Cert.KernelIdeal.Net

open Cert.KernelIdeal Cert.KernelIdeal.Gen
open Idealize.ShloMosaic Idealize.ShloMosaic.TcCoe Idealize.ShloMosaic.ValueIdx
open Cert.FoldEval
open Cert.BatchNet Cert.BatchNet.Tile Cert.LibDenseLayers
open Idealize.SL.Sem

variable (m : (ℓ : Loc nD τ sig) → Buf (Elt Ideal) ℓ) (ρ : Dev nD → PrngReg)

/-- The result array after the program, as the network's output. -/
theorem kernel_result (c : Dev nD) :
    W13 m ρ c (Proc.devRef .tc main_v83)
      = result (@varSq) (m ((c : Thread nD τ).loc main_arg0) : FVec Ideal ⟨2, ![2097152, 8]⟩ .f32) (pOf m c) := by
  rw [result_eq m ρ c]
  funext i
  obtain ⟨r, u, rfl⟩ : ∃ (r : Fin 2097152) (u : Fin 1), i = ix2 r u := ⟨i 0, i 1, eq_ix2 i⟩
  obtain rfl : u = 0 := Subsingleton.elim _ _
  rw [resultColumn_apply, show (dat5 (V11 m ρ) c).arrAt 9 cfg5.N = R5.outArr (V11 m ρ) c from R5.final9 (V11 m ρ) c,
    R5.outArr_apply]
  show _ = Ideal.logistic (lin (act5 (@varSq) (rows (m ((c : Thread nD τ).loc main_arg0) : FVec Ideal ⟨2, ![2097152, 8]⟩ .f32)) (pOf m c)) (pOf m c).w_fc (pOf m c).b_fc r 0)
  refine congrArg Ideal.logistic ?_
  exact lin_of_arrays (R5.in7 (V11 m ρ) c)
    (bn (aff (R5.in1 (V11 m ρ) c) (R5.in0 (V11 m ρ) c) (R5.in2 (V11 m ρ) c)) (R5.in3 (V11 m ρ) c) (R5.in4 (V11 m ρ) c)
      (R5.in5 (V11 m ρ) c) (R5.in6 (V11 m ρ) c))
    (R5.in8 (V11 m ρ) c) _ _ _ (act5_cols m ρ c) (rowsIn5_7 m ρ c) (colvIn5_8 m ρ c) 0 r

/-- The run: the result array ends holding the network's output, the arguments as launched. -/
theorem run : θ_run defs (onTc (τ := τ) (main (F := Ideal))) ⟨m, fun _ => 0, ρ⟩ (fun r => ∀ c : Dev nD,
      r.2.mem ((c.tc : Thread nD τ).loc main_v83)
        = result (@varSq) (m ((c.tc : Thread nD τ).loc main_arg0) : FVec Ideal ⟨2, ![2097152, 8]⟩ .f32)
            (pOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) := by
  have h := run_named (F := Ideal) m ρ
  simp only [kernel_result m ρ] at h
  exact h

end Cert.KernelIdeal.Net

end
-- ==== Proof.RefNetIdx.lean ====
/-
  Small facts used when the reference program's arrays are read entry by entry.

  * Two indices of an array that have the same coordinates are the same index: this lets the index that a layout step
    (a transposition, a repetition along an axis, the row or column picked by a contraction) computes be replaced by the
    pair of coordinates it stands for.
  * A sum that starts from the zero word is the plain sum.
-/
import Idealize.ShloMosaic.PureOps.Ideal
import Idealize.ShloMosaic.PureOps.Ideal.Laws
import Idealize.ShloMosaic.Lib.ValueIdx

namespace Cert.BatchNet.Ref

open Idealize.ShloMosaic Idealize.ShloMosaic.ValueIdx

/-- Two indices of a two-axis array with equal coordinates are equal. -/
theorem idx2_ext {n0 n1 : ℕ} {i j : (⟨2, ![n0, n1]⟩ : Shape).Idx}
    (h0 : (i 0).val = (j 0).val) (h1 : (i 1).val = (j 1).val) : i = j :=
  funext fun a => Fin.ext (by match a with | ⟨0, _⟩ => exact h0 | ⟨1, _⟩ => exact h1)

/-- Two indices of a one-axis array with equal coordinates are equal. -/
theorem idx1_ext {n : ℕ} {i j : (⟨1, ![n]⟩ : Shape).Idx} (h0 : (i 0).val = (j 0).val) : i = j :=
  funext fun a => Fin.ext (by match a with | ⟨0, _⟩ => exact h0)

/-- A sum started from the zero word is the sum. -/
theorem zero_word_add (s : EReal) : Ideal.ofBits .f32 0x00000000#32 + s = s := by
  rw [Ideal.ofBits_zero_f32, zero_add]

end Cert.BatchNet.Ref
-- ==== Proof.RefNetB1.lean ====
/-
  The first block of the reference program, read entry by entry.

  The block's input is the batch itself: an array with one row per batch element and 8 columns.  The
  program multiplies it by the transposed 16×8 weight matrix, adds the bias to every row, takes for each of the 16
  features the mean over the batch (the sum over all rows divided by the batch size) and the mean of the squared deviations
  from that mean, scales the deviation of each entry by the gain and by the reciprocal square root of (variance + ε), adds
  the shift, and replaces negative entries by zero.  Each theorem below says what one of these stages holds at a given
  entry, in terms of the functions `lin`, `mean`, `varDev`, `block` on coordinates.
-/
import proofs.«114887_j65481071405707_2_alg».proof.Proof.RefReadP
import proofs.«114887_j65481071405707_2_alg».proof.Proof.Spec
import proofs.«114887_j65481071405707_2_alg».proof.Proof.RefNetIdx

namespace Cert.BatchNet.Ref

open Cert.ReferenceIdeal Cert.ReferenceIdeal.ReadP Idealize.ShloMosaic Idealize.ShloMosaic.ValueIdx

/-- The affine layer: entry (r, o) is the product of row r of the input with row o of the weights, plus the bias of o. -/
theorem affine1 (x0 : (⟨S2097152x8, .f32⟩ : BufTy).Contents (Elt Ideal)) (x1 : (⟨S16x8, .f32⟩ : BufTy).Contents (Elt Ideal)) (x2 : (⟨S16, .f32⟩ : BufTy).Contents (Elt Ideal)) (r : Fin 2097152) (o : Fin 16) :
    val_main_v4 (F := Ideal) x0 x1 x2 (ix2 r o) = lin (rows x0) (rows x1) (vec x2) r o := by
  have e1 : ∀ k : Fin 8, lidx_main_v1 (ix2 r o) k = ix2 r k := fun k => idx2_ext rfl rfl
  have e2 : ∀ k : Fin 8, idx_main_v0 (ridx_main_v1 (ix2 r o) k) = ix2 o k := fun k => idx2_ext rfl rfl
  have e3 : idx_main_v2 (idx_main_v3 (ix2 r o)) = ix1 o := idx1_ext rfl
  rw [val_main_v4_apply, val_main_v1_apply, val_main_v3_apply, val_main_v2_apply, e3, Ideal.addf_def]
  show _ = (∑ j, x0 (ix2 r j) * x1 (ix2 o j)) + x2 (ix1 o)
  refine congrArg (fun s => s + x2 (ix1 o)) (Finset.sum_congr rfl fun k _ => ?_)
  rw [val_main_v0_apply, e1, e2]

/-- The mean of feature o over the batch: the sum of the affine layer's column o divided by the batch size. -/
theorem mean1 (x0 : (⟨S2097152x8, .f32⟩ : BufTy).Contents (Elt Ideal)) (x1 : (⟨S16x8, .f32⟩ : BufTy).Contents (Elt Ideal)) (x2 : (⟨S16, .f32⟩ : BufTy).Contents (Elt Ideal)) (o : Fin 16) :
    val_main_v7 (F := Ideal) x0 x1 x2 (ix1 o) = mean (lin (rows x0) (rows x1) (vec x2)) o := by
  have e : ∀ k : Fin 2097152, idx_main_v5 (ix1 o) k = ix2 k o := fun k => idx2_ext rfl rfl
  rw [val_main_v7_apply, val_main_v5_apply, val_main_v6_apply, val_main_cst_apply, val_main_cst_0_apply]
  simp only [Ideal.hostDivf_def, Ideal.ofBits_def, e, affine1]
  rw [zero_word_add]
  rfl

/-- The variance of feature o over the batch: the sum of the squared deviations from the mean, divided by the batch size. -/
theorem var1 (x0 : (⟨S2097152x8, .f32⟩ : BufTy).Contents (Elt Ideal)) (x1 : (⟨S16x8, .f32⟩ : BufTy).Contents (Elt Ideal)) (x2 : (⟨S16, .f32⟩ : BufTy).Contents (Elt Ideal)) (o : Fin 16) :
    val_main_v14 (F := Ideal) x0 x1 x2 (ix1 o) = varDev (lin (rows x0) (rows x1) (vec x2)) o := by
  have e : ∀ k : Fin 2097152, idx_main_v12 (ix1 o) k = ix2 k o := fun k => idx2_ext rfl rfl
  have e' : ∀ k : Fin 2097152, idx_main_v8 (idx_main_v9 (ix2 k o)) = ix1 o := fun k => idx1_ext rfl
  rw [val_main_v14_apply, val_main_v12_apply, val_main_v13_apply, val_main_cst_1_apply, val_main_cst_2_apply]
  simp only [Ideal.hostDivf_def, Ideal.ofBits_def, e, val_main_v11_apply, val_main_v10_apply, val_main_v9_apply,
    val_main_v8_apply, e', affine1, mean1, Ideal.mulf_def, Ideal.subf_def]
  rw [zero_word_add]
  rfl

/-- The block's output before any skip connection: the normalised, scaled and shifted entry, or zero if that is negative. -/
theorem out1 (x0 : (⟨S2097152x8, .f32⟩ : BufTy).Contents (Elt Ideal)) (x1 : (⟨S16x8, .f32⟩ : BufTy).Contents (Elt Ideal)) (x2 : (⟨S16, .f32⟩ : BufTy).Contents (Elt Ideal)) (x3 : (⟨S16, .f32⟩ : BufTy).Contents (Elt Ideal)) (x4 : (⟨S16, .f32⟩ : BufTy).Contents (Elt Ideal)) (r : Fin 2097152) (o : Fin 16) :
    val_main_v30 (F := Ideal) x0 x1 x2 x3 x4 (ix2 r o)
      = block (@varDev) (rows x0) (rows x1) (vec x2) (vec x3) (vec x4) r o := by
  have e1 : idx_main_v18 (idx_main_v19 (ix2 r o)) = ix1 o := idx1_ext rfl
  have e2 : idx_main_v15 (idx_main_v16 (ix2 r o)) = ix1 o := idx1_ext rfl
  have e3 : idx_main_v24 (idx_main_v25 (ix2 r o)) = ix1 o := idx1_ext rfl
  have e4 : idx_main_v27 (idx_main_v28 (ix2 r o)) = ix1 o := idx1_ext rfl
  rw [val_main_v30_apply, val_main_v29_apply, val_main_v26_apply, val_main_v20_apply,
    val_main_v19_apply, val_main_v18_apply, e1,
    val_main_v17_apply, val_main_v16_apply, val_main_v15_apply, e2,
    val_main_v25_apply, val_main_v24_apply, e3, val_main_v23_apply, val_main_v22_apply, val_main_v21_apply,
    val_main_cst_3_apply,
    val_main_v28_apply, val_main_v27_apply, e4, val_main_call0_v0_apply, val_main_call0_cst_apply,
    affine1, mean1, var1]
  simp only [Ideal.maximumf_def, Ideal.addf_def, Ideal.mulf_def, Ideal.subf_def, Ideal.hostUnary_rsqrt_def, Ideal.ofBits_def,
    Ideal.ofBits_zero_f32]
  rfl

/-- The same for all entries at once: the activations this block leaves, as a function of (row, feature). -/
theorem rows_act1 (x0 : (⟨S2097152x8, .f32⟩ : BufTy).Contents (Elt Ideal)) (x1 : (⟨S16x8, .f32⟩ : BufTy).Contents (Elt Ideal)) (x2 : (⟨S16, .f32⟩ : BufTy).Contents (Elt Ideal)) (x3 : (⟨S16, .f32⟩ : BufTy).Contents (Elt Ideal)) (x4 : (⟨S16, .f32⟩ : BufTy).Contents (Elt Ideal)) :
    rows (val_main_v30 (F := Ideal) x0 x1 x2 x3 x4)
      = block (@varDev) (rows x0) (rows x1) (vec x2) (vec x3) (vec x4) :=
  funext fun r => funext fun o => out1 x0 x1 x2 x3 x4 r o

end Cert.BatchNet.Ref
-- ==== Proof.RefNetB2.lean ====
/-
  The second block of the reference program, read entry by entry.

  The block's input is the activations that the preceding block leaves: an array with one row per batch element and 16 columns.  The
  program multiplies it by the transposed 16×16 weight matrix, adds the bias to every row, takes for each of the 16
  features the mean over the batch (the sum over all rows divided by the batch size) and the mean of the squared deviations
  from that mean, scales the deviation of each entry by the gain and by the reciprocal square root of (variance + ε), adds
  the shift, and replaces negative entries by zero;
  then it adds the block's input back and again replaces negative entries by zero.  Each theorem below says what one of these stages holds at a given
  entry, in terms of the functions `lin`, `mean`, `varDev`, `block`, `skipBlock` on coordinates.
-/
import proofs.«114887_j65481071405707_2_alg».proof.Proof.RefReadP
import proofs.«114887_j65481071405707_2_alg».proof.Proof.Spec
import proofs.«114887_j65481071405707_2_alg».proof.Proof.RefNetIdx

namespace Cert.BatchNet.Ref

open Cert.ReferenceIdeal Cert.ReferenceIdeal.ReadP Idealize.ShloMosaic Idealize.ShloMosaic.ValueIdx

/-- The affine layer: entry (r, o) is the product of row r of the input with row o of the weights, plus the bias of o. -/
theorem affine2 (x0 : (⟨S2097152x8, .f32⟩ : BufTy).Contents (Elt Ideal)) (x1 : (⟨S16x8, .f32⟩ : BufTy).Contents (Elt Ideal)) (x2 : (⟨S16, .f32⟩ : BufTy).Contents (Elt Ideal)) (x3 : (⟨S16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (r : Fin 2097152) (o : Fin 16) :
    val_main_v35 (F := Ideal) x0 x1 x2 x3 x4 x5 x6 (ix2 r o) = lin (rows (val_main_v30 (F := Ideal) x0 x1 x2 x3 x4)) (rows x5) (vec x6) r o := by
  have e1 : ∀ k : Fin 16, lidx_main_v32 (ix2 r o) k = ix2 r k := fun k => idx2_ext rfl rfl
  have e2 : ∀ k : Fin 16, idx_main_v31 (ridx_main_v32 (ix2 r o) k) = ix2 o k := fun k => idx2_ext rfl rfl
  have e3 : idx_main_v33 (idx_main_v34 (ix2 r o)) = ix1 o := idx1_ext rfl
  rw [val_main_v35_apply, val_main_v32_apply, val_main_v34_apply, val_main_v33_apply, e3, Ideal.addf_def]
  show _ = (∑ j, (val_main_v30 (F := Ideal) x0 x1 x2 x3 x4) (ix2 r j) * x5 (ix2 o j)) + x6 (ix1 o)
  refine congrArg (fun s => s + x6 (ix1 o)) (Finset.sum_congr rfl fun k _ => ?_)
  rw [val_main_v31_apply, e1, e2]

/-- The mean of feature o over the batch: the sum of the affine layer's column o divided by the batch size. -/
theorem mean2 (x0 : (⟨S2097152x8, .f32⟩ : BufTy).Contents (Elt Ideal)) (x1 : (⟨S16x8, .f32⟩ : BufTy).Contents (Elt Ideal)) (x2 : (⟨S16, .f32⟩ : BufTy).Contents (Elt Ideal)) (x3 : (⟨S16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (o : Fin 16) :
    val_main_v38 (F := Ideal) x0 x1 x2 x3 x4 x5 x6 (ix1 o) = mean (lin (rows (val_main_v30 (F := Ideal) x0 x1 x2 x3 x4)) (rows x5) (vec x6)) o := by
  have e : ∀ k : Fin 2097152, idx_main_v36 (ix1 o) k = ix2 k o := fun k => idx2_ext rfl rfl
  rw [val_main_v38_apply, val_main_v36_apply, val_main_v37_apply, val_main_cst_4_apply, val_main_cst_5_apply]
  simp only [Ideal.hostDivf_def, Ideal.ofBits_def, e, affine2]
  rw [zero_word_add]
  rfl

/-- The variance of feature o over the batch: the sum of the squared deviations from the mean, divided by the batch size. -/
theorem var2 (x0 : (⟨S2097152x8, .f32⟩ : BufTy).Contents (Elt Ideal)) (x1 : (⟨S16x8, .f32⟩ : BufTy).Contents (Elt Ideal)) (x2 : (⟨S16, .f32⟩ : BufTy).Contents (Elt Ideal)) (x3 : (⟨S16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (o : Fin 16) :
    val_main_v45 (F := Ideal) x0 x1 x2 x3 x4 x5 x6 (ix1 o) = varDev (lin (rows (val_main_v30 (F := Ideal) x0 x1 x2 x3 x4)) (rows x5) (vec x6)) o := by
  have e : ∀ k : Fin 2097152, idx_main_v43 (ix1 o) k = ix2 k o := fun k => idx2_ext rfl rfl
  have e' : ∀ k : Fin 2097152, idx_main_v39 (idx_main_v40 (ix2 k o)) = ix1 o := fun k => idx1_ext rfl
  rw [val_main_v45_apply, val_main_v43_apply, val_main_v44_apply, val_main_cst_6_apply, val_main_cst_7_apply]
  simp only [Ideal.hostDivf_def, Ideal.ofBits_def, e, val_main_v42_apply, val_main_v41_apply, val_main_v40_apply,
    val_main_v39_apply, e', affine2, mean2, Ideal.mulf_def, Ideal.subf_def]
  rw [zero_word_add]
  rfl

/-- The block's output before any skip connection: the normalised, scaled and shifted entry, or zero if that is negative. -/
theorem out2 (x0 : (⟨S2097152x8, .f32⟩ : BufTy).Contents (Elt Ideal)) (x1 : (⟨S16x8, .f32⟩ : BufTy).Contents (Elt Ideal)) (x2 : (⟨S16, .f32⟩ : BufTy).Contents (Elt Ideal)) (x3 : (⟨S16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S16, .f32⟩ : BufTy).Contents (Elt Ideal)) (x8 : (⟨S16, .f32⟩ : BufTy).Contents (Elt Ideal)) (r : Fin 2097152) (o : Fin 16) :
    val_main_v61 (F := Ideal) x0 x1 x2 x3 x4 x5 x6 x7 x8 (ix2 r o)
      = block (@varDev) (rows (val_main_v30 (F := Ideal) x0 x1 x2 x3 x4)) (rows x5) (vec x6) (vec x7) (vec x8) r o := by
  have e1 : idx_main_v49 (idx_main_v50 (ix2 r o)) = ix1 o := idx1_ext rfl
  have e2 : idx_main_v46 (idx_main_v47 (ix2 r o)) = ix1 o := idx1_ext rfl
  have e3 : idx_main_v55 (idx_main_v56 (ix2 r o)) = ix1 o := idx1_ext rfl
  have e4 : idx_main_v58 (idx_main_v59 (ix2 r o)) = ix1 o := idx1_ext rfl
  rw [val_main_v61_apply, val_main_v60_apply, val_main_v57_apply, val_main_v51_apply,
    val_main_v50_apply, val_main_v49_apply, e1,
    val_main_v48_apply, val_main_v47_apply, val_main_v46_apply, e2,
    val_main_v56_apply, val_main_v55_apply, e3, val_main_v54_apply, val_main_v53_apply, val_main_v52_apply,
    val_main_cst_8_apply,
    val_main_v59_apply, val_main_v58_apply, e4, val_main_call1_v0_apply, val_main_call1_cst_apply,
    affine2, mean2, var2]
  simp only [Ideal.maximumf_def, Ideal.addf_def, Ideal.mulf_def, Ideal.subf_def, Ideal.hostUnary_rsqrt_def, Ideal.ofBits_def,
    Ideal.ofBits_zero_f32]
  rfl

/-- With the skip connection: the block's output plus the block's input at the same entry, or zero if that is negative. -/
theorem skip2 (x0 : (⟨S2097152x8, .f32⟩ : BufTy).Contents (Elt Ideal)) (x1 : (⟨S16x8, .f32⟩ : BufTy).Contents (Elt Ideal)) (x2 : (⟨S16, .f32⟩ : BufTy).Contents (Elt Ideal)) (x3 : (⟨S16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S16, .f32⟩ : BufTy).Contents (Elt Ideal)) (x8 : (⟨S16, .f32⟩ : BufTy).Contents (Elt Ideal)) (r : Fin 2097152) (o : Fin 16) :
    val_main_v63 (F := Ideal) x0 x1 x2 x3 x4 x5 x6 x7 x8 (ix2 r o)
      = skipBlock (@varDev) (rows (val_main_v30 (F := Ideal) x0 x1 x2 x3 x4)) (rows x5) (vec x6) (vec x7) (vec x8) r o := by
  rw [val_main_v63_apply, val_main_v62_apply, out2, val_main_call2_v0_apply, val_main_call2_cst_apply]
  simp only [Ideal.maximumf_def, Ideal.addf_def, Ideal.ofBits_def, Ideal.ofBits_zero_f32]
  rfl

/-- The same for all entries at once: the activations this block leaves, as a function of (row, feature). -/
theorem rows_act2 (x0 : (⟨S2097152x8, .f32⟩ : BufTy).Contents (Elt Ideal)) (x1 : (⟨S16x8, .f32⟩ : BufTy).Contents (Elt Ideal)) (x2 : (⟨S16, .f32⟩ : BufTy).Contents (Elt Ideal)) (x3 : (⟨S16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S16, .f32⟩ : BufTy).Contents (Elt Ideal)) (x8 : (⟨S16, .f32⟩ : BufTy).Contents (Elt Ideal)) :
    rows (val_main_v63 (F := Ideal) x0 x1 x2 x3 x4 x5 x6 x7 x8)
      = skipBlock (@varDev) (rows (val_main_v30 (F := Ideal) x0 x1 x2 x3 x4)) (rows x5) (vec x6) (vec x7) (vec x8) :=
  funext fun r => funext fun o => skip2 x0 x1 x2 x3 x4 x5 x6 x7 x8 r o

end Cert.BatchNet.Ref
-- ==== Proof.RefNetB3.lean ====
/-
  The third block of the reference program, read entry by entry.

  The block's input is the activations that the preceding block leaves: an array with one row per batch element and 16 columns.  The
  program multiplies it by the transposed 12×16 weight matrix, adds the bias to every row, takes for each of the 12
  features the mean over the batch (the sum over all rows divided by the batch size) and the mean of the squared deviations
  from that mean, scales the deviation of each entry by the gain and by the reciprocal square root of (variance + ε), adds
  the shift, and replaces negative entries by zero.  Each theorem below says what one of these stages holds at a given
  entry, in terms of the functions `lin`, `mean`, `varDev`, `block` on coordinates.
-/
import proofs.«114887_j65481071405707_2_alg».proof.Proof.RefReadP
import proofs.«114887_j65481071405707_2_alg».proof.Proof.Spec
import proofs.«114887_j65481071405707_2_alg».proof.Proof.RefNetIdx

namespace Cert.BatchNet.Ref

open Cert.ReferenceIdeal Cert.ReferenceIdeal.ReadP Idealize.ShloMosaic Idealize.ShloMosaic.ValueIdx

/-- The affine layer: entry (r, o) is the product of row r of the input with row o of the weights, plus the bias of o. -/
theorem affine3 (x0 : (⟨S2097152x8, .f32⟩ : BufTy).Contents (Elt Ideal)) (x1 : (⟨S16x8, .f32⟩ : BufTy).Contents (Elt Ideal)) (x2 : (⟨S16, .f32⟩ : BufTy).Contents (Elt Ideal)) (x3 : (⟨S16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S16, .f32⟩ : BufTy).Contents (Elt Ideal)) (x8 : (⟨S16, .f32⟩ : BufTy).Contents (Elt Ideal)) (x9 : (⟨S12x16, .f32⟩ : BufTy).Contents (Elt Ideal)) (x10 : (⟨S12, .f32⟩ : BufTy).Contents (Elt Ideal)) (r : Fin 2097152) (o : Fin 12) :
    val_main_v68 (F := Ideal) x0 x1 x2 x3 x4 x5 x6 x7 x8 x9 x10 (ix2 r o) = lin (rows (val_main_v63 (F := Ideal) x0 x1 x2 x3 x4 x5 x6 x7 x8)) (rows x9) (vec x10) r o := by
  have e1 : ∀ k : Fin 16, lidx_main_v65 (ix2 r o) k = ix2 r k := fun k => idx2_ext rfl rfl
  have e2 : ∀ k : Fin 16, idx_main_v64 (ridx_main_v65 (ix2 r o) k) = ix2 o k := fun k => idx2_ext rfl rfl
  have e3 : idx_main_v66 (idx_main_v67 (ix2 r o)) = ix1 o := idx1_ext rfl
  rw [val_main_v68_apply, val_main_v65_apply, val_main_v67_apply, val_main_v66_apply, e3, Ideal.addf_def]
  show _ = (∑ j, (val_main_v63 (F := Ideal) x0 x1 x2 x3 x4 x5 x6 x7 x8) (ix2 r j) * x9 (ix2 o j)) + x10 (ix1 o)
  refine congrArg (fun s => s + x10 (ix1 o)) (Finset.sum_congr rfl fun k _ => ?_)
  rw [val_main_v64_apply, e1, e2]

/-- The mean of feature o over the batch: the sum of the affine layer's column o divided by the batch size. -/
theorem mean3 (x0 : (⟨S2097152x8, .f32⟩ : BufTy).Contents (Elt Ideal)) (x1 : (⟨S16x8, .f32⟩ : BufTy).Contents (Elt Ideal)) (x2 : (⟨S16, .f32⟩ : BufTy).Contents (Elt Ideal)) (x3 : (⟨S16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S16, .f32⟩ : BufTy).Contents (Elt Ideal)) (x8 : (⟨S16, .f32⟩ : BufTy).Contents (Elt Ideal)) (x9 : (⟨S12x16, .f32⟩ : BufTy).Contents (Elt Ideal)) (x10 : (⟨S12, .f32⟩ : BufTy).Contents (Elt Ideal)) (o : Fin 12) :
    val_main_v71 (F := Ideal) x0 x1 x2 x3 x4 x5 x6 x7 x8 x9 x10 (ix1 o) = mean (lin (rows (val_main_v63 (F := Ideal) x0 x1 x2 x3 x4 x5 x6 x7 x8)) (rows x9) (vec x10)) o := by
  have e : ∀ k : Fin 2097152, idx_main_v69 (ix1 o) k = ix2 k o := fun k => idx2_ext rfl rfl
  rw [val_main_v71_apply, val_main_v69_apply, val_main_v70_apply, val_main_cst_9_apply, val_main_cst_10_apply]
  simp only [Ideal.hostDivf_def, Ideal.ofBits_def, e, affine3]
  rw [zero_word_add]
  rfl

/-- The variance of feature o over the batch: the sum of the squared deviations from the mean, divided by the batch size. -/
theorem var3 (x0 : (⟨S2097152x8, .f32⟩ : BufTy).Contents (Elt Ideal)) (x1 : (⟨S16x8, .f32⟩ : BufTy).Contents (Elt Ideal)) (x2 : (⟨S16, .f32⟩ : BufTy).Contents (Elt Ideal)) (x3 : (⟨S16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S16, .f32⟩ : BufTy).Contents (Elt Ideal)) (x8 : (⟨S16, .f32⟩ : BufTy).Contents (Elt Ideal)) (x9 : (⟨S12x16, .f32⟩ : BufTy).Contents (Elt Ideal)) (x10 : (⟨S12, .f32⟩ : BufTy).Contents (Elt Ideal)) (o : Fin 12) :
    val_main_v78 (F := Ideal) x0 x1 x2 x3 x4 x5 x6 x7 x8 x9 x10 (ix1 o) = varDev (lin (rows (val_main_v63 (F := Ideal) x0 x1 x2 x3 x4 x5 x6 x7 x8)) (rows x9) (vec x10)) o := by
  have e : ∀ k : Fin 2097152, idx_main_v76 (ix1 o) k = ix2 k o := fun k => idx2_ext rfl rfl
  have e' : ∀ k : Fin 2097152, idx_main_v72 (idx_main_v73 (ix2 k o)) = ix1 o := fun k => idx1_ext rfl
  rw [val_main_v78_apply, val_main_v76_apply, val_main_v77_apply, val_main_cst_11_apply, val_main_cst_12_apply]
  simp only [Ideal.hostDivf_def, Ideal.ofBits_def, e, val_main_v75_apply, val_main_v74_apply, val_main_v73_apply,
    val_main_v72_apply, e', affine3, mean3, Ideal.mulf_def, Ideal.subf_def]
  rw [zero_word_add]
  rfl

/-- The block's output before any skip connection: the normalised, scaled and shifted entry, or zero if that is negative. -/
theorem out3 (x0 : (⟨S2097152x8, .f32⟩ : BufTy).Contents (Elt Ideal)) (x1 : (⟨S16x8, .f32⟩ : BufTy).Contents (Elt Ideal)) (x2 : (⟨S16, .f32⟩ : BufTy).Contents (Elt Ideal)) (x3 : (⟨S16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S16, .f32⟩ : BufTy).Contents (Elt Ideal)) (x8 : (⟨S16, .f32⟩ : BufTy).Contents (Elt Ideal)) (x9 : (⟨S12x16, .f32⟩ : BufTy).Contents (Elt Ideal)) (x10 : (⟨S12, .f32⟩ : BufTy).Contents (Elt Ideal)) (x11 : (⟨S12, .f32⟩ : BufTy).Contents (Elt Ideal)) (x12 : (⟨S12, .f32⟩ : BufTy).Contents (Elt Ideal)) (r : Fin 2097152) (o : Fin 12) :
    val_main_v94 (F := Ideal) x0 x1 x2 x3 x4 x5 x6 x7 x8 x9 x10 x11 x12 (ix2 r o)
      = block (@varDev) (rows (val_main_v63 (F := Ideal) x0 x1 x2 x3 x4 x5 x6 x7 x8)) (rows x9) (vec x10) (vec x11) (vec x12) r o := by
  have e1 : idx_main_v82 (idx_main_v83 (ix2 r o)) = ix1 o := idx1_ext rfl
  have e2 : idx_main_v79 (idx_main_v80 (ix2 r o)) = ix1 o := idx1_ext rfl
  have e3 : idx_main_v88 (idx_main_v89 (ix2 r o)) = ix1 o := idx1_ext rfl
  have e4 : idx_main_v91 (idx_main_v92 (ix2 r o)) = ix1 o := idx1_ext rfl
  rw [val_main_v94_apply, val_main_v93_apply, val_main_v90_apply, val_main_v84_apply,
    val_main_v83_apply, val_main_v82_apply, e1,
    val_main_v81_apply, val_main_v80_apply, val_main_v79_apply, e2,
    val_main_v89_apply, val_main_v88_apply, e3, val_main_v87_apply, val_main_v86_apply, val_main_v85_apply,
    val_main_cst_13_apply,
    val_main_v92_apply, val_main_v91_apply, e4, val_main_call3_v0_apply, val_main_call3_cst_apply,
    affine3, mean3, var3]
  simp only [Ideal.maximumf_def, Ideal.addf_def, Ideal.mulf_def, Ideal.subf_def, Ideal.hostUnary_rsqrt_def, Ideal.ofBits_def,
    Ideal.ofBits_zero_f32]
  rfl

/-- The same for all entries at once: the activations this block leaves, as a function of (row, feature). -/
theorem rows_act3 (x0 : (⟨S2097152x8, .f32⟩ : BufTy).Contents (Elt Ideal)) (x1 : (⟨S16x8, .f32⟩ : BufTy).Contents (Elt Ideal)) (x2 : (⟨S16, .f32⟩ : BufTy).Contents (Elt Ideal)) (x3 : (⟨S16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S16, .f32⟩ : BufTy).Contents (Elt Ideal)) (x8 : (⟨S16, .f32⟩ : BufTy).Contents (Elt Ideal)) (x9 : (⟨S12x16, .f32⟩ : BufTy).Contents (Elt Ideal)) (x10 : (⟨S12, .f32⟩ : BufTy).Contents (Elt Ideal)) (x11 : (⟨S12, .f32⟩ : BufTy).Contents (Elt Ideal)) (x12 : (⟨S12, .f32⟩ : BufTy).Contents (Elt Ideal)) :
    rows (val_main_v94 (F := Ideal) x0 x1 x2 x3 x4 x5 x6 x7 x8 x9 x10 x11 x12)
      = block (@varDev) (rows (val_main_v63 (F := Ideal) x0 x1 x2 x3 x4 x5 x6 x7 x8)) (rows x9) (vec x10) (vec x11) (vec x12) :=
  funext fun r => funext fun o => out3 x0 x1 x2 x3 x4 x5 x6 x7 x8 x9 x10 x11 x12 r o

end Cert.BatchNet.Ref
-- ==== Proof.RefNetB4.lean ====
/-
  The fourth block of the reference program, read entry by entry.

  The block's input is the activations that the preceding block leaves: an array with one row per batch element and 12 columns.  The
  program multiplies it by the transposed 12×12 weight matrix, adds the bias to every row, takes for each of the 12
  features the mean over the batch (the sum over all rows divided by the batch size) and the mean of the squared deviations
  from that mean, scales the deviation of each entry by the gain and by the reciprocal square root of (variance + ε), adds
  the shift, and replaces negative entries by zero;
  then it adds the block's input back and again replaces negative entries by zero.  Each theorem below says what one of these stages holds at a given
  entry, in terms of the functions `lin`, `mean`, `varDev`, `block`, `skipBlock` on coordinates.
-/
import proofs.«114887_j65481071405707_2_alg».proof.Proof.RefReadP
import proofs.«114887_j65481071405707_2_alg».proof.Proof.Spec
import proofs.«114887_j65481071405707_2_alg».proof.Proof.RefNetIdx

namespace Cert.BatchNet.Ref

open Cert.ReferenceIdeal Cert.ReferenceIdeal.ReadP Idealize.ShloMosaic Idealize.ShloMosaic.ValueIdx

/-- The affine layer: entry (r, o) is the product of row r of the input with row o of the weights, plus the bias of o. -/
theorem affine4 (x0 : (⟨S2097152x8, .f32⟩ : BufTy).Contents (Elt Ideal)) (x1 : (⟨S16x8, .f32⟩ : BufTy).Contents (Elt Ideal)) (x2 : (⟨S16, .f32⟩ : BufTy).Contents (Elt Ideal)) (x3 : (⟨S16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S16, .f32⟩ : BufTy).Contents (Elt Ideal)) (x8 : (⟨S16, .f32⟩ : BufTy).Contents (Elt Ideal)) (x9 : (⟨S12x16, .f32⟩ : BufTy).Contents (Elt Ideal)) (x10 : (⟨S12, .f32⟩ : BufTy).Contents (Elt Ideal)) (x11 : (⟨S12, .f32⟩ : BufTy).Contents (Elt Ideal)) (x12 : (⟨S12, .f32⟩ : BufTy).Contents (Elt Ideal)) (x13 : (⟨S12x12, .f32⟩ : BufTy).Contents (Elt Ideal)) (x14 : (⟨S12, .f32⟩ : BufTy).Contents (Elt Ideal)) (r : Fin 2097152) (o : Fin 12) :
    val_main_v99 (F := Ideal) x0 x1 x2 x3 x4 x5 x6 x7 x8 x9 x10 x11 x12 x13 x14 (ix2 r o) = lin (rows (val_main_v94 (F := Ideal) x0 x1 x2 x3 x4 x5 x6 x7 x8 x9 x10 x11 x12)) (rows x13) (vec x14) r o := by
  have e1 : ∀ k : Fin 12, lidx_main_v96 (ix2 r o) k = ix2 r k := fun k => idx2_ext rfl rfl
  have e2 : ∀ k : Fin 12, idx_main_v95 (ridx_main_v96 (ix2 r o) k) = ix2 o k := fun k => idx2_ext rfl rfl
  have e3 : idx_main_v97 (idx_main_v98 (ix2 r o)) = ix1 o := idx1_ext rfl
  rw [val_main_v99_apply, val_main_v96_apply, val_main_v98_apply, val_main_v97_apply, e3, Ideal.addf_def]
  show _ = (∑ j, (val_main_v94 (F := Ideal) x0 x1 x2 x3 x4 x5 x6 x7 x8 x9 x10 x11 x12) (ix2 r j) * x13 (ix2 o j)) + x14 (ix1 o)
  refine congrArg (fun s => s + x14 (ix1 o)) (Finset.sum_congr rfl fun k _ => ?_)
  rw [val_main_v95_apply, e1, e2]

/-- The mean of feature o over the batch: the sum of the affine layer's column o divided by the batch size. -/
theorem mean4 (x0 : (⟨S2097152x8, .f32⟩ : BufTy).Contents (Elt Ideal)) (x1 : (⟨S16x8, .f32⟩ : BufTy).Contents (Elt Ideal)) (x2 : (⟨S16, .f32⟩ : BufTy).Contents (Elt Ideal)) (x3 : (⟨S16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S16, .f32⟩ : BufTy).Contents (Elt Ideal)) (x8 : (⟨S16, .f32⟩ : BufTy).Contents (Elt Ideal)) (x9 : (⟨S12x16, .f32⟩ : BufTy).Contents (Elt Ideal)) (x10 : (⟨S12, .f32⟩ : BufTy).Contents (Elt Ideal)) (x11 : (⟨S12, .f32⟩ : BufTy).Contents (Elt Ideal)) (x12 : (⟨S12, .f32⟩ : BufTy).Contents (Elt Ideal)) (x13 : (⟨S12x12, .f32⟩ : BufTy).Contents (Elt Ideal)) (x14 : (⟨S12, .f32⟩ : BufTy).Contents (Elt Ideal)) (o : Fin 12) :
    val_main_v102 (F := Ideal) x0 x1 x2 x3 x4 x5 x6 x7 x8 x9 x10 x11 x12 x13 x14 (ix1 o) = mean (lin (rows (val_main_v94 (F := Ideal) x0 x1 x2 x3 x4 x5 x6 x7 x8 x9 x10 x11 x12)) (rows x13) (vec x14)) o := by
  have e : ∀ k : Fin 2097152, idx_main_v100 (ix1 o) k = ix2 k o := fun k => idx2_ext rfl rfl
  rw [val_main_v102_apply, val_main_v100_apply, val_main_v101_apply, val_main_cst_14_apply, val_main_cst_15_apply]
  simp only [Ideal.hostDivf_def, Ideal.ofBits_def, e, affine4]
  rw [zero_word_add]
  rfl

/-- The variance of feature o over the batch: the sum of the squared deviations from the mean, divided by the batch size. -/
theorem var4 (x0 : (⟨S2097152x8, .f32⟩ : BufTy).Contents (Elt Ideal)) (x1 : (⟨S16x8, .f32⟩ : BufTy).Contents (Elt Ideal)) (x2 : (⟨S16, .f32⟩ : BufTy).Contents (Elt Ideal)) (x3 : (⟨S16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S16, .f32⟩ : BufTy).Contents (Elt Ideal)) (x8 : (⟨S16, .f32⟩ : BufTy).Contents (Elt Ideal)) (x9 : (⟨S12x16, .f32⟩ : BufTy).Contents (Elt Ideal)) (x10 : (⟨S12, .f32⟩ : BufTy).Contents (Elt Ideal)) (x11 : (⟨S12, .f32⟩ : BufTy).Contents (Elt Ideal)) (x12 : (⟨S12, .f32⟩ : BufTy).Contents (Elt Ideal)) (x13 : (⟨S12x12, .f32⟩ : BufTy).Contents (Elt Ideal)) (x14 : (⟨S12, .f32⟩ : BufTy).Contents (Elt Ideal)) (o : Fin 12) :
    val_main_v109 (F := Ideal) x0 x1 x2 x3 x4 x5 x6 x7 x8 x9 x10 x11 x12 x13 x14 (ix1 o) = varDev (lin (rows (val_main_v94 (F := Ideal) x0 x1 x2 x3 x4 x5 x6 x7 x8 x9 x10 x11 x12)) (rows x13) (vec x14)) o := by
  have e : ∀ k : Fin 2097152, idx_main_v107 (ix1 o) k = ix2 k o := fun k => idx2_ext rfl rfl
  have e' : ∀ k : Fin 2097152, idx_main_v103 (idx_main_v104 (ix2 k o)) = ix1 o := fun k => idx1_ext rfl
  rw [val_main_v109_apply, val_main_v107_apply, val_main_v108_apply, val_main_cst_16_apply, val_main_cst_17_apply]
  simp only [Ideal.hostDivf_def, Ideal.ofBits_def, e, val_main_v106_apply, val_main_v105_apply, val_main_v104_apply,
    val_main_v103_apply, e', affine4, mean4, Ideal.mulf_def, Ideal.subf_def]
  rw [zero_word_add]
  rfl

/-- The block's output before any skip connection: the normalised, scaled and shifted entry, or zero if that is negative. -/
theorem out4 (x0 : (⟨S2097152x8, .f32⟩ : BufTy).Contents (Elt Ideal)) (x1 : (⟨S16x8, .f32⟩ : BufTy).Contents (Elt Ideal)) (x2 : (⟨S16, .f32⟩ : BufTy).Contents (Elt Ideal)) (x3 : (⟨S16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S16, .f32⟩ : BufTy).Contents (Elt Ideal)) (x8 : (⟨S16, .f32⟩ : BufTy).Contents (Elt Ideal)) (x9 : (⟨S12x16, .f32⟩ : BufTy).Contents (Elt Ideal)) (x10 : (⟨S12, .f32⟩ : BufTy).Contents (Elt Ideal)) (x11 : (⟨S12, .f32⟩ : BufTy).Contents (Elt Ideal)) (x12 : (⟨S12, .f32⟩ : BufTy).Contents (Elt Ideal)) (x13 : (⟨S12x12, .f32⟩ : BufTy).Contents (Elt Ideal)) (x14 : (⟨S12, .f32⟩ : BufTy).Contents (Elt Ideal)) (x15 : (⟨S12, .f32⟩ : BufTy).Contents (Elt Ideal)) (x16 : (⟨S12, .f32⟩ : BufTy).Contents (Elt Ideal)) (r : Fin 2097152) (o : Fin 12) :
    val_main_v125 (F := Ideal) x0 x1 x2 x3 x4 x5 x6 x7 x8 x9 x10 x11 x12 x13 x14 x15 x16 (ix2 r o)
      = block (@varDev) (rows (val_main_v94 (F := Ideal) x0 x1 x2 x3 x4 x5 x6 x7 x8 x9 x10 x11 x12)) (rows x13) (vec x14) (vec x15) (vec x16) r o := by
  have e1 : idx_main_v113 (idx_main_v114 (ix2 r o)) = ix1 o := idx1_ext rfl
  have e2 : idx_main_v110 (idx_main_v111 (ix2 r o)) = ix1 o := idx1_ext rfl
  have e3 : idx_main_v119 (idx_main_v120 (ix2 r o)) = ix1 o := idx1_ext rfl
  have e4 : idx_main_v122 (idx_main_v123 (ix2 r o)) = ix1 o := idx1_ext rfl
  rw [val_main_v125_apply, val_main_v124_apply, val_main_v121_apply, val_main_v115_apply,
    val_main_v114_apply, val_main_v113_apply, e1,
    val_main_v112_apply, val_main_v111_apply, val_main_v110_apply, e2,
    val_main_v120_apply, val_main_v119_apply, e3, val_main_v118_apply, val_main_v117_apply, val_main_v116_apply,
    val_main_cst_18_apply,
    val_main_v123_apply, val_main_v122_apply, e4, val_main_call4_v0_apply, val_main_call4_cst_apply,
    affine4, mean4, var4]
  simp only [Ideal.maximumf_def, Ideal.addf_def, Ideal.mulf_def, Ideal.subf_def, Ideal.hostUnary_rsqrt_def, Ideal.ofBits_def,
    Ideal.ofBits_zero_f32]
  rfl

/-- With the skip connection: the block's output plus the block's input at the same entry, or zero if that is negative. -/
theorem skip4 (x0 : (⟨S2097152x8, .f32⟩ : BufTy).Contents (Elt Ideal)) (x1 : (⟨S16x8, .f32⟩ : BufTy).Contents (Elt Ideal)) (x2 : (⟨S16, .f32⟩ : BufTy).Contents (Elt Ideal)) (x3 : (⟨S16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S16, .f32⟩ : BufTy).Contents (Elt Ideal)) (x8 : (⟨S16, .f32⟩ : BufTy).Contents (Elt Ideal)) (x9 : (⟨S12x16, .f32⟩ : BufTy).Contents (Elt Ideal)) (x10 : (⟨S12, .f32⟩ : BufTy).Contents (Elt Ideal)) (x11 : (⟨S12, .f32⟩ : BufTy).Contents (Elt Ideal)) (x12 : (⟨S12, .f32⟩ : BufTy).Contents (Elt Ideal)) (x13 : (⟨S12x12, .f32⟩ : BufTy).Contents (Elt Ideal)) (x14 : (⟨S12, .f32⟩ : BufTy).Contents (Elt Ideal)) (x15 : (⟨S12, .f32⟩ : BufTy).Contents (Elt Ideal)) (x16 : (⟨S12, .f32⟩ : BufTy).Contents (Elt Ideal)) (r : Fin 2097152) (o : Fin 12) :
    val_main_v127 (F := Ideal) x0 x1 x2 x3 x4 x5 x6 x7 x8 x9 x10 x11 x12 x13 x14 x15 x16 (ix2 r o)
      = skipBlock (@varDev) (rows (val_main_v94 (F := Ideal) x0 x1 x2 x3 x4 x5 x6 x7 x8 x9 x10 x11 x12)) (rows x13) (vec x14) (vec x15) (vec x16) r o := by
  rw [val_main_v127_apply, val_main_v126_apply, out4, val_main_call5_v0_apply, val_main_call5_cst_apply]
  simp only [Ideal.maximumf_def, Ideal.addf_def, Ideal.ofBits_def, Ideal.ofBits_zero_f32]
  rfl

/-- The same for all entries at once: the activations this block leaves, as a function of (row, feature). -/
theorem rows_act4 (x0 : (⟨S2097152x8, .f32⟩ : BufTy).Contents (Elt Ideal)) (x1 : (⟨S16x8, .f32⟩ : BufTy).Contents (Elt Ideal)) (x2 : (⟨S16, .f32⟩ : BufTy).Contents (Elt Ideal)) (x3 : (⟨S16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S16, .f32⟩ : BufTy).Contents (Elt Ideal)) (x8 : (⟨S16, .f32⟩ : BufTy).Contents (Elt Ideal)) (x9 : (⟨S12x16, .f32⟩ : BufTy).Contents (Elt Ideal)) (x10 : (⟨S12, .f32⟩ : BufTy).Contents (Elt Ideal)) (x11 : (⟨S12, .f32⟩ : BufTy).Contents (Elt Ideal)) (x12 : (⟨S12, .f32⟩ : BufTy).Contents (Elt Ideal)) (x13 : (⟨S12x12, .f32⟩ : BufTy).Contents (Elt Ideal)) (x14 : (⟨S12, .f32⟩ : BufTy).Contents (Elt Ideal)) (x15 : (⟨S12, .f32⟩ : BufTy).Contents (Elt Ideal)) (x16 : (⟨S12, .f32⟩ : BufTy).Contents (Elt Ideal)) :
    rows (val_main_v127 (F := Ideal) x0 x1 x2 x3 x4 x5 x6 x7 x8 x9 x10 x11 x12 x13 x14 x15 x16)
      = skipBlock (@varDev) (rows (val_main_v94 (F := Ideal) x0 x1 x2 x3 x4 x5 x6 x7 x8 x9 x10 x11 x12)) (rows x13) (vec x14) (vec x15) (vec x16) :=
  funext fun r => funext fun o => skip4 x0 x1 x2 x3 x4 x5 x6 x7 x8 x9 x10 x11 x12 x13 x14 x15 x16 r o

end Cert.BatchNet.Ref
-- ==== Proof.RefNetB5.lean ====
/-
  The fifth block of the reference program, read entry by entry.

  The block's input is the activations that the preceding block leaves: an array with one row per batch element and 12 columns.  The
  program multiplies it by the transposed 8×12 weight matrix, adds the bias to every row, takes for each of the 8
  features the mean over the batch (the sum over all rows divided by the batch size) and the mean of the squared deviations
  from that mean, scales the deviation of each entry by the gain and by the reciprocal square root of (variance + ε), adds
  the shift, and replaces negative entries by zero.  Each theorem below says what one of these stages holds at a given
  entry, in terms of the functions `lin`, `mean`, `varDev`, `block` on coordinates.
-/
import proofs.«114887_j65481071405707_2_alg».proof.Proof.RefReadP
import proofs.«114887_j65481071405707_2_alg».proof.Proof.Spec
import proofs.«114887_j65481071405707_2_alg».proof.Proof.RefNetIdx

namespace Cert.BatchNet.Ref

open Cert.ReferenceIdeal Cert.ReferenceIdeal.ReadP Idealize.ShloMosaic Idealize.ShloMosaic.ValueIdx

/-- The affine layer: entry (r, o) is the product of row r of the input with row o of the weights, plus the bias of o. -/
theorem affine5 (x0 : (⟨S2097152x8, .f32⟩ : BufTy).Contents (Elt Ideal)) (x1 : (⟨S16x8, .f32⟩ : BufTy).Contents (Elt Ideal)) (x2 : (⟨S16, .f32⟩ : BufTy).Contents (Elt Ideal)) (x3 : (⟨S16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S16, .f32⟩ : BufTy).Contents (Elt Ideal)) (x8 : (⟨S16, .f32⟩ : BufTy).Contents (Elt Ideal)) (x9 : (⟨S12x16, .f32⟩ : BufTy).Contents (Elt Ideal)) (x10 : (⟨S12, .f32⟩ : BufTy).Contents (Elt Ideal)) (x11 : (⟨S12, .f32⟩ : BufTy).Contents (Elt Ideal)) (x12 : (⟨S12, .f32⟩ : BufTy).Contents (Elt Ideal)) (x13 : (⟨S12x12, .f32⟩ : BufTy).Contents (Elt Ideal)) (x14 : (⟨S12, .f32⟩ : BufTy).Contents (Elt Ideal)) (x15 : (⟨S12, .f32⟩ : BufTy).Contents (Elt Ideal)) (x16 : (⟨S12, .f32⟩ : BufTy).Contents (Elt Ideal)) (x17 : (⟨S8x12, .f32⟩ : BufTy).Contents (Elt Ideal)) (x18 : (⟨S8, .f32⟩ : BufTy).Contents (Elt Ideal)) (r : Fin 2097152) (o : Fin 8) :
    val_main_v132 (F := Ideal) x0 x1 x2 x3 x4 x5 x6 x7 x8 x9 x10 x11 x12 x13 x14 x15 x16 x17 x18 (ix2 r o) = lin (rows (val_main_v127 (F := Ideal) x0 x1 x2 x3 x4 x5 x6 x7 x8 x9 x10 x11 x12 x13 x14 x15 x16)) (rows x17) (vec x18) r o := by
  have e1 : ∀ k : Fin 12, lidx_main_v129 (ix2 r o) k = ix2 r k := fun k => idx2_ext rfl rfl
  have e2 : ∀ k : Fin 12, idx_main_v128 (ridx_main_v129 (ix2 r o) k) = ix2 o k := fun k => idx2_ext rfl rfl
  have e3 : idx_main_v130 (idx_main_v131 (ix2 r o)) = ix1 o := idx1_ext rfl
  rw [val_main_v132_apply, val_main_v129_apply, val_main_v131_apply, val_main_v130_apply, e3, Ideal.addf_def]
  show _ = (∑ j, (val_main_v127 (F := Ideal) x0 x1 x2 x3 x4 x5 x6 x7 x8 x9 x10 x11 x12 x13 x14 x15 x16) (ix2 r j) * x17 (ix2 o j)) + x18 (ix1 o)
  refine congrArg (fun s => s + x18 (ix1 o)) (Finset.sum_congr rfl fun k _ => ?_)
  rw [val_main_v128_apply, e1, e2]

/-- The mean of feature o over the batch: the sum of the affine layer's column o divided by the batch size. -/
theorem mean5 (x0 : (⟨S2097152x8, .f32⟩ : BufTy).Contents (Elt Ideal)) (x1 : (⟨S16x8, .f32⟩ : BufTy).Contents (Elt Ideal)) (x2 : (⟨S16, .f32⟩ : BufTy).Contents (Elt Ideal)) (x3 : (⟨S16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S16, .f32⟩ : BufTy).Contents (Elt Ideal)) (x8 : (⟨S16, .f32⟩ : BufTy).Contents (Elt Ideal)) (x9 : (⟨S12x16, .f32⟩ : BufTy).Contents (Elt Ideal)) (x10 : (⟨S12, .f32⟩ : BufTy).Contents (Elt Ideal)) (x11 : (⟨S12, .f32⟩ : BufTy).Contents (Elt Ideal)) (x12 : (⟨S12, .f32⟩ : BufTy).Contents (Elt Ideal)) (x13 : (⟨S12x12, .f32⟩ : BufTy).Contents (Elt Ideal)) (x14 : (⟨S12, .f32⟩ : BufTy).Contents (Elt Ideal)) (x15 : (⟨S12, .f32⟩ : BufTy).Contents (Elt Ideal)) (x16 : (⟨S12, .f32⟩ : BufTy).Contents (Elt Ideal)) (x17 : (⟨S8x12, .f32⟩ : BufTy).Contents (Elt Ideal)) (x18 : (⟨S8, .f32⟩ : BufTy).Contents (Elt Ideal)) (o : Fin 8) :
    val_main_v135 (F := Ideal) x0 x1 x2 x3 x4 x5 x6 x7 x8 x9 x10 x11 x12 x13 x14 x15 x16 x17 x18 (ix1 o) = mean (lin (rows (val_main_v127 (F := Ideal) x0 x1 x2 x3 x4 x5 x6 x7 x8 x9 x10 x11 x12 x13 x14 x15 x16)) (rows x17) (vec x18)) o := by
  have e : ∀ k : Fin 2097152, idx_main_v133 (ix1 o) k = ix2 k o := fun k => idx2_ext rfl rfl
  rw [val_main_v135_apply, val_main_v133_apply, val_main_v134_apply, val_main_cst_19_apply, val_main_cst_20_apply]
  simp only [Ideal.hostDivf_def, Ideal.ofBits_def, e, affine5]
  rw [zero_word_add]
  rfl

/-- The variance of feature o over the batch: the sum of the squared deviations from the mean, divided by the batch size. -/
theorem var5 (x0 : (⟨S2097152x8, .f32⟩ : BufTy).Contents (Elt Ideal)) (x1 : (⟨S16x8, .f32⟩ : BufTy).Contents (Elt Ideal)) (x2 : (⟨S16, .f32⟩ : BufTy).Contents (Elt Ideal)) (x3 : (⟨S16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S16, .f32⟩ : BufTy).Contents (Elt Ideal)) (x8 : (⟨S16, .f32⟩ : BufTy).Contents (Elt Ideal)) (x9 : (⟨S12x16, .f32⟩ : BufTy).Contents (Elt Ideal)) (x10 : (⟨S12, .f32⟩ : BufTy).Contents (Elt Ideal)) (x11 : (⟨S12, .f32⟩ : BufTy).Contents (Elt Ideal)) (x12 : (⟨S12, .f32⟩ : BufTy).Contents (Elt Ideal)) (x13 : (⟨S12x12, .f32⟩ : BufTy).Contents (Elt Ideal)) (x14 : (⟨S12, .f32⟩ : BufTy).Contents (Elt Ideal)) (x15 : (⟨S12, .f32⟩ : BufTy).Contents (Elt Ideal)) (x16 : (⟨S12, .f32⟩ : BufTy).Contents (Elt Ideal)) (x17 : (⟨S8x12, .f32⟩ : BufTy).Contents (Elt Ideal)) (x18 : (⟨S8, .f32⟩ : BufTy).Contents (Elt Ideal)) (o : Fin 8) :
    val_main_v142 (F := Ideal) x0 x1 x2 x3 x4 x5 x6 x7 x8 x9 x10 x11 x12 x13 x14 x15 x16 x17 x18 (ix1 o) = varDev (lin (rows (val_main_v127 (F := Ideal) x0 x1 x2 x3 x4 x5 x6 x7 x8 x9 x10 x11 x12 x13 x14 x15 x16)) (rows x17) (vec x18)) o := by
  have e : ∀ k : Fin 2097152, idx_main_v140 (ix1 o) k = ix2 k o := fun k => idx2_ext rfl rfl
  have e' : ∀ k : Fin 2097152, idx_main_v136 (idx_main_v137 (ix2 k o)) = ix1 o := fun k => idx1_ext rfl
  rw [val_main_v142_apply, val_main_v140_apply, val_main_v141_apply, val_main_cst_21_apply, val_main_cst_22_apply]
  simp only [Ideal.hostDivf_def, Ideal.ofBits_def, e, val_main_v139_apply, val_main_v138_apply, val_main_v137_apply,
    val_main_v136_apply, e', affine5, mean5, Ideal.mulf_def, Ideal.subf_def]
  rw [zero_word_add]
  rfl

/-- The block's output before any skip connection: the normalised, scaled and shifted entry, or zero if that is negative. -/
theorem out5 (x0 : (⟨S2097152x8, .f32⟩ : BufTy).Contents (Elt Ideal)) (x1 : (⟨S16x8, .f32⟩ : BufTy).Contents (Elt Ideal)) (x2 : (⟨S16, .f32⟩ : BufTy).Contents (Elt Ideal)) (x3 : (⟨S16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S16, .f32⟩ : BufTy).Contents (Elt Ideal)) (x8 : (⟨S16, .f32⟩ : BufTy).Contents (Elt Ideal)) (x9 : (⟨S12x16, .f32⟩ : BufTy).Contents (Elt Ideal)) (x10 : (⟨S12, .f32⟩ : BufTy).Contents (Elt Ideal)) (x11 : (⟨S12, .f32⟩ : BufTy).Contents (Elt Ideal)) (x12 : (⟨S12, .f32⟩ : BufTy).Contents (Elt Ideal)) (x13 : (⟨S12x12, .f32⟩ : BufTy).Contents (Elt Ideal)) (x14 : (⟨S12, .f32⟩ : BufTy).Contents (Elt Ideal)) (x15 : (⟨S12, .f32⟩ : BufTy).Contents (Elt Ideal)) (x16 : (⟨S12, .f32⟩ : BufTy).Contents (Elt Ideal)) (x17 : (⟨S8x12, .f32⟩ : BufTy).Contents (Elt Ideal)) (x18 : (⟨S8, .f32⟩ : BufTy).Contents (Elt Ideal)) (x19 : (⟨S8, .f32⟩ : BufTy).Contents (Elt Ideal)) (x20 : (⟨S8, .f32⟩ : BufTy).Contents (Elt Ideal)) (r : Fin 2097152) (o : Fin 8) :
    val_main_v158 (F := Ideal) x0 x1 x2 x3 x4 x5 x6 x7 x8 x9 x10 x11 x12 x13 x14 x15 x16 x17 x18 x19 x20 (ix2 r o)
      = block (@varDev) (rows (val_main_v127 (F := Ideal) x0 x1 x2 x3 x4 x5 x6 x7 x8 x9 x10 x11 x12 x13 x14 x15 x16)) (rows x17) (vec x18) (vec x19) (vec x20) r o := by
  have e1 : idx_main_v146 (idx_main_v147 (ix2 r o)) = ix1 o := idx1_ext rfl
  have e2 : idx_main_v143 (idx_main_v144 (ix2 r o)) = ix1 o := idx1_ext rfl
  have e3 : idx_main_v152 (idx_main_v153 (ix2 r o)) = ix1 o := idx1_ext rfl
  have e4 : idx_main_v155 (idx_main_v156 (ix2 r o)) = ix1 o := idx1_ext rfl
  rw [val_main_v158_apply, val_main_v157_apply, val_main_v154_apply, val_main_v148_apply,
    val_main_v147_apply, val_main_v146_apply, e1,
    val_main_v145_apply, val_main_v144_apply, val_main_v143_apply, e2,
    val_main_v153_apply, val_main_v152_apply, e3, val_main_v151_apply, val_main_v150_apply, val_main_v149_apply,
    val_main_cst_23_apply,
    val_main_v156_apply, val_main_v155_apply, e4, val_main_call6_v0_apply, val_main_call6_cst_apply,
    affine5, mean5, var5]
  simp only [Ideal.maximumf_def, Ideal.addf_def, Ideal.mulf_def, Ideal.subf_def, Ideal.hostUnary_rsqrt_def, Ideal.ofBits_def,
    Ideal.ofBits_zero_f32]
  rfl

/-- The same for all entries at once: the activations this block leaves, as a function of (row, feature). -/
theorem rows_act5 (x0 : (⟨S2097152x8, .f32⟩ : BufTy).Contents (Elt Ideal)) (x1 : (⟨S16x8, .f32⟩ : BufTy).Contents (Elt Ideal)) (x2 : (⟨S16, .f32⟩ : BufTy).Contents (Elt Ideal)) (x3 : (⟨S16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S16, .f32⟩ : BufTy).Contents (Elt Ideal)) (x8 : (⟨S16, .f32⟩ : BufTy).Contents (Elt Ideal)) (x9 : (⟨S12x16, .f32⟩ : BufTy).Contents (Elt Ideal)) (x10 : (⟨S12, .f32⟩ : BufTy).Contents (Elt Ideal)) (x11 : (⟨S12, .f32⟩ : BufTy).Contents (Elt Ideal)) (x12 : (⟨S12, .f32⟩ : BufTy).Contents (Elt Ideal)) (x13 : (⟨S12x12, .f32⟩ : BufTy).Contents (Elt Ideal)) (x14 : (⟨S12, .f32⟩ : BufTy).Contents (Elt Ideal)) (x15 : (⟨S12, .f32⟩ : BufTy).Contents (Elt Ideal)) (x16 : (⟨S12, .f32⟩ : BufTy).Contents (Elt Ideal)) (x17 : (⟨S8x12, .f32⟩ : BufTy).Contents (Elt Ideal)) (x18 : (⟨S8, .f32⟩ : BufTy).Contents (Elt Ideal)) (x19 : (⟨S8, .f32⟩ : BufTy).Contents (Elt Ideal)) (x20 : (⟨S8, .f32⟩ : BufTy).Contents (Elt Ideal)) :
    rows (val_main_v158 (F := Ideal) x0 x1 x2 x3 x4 x5 x6 x7 x8 x9 x10 x11 x12 x13 x14 x15 x16 x17 x18 x19 x20)
      = block (@varDev) (rows (val_main_v127 (F := Ideal) x0 x1 x2 x3 x4 x5 x6 x7 x8 x9 x10 x11 x12 x13 x14 x15 x16)) (rows x17) (vec x18) (vec x19) (vec x20) :=
  funext fun r => funext fun o => out5 x0 x1 x2 x3 x4 x5 x6 x7 x8 x9 x10 x11 x12 x13 x14 x15 x16 x17 x18 x19 x20 r o

end Cert.BatchNet.Ref
-- ==== Proof.RefNetOut.lean ====
/-
  The last layer of the reference program, read entry by entry.

  The activations of the fifth block (8 columns) are multiplied by the transposed 1×8 weight matrix, the single bias is
  added, and the result x goes through x ↦ 1 / (1 + exp (−x)), which is the logistic function.  The program writes the two
  ones as the word 0x3F800000.
-/
import proofs.«114887_j65481071405707_2_alg».proof.Proof.RefReadP
import proofs.«114887_j65481071405707_2_alg».proof.Proof.Spec
import proofs.«114887_j65481071405707_2_alg».proof.Proof.RefNetIdx
import proofs.«114887_j65481071405707_2_alg».proof.Proof.NetLawConsts

namespace Cert.BatchNet.Ref

open Cert.ReferenceIdeal Cert.ReferenceIdeal.ReadP Idealize.ShloMosaic Idealize.ShloMosaic.ValueIdx

/-- The program's result at row r: the logistic function of the last affine layer's one feature. -/
theorem logit (x0 : (⟨S2097152x8, .f32⟩ : BufTy).Contents (Elt Ideal)) (x1 : (⟨S16x8, .f32⟩ : BufTy).Contents (Elt Ideal)) (x2 : (⟨S16, .f32⟩ : BufTy).Contents (Elt Ideal)) (x3 : (⟨S16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S16, .f32⟩ : BufTy).Contents (Elt Ideal)) (x8 : (⟨S16, .f32⟩ : BufTy).Contents (Elt Ideal)) (x9 : (⟨S12x16, .f32⟩ : BufTy).Contents (Elt Ideal)) (x10 : (⟨S12, .f32⟩ : BufTy).Contents (Elt Ideal)) (x11 : (⟨S12, .f32⟩ : BufTy).Contents (Elt Ideal)) (x12 : (⟨S12, .f32⟩ : BufTy).Contents (Elt Ideal)) (x13 : (⟨S12x12, .f32⟩ : BufTy).Contents (Elt Ideal)) (x14 : (⟨S12, .f32⟩ : BufTy).Contents (Elt Ideal)) (x15 : (⟨S12, .f32⟩ : BufTy).Contents (Elt Ideal)) (x16 : (⟨S12, .f32⟩ : BufTy).Contents (Elt Ideal)) (x17 : (⟨S8x12, .f32⟩ : BufTy).Contents (Elt Ideal)) (x18 : (⟨S8, .f32⟩ : BufTy).Contents (Elt Ideal)) (x19 : (⟨S8, .f32⟩ : BufTy).Contents (Elt Ideal)) (x20 : (⟨S8, .f32⟩ : BufTy).Contents (Elt Ideal)) (x21 : (⟨S1x8, .f32⟩ : BufTy).Contents (Elt Ideal)) (x22 : (⟨S1, .f32⟩ : BufTy).Contents (Elt Ideal)) (r : Fin 2097152) :
    val_main_v169 (F := Ideal) x0 x1 x2 x3 x4 x5 x6 x7 x8 x9 x10 x11 x12 x13 x14 x15 x16 x17 x18 x19 x20 x21 x22 (ix2 r (0 : Fin 1))
      = Ideal.logistic (lin (rows (val_main_v158 (F := Ideal) x0 x1 x2 x3 x4 x5 x6 x7 x8 x9 x10 x11 x12 x13 x14 x15 x16 x17 x18 x19 x20)) (rows x21) (vec x22) r 0) := by
  have e1 : ∀ k : Fin 8, lidx_main_v160 (ix2 r (0 : Fin 1)) k = ix2 r k := fun k => idx2_ext rfl rfl
  have e2 : ∀ k : Fin 8, idx_main_v159 (ridx_main_v160 (ix2 r (0 : Fin 1)) k) = ix2 (0 : Fin 1) k := fun k => idx2_ext rfl rfl
  have e3 : idx_main_v161 (idx_main_v162 (ix2 r (0 : Fin 1))) = ix1 (0 : Fin 1) := idx1_ext rfl
  rw [val_main_v169_apply, val_main_v168_apply, val_main_cst_25_apply, val_main_v167_apply, val_main_v166_apply,
    val_main_cst_24_apply, val_main_v165_apply, val_main_v164_apply, val_main_v163_apply, val_main_v160_apply,
    val_main_v162_apply, val_main_v161_apply, e3]
  simp only [Ideal.hostDivf_def, Ideal.addf_def, Ideal.hostUnary_exp_def, Ideal.hostNegf_def, Ideal.negf_def, Ideal.ofBits_def,
    ofBits_one_f32]
  show _ = Ideal.div 1 (1 + Ideal.exp (-((∑ j, (val_main_v158 (F := Ideal) x0 x1 x2 x3 x4 x5 x6 x7 x8 x9 x10 x11 x12 x13 x14 x15 x16 x17 x18 x19 x20) (ix2 r j) * x21 (ix2 (0 : Fin 1) j)) + x22 (ix1 (0 : Fin 1)))))
  refine congrArg (fun s => Ideal.div 1 (1 + Ideal.exp (-(s + x22 (ix1 (0 : Fin 1))))))
    (Finset.sum_congr rfl fun k _ => ?_)
  rw [val_main_v159_apply, e1, e2]

end Cert.BatchNet.Ref
-- ==== Proof.RefFold.lean ====
/-
  What the reference program's buffers hold after its operations have run, in order, from given contents.

  The program is a straight line of 211 operations, each writing one buffer from the buffers written before it; the
  contents after the line is the fold of the operations over the starting contents.  Followed from the result buffer back
  to the arguments, that fold is the last stage `val_main_v169` of the starting contents of the 23 argument buffers; and
  no operation writes an argument buffer, so each of those ends as it started.
-/
import proofs.«114887_j65481071405707_2_alg».proof.Proof.RefOps
import proofs.«114887_j65481071405707_2_alg».proof.Proof.RefReadP

namespace Cert.BatchNet.Ref

open Cert.ReferenceIdeal Cert.ReferenceIdeal.Gen Cert.ReferenceIdeal.ReadP Cert.ReferenceIdeal.ValueP Idealize.ShloMosaic
  Idealize.ShloMosaic.TcCoe Idealize.SL.Sem Idealize.ShloMosaic.StableHlo

set_option maxRecDepth 8192 in
set_option maxHeartbeats 4000000 in
/-- The result buffer after the whole line is the last stage of the argument buffers' starting contents. -/
theorem fold_result (V : Valuation τ sig (Elt Ideal)) :
    after (ops (F := Ideal)) V (Proc.devRef .tc main_v169)
      = val_main_v169 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) := by
  after_results_simp
  rfl

set_option maxRecDepth 8192 in
set_option maxHeartbeats 4000000 in
/-- Argument 0 is written by no operation. -/
theorem fold_arg0 (V : Valuation τ sig (Elt Ideal)) :
    after (ops (F := Ideal)) V (Proc.devRef .tc main_arg0) = V (Proc.devRef .tc main_arg0) := by
  after_results_simp <;> rfl

set_option maxRecDepth 8192 in
set_option maxHeartbeats 4000000 in
/-- Argument 1 is written by no operation. -/
theorem fold_arg1 (V : Valuation τ sig (Elt Ideal)) :
    after (ops (F := Ideal)) V (Proc.devRef .tc main_arg1) = V (Proc.devRef .tc main_arg1) := by
  after_results_simp <;> rfl

set_option maxRecDepth 8192 in
set_option maxHeartbeats 4000000 in
/-- Argument 2 is written by no operation. -/
theorem fold_arg2 (V : Valuation τ sig (Elt Ideal)) :
    after (ops (F := Ideal)) V (Proc.devRef .tc main_arg2) = V (Proc.devRef .tc main_arg2) := by
  after_results_simp <;> rfl

set_option maxRecDepth 8192 in
set_option maxHeartbeats 4000000 in
/-- Argument 3 is written by no operation. -/
theorem fold_arg3 (V : Valuation τ sig (Elt Ideal)) :
    after (ops (F := Ideal)) V (Proc.devRef .tc main_arg3) = V (Proc.devRef .tc main_arg3) := by
  after_results_simp <;> rfl

set_option maxRecDepth 8192 in
set_option maxHeartbeats 4000000 in
/-- Argument 4 is written by no operation. -/
theorem fold_arg4 (V : Valuation τ sig (Elt Ideal)) :
    after (ops (F := Ideal)) V (Proc.devRef .tc main_arg4) = V (Proc.devRef .tc main_arg4) := by
  after_results_simp <;> rfl

set_option maxRecDepth 8192 in
set_option maxHeartbeats 4000000 in
/-- Argument 5 is written by no operation. -/
theorem fold_arg5 (V : Valuation τ sig (Elt Ideal)) :
    after (ops (F := Ideal)) V (Proc.devRef .tc main_arg5) = V (Proc.devRef .tc main_arg5) := by
  after_results_simp <;> rfl

set_option maxRecDepth 8192 in
set_option maxHeartbeats 4000000 in
/-- Argument 6 is written by no operation. -/
theorem fold_arg6 (V : Valuation τ sig (Elt Ideal)) :
    after (ops (F := Ideal)) V (Proc.devRef .tc main_arg6) = V (Proc.devRef .tc main_arg6) := by
  after_results_simp <;> rfl

set_option maxRecDepth 8192 in
set_option maxHeartbeats 4000000 in
/-- Argument 7 is written by no operation. -/
theorem fold_arg7 (V : Valuation τ sig (Elt Ideal)) :
    after (ops (F := Ideal)) V (Proc.devRef .tc main_arg7) = V (Proc.devRef .tc main_arg7) := by
  after_results_simp <;> rfl

set_option maxRecDepth 8192 in
set_option maxHeartbeats 4000000 in
/-- Argument 8 is written by no operation. -/
theorem fold_arg8 (V : Valuation τ sig (Elt Ideal)) :
    after (ops (F := Ideal)) V (Proc.devRef .tc main_arg8) = V (Proc.devRef .tc main_arg8) := by
  after_results_simp <;> rfl

set_option maxRecDepth 8192 in
set_option maxHeartbeats 4000000 in
/-- Argument 9 is written by no operation. -/
theorem fold_arg9 (V : Valuation τ sig (Elt Ideal)) :
    after (ops (F := Ideal)) V (Proc.devRef .tc main_arg9) = V (Proc.devRef .tc main_arg9) := by
  after_results_simp <;> rfl

set_option maxRecDepth 8192 in
set_option maxHeartbeats 4000000 in
/-- Argument 10 is written by no operation. -/
theorem fold_arg10 (V : Valuation τ sig (Elt Ideal)) :
    after (ops (F := Ideal)) V (Proc.devRef .tc main_arg10) = V (Proc.devRef .tc main_arg10) := by
  after_results_simp <;> rfl

set_option maxRecDepth 8192 in
set_option maxHeartbeats 4000000 in
/-- Argument 11 is written by no operation. -/
theorem fold_arg11 (V : Valuation τ sig (Elt Ideal)) :
    after (ops (F := Ideal)) V (Proc.devRef .tc main_arg11) = V (Proc.devRef .tc main_arg11) := by
  after_results_simp <;> rfl

set_option maxRecDepth 8192 in
set_option maxHeartbeats 4000000 in
/-- Argument 12 is written by no operation. -/
theorem fold_arg12 (V : Valuation τ sig (Elt Ideal)) :
    after (ops (F := Ideal)) V (Proc.devRef .tc main_arg12) = V (Proc.devRef .tc main_arg12) := by
  after_results_simp <;> rfl

set_option maxRecDepth 8192 in
set_option maxHeartbeats 4000000 in
/-- Argument 13 is written by no operation. -/
theorem fold_arg13 (V : Valuation τ sig (Elt Ideal)) :
    after (ops (F := Ideal)) V (Proc.devRef .tc main_arg13) = V (Proc.devRef .tc main_arg13) := by
  after_results_simp <;> rfl

set_option maxRecDepth 8192 in
set_option maxHeartbeats 4000000 in
/-- Argument 14 is written by no operation. -/
theorem fold_arg14 (V : Valuation τ sig (Elt Ideal)) :
    after (ops (F := Ideal)) V (Proc.devRef .tc main_arg14) = V (Proc.devRef .tc main_arg14) := by
  after_results_simp <;> rfl

set_option maxRecDepth 8192 in
set_option maxHeartbeats 4000000 in
/-- Argument 15 is written by no operation. -/
theorem fold_arg15 (V : Valuation τ sig (Elt Ideal)) :
    after (ops (F := Ideal)) V (Proc.devRef .tc main_arg15) = V (Proc.devRef .tc main_arg15) := by
  after_results_simp <;> rfl

set_option maxRecDepth 8192 in
set_option maxHeartbeats 4000000 in
/-- Argument 16 is written by no operation. -/
theorem fold_arg16 (V : Valuation τ sig (Elt Ideal)) :
    after (ops (F := Ideal)) V (Proc.devRef .tc main_arg16) = V (Proc.devRef .tc main_arg16) := by
  after_results_simp <;> rfl

set_option maxRecDepth 8192 in
set_option maxHeartbeats 4000000 in
/-- Argument 17 is written by no operation. -/
theorem fold_arg17 (V : Valuation τ sig (Elt Ideal)) :
    after (ops (F := Ideal)) V (Proc.devRef .tc main_arg17) = V (Proc.devRef .tc main_arg17) := by
  after_results_simp <;> rfl

set_option maxRecDepth 8192 in
set_option maxHeartbeats 4000000 in
/-- Argument 18 is written by no operation. -/
theorem fold_arg18 (V : Valuation τ sig (Elt Ideal)) :
    after (ops (F := Ideal)) V (Proc.devRef .tc main_arg18) = V (Proc.devRef .tc main_arg18) := by
  after_results_simp <;> rfl

set_option maxRecDepth 8192 in
set_option maxHeartbeats 4000000 in
/-- Argument 19 is written by no operation. -/
theorem fold_arg19 (V : Valuation τ sig (Elt Ideal)) :
    after (ops (F := Ideal)) V (Proc.devRef .tc main_arg19) = V (Proc.devRef .tc main_arg19) := by
  after_results_simp <;> rfl

set_option maxRecDepth 8192 in
set_option maxHeartbeats 4000000 in
/-- Argument 20 is written by no operation. -/
theorem fold_arg20 (V : Valuation τ sig (Elt Ideal)) :
    after (ops (F := Ideal)) V (Proc.devRef .tc main_arg20) = V (Proc.devRef .tc main_arg20) := by
  after_results_simp <;> rfl

set_option maxRecDepth 8192 in
set_option maxHeartbeats 4000000 in
/-- Argument 21 is written by no operation. -/
theorem fold_arg21 (V : Valuation τ sig (Elt Ideal)) :
    after (ops (F := Ideal)) V (Proc.devRef .tc main_arg21) = V (Proc.devRef .tc main_arg21) := by
  after_results_simp <;> rfl

set_option maxRecDepth 8192 in
set_option maxHeartbeats 4000000 in
/-- Argument 22 is written by no operation. -/
theorem fold_arg22 (V : Valuation τ sig (Elt Ideal)) :
    after (ops (F := Ideal)) V (Proc.devRef .tc main_arg22) = V (Proc.devRef .tc main_arg22) := by
  after_results_simp <;> rfl

end Cert.BatchNet.Ref
-- ==== Proof.RefNet.lean ====
/-
  The reference program computes the network of the specification, with the variance taken as the mean of the squared
  deviations.

  Each block's activations are the block function applied to the activations of the block before it (the five block
  modules), and the result is the logistic function of the last affine layer applied to the fifth block's activations (the
  last-layer module).  Chaining these six facts from the result back to the batch gives the program's last stage as
  `result varDev` of the argument arrays.  The program's run leaves in every buffer the fold of its operations over the
  starting contents; at the result buffer that fold is the last stage, and at an argument buffer it is what was there.
-/
import proofs.«114887_j65481071405707_2_alg».proof.Proof.RefOps
import proofs.«114887_j65481071405707_2_alg».proof.Proof.RefReadP
import proofs.«114887_j65481071405707_2_alg».proof.Proof.Spec
import proofs.«114887_j65481071405707_2_alg».proof.Proof.RefNetB1
import proofs.«114887_j65481071405707_2_alg».proof.Proof.RefNetB2
import proofs.«114887_j65481071405707_2_alg».proof.Proof.RefNetB3
import proofs.«114887_j65481071405707_2_alg».proof.Proof.RefNetB4
import proofs.«114887_j65481071405707_2_alg».proof.Proof.RefNetB5
import proofs.«114887_j65481071405707_2_alg».proof.Proof.RefNetOut
import proofs.«114887_j65481071405707_2_alg».proof.Proof.RefFold

namespace Cert.BatchNet.Ref

open Cert.ReferenceIdeal Cert.ReferenceIdeal.Gen Cert.ReferenceIdeal.ReadP Idealize.ShloMosaic Idealize.ShloMosaic.ValueIdx
  Idealize.ShloMosaic.TcCoe Idealize.SL.Sem Idealize.ShloMosaic.StableHlo

/-- The program's last stage, as an array, is the network's output for the argument arrays. -/
theorem result_eq (x0 : (⟨S2097152x8, .f32⟩ : BufTy).Contents (Elt Ideal)) (x1 : (⟨S16x8, .f32⟩ : BufTy).Contents (Elt Ideal)) (x2 : (⟨S16, .f32⟩ : BufTy).Contents (Elt Ideal)) (x3 : (⟨S16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S16, .f32⟩ : BufTy).Contents (Elt Ideal)) (x8 : (⟨S16, .f32⟩ : BufTy).Contents (Elt Ideal)) (x9 : (⟨S12x16, .f32⟩ : BufTy).Contents (Elt Ideal)) (x10 : (⟨S12, .f32⟩ : BufTy).Contents (Elt Ideal)) (x11 : (⟨S12, .f32⟩ : BufTy).Contents (Elt Ideal)) (x12 : (⟨S12, .f32⟩ : BufTy).Contents (Elt Ideal)) (x13 : (⟨S12x12, .f32⟩ : BufTy).Contents (Elt Ideal)) (x14 : (⟨S12, .f32⟩ : BufTy).Contents (Elt Ideal)) (x15 : (⟨S12, .f32⟩ : BufTy).Contents (Elt Ideal)) (x16 : (⟨S12, .f32⟩ : BufTy).Contents (Elt Ideal)) (x17 : (⟨S8x12, .f32⟩ : BufTy).Contents (Elt Ideal)) (x18 : (⟨S8, .f32⟩ : BufTy).Contents (Elt Ideal)) (x19 : (⟨S8, .f32⟩ : BufTy).Contents (Elt Ideal)) (x20 : (⟨S8, .f32⟩ : BufTy).Contents (Elt Ideal)) (x21 : (⟨S1x8, .f32⟩ : BufTy).Contents (Elt Ideal)) (x22 : (⟨S1, .f32⟩ : BufTy).Contents (Elt Ideal)) :
    val_main_v169 (F := Ideal) x0 x1 x2 x3 x4 x5 x6 x7 x8 x9 x10 x11 x12 x13 x14 x15 x16 x17 x18 x19 x20 x21 x22
      = result (@varDev) x0 (params x1 x2 x3 x4 x5 x6 x7 x8 x9 x10 x11 x12 x13 x14 x15 x16 x17 x18 x19 x20 x21 x22) := by
  funext i
  obtain ⟨r, z, rfl⟩ : ∃ (r : Fin 2097152) (z : Fin 1), i = ix2 r z := ⟨i 0, i 1, eq_ix2 i⟩
  obtain rfl : z = 0 := Subsingleton.elim _ _
  rw [logit, rows_act5, rows_act4, rows_act3, rows_act2, rows_act1]
  rfl

set_option maxRecDepth 8192 in
set_option maxHeartbeats 4000000 in
/-- Every run of the reference program ends with the network's output in the result array and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v169)
        = result (@varDev) (m ((c.tc : Thread Cert.ReferenceIdeal.nD Cert.ReferenceIdeal.τ).loc Cert.ReferenceIdeal.main_arg0))
            (params (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
              (m ((c.tc : Thread Cert.ReferenceIdeal.nD Cert.ReferenceIdeal.τ).loc Cert.ReferenceIdeal.main_arg5))
              (m ((c.tc : Thread Cert.ReferenceIdeal.nD Cert.ReferenceIdeal.τ).loc Cert.ReferenceIdeal.main_arg6))
              (m ((c.tc : Thread Cert.ReferenceIdeal.nD Cert.ReferenceIdeal.τ).loc Cert.ReferenceIdeal.main_arg7))
              (m ((c.tc : Thread Cert.ReferenceIdeal.nD Cert.ReferenceIdeal.τ).loc Cert.ReferenceIdeal.main_arg8))
              (m ((c.tc : Thread Cert.ReferenceIdeal.nD Cert.ReferenceIdeal.τ).loc Cert.ReferenceIdeal.main_arg9))
              (m ((c.tc : Thread Cert.ReferenceIdeal.nD Cert.ReferenceIdeal.τ).loc Cert.ReferenceIdeal.main_arg10))
              (m ((c.tc : Thread Cert.ReferenceIdeal.nD Cert.ReferenceIdeal.τ).loc Cert.ReferenceIdeal.main_arg11))
              (m ((c.tc : Thread Cert.ReferenceIdeal.nD Cert.ReferenceIdeal.τ).loc Cert.ReferenceIdeal.main_arg12))
              (m ((c.tc : Thread Cert.ReferenceIdeal.nD Cert.ReferenceIdeal.τ).loc Cert.ReferenceIdeal.main_arg13))
              (m ((c.tc : Thread Cert.ReferenceIdeal.nD Cert.ReferenceIdeal.τ).loc Cert.ReferenceIdeal.main_arg14))
              (m ((c.tc : Thread Cert.ReferenceIdeal.nD Cert.ReferenceIdeal.τ).loc Cert.ReferenceIdeal.main_arg15))
              (m ((c.tc : Thread Cert.ReferenceIdeal.nD Cert.ReferenceIdeal.τ).loc Cert.ReferenceIdeal.main_arg16))
              (m ((c.tc : Thread Cert.ReferenceIdeal.nD Cert.ReferenceIdeal.τ).loc Cert.ReferenceIdeal.main_arg17))
              (m ((c.tc : Thread Cert.ReferenceIdeal.nD Cert.ReferenceIdeal.τ).loc Cert.ReferenceIdeal.main_arg18))
              (m ((c.tc : Thread Cert.ReferenceIdeal.nD Cert.ReferenceIdeal.τ).loc Cert.ReferenceIdeal.main_arg19))
              (m ((c.tc : Thread Cert.ReferenceIdeal.nD Cert.ReferenceIdeal.τ).loc Cert.ReferenceIdeal.main_arg20))
              (m ((c.tc : Thread Cert.ReferenceIdeal.nD Cert.ReferenceIdeal.τ).loc Cert.ReferenceIdeal.main_arg21))
              (m ((c.tc : Thread Cert.ReferenceIdeal.nD Cert.ReferenceIdeal.τ).loc Cert.ReferenceIdeal.main_arg22)))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)) :=
  (θ_run _ _ _).mono (fun _ h c => ⟨(h c main_v169).trans ((fold_result (launchContents m c)).trans (result_eq _ _ _ _ _ _ _ _ _ _ _ _ _ _ _ _ _ _ _ _ _ _ _)),
      (h c main_arg0).trans (fold_arg0 (launchContents m c)),
      (h c main_arg1).trans (fold_arg1 (launchContents m c)),
      (h c main_arg2).trans (fold_arg2 (launchContents m c)),
      (h c main_arg3).trans (fold_arg3 (launchContents m c)),
      (h c main_arg4).trans (fold_arg4 (launchContents m c)),
      (h c main_arg5).trans (fold_arg5 (launchContents m c)),
      (h c main_arg6).trans (fold_arg6 (launchContents m c)),
      (h c main_arg7).trans (fold_arg7 (launchContents m c)),
      (h c main_arg8).trans (fold_arg8 (launchContents m c)),
      (h c main_arg9).trans (fold_arg9 (launchContents m c)),
      (h c main_arg10).trans (fold_arg10 (launchContents m c)),
      (h c main_arg11).trans (fold_arg11 (launchContents m c)),
      (h c main_arg12).trans (fold_arg12 (launchContents m c)),
      (h c main_arg13).trans (fold_arg13 (launchContents m c)),
      (h c main_arg14).trans (fold_arg14 (launchContents m c)),
      (h c main_arg15).trans (fold_arg15 (launchContents m c)),
      (h c main_arg16).trans (fold_arg16 (launchContents m c)),
      (h c main_arg17).trans (fold_arg17 (launchContents m c)),
      (h c main_arg18).trans (fold_arg18 (launchContents m c)),
      (h c main_arg19).trans (fold_arg19 (launchContents m c)),
      (h c main_arg20).trans (fold_arg20 (launchContents m c)),
      (h c main_arg21).trans (fold_arg21 (launchContents m c)),
      (h c main_arg22).trans (fold_arg22 (launchContents m c))⟩)
    (run_seq Cert.ReferenceIdeal.ValueP.scopedRefs_eq Cert.ReferenceIdeal.ValueP.scopedSems_eq (Cert.ReferenceIdeal.defs (F := Ideal))
      (Cert.ReferenceIdeal.main (F := Ideal)) (fun _ => Cert.ReferenceIdeal.ValueP.ops) Cert.ReferenceIdeal.ValueP.main_eq
      (fun _ => Cert.ReferenceIdeal.ValueP.ops_sub) m ρ)

end Cert.BatchNet.Ref
-- ==== Proof.FiniteArgs.lean ====
/-
  The precondition, read back: every entry of every argument array is a real number.

  The precondition tests each of the 23 argument arrays x by "all entries satisfy |x| < +∞" and takes the conjunction of the
  23 answers.  On the extended reals |x| is max x (−x), which is below +∞ exactly when x is neither infinity, that is, when
  x is a real number.  So from the conjunction being true each conjunct is true; from a conjunct — a reduction by "and"
  over all axes of the array of elementwise answers — every elementwise answer is true; and from an elementwise answer the
  entry is real.  The first step is stated once, for an array of any shape.
-/
import proofs.«114887_j65481071405707_2_alg».proof.Defs
import proofs.«114887_j65481071405707_2_alg».proof.Proof.LibFinite
import Idealize.ShloMosaic.Lib.ReduceAll
import Idealize.ShloMosaic.Lib.ValueIdx

noncomputable section

namespace Cert.BatchNet.Pre

open Idealize.ShloMosaic Idealize.SL.Sem
open Cert.Pre_finite_inputs
open Cert.Finite

/-- The result of a reduction over all axes has one index. -/
instance : Subsingleton S_.Idx := ⟨fun a b => funext fun d => d.elim0⟩

/-- The pattern of +∞ denotes +∞. -/
theorem ofBits_inf : Ideal.ofBits .f32 0x7F800000#32 = (⊤ : EReal) := by simp [Ideal.ofBits, Ideal.ieee]

/-- One conjunct of the precondition, for an array of any shape: if the reduction by "and", over all axes, of the
    elementwise test |x| < +∞ is true, then every entry of x is a real number. -/
theorem isReal_of_all {s : Shape} {axes : List (Fin s.rank)} (x : FVec Ideal s .f32)
    (hb : S_.BroadcastsInDim s (![] : Fin 0 → Fin s.rank)) (hr : s.ReducesTo axes S_) (hu : 0 < S_.numel)
    (j : S_.Idx)
    (e : Host.reduce IntOp.andi
          (cmpf .olt (Host.absf x) (broadcastInDim s ![] hb (constant (F := Ideal) S_ .f32 0x7F800000#32)))
          (constantI S_ 1 1#1) hr hu j = 1#1) :
    IsReal x := fun i =>
  isRealVal_of_cmpf_abs (φ := .f32) (x i) (Ideal.ofBits .f32 0x7F800000#32) ofBits_inf
    (Host.reduce_andi_all _ _ hr hu j e i)

/-- A conjunction of two one-bit answers that is true has both true. -/
theorem andi_split {a b : IVec S_ 1} {j : S_.Idx} (h : andi a b j = 1#1) : a j = 1#1 ∧ b j = 1#1 :=
  IntOp.andi_eq_one.1 h

variable [Facts]

/-- THE PRECONDITION DECODED: if the finiteness test of the 23 argument arrays answers true, every entry of each of
    them is a real number. -/
theorem args_isReal (a0 : FVec Ideal S2097152x8 .f32) (a1 : FVec Ideal S16x8 .f32) (a2 : FVec Ideal S16 .f32) (a3 : FVec Ideal S16 .f32) (a4 : FVec Ideal S16 .f32) (a5 : FVec Ideal S16x16 .f32) (a6 : FVec Ideal S16 .f32) (a7 : FVec Ideal S16 .f32) (a8 : FVec Ideal S16 .f32) (a9 : FVec Ideal S12x16 .f32) (a10 : FVec Ideal S12 .f32) (a11 : FVec Ideal S12 .f32) (a12 : FVec Ideal S12 .f32) (a13 : FVec Ideal S12x12 .f32) (a14 : FVec Ideal S12 .f32) (a15 : FVec Ideal S12 .f32) (a16 : FVec Ideal S12 .f32) (a17 : FVec Ideal S8x12 .f32) (a18 : FVec Ideal S8 .f32) (a19 : FVec Ideal S8 .f32) (a20 : FVec Ideal S8 .f32) (a21 : FVec Ideal S1x8 .f32) (a22 : FVec Ideal S1 .f32)
    (h : Cert.Pre_finite_inputs.fn (F := Ideal) a0 a1 a2 a3 a4 a5 a6 a7 a8 a9 a10 a11 a12 a13 a14 a15 a16 a17 a18 a19 a20 a21 a22 = (fun _ => 1#1)) :
    IsReal a0 ∧ IsReal a1 ∧ IsReal a2 ∧ IsReal a3 ∧ IsReal a4 ∧ IsReal a5 ∧ IsReal a6 ∧ IsReal a7 ∧ IsReal a8 ∧ IsReal a9 ∧ IsReal a10 ∧ IsReal a11 ∧ IsReal a12 ∧ IsReal a13 ∧ IsReal a14 ∧ IsReal a15 ∧ IsReal a16 ∧ IsReal a17 ∧ IsReal a18 ∧ IsReal a19 ∧ IsReal a20 ∧ IsReal a21 ∧ IsReal a22 := by
  have e := congrFun h ValueIdx.ix0
  dsimp only [fn, fn_part1, fn_part2, fn_part3, fn_part4, fn_part5, fn_part6] at e
  obtain ⟨e, h22⟩ := andi_split e
  obtain ⟨e, h21⟩ := andi_split e
  obtain ⟨e, h20⟩ := andi_split e
  obtain ⟨e, h19⟩ := andi_split e
  obtain ⟨e, h18⟩ := andi_split e
  obtain ⟨e, h17⟩ := andi_split e
  obtain ⟨e, h16⟩ := andi_split e
  obtain ⟨e, h15⟩ := andi_split e
  obtain ⟨e, h14⟩ := andi_split e
  obtain ⟨e, h13⟩ := andi_split e
  obtain ⟨e, h12⟩ := andi_split e
  obtain ⟨e, h11⟩ := andi_split e
  obtain ⟨e, h10⟩ := andi_split e
  obtain ⟨e, h9⟩ := andi_split e
  obtain ⟨e, h8⟩ := andi_split e
  obtain ⟨e, h7⟩ := andi_split e
  obtain ⟨e, h6⟩ := andi_split e
  obtain ⟨e, h5⟩ := andi_split e
  obtain ⟨e, h4⟩ := andi_split e
  obtain ⟨e, h3⟩ := andi_split e
  obtain ⟨e, h2⟩ := andi_split e
  obtain ⟨e, h1⟩ := andi_split e
  exact ⟨isReal_of_all a0 _ _ _ _ e,
    isReal_of_all a1 _ _ _ _ h1,
    isReal_of_all a2 _ _ _ _ h2,
    isReal_of_all a3 _ _ _ _ h3,
    isReal_of_all a4 _ _ _ _ h4,
    isReal_of_all a5 _ _ _ _ h5,
    isReal_of_all a6 _ _ _ _ h6,
    isReal_of_all a7 _ _ _ _ h7,
    isReal_of_all a8 _ _ _ _ h8,
    isReal_of_all a9 _ _ _ _ h9,
    isReal_of_all a10 _ _ _ _ h10,
    isReal_of_all a11 _ _ _ _ h11,
    isReal_of_all a12 _ _ _ _ h12,
    isReal_of_all a13 _ _ _ _ h13,
    isReal_of_all a14 _ _ _ _ h14,
    isReal_of_all a15 _ _ _ _ h15,
    isReal_of_all a16 _ _ _ _ h16,
    isReal_of_all a17 _ _ _ _ h17,
    isReal_of_all a18 _ _ _ _ h18,
    isReal_of_all a19 _ _ _ _ h19,
    isReal_of_all a20 _ _ _ _ h20,
    isReal_of_all a21 _ _ _ _ h21,
    isReal_of_all a22 _ _ _ _ h22⟩

/-- The same of the 23 argument arrays a launch memory of the transposed-layout program holds, on every device, when that memory satisfies the precondition. -/
theorem kernel_args_isReal (m : (ℓ : Loc Cert.KernelIdeal.nD Cert.KernelIdeal.τ Cert.KernelIdeal.sig) → Buf (Elt Ideal) ℓ)
    (h : Cert.Pre_KernelIdeal m) (c : Dev Cert.KernelIdeal.nD) :
    IsReal (m ((c.tc : Thread Cert.KernelIdeal.nD Cert.KernelIdeal.τ).loc Cert.KernelIdeal.main_arg0) : FVec Ideal S2097152x8 .f32)
    ∧ IsReal (m ((c.tc : Thread Cert.KernelIdeal.nD Cert.KernelIdeal.τ).loc Cert.KernelIdeal.main_arg1) : FVec Ideal S16x8 .f32)
    ∧ IsReal (m ((c.tc : Thread Cert.KernelIdeal.nD Cert.KernelIdeal.τ).loc Cert.KernelIdeal.main_arg2) : FVec Ideal S16 .f32)
    ∧ IsReal (m ((c.tc : Thread Cert.KernelIdeal.nD Cert.KernelIdeal.τ).loc Cert.KernelIdeal.main_arg3) : FVec Ideal S16 .f32)
    ∧ IsReal (m ((c.tc : Thread Cert.KernelIdeal.nD Cert.KernelIdeal.τ).loc Cert.KernelIdeal.main_arg4) : FVec Ideal S16 .f32)
    ∧ IsReal (m ((c.tc : Thread Cert.KernelIdeal.nD Cert.KernelIdeal.τ).loc Cert.KernelIdeal.main_arg5) : FVec Ideal S16x16 .f32)
    ∧ IsReal (m ((c.tc : Thread Cert.KernelIdeal.nD Cert.KernelIdeal.τ).loc Cert.KernelIdeal.main_arg6) : FVec Ideal S16 .f32)
    ∧ IsReal (m ((c.tc : Thread Cert.KernelIdeal.nD Cert.KernelIdeal.τ).loc Cert.KernelIdeal.main_arg7) : FVec Ideal S16 .f32)
    ∧ IsReal (m ((c.tc : Thread Cert.KernelIdeal.nD Cert.KernelIdeal.τ).loc Cert.KernelIdeal.main_arg8) : FVec Ideal S16 .f32)
    ∧ IsReal (m ((c.tc : Thread Cert.KernelIdeal.nD Cert.KernelIdeal.τ).loc Cert.KernelIdeal.main_arg9) : FVec Ideal S12x16 .f32)
    ∧ IsReal (m ((c.tc : Thread Cert.KernelIdeal.nD Cert.KernelIdeal.τ).loc Cert.KernelIdeal.main_arg10) : FVec Ideal S12 .f32)
    ∧ IsReal (m ((c.tc : Thread Cert.KernelIdeal.nD Cert.KernelIdeal.τ).loc Cert.KernelIdeal.main_arg11) : FVec Ideal S12 .f32)
    ∧ IsReal (m ((c.tc : Thread Cert.KernelIdeal.nD Cert.KernelIdeal.τ).loc Cert.KernelIdeal.main_arg12) : FVec Ideal S12 .f32)
    ∧ IsReal (m ((c.tc : Thread Cert.KernelIdeal.nD Cert.KernelIdeal.τ).loc Cert.KernelIdeal.main_arg13) : FVec Ideal S12x12 .f32)
    ∧ IsReal (m ((c.tc : Thread Cert.KernelIdeal.nD Cert.KernelIdeal.τ).loc Cert.KernelIdeal.main_arg14) : FVec Ideal S12 .f32)
    ∧ IsReal (m ((c.tc : Thread Cert.KernelIdeal.nD Cert.KernelIdeal.τ).loc Cert.KernelIdeal.main_arg15) : FVec Ideal S12 .f32)
    ∧ IsReal (m ((c.tc : Thread Cert.KernelIdeal.nD Cert.KernelIdeal.τ).loc Cert.KernelIdeal.main_arg16) : FVec Ideal S12 .f32)
    ∧ IsReal (m ((c.tc : Thread Cert.KernelIdeal.nD Cert.KernelIdeal.τ).loc Cert.KernelIdeal.main_arg17) : FVec Ideal S8x12 .f32)
    ∧ IsReal (m ((c.tc : Thread Cert.KernelIdeal.nD Cert.KernelIdeal.τ).loc Cert.KernelIdeal.main_arg18) : FVec Ideal S8 .f32)
    ∧ IsReal (m ((c.tc : Thread Cert.KernelIdeal.nD Cert.KernelIdeal.τ).loc Cert.KernelIdeal.main_arg19) : FVec Ideal S8 .f32)
    ∧ IsReal (m ((c.tc : Thread Cert.KernelIdeal.nD Cert.KernelIdeal.τ).loc Cert.KernelIdeal.main_arg20) : FVec Ideal S8 .f32)
    ∧ IsReal (m ((c.tc : Thread Cert.KernelIdeal.nD Cert.KernelIdeal.τ).loc Cert.KernelIdeal.main_arg21) : FVec Ideal S1x8 .f32)
    ∧ IsReal (m ((c.tc : Thread Cert.KernelIdeal.nD Cert.KernelIdeal.τ).loc Cert.KernelIdeal.main_arg22) : FVec Ideal S1 .f32) :=
  args_isReal _ _ _ _ _ _ _ _ _ _ _ _ _ _ _ _ _ _ _ _ _ _ _ (h c)

/-- The same of the 23 argument arrays a launch memory of the row-layout program holds, on every device, when that memory satisfies the precondition. -/
theorem reference_args_isReal (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    IsReal (m ((c.tc : Thread Cert.ReferenceIdeal.nD Cert.ReferenceIdeal.τ).loc Cert.ReferenceIdeal.main_arg0) : FVec Ideal S2097152x8 .f32)
    ∧ IsReal (m ((c.tc : Thread Cert.ReferenceIdeal.nD Cert.ReferenceIdeal.τ).loc Cert.ReferenceIdeal.main_arg1) : FVec Ideal S16x8 .f32)
    ∧ IsReal (m ((c.tc : Thread Cert.ReferenceIdeal.nD Cert.ReferenceIdeal.τ).loc Cert.ReferenceIdeal.main_arg2) : FVec Ideal S16 .f32)
    ∧ IsReal (m ((c.tc : Thread Cert.ReferenceIdeal.nD Cert.ReferenceIdeal.τ).loc Cert.ReferenceIdeal.main_arg3) : FVec Ideal S16 .f32)
    ∧ IsReal (m ((c.tc : Thread Cert.ReferenceIdeal.nD Cert.ReferenceIdeal.τ).loc Cert.ReferenceIdeal.main_arg4) : FVec Ideal S16 .f32)
    ∧ IsReal (m ((c.tc : Thread Cert.ReferenceIdeal.nD Cert.ReferenceIdeal.τ).loc Cert.ReferenceIdeal.main_arg5) : FVec Ideal S16x16 .f32)
    ∧ IsReal (m ((c.tc : Thread Cert.ReferenceIdeal.nD Cert.ReferenceIdeal.τ).loc Cert.ReferenceIdeal.main_arg6) : FVec Ideal S16 .f32)
    ∧ IsReal (m ((c.tc : Thread Cert.ReferenceIdeal.nD Cert.ReferenceIdeal.τ).loc Cert.ReferenceIdeal.main_arg7) : FVec Ideal S16 .f32)
    ∧ IsReal (m ((c.tc : Thread Cert.ReferenceIdeal.nD Cert.ReferenceIdeal.τ).loc Cert.ReferenceIdeal.main_arg8) : FVec Ideal S16 .f32)
    ∧ IsReal (m ((c.tc : Thread Cert.ReferenceIdeal.nD Cert.ReferenceIdeal.τ).loc Cert.ReferenceIdeal.main_arg9) : FVec Ideal S12x16 .f32)
    ∧ IsReal (m ((c.tc : Thread Cert.ReferenceIdeal.nD Cert.ReferenceIdeal.τ).loc Cert.ReferenceIdeal.main_arg10) : FVec Ideal S12 .f32)
    ∧ IsReal (m ((c.tc : Thread Cert.ReferenceIdeal.nD Cert.ReferenceIdeal.τ).loc Cert.ReferenceIdeal.main_arg11) : FVec Ideal S12 .f32)
    ∧ IsReal (m ((c.tc : Thread Cert.ReferenceIdeal.nD Cert.ReferenceIdeal.τ).loc Cert.ReferenceIdeal.main_arg12) : FVec Ideal S12 .f32)
    ∧ IsReal (m ((c.tc : Thread Cert.ReferenceIdeal.nD Cert.ReferenceIdeal.τ).loc Cert.ReferenceIdeal.main_arg13) : FVec Ideal S12x12 .f32)
    ∧ IsReal (m ((c.tc : Thread Cert.ReferenceIdeal.nD Cert.ReferenceIdeal.τ).loc Cert.ReferenceIdeal.main_arg14) : FVec Ideal S12 .f32)
    ∧ IsReal (m ((c.tc : Thread Cert.ReferenceIdeal.nD Cert.ReferenceIdeal.τ).loc Cert.ReferenceIdeal.main_arg15) : FVec Ideal S12 .f32)
    ∧ IsReal (m ((c.tc : Thread Cert.ReferenceIdeal.nD Cert.ReferenceIdeal.τ).loc Cert.ReferenceIdeal.main_arg16) : FVec Ideal S12 .f32)
    ∧ IsReal (m ((c.tc : Thread Cert.ReferenceIdeal.nD Cert.ReferenceIdeal.τ).loc Cert.ReferenceIdeal.main_arg17) : FVec Ideal S8x12 .f32)
    ∧ IsReal (m ((c.tc : Thread Cert.ReferenceIdeal.nD Cert.ReferenceIdeal.τ).loc Cert.ReferenceIdeal.main_arg18) : FVec Ideal S8 .f32)
    ∧ IsReal (m ((c.tc : Thread Cert.ReferenceIdeal.nD Cert.ReferenceIdeal.τ).loc Cert.ReferenceIdeal.main_arg19) : FVec Ideal S8 .f32)
    ∧ IsReal (m ((c.tc : Thread Cert.ReferenceIdeal.nD Cert.ReferenceIdeal.τ).loc Cert.ReferenceIdeal.main_arg20) : FVec Ideal S8 .f32)
    ∧ IsReal (m ((c.tc : Thread Cert.ReferenceIdeal.nD Cert.ReferenceIdeal.τ).loc Cert.ReferenceIdeal.main_arg21) : FVec Ideal S1x8 .f32)
    ∧ IsReal (m ((c.tc : Thread Cert.ReferenceIdeal.nD Cert.ReferenceIdeal.τ).loc Cert.ReferenceIdeal.main_arg22) : FVec Ideal S1 .f32) :=
  args_isReal _ _ _ _ _ _ _ _ _ _ _ _ _ _ _ _ _ _ _ _ _ _ _ (h c)

end Cert.BatchNet.Pre

end
-- ==== Proof.lean ====
/-
  The certificate of the batch-normalised network.

  Both idealized programs compute, for every row of the batch, the network of Proof/Spec.lean: five blocks
  (affine layer, batch normalisation, max with zero; two of them with a skip connection), a last affine layer and
  the logistic function.  The kernel (six regions: the batch feature-major, 32 tiles of 65,536 columns, the batch
  statistics accumulated in two halves and finished by host operations) takes the variance of a feature as the
  mean of its squares minus its squared mean, clamped at zero; the reference takes the mean of the squared
  deviations.  On finite inputs every intermediate value is a real number, and on real data the two variances
  agree — which is the only place the precondition is used.
-/
import proofs.«114887_j65481071405707_2_alg».proof.Defs
import proofs.«114887_j65481071405707_2_alg».proof.Proof.Gen.Kernel
import proofs.«114887_j65481071405707_2_alg».proof.Proof.Gen.Kernel.Frame
import proofs.«114887_j65481071405707_2_alg».proof.Proof.Gen.KernelIdeal
import proofs.«114887_j65481071405707_2_alg».proof.Proof.Gen.KernelIdeal.Frame
import proofs.«114887_j65481071405707_2_alg».proof.Proof.Gen.ReferenceIdeal
import proofs.«114887_j65481071405707_2_alg».proof.Proof.Gen.Pre_finite_inputs
import proofs.«114887_j65481071405707_2_alg».proof.Proof.KernelNet
import proofs.«114887_j65481071405707_2_alg».proof.Proof.RefNet
import proofs.«114887_j65481071405707_2_alg».proof.Proof.NetLaw
import proofs.«114887_j65481071405707_2_alg».proof.Proof.FiniteArgs
import Idealize.ShloMosaic.Adequacy
import Idealize.ShloMosaic.Init

set_option maxRecDepth 16384

noncomputable section

namespace Cert.Proof

open Idealize.ShloMosaic Idealize.SL.Sem

instance : Cert.Pre_finite_inputs.Facts := Cert.Pre_finite_inputs.Gen.facts
instance : Cert.Kernel.Facts := Cert.Kernel.Gen.facts
instance : Cert.KernelIdeal.Facts := Cert.KernelIdeal.Gen.facts
instance : Cert.ReferenceIdeal.Facts := Cert.ReferenceIdeal.Gen.facts

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run (Cert.ReferenceIdeal.defs (F := Ideal)) _ _).mono (fun _ h c => (h c).2) (Cert.BatchNet.Ref.run m ρ)

/-- On arguments that agree and are finite the two runs end at the same result: the kernel's network with the
    clamped variance, the reference's with the variance of deviations, one function on real data. -/
theorem algebraic : Cert.algebraic_KernelIdeal_ReferenceIdeal := by
  intro m ρ m' ρ' hpre hagree
  refine ⟨fun c => Cert.BatchNet.result (@Cert.BatchNet.varSq) (m ((c.tc : Thread Cert.KernelIdeal.nD Cert.KernelIdeal.τ).loc Cert.KernelIdeal.main_arg0))
      (Cert.BatchNet.params (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))),
    Cert.KernelIdeal.Net.run m ρ, ?_⟩
  refine (θ_run (Cert.ReferenceIdeal.defs (F := Ideal)) _ _).mono (fun r h c => ⟨(h c).1.trans ?_, (h c).2⟩)
    (Cert.BatchNet.Ref.run m' ρ')
  obtain ⟨a0, a1, a2, a3, a4, a5, a6, a7, a8, a9, a10, a11, a12, a13, a14, a15, a16, a17, a18, a19, a20, a21, a22⟩ := hagree c
  obtain ⟨r0, r1, r2, r3, r4, r5, r6, r7, r8, r9, r10, r11, r12, r13, r14, r15, r16, r17, r18, r19, r20, r21, r22⟩ := Cert.BatchNet.Pre.kernel_args_isReal m hpre c
  rw [a0, a1, a2, a3, a4, a5, a6, a7, a8, a9, a10, a11, a12, a13, a14, a15, a16, a17, a18, a19, a20, a21, a22]
  exact (Cert.BatchNet.result_varSq_eq_varDev _ _ r0
    (Cert.BatchNet.params_isReal _ _ _ _ _ _ _ _ _ _ _ _ _ _ _ _ _ _ _ _ _ _ r1 r2 r3 r4 r5 r6 r7 r8 r9 r10 r11 r12 r13 r14 r15 r16 r17 r18 r19 r20 r21 r22)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
